-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S65536x64 : Shape := ⟨2, ![65536, 64]⟩
abbrev S16x512x512 : Shape := ⟨3, ![16, 512, 512]⟩
abbrev S_ : Shape := ⟨0, ![]⟩

class Facts : Prop where
  bcast_S_S65536x64 : S_.BroadcastsInDim S65536x64 (![] : Fin 0 → Fin S65536x64.rank)
  reducesTo_S65536x64_S_d0_1 : S65536x64.ReducesTo [0, 1] S_
  h_S_ : 0 < S_.numel
  bcast_S_S16x512x512 : S_.BroadcastsInDim S16x512x512 (![] : Fin 0 → Fin S16x512x512.rank)
  reducesTo_S16x512x512_S_d0_1_2 : S16x512x512.ReducesTo [0, 1, 2] S_

variable [Facts]

def fn {F : FTy → Type} [FloatOps F] (main_arg0 : FVec F S65536x64 .f32) (main_arg1 : IVec S16x512x512 32) : IVec S_ 1 :=
  let main_v0 : FVec F S65536x64 .f32 := Host.absf main_arg0
  let main_cst : FVec F S_ .f32 := constant S_ .f32 0x7F800000#32
  let main_v1 : FVec F S65536x64 .f32 := broadcastInDim S65536x64 ![] bcast_S_S65536x64 main_cst
  let main_v2 : IVec S65536x64 1 := cmpf .olt main_v0 main_v1
  let main_c : IVec S_ 1 := constantI S_ 1 1#1
  let main_v3 : IVec S_ 1 := (fun x v => Host.reduce IntOp.andi x v reducesTo_S65536x64_S_d0_1 h_S_) main_v2 main_c
  let main_c_0 : IVec S_ 32 := constantI S_ 32 0#32
  let main_v4 : IVec S16x512x512 32 := broadcastInDim S16x512x512 ![] bcast_S_S16x512x512 main_c_0
  let main_v5 : IVec S16x512x512 1 := cmpi .sge main_arg1 main_v4
  let main_c_1 : IVec S_ 32 := constantI S_ 32 65535#32
  let main_v6 : IVec S16x512x512 32 := broadcastInDim S16x512x512 ![] bcast_S_S16x512x512 main_c_1
  let main_v7 : IVec S16x512x512 1 := cmpi .sle main_arg1 main_v6
  let main_v8 : IVec S16x512x512 1 := andi main_v5 main_v7
  let main_c_2 : IVec S_ 1 := constantI S_ 1 1#1
  let main_v9 : IVec S_ 1 := (fun x v => Host.reduce IntOp.andi x v reducesTo_S16x512x512_S_d0_1_2 h_S_) main_v8 main_c_2
  let main_v10 : IVec S_ 1 := andi main_v3 main_v9
  main_v10
-- ==== Kernel.lean ====
abbrev S65536x64 : Shape := ⟨2, ![65536, 64]⟩
abbrev S16x512x512 : Shape := ⟨3, ![16, 512, 512]⟩
abbrev S32x65536 : Shape := ⟨2, ![32, 65536]⟩
abbrev S65536 : Shape := ⟨1, ![65536]⟩
abbrev S32x512 : Shape := ⟨2, ![32, 512]⟩
abbrev S_ : Shape := ⟨0, ![]⟩
abbrev S16 : Shape := ⟨1, ![16]⟩
abbrev S1x32x512 : Shape := ⟨3, ![1, 32, 512]⟩
abbrev S1x16 : Shape := ⟨2, ![1, 16]⟩
abbrev S1x65536 : Shape := ⟨2, ![1, 65536]⟩
abbrev S64x65536 : Shape := ⟨2, ![64, 65536]⟩
abbrev S32x32768 : Shape := ⟨2, ![32, 32768]⟩
abbrev S64x32768 : Shape := ⟨2, ![64, 32768]⟩
abbrev S32768 : Shape := ⟨1, ![32768]⟩
abbrev S1x32768 : Shape := ⟨2, ![1, 32768]⟩

abbrev nBuf : Table → Nat
  | .hbm => 6
  | .local .tc .vmem => 6
  | .local .scVector .vmem => 3
  | _ => 0

abbrev bufTy : (tb : Table) → Fin (nBuf tb) → BufTy
  | .hbm, ⟨0, _⟩ => ⟨S65536x64, .f32⟩
  | .hbm, ⟨1, _⟩ => ⟨S16x512x512, .i32⟩
  | .hbm, ⟨2, _⟩ => ⟨S32x65536, .f32⟩
  | .hbm, ⟨3, _⟩ => ⟨S64x65536, .f32⟩
  | .hbm, ⟨4, _⟩ => ⟨S64x65536, .f32⟩
  | .hbm, ⟨5, _⟩ => ⟨S65536x64, .f32⟩
  | .local .tc .vmem, ⟨0, _⟩ => ⟨S32x32768, .f32⟩
  | .local .tc .vmem, ⟨1, _⟩ => ⟨S32x32768, .f32⟩
  | .local .tc .vmem, ⟨2, _⟩ => ⟨S64x32768, .f32⟩
  | .local .tc .vmem, ⟨3, _⟩ => ⟨S64x32768, .f32⟩
  | .local .tc .vmem, ⟨4, _⟩ => ⟨S64x32768, .f32⟩
  | .local .tc .vmem, ⟨5, _⟩ => ⟨S64x32768, .f32⟩
  | .local .scVector .vmem, ⟨0, _⟩ => ⟨S65536, .f32⟩
  | .local .scVector .vmem, ⟨1, _⟩ => ⟨S32x512, .i32⟩
  | .local .scVector .vmem, ⟨2, _⟩ => ⟨S32x512, .i32⟩
  | _, _ => ⟨S65536x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_arg1_scv : Ref sig .scVector := ⟨.hbm, 1, rfl⟩
abbrev main_v0_scv : Ref sig .scVector := ⟨.hbm, 2, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v5 : BitVec 1 := Scalar.cmpi .sgt v1 c0_i32
  let v6 : BitVec 32 := Scalar.extui v5
  let c0_i32_1 : BitVec 32 := 0#32
  let v7 : BitVec 1 := Scalar.cmpi .slt v1 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v1 c2_i32
  let c0_i32_4 : BitVec 32 := 0#32
  let v17 : BitVec 1 := Scalar.cmpi .ne v16 c0_i32_4
  let v18 : BitVec 1 := Scalar.andi v15 v17
  let v4 : BitVec 32 := Scalar.divsi v1 c2_i32
  let c1_i32 : BitVec 32 := 1#32
  let v19 : BitVec 32 := Scalar.subi v4 c1_i32
  let v20 : BitVec 32 := Scalar.select v18 v19 v4
  let c2_i32_5 : BitVec 32 := 2#32
  let c0_i32_6 : BitVec 32 := 0#32
  let v21 : BitVec 1 := Scalar.cmpi .eq c2_i32_5 c0_i32_6
  let c1_i32_7 : BitVec 32 := 1#32
  let v22 : BitVec 32 := Scalar.select v21 c1_i32_7 c2_i32_5
  let v23 : BitVec 32 := Scalar.remsi v1 v22
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let c0_i32_8 : BitVec 32 := 0#32
  let v24 : BitVec 1 := Scalar.cmpi .ne v23 c0_i32_8
  let v28 : BitVec 1 := Scalar.andi v27 v24
  let v29 : BitVec 32 := Scalar.addi v23 v22
  let v30 : BitVec 32 := Scalar.select v28 v29 v23
  let c256_i32 : BitVec 32 := 256#32
  let v31 : BitVec 32 := Scalar.muli v30 c256_i32
  let c0_i32_11 : BitVec 32 := 0#32
  let v32 : BitVec 32 := Scalar.addi v31 c0_i32_11
  let c0_i32_12 : BitVec 32 := 0#32
  ![v20.toNat, v32.toNat, 0]
@[reducible] def k0_t1_loop : Scf.Loop 32 :=
  let c0_i32_15 : BitVec 32 := 0#32
  let c64_i32 : BitVec 32 := 64#32
  let v37 : BitVec 32 := Scalar.addi c0_i32_15 c64_i32
  let c1_i32_16 : BitVec 32 := 1#32
  ⟨c0_i32_15, v37, c1_i32_16⟩
def k0_off2 (k0_t1 : Fin k0_t1_loop.trips) (c0_i32_26 : BitVec 32) : Fin 1 → Nat :=
  let c0_i32_15 : BitVec 32 := 0#32
  let c1_i32_16 : BitVec 32 := 1#32
  let arg9 : BitVec 32 := Scf.iv c0_i32_15 c1_i32_16 k0_t1
  let c64_i32_25 : BitVec 32 := 64#32
  let v46 : BitVec 32 := Scalar.muli arg9 c64_i32_25
  let v47 : BitVec 32 := Scalar.addi v46 c0_i32_26
  let c16_i32_27 : BitVec 32 := 16#32
  let v48 : BitVec 32 := Scalar.muli v47 c16_i32_27
  let v49 : Index := Scalar.indexCast v48
  ![v49.toNat]
@[reducible] def k0_t2_loop : Scf.Loop 32 :=
  let c0_i32_19 : BitVec 32 := 0#32
  let c4_i32 : BitVec 32 := 4#32
  let v39 : BitVec 32 := Scalar.addi c0_i32_19 c4_i32
  let c1_i32_20 : BitVec 32 := 1#32
  ⟨c0_i32_19, v39, c1_i32_20⟩
def k0_off3 (i : grid0.Coords) (k0_t2 : Fin k0_t2_loop.trips) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v5 : BitVec 1 := Scalar.cmpi .sgt v1 c0_i32
  let v6 : BitVec 32 := Scalar.extui v5
  let c0_i32_1 : BitVec 32 := 0#32
  let v7 : BitVec 1 := Scalar.cmpi .slt v1 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v1 c2_i32
  let c0_i32_4 : BitVec 32 := 0#32
  let v17 : BitVec 1 := Scalar.cmpi .ne v16 c0_i32_4
  let v18 : BitVec 1 := Scalar.andi v15 v17
  let v4 : BitVec 32 := Scalar.divsi v1 c2_i32
  let c1_i32 : BitVec 32 := 1#32
  let v19 : BitVec 32 := Scalar.subi v4 c1_i32
  let v20 : BitVec 32 := Scalar.select v18 v19 v4
  let c2_i32_5 : BitVec 32 := 2#32
  let c0_i32_6 : BitVec 32 := 0#32
  let v21 : BitVec 1 := Scalar.cmpi .eq c2_i32_5 c0_i32_6
  let c1_i32_7 : BitVec 32 := 1#32
  let v22 : BitVec 32 := Scalar.select v21 c1_i32_7 c2_i32_5
  let v23 : BitVec 32 := Scalar.remsi v1 v22
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let c0_i32_8 : BitVec 32 := 0#32
  let v24 : BitVec 1 := Scalar.cmpi .ne v23 c0_i32_8
  let v28 : BitVec 1 := Scalar.andi v27 v24
  let v29 : BitVec 32 := Scalar.addi v23 v22
  let v30 : BitVec 32 := Scalar.select v28 v29 v23
  let c256_i32 : BitVec 32 := 256#32
  let v31 : BitVec 32 := Scalar.muli v30 c256_i32
  let c0_i32_19 : BitVec 32 := 0#32
  let c1_i32_20 : BitVec 32 := 1#32
  let arg9 : BitVec 32 := Scf.iv c0_i32_19 c1_i32_20 k0_t2
  let c2_i32_25 : BitVec 32 := 2#32
  let v46 : BitVec 32 := Scalar.muli arg9 c2_i32_25
  let c1_i32_26 : BitVec 32 := 1#32
  let v47 : BitVec 32 := Scalar.addi v46 c1_i32_26
  let c32_i32 : BitVec 32 := 32#32
  let v48 : BitVec 32 := Scalar.muli v47 c32_i32
  let v49 : BitVec 32 := Scalar.addi v31 v48
  let c0_i32_27 : BitVec 32 := 0#32
  ![v20.toNat, v49.toNat, 0]
def k0_off4 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v5 : BitVec 1 := Scalar.cmpi .sgt v1 c0_i32
  let v6 : BitVec 32 := Scalar.extui v5
  let c0_i32_1 : BitVec 32 := 0#32
  let v7 : BitVec 1 := Scalar.cmpi .slt v1 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v1 c2_i32
  let c0_i32_4 : BitVec 32 := 0#32
  let v17 : BitVec 1 := Scalar.cmpi .ne v16 c0_i32_4
  let v18 : BitVec 1 := Scalar.andi v15 v17
  let v4 : BitVec 32 := Scalar.divsi v1 c2_i32
  let c1_i32 : BitVec 32 := 1#32
  let v19 : BitVec 32 := Scalar.subi v4 c1_i32
  let v20 : BitVec 32 := Scalar.select v18 v19 v4
  let c2_i32_5 : BitVec 32 := 2#32
  let c0_i32_6 : BitVec 32 := 0#32
  let v21 : BitVec 1 := Scalar.cmpi .eq c2_i32_5 c0_i32_6
  let c1_i32_7 : BitVec 32 := 1#32
  let v22 : BitVec 32 := Scalar.select v21 c1_i32_7 c2_i32_5
  let v23 : BitVec 32 := Scalar.remsi v1 v22
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let c0_i32_8 : BitVec 32 := 0#32
  let v24 : BitVec 1 := Scalar.cmpi .ne v23 c0_i32_8
  let v28 : BitVec 1 := Scalar.andi v27 v24
  let v29 : BitVec 32 := Scalar.addi v23 v22
  let v30 : BitVec 32 := Scalar.select v28 v29 v23
  let c256_i32 : BitVec 32 := 256#32
  let v31 : BitVec 32 := Scalar.muli v30 c256_i32
  let c0_i32_29 : BitVec 32 := 0#32
  let v54 : BitVec 32 := Scalar.addi v31 c0_i32_29
  let c0_i32_30 : BitVec 32 := 0#32
  ![v20.toNat, v54.toNat, 0]
@[reducible] def k0_t3_loop : Scf.Loop 32 :=
  let c0_i32_33 : BitVec 32 := 0#32
  let c32_i32_34 : BitVec 32 := 32#32
  let v59 : BitVec 32 := Scalar.addi c0_i32_33 c32_i32_34
  let c1_i32_35 : BitVec 32 := 1#32
  ⟨c0_i32_33, v59, c1_i32_35⟩
def k0_off5 (k0_t3 : Fin k0_t3_loop.trips) : Fin 2 → Nat :=
  let c0_i32_33 : BitVec 32 := 0#32
  let c1_i32_35 : BitVec 32 := 1#32
  let arg11 : BitVec 32 := Scf.iv c0_i32_33 c1_i32_35 k0_t3
  let v76 : Index := Scalar.indexCast arg11
  let c0 : Index := 0#32
  ![v76.toNat, 0]
def k0_off6 (k0_t3 : Fin k0_t3_loop.trips) : Fin 2 → Nat :=
  let c0_i32_33 : BitVec 32 := 0#32
  let c1_i32_35 : BitVec 32 := 1#32
  let arg11 : BitVec 32 := Scf.iv c0_i32_33 c1_i32_35 k0_t3
  let v78 : Index := Scalar.indexCast arg11
  let c16 : Index := 16#32
  ![v78.toNat, 16]
def k0_off7 (k0_t3 : Fin k0_t3_loop.trips) : Fin 2 → Nat :=
  let c0_i32_33 : BitVec 32 := 0#32
  let c1_i32_35 : BitVec 32 := 1#32
  let arg11 : BitVec 32 := Scf.iv c0_i32_33 c1_i32_35 k0_t3
  let v80 : Index := Scalar.indexCast arg11
  let c32 : Index := 32#32
  ![v80.toNat, 32]
def k0_off8 (k0_t3 : Fin k0_t3_loop.trips) : Fin 2 → Nat :=
  let c0_i32_33 : BitVec 32 := 0#32
  let c1_i32_35 : BitVec 32 := 1#32
  let arg11 : BitVec 32 := Scf.iv c0_i32_33 c1_i32_35 k0_t3
  let v82 : Index := Scalar.indexCast arg11
  let c48 : Index := 48#32
  ![v82.toNat, 48]
def k0_off9 (k0_t3 : Fin k0_t3_loop.trips) : Fin 2 → Nat :=
  let c0_i32_33 : BitVec 32 := 0#32
  let c1_i32_35 : BitVec 32 := 1#32
  let arg11 : BitVec 32 := Scf.iv c0_i32_33 c1_i32_35 k0_t3
  let v84 : Index := Scalar.indexCast arg11
  let c64 : Index := 64#32
  ![v84.toNat, 64]
def k0_off10 (k0_t3 : Fin k0_t3_loop.trips) : Fin 2 → Nat :=
  let c0_i32_33 : BitVec 32 := 0#32
  let c1_i32_35 : BitVec 32 := 1#32
  let arg11 : BitVec 32 := Scf.iv c0_i32_33 c1_i32_35 k0_t3
  let v86 : Index := Scalar.indexCast arg11
  let c80 : Index := 80#32
  ![v86.toNat, 80]
def k0_off11 (k0_t3 : Fin k0_t3_loop.trips) : Fin 2 → Nat :=
  let c0_i32_33 : BitVec 32 := 0#32
  let c1_i32_35 : BitVec 32 := 1#32
  let arg11 : BitVec 32 := Scf.iv c0_i32_33 c1_i32_35 k0_t3
  let v88 : Index := Scalar.indexCast arg11
  let c96 : Index := 96#32
  ![v88.toNat, 96]
def k0_off12 (k0_t3 : Fin k0_t3_loop.trips) : Fin 2 → Nat :=
  let c0_i32_33 : BitVec 32 := 0#32
  let c1_i32_35 : BitVec 32 := 1#32
  let arg11 : BitVec 32 := Scf.iv c0_i32_33 c1_i32_35 k0_t3
  let v90 : Index := Scalar.indexCast arg11
  let c112 : Index := 112#32
  ![v90.toNat, 112]
def k0_off13 (k0_t3 : Fin k0_t3_loop.trips) : Fin 2 → Nat :=
  let c0_i32_33 : BitVec 32 := 0#32
  let c1_i32_35 : BitVec 32 := 1#32
  let arg11 : BitVec 32 := Scf.iv c0_i32_33 c1_i32_35 k0_t3
  let v92 : Index := Scalar.indexCast arg11
  let c128 : Index := 128#32
  ![v92.toNat, 128]
def k0_off14 (k0_t3 : Fin k0_t3_loop.trips) : Fin 2 → Nat :=
  let c0_i32_33 : BitVec 32 := 0#32
  let c1_i32_35 : BitVec 32 := 1#32
  let arg11 : BitVec 32 := Scf.iv c0_i32_33 c1_i32_35 k0_t3
  let v94 : Index := Scalar.indexCast arg11
  let c144 : Index := 144#32
  ![v94.toNat, 144]
def k0_off15 (k0_t3 : Fin k0_t3_loop.trips) : Fin 2 → Nat :=
  let c0_i32_33 : BitVec 32 := 0#32
  let c1_i32_35 : BitVec 32 := 1#32
  let arg11 : BitVec 32 := Scf.iv c0_i32_33 c1_i32_35 k0_t3
  let v96 : Index := Scalar.indexCast arg11
  let c160 : Index := 160#32
  ![v96.toNat, 160]
def k0_off16 (k0_t3 : Fin k0_t3_loop.trips) : Fin 2 → Nat :=
  let c0_i32_33 : BitVec 32 := 0#32
  let c1_i32_35 : BitVec 32 := 1#32
  let arg11 : BitVec 32 := Scf.iv c0_i32_33 c1_i32_35 k0_t3
  let v98 : Index := Scalar.indexCast arg11
  let c176 : Index := 176#32
  ![v98.toNat, 176]
def k0_off17 (k0_t3 : Fin k0_t3_loop.trips) : Fin 2 → Nat :=
  let c0_i32_33 : BitVec 32 := 0#32
  let c1_i32_35 : BitVec 32 := 1#32
  let arg11 : BitVec 32 := Scf.iv c0_i32_33 c1_i32_35 k0_t3
  let v100 : Index := Scalar.indexCast arg11
  let c192 : Index := 192#32
  ![v100.toNat, 192]
def k0_off18 (k0_t3 : Fin k0_t3_loop.trips) : Fin 2 → Nat :=
  let c0_i32_33 : BitVec 32 := 0#32
  let c1_i32_35 : BitVec 32 := 1#32
  let arg11 : BitVec 32 := Scf.iv c0_i32_33 c1_i32_35 k0_t3
  let v102 : Index := Scalar.indexCast arg11
  let c208 : Index := 208#32
  ![v102.toNat, 208]
def k0_off19 (k0_t3 : Fin k0_t3_loop.trips) : Fin 2 → Nat :=
  let c0_i32_33 : BitVec 32 := 0#32
  let c1_i32_35 : BitVec 32 := 1#32
  let arg11 : BitVec 32 := Scf.iv c0_i32_33 c1_i32_35 k0_t3
  let v104 : Index := Scalar.indexCast arg11
  let c224 : Index := 224#32
  ![v104.toNat, 224]
def k0_off20 (k0_t3 : Fin k0_t3_loop.trips) : Fin 2 → Nat :=
  let c0_i32_33 : BitVec 32 := 0#32
  let c1_i32_35 : BitVec 32 := 1#32
  let arg11 : BitVec 32 := Scf.iv c0_i32_33 c1_i32_35 k0_t3
  let v106 : Index := Scalar.indexCast arg11
  let c240 : Index := 240#32
  ![v106.toNat, 240]
def k0_off21 (k0_t3 : Fin k0_t3_loop.trips) : Fin 2 → Nat :=
  let c0_i32_33 : BitVec 32 := 0#32
  let c1_i32_35 : BitVec 32 := 1#32
  let arg11 : BitVec 32 := Scf.iv c0_i32_33 c1_i32_35 k0_t3
  let v108 : Index := Scalar.indexCast arg11
  let c256 : Index := 256#32
  ![v108.toNat, 256]
def k0_off22 (k0_t3 : Fin k0_t3_loop.trips) : Fin 2 → Nat :=
  let c0_i32_33 : BitVec 32 := 0#32
  let c1_i32_35 : BitVec 32 := 1#32
  let arg11 : BitVec 32 := Scf.iv c0_i32_33 c1_i32_35 k0_t3
  let v110 : Index := Scalar.indexCast arg11
  let c272 : Index := 272#32
  ![v110.toNat, 272]
def k0_off23 (k0_t3 : Fin k0_t3_loop.trips) : Fin 2 → Nat :=
  let c0_i32_33 : BitVec 32 := 0#32
  let c1_i32_35 : BitVec 32 := 1#32
  let arg11 : BitVec 32 := Scf.iv c0_i32_33 c1_i32_35 k0_t3
  let v112 : Index := Scalar.indexCast arg11
  let c288 : Index := 288#32
  ![v112.toNat, 288]
def k0_off24 (k0_t3 : Fin k0_t3_loop.trips) : Fin 2 → Nat :=
  let c0_i32_33 : BitVec 32 := 0#32
  let c1_i32_35 : BitVec 32 := 1#32
  let arg11 : BitVec 32 := Scf.iv c0_i32_33 c1_i32_35 k0_t3
  let v114 : Index := Scalar.indexCast arg11
  let c304 : Index := 304#32
  ![v114.toNat, 304]
def k0_off25 (k0_t3 : Fin k0_t3_loop.trips) : Fin 2 → Nat :=
  let c0_i32_33 : BitVec 32 := 0#32
  let c1_i32_35 : BitVec 32 := 1#32
  let arg11 : BitVec 32 := Scf.iv c0_i32_33 c1_i32_35 k0_t3
  let v116 : Index := Scalar.indexCast arg11
  let c320 : Index := 320#32
  ![v116.toNat, 320]
def k0_off26 (k0_t3 : Fin k0_t3_loop.trips) : Fin 2 → Nat :=
  let c0_i32_33 : BitVec 32 := 0#32
  let c1_i32_35 : BitVec 32 := 1#32
  let arg11 : BitVec 32 := Scf.iv c0_i32_33 c1_i32_35 k0_t3
  let v118 : Index := Scalar.indexCast arg11
  let c336 : Index := 336#32
  ![v118.toNat, 336]
def k0_off27 (k0_t3 : Fin k0_t3_loop.trips) : Fin 2 → Nat :=
  let c0_i32_33 : BitVec 32 := 0#32
  let c1_i32_35 : BitVec 32 := 1#32
  let arg11 : BitVec 32 := Scf.iv c0_i32_33 c1_i32_35 k0_t3
  let v120 : Index := Scalar.indexCast arg11
  let c352 : Index := 352#32
  ![v120.toNat, 352]
def k0_off28 (k0_t3 : Fin k0_t3_loop.trips) : Fin 2 → Nat :=
  let c0_i32_33 : BitVec 32 := 0#32
  let c1_i32_35 : BitVec 32 := 1#32
  let arg11 : BitVec 32 := Scf.iv c0_i32_33 c1_i32_35 k0_t3
  let v122 : Index := Scalar.indexCast arg11
  let c368 : Index := 368#32
  ![v122.toNat, 368]
def k0_off29 (k0_t3 : Fin k0_t3_loop.trips) : Fin 2 → Nat :=
  let c0_i32_33 : BitVec 32 := 0#32
  let c1_i32_35 : BitVec 32 := 1#32
  let arg11 : BitVec 32 := Scf.iv c0_i32_33 c1_i32_35 k0_t3
  let v124 : Index := Scalar.indexCast arg11
  let c384 : Index := 384#32
  ![v124.toNat, 384]
def k0_off30 (k0_t3 : Fin k0_t3_loop.trips) : Fin 2 → Nat :=
  let c0_i32_33 : BitVec 32 := 0#32
  let c1_i32_35 : BitVec 32 := 1#32
  let arg11 : BitVec 32 := Scf.iv c0_i32_33 c1_i32_35 k0_t3
  let v126 : Index := Scalar.indexCast arg11
  let c400 : Index := 400#32
  ![v126.toNat, 400]
def k0_off31 (k0_t3 : Fin k0_t3_loop.trips) : Fin 2 → Nat :=
  let c0_i32_33 : BitVec 32 := 0#32
  let c1_i32_35 : BitVec 32 := 1#32
  let arg11 : BitVec 32 := Scf.iv c0_i32_33 c1_i32_35 k0_t3
  let v128 : Index := Scalar.indexCast arg11
  let c416 : Index := 416#32
  ![v128.toNat, 416]
def k0_off32 (k0_t3 : Fin k0_t3_loop.trips) : Fin 2 → Nat :=
  let c0_i32_33 : BitVec 32 := 0#32
  let c1_i32_35 : BitVec 32 := 1#32
  let arg11 : BitVec 32 := Scf.iv c0_i32_33 c1_i32_35 k0_t3
  let v130 : Index := Scalar.indexCast arg11
  let c432 : Index := 432#32
  ![v130.toNat, 432]
def k0_off33 (k0_t3 : Fin k0_t3_loop.trips) : Fin 2 → Nat :=
  let c0_i32_33 : BitVec 32 := 0#32
  let c1_i32_35 : BitVec 32 := 1#32
  let arg11 : BitVec 32 := Scf.iv c0_i32_33 c1_i32_35 k0_t3
  let v132 : Index := Scalar.indexCast arg11
  let c448 : Index := 448#32
  ![v132.toNat, 448]
def k0_off34 (k0_t3 : Fin k0_t3_loop.trips) : Fin 2 → Nat :=
  let c0_i32_33 : BitVec 32 := 0#32
  let c1_i32_35 : BitVec 32 := 1#32
  let arg11 : BitVec 32 := Scf.iv c0_i32_33 c1_i32_35 k0_t3
  let v134 : Index := Scalar.indexCast arg11
  let c464 : Index := 464#32
  ![v134.toNat, 464]
def k0_off35 (k0_t3 : Fin k0_t3_loop.trips) : Fin 2 → Nat :=
  let c0_i32_33 : BitVec 32 := 0#32
  let c1_i32_35 : BitVec 32 := 1#32
  let arg11 : BitVec 32 := Scf.iv c0_i32_33 c1_i32_35 k0_t3
  let v136 : Index := Scalar.indexCast arg11
  let c480 : Index := 480#32
  ![v136.toNat, 480]
def k0_off36 (k0_t3 : Fin k0_t3_loop.trips) : Fin 2 → Nat :=
  let c0_i32_33 : BitVec 32 := 0#32
  let c1_i32_35 : BitVec 32 := 1#32
  let arg11 : BitVec 32 := Scf.iv c0_i32_33 c1_i32_35 k0_t3
  let v138 : Index := Scalar.indexCast arg11
  let c496 : Index := 496#32
  ![v138.toNat, 496]

def k0_chk1 (v77 : IVec S16 32) : Prop :=
  (∀ a x, ((![v77] : Fin 1 → IVec S16 32) a x).toNat < S65536.size a)
instance k0_chk1.dec : ∀ (v77 : IVec S16 32), Decidable (k0_chk1 v77) := fun v77 => decidable_of_iff' _ (Iff.of_eq (k0_chk1.eq_1 v77))
theorem k0_idx1_inb : ∀ (v77 : IVec S16 32) (k0_hw1 : k0_chk1 v77), ∀ a x, ((![v77] : Fin 1 → IVec S16 32) a x).toNat < S65536.size a := fun v77 k0_hw1 => k0_hw1

def k0_chk2 (v79 : IVec S16 32) : Prop :=
  (∀ a x, ((![v79] : Fin 1 → IVec S16 32) a x).toNat < S65536.size a)
instance k0_chk2.dec : ∀ (v79 : IVec S16 32), Decidable (k0_chk2 v79) := fun v79 => decidable_of_iff' _ (Iff.of_eq (k0_chk2.eq_1 v79))
theorem k0_idx2_inb : ∀ (v79 : IVec S16 32) (k0_hw2 : k0_chk2 v79), ∀ a x, ((![v79] : Fin 1 → IVec S16 32) a x).toNat < S65536.size a := fun v79 k0_hw2 => k0_hw2

def k0_chk3 (v81 : IVec S16 32) : Prop :=
  (∀ a x, ((![v81] : Fin 1 → IVec S16 32) a x).toNat < S65536.size a)
instance k0_chk3.dec : ∀ (v81 : IVec S16 32), Decidable (k0_chk3 v81) := fun v81 => decidable_of_iff' _ (Iff.of_eq (k0_chk3.eq_1 v81))
theorem k0_idx3_inb : ∀ (v81 : IVec S16 32) (k0_hw3 : k0_chk3 v81), ∀ a x, ((![v81] : Fin 1 → IVec S16 32) a x).toNat < S65536.size a := fun v81 k0_hw3 => k0_hw3

def k0_chk4 (v83 : IVec S16 32) : Prop :=
  (∀ a x, ((![v83] : Fin 1 → IVec S16 32) a x).toNat < S65536.size a)
instance k0_chk4.dec : ∀ (v83 : IVec S16 32), Decidable (k0_chk4 v83) := fun v83 => decidable_of_iff' _ (Iff.of_eq (k0_chk4.eq_1 v83))
theorem k0_idx4_inb : ∀ (v83 : IVec S16 32) (k0_hw4 : k0_chk4 v83), ∀ a x, ((![v83] : Fin 1 → IVec S16 32) a x).toNat < S65536.size a := fun v83 k0_hw4 => k0_hw4

def k0_chk5 (v85 : IVec S16 32) : Prop :=
  (∀ a x, ((![v85] : Fin 1 → IVec S16 32) a x).toNat < S65536.size a)
instance k0_chk5.dec : ∀ (v85 : IVec S16 32), Decidable (k0_chk5 v85) := fun v85 => decidable_of_iff' _ (Iff.of_eq (k0_chk5.eq_1 v85))
theorem k0_idx5_inb : ∀ (v85 : IVec S16 32) (k0_hw5 : k0_chk5 v85), ∀ a x, ((![v85] : Fin 1 → IVec S16 32) a x).toNat < S65536.size a := fun v85 k0_hw5 => k0_hw5

def k0_chk6 (v87 : IVec S16 32) : Prop :=
  (∀ a x, ((![v87] : Fin 1 → IVec S16 32) a x).toNat < S65536.size a)
instance k0_chk6.dec : ∀ (v87 : IVec S16 32), Decidable (k0_chk6 v87) := fun v87 => decidable_of_iff' _ (Iff.of_eq (k0_chk6.eq_1 v87))
theorem k0_idx6_inb : ∀ (v87 : IVec S16 32) (k0_hw6 : k0_chk6 v87), ∀ a x, ((![v87] : Fin 1 → IVec S16 32) a x).toNat < S65536.size a := fun v87 k0_hw6 => k0_hw6

def k0_chk7 (v89 : IVec S16 32) : Prop :=
  (∀ a x, ((![v89] : Fin 1 → IVec S16 32) a x).toNat < S65536.size a)
instance k0_chk7.dec : ∀ (v89 : IVec S16 32), Decidable (k0_chk7 v89) := fun v89 => decidable_of_iff' _ (Iff.of_eq (k0_chk7.eq_1 v89))
theorem k0_idx7_inb : ∀ (v89 : IVec S16 32) (k0_hw7 : k0_chk7 v89), ∀ a x, ((![v89] : Fin 1 → IVec S16 32) a x).toNat < S65536.size a := fun v89 k0_hw7 => k0_hw7

def k0_chk8 (v91 : IVec S16 32) : Prop :=
  (∀ a x, ((![v91] : Fin 1 → IVec S16 32) a x).toNat < S65536.size a)
instance k0_chk8.dec : ∀ (v91 : IVec S16 32), Decidable (k0_chk8 v91) := fun v91 => decidable_of_iff' _ (Iff.of_eq (k0_chk8.eq_1 v91))
theorem k0_idx8_inb : ∀ (v91 : IVec S16 32) (k0_hw8 : k0_chk8 v91), ∀ a x, ((![v91] : Fin 1 → IVec S16 32) a x).toNat < S65536.size a := fun v91 k0_hw8 => k0_hw8

def k0_chk9 (v93 : IVec S16 32) : Prop :=
  (∀ a x, ((![v93] : Fin 1 → IVec S16 32) a x).toNat < S65536.size a)
instance k0_chk9.dec : ∀ (v93 : IVec S16 32), Decidable (k0_chk9 v93) := fun v93 => decidable_of_iff' _ (Iff.of_eq (k0_chk9.eq_1 v93))
theorem k0_idx9_inb : ∀ (v93 : IVec S16 32) (k0_hw9 : k0_chk9 v93), ∀ a x, ((![v93] : Fin 1 → IVec S16 32) a x).toNat < S65536.size a := fun v93 k0_hw9 => k0_hw9

def k0_chk10 (v95 : IVec S16 32) : Prop :=
  (∀ a x, ((![v95] : Fin 1 → IVec S16 32) a x).toNat < S65536.size a)
instance k0_chk10.dec : ∀ (v95 : IVec S16 32), Decidable (k0_chk10 v95) := fun v95 => decidable_of_iff' _ (Iff.of_eq (k0_chk10.eq_1 v95))
theorem k0_idx10_inb : ∀ (v95 : IVec S16 32) (k0_hw10 : k0_chk10 v95), ∀ a x, ((![v95] : Fin 1 → IVec S16 32) a x).toNat < S65536.size a := fun v95 k0_hw10 => k0_hw10

def k0_chk11 (v97 : IVec S16 32) : Prop :=
  (∀ a x, ((![v97] : Fin 1 → IVec S16 32) a x).toNat < S65536.size a)
instance k0_chk11.dec : ∀ (v97 : IVec S16 32), Decidable (k0_chk11 v97) := fun v97 => decidable_of_iff' _ (Iff.of_eq (k0_chk11.eq_1 v97))
theorem k0_idx11_inb : ∀ (v97 : IVec S16 32) (k0_hw11 : k0_chk11 v97), ∀ a x, ((![v97] : Fin 1 → IVec S16 32) a x).toNat < S65536.size a := fun v97 k0_hw11 => k0_hw11

def k0_chk12 (v99 : IVec S16 32) : Prop :=
  (∀ a x, ((![v99] : Fin 1 → IVec S16 32) a x).toNat < S65536.size a)
instance k0_chk12.dec : ∀ (v99 : IVec S16 32), Decidable (k0_chk12 v99) := fun v99 => decidable_of_iff' _ (Iff.of_eq (k0_chk12.eq_1 v99))
theorem k0_idx12_inb : ∀ (v99 : IVec S16 32) (k0_hw12 : k0_chk12 v99), ∀ a x, ((![v99] : Fin 1 → IVec S16 32) a x).toNat < S65536.size a := fun v99 k0_hw12 => k0_hw12

def k0_chk13 (v101 : IVec S16 32) : Prop :=
  (∀ a x, ((![v101] : Fin 1 → IVec S16 32) a x).toNat < S65536.size a)
instance k0_chk13.dec : ∀ (v101 : IVec S16 32), Decidable (k0_chk13 v101) := fun v101 => decidable_of_iff' _ (Iff.of_eq (k0_chk13.eq_1 v101))
theorem k0_idx13_inb : ∀ (v101 : IVec S16 32) (k0_hw13 : k0_chk13 v101), ∀ a x, ((![v101] : Fin 1 → IVec S16 32) a x).toNat < S65536.size a := fun v101 k0_hw13 => k0_hw13

def k0_chk14 (v103 : IVec S16 32) : Prop :=
  (∀ a x, ((![v103] : Fin 1 → IVec S16 32) a x).toNat < S65536.size a)
instance k0_chk14.dec : ∀ (v103 : IVec S16 32), Decidable (k0_chk14 v103) := fun v103 => decidable_of_iff' _ (Iff.of_eq (k0_chk14.eq_1 v103))
theorem k0_idx14_inb : ∀ (v103 : IVec S16 32) (k0_hw14 : k0_chk14 v103), ∀ a x, ((![v103] : Fin 1 → IVec S16 32) a x).toNat < S65536.size a := fun v103 k0_hw14 => k0_hw14

def k0_chk15 (v105 : IVec S16 32) : Prop :=
  (∀ a x, ((![v105] : Fin 1 → IVec S16 32) a x).toNat < S65536.size a)
instance k0_chk15.dec : ∀ (v105 : IVec S16 32), Decidable (k0_chk15 v105) := fun v105 => decidable_of_iff' _ (Iff.of_eq (k0_chk15.eq_1 v105))
theorem k0_idx15_inb : ∀ (v105 : IVec S16 32) (k0_hw15 : k0_chk15 v105), ∀ a x, ((![v105] : Fin 1 → IVec S16 32) a x).toNat < S65536.size a := fun v105 k0_hw15 => k0_hw15

def k0_chk16 (v107 : IVec S16 32) : Prop :=
  (∀ a x, ((![v107] : Fin 1 → IVec S16 32) a x).toNat < S65536.size a)
instance k0_chk16.dec : ∀ (v107 : IVec S16 32), Decidable (k0_chk16 v107) := fun v107 => decidable_of_iff' _ (Iff.of_eq (k0_chk16.eq_1 v107))
theorem k0_idx16_inb : ∀ (v107 : IVec S16 32) (k0_hw16 : k0_chk16 v107), ∀ a x, ((![v107] : Fin 1 → IVec S16 32) a x).toNat < S65536.size a := fun v107 k0_hw16 => k0_hw16

def k0_chk17 (v109 : IVec S16 32) : Prop :=
  (∀ a x, ((![v109] : Fin 1 → IVec S16 32) a x).toNat < S65536.size a)
instance k0_chk17.dec : ∀ (v109 : IVec S16 32), Decidable (k0_chk17 v109) := fun v109 => decidable_of_iff' _ (Iff.of_eq (k0_chk17.eq_1 v109))
theorem k0_idx17_inb : ∀ (v109 : IVec S16 32) (k0_hw17 : k0_chk17 v109), ∀ a x, ((![v109] : Fin 1 → IVec S16 32) a x).toNat < S65536.size a := fun v109 k0_hw17 => k0_hw17

def k0_chk18 (v111 : IVec S16 32) : Prop :=
  (∀ a x, ((![v111] : Fin 1 → IVec S16 32) a x).toNat < S65536.size a)
instance k0_chk18.dec : ∀ (v111 : IVec S16 32), Decidable (k0_chk18 v111) := fun v111 => decidable_of_iff' _ (Iff.of_eq (k0_chk18.eq_1 v111))
theorem k0_idx18_inb : ∀ (v111 : IVec S16 32) (k0_hw18 : k0_chk18 v111), ∀ a x, ((![v111] : Fin 1 → IVec S16 32) a x).toNat < S65536.size a := fun v111 k0_hw18 => k0_hw18

def k0_chk19 (v113 : IVec S16 32) : Prop :=
  (∀ a x, ((![v113] : Fin 1 → IVec S16 32) a x).toNat < S65536.size a)
instance k0_chk19.dec : ∀ (v113 : IVec S16 32), Decidable (k0_chk19 v113) := fun v113 => decidable_of_iff' _ (Iff.of_eq (k0_chk19.eq_1 v113))
theorem k0_idx19_inb : ∀ (v113 : IVec S16 32) (k0_hw19 : k0_chk19 v113), ∀ a x, ((![v113] : Fin 1 → IVec S16 32) a x).toNat < S65536.size a := fun v113 k0_hw19 => k0_hw19

def k0_chk20 (v115 : IVec S16 32) : Prop :=
  (∀ a x, ((![v115] : Fin 1 → IVec S16 32) a x).toNat < S65536.size a)
instance k0_chk20.dec : ∀ (v115 : IVec S16 32), Decidable (k0_chk20 v115) := fun v115 => decidable_of_iff' _ (Iff.of_eq (k0_chk20.eq_1 v115))
theorem k0_idx20_inb : ∀ (v115 : IVec S16 32) (k0_hw20 : k0_chk20 v115), ∀ a x, ((![v115] : Fin 1 → IVec S16 32) a x).toNat < S65536.size a := fun v115 k0_hw20 => k0_hw20

def k0_chk21 (v117 : IVec S16 32) : Prop :=
  (∀ a x, ((![v117] : Fin 1 → IVec S16 32) a x).toNat < S65536.size a)
instance k0_chk21.dec : ∀ (v117 : IVec S16 32), Decidable (k0_chk21 v117) := fun v117 => decidable_of_iff' _ (Iff.of_eq (k0_chk21.eq_1 v117))
theorem k0_idx21_inb : ∀ (v117 : IVec S16 32) (k0_hw21 : k0_chk21 v117), ∀ a x, ((![v117] : Fin 1 → IVec S16 32) a x).toNat < S65536.size a := fun v117 k0_hw21 => k0_hw21

def k0_chk22 (v119 : IVec S16 32) : Prop :=
  (∀ a x, ((![v119] : Fin 1 → IVec S16 32) a x).toNat < S65536.size a)
instance k0_chk22.dec : ∀ (v119 : IVec S16 32), Decidable (k0_chk22 v119) := fun v119 => decidable_of_iff' _ (Iff.of_eq (k0_chk22.eq_1 v119))
theorem k0_idx22_inb : ∀ (v119 : IVec S16 32) (k0_hw22 : k0_chk22 v119), ∀ a x, ((![v119] : Fin 1 → IVec S16 32) a x).toNat < S65536.size a := fun v119 k0_hw22 => k0_hw22

def k0_chk23 (v121 : IVec S16 32) : Prop :=
  (∀ a x, ((![v121] : Fin 1 → IVec S16 32) a x).toNat < S65536.size a)
instance k0_chk23.dec : ∀ (v121 : IVec S16 32), Decidable (k0_chk23 v121) := fun v121 => decidable_of_iff' _ (Iff.of_eq (k0_chk23.eq_1 v121))
theorem k0_idx23_inb : ∀ (v121 : IVec S16 32) (k0_hw23 : k0_chk23 v121), ∀ a x, ((![v121] : Fin 1 → IVec S16 32) a x).toNat < S65536.size a := fun v121 k0_hw23 => k0_hw23

def k0_chk24 (v123 : IVec S16 32) : Prop :=
  (∀ a x, ((![v123] : Fin 1 → IVec S16 32) a x).toNat < S65536.size a)
instance k0_chk24.dec : ∀ (v123 : IVec S16 32), Decidable (k0_chk24 v123) := fun v123 => decidable_of_iff' _ (Iff.of_eq (k0_chk24.eq_1 v123))
theorem k0_idx24_inb : ∀ (v123 : IVec S16 32) (k0_hw24 : k0_chk24 v123), ∀ a x, ((![v123] : Fin 1 → IVec S16 32) a x).toNat < S65536.size a := fun v123 k0_hw24 => k0_hw24

def k0_chk25 (v125 : IVec S16 32) : Prop :=
  (∀ a x, ((![v125] : Fin 1 → IVec S16 32) a x).toNat < S65536.size a)
instance k0_chk25.dec : ∀ (v125 : IVec S16 32), Decidable (k0_chk25 v125) := fun v125 => decidable_of_iff' _ (Iff.of_eq (k0_chk25.eq_1 v125))
theorem k0_idx25_inb : ∀ (v125 : IVec S16 32) (k0_hw25 : k0_chk25 v125), ∀ a x, ((![v125] : Fin 1 → IVec S16 32) a x).toNat < S65536.size a := fun v125 k0_hw25 => k0_hw25

def k0_chk26 (v127 : IVec S16 32) : Prop :=
  (∀ a x, ((![v127] : Fin 1 → IVec S16 32) a x).toNat < S65536.size a)
instance k0_chk26.dec : ∀ (v127 : IVec S16 32), Decidable (k0_chk26 v127) := fun v127 => decidable_of_iff' _ (Iff.of_eq (k0_chk26.eq_1 v127))
theorem k0_idx26_inb : ∀ (v127 : IVec S16 32) (k0_hw26 : k0_chk26 v127), ∀ a x, ((![v127] : Fin 1 → IVec S16 32) a x).toNat < S65536.size a := fun v127 k0_hw26 => k0_hw26

def k0_chk27 (v129 : IVec S16 32) : Prop :=
  (∀ a x, ((![v129] : Fin 1 → IVec S16 32) a x).toNat < S65536.size a)
instance k0_chk27.dec : ∀ (v129 : IVec S16 32), Decidable (k0_chk27 v129) := fun v129 => decidable_of_iff' _ (Iff.of_eq (k0_chk27.eq_1 v129))
theorem k0_idx27_inb : ∀ (v129 : IVec S16 32) (k0_hw27 : k0_chk27 v129), ∀ a x, ((![v129] : Fin 1 → IVec S16 32) a x).toNat < S65536.size a := fun v129 k0_hw27 => k0_hw27

def k0_chk28 (v131 : IVec S16 32) : Prop :=
  (∀ a x, ((![v131] : Fin 1 → IVec S16 32) a x).toNat < S65536.size a)
instance k0_chk28.dec : ∀ (v131 : IVec S16 32), Decidable (k0_chk28 v131) := fun v131 => decidable_of_iff' _ (Iff.of_eq (k0_chk28.eq_1 v131))
theorem k0_idx28_inb : ∀ (v131 : IVec S16 32) (k0_hw28 : k0_chk28 v131), ∀ a x, ((![v131] : Fin 1 → IVec S16 32) a x).toNat < S65536.size a := fun v131 k0_hw28 => k0_hw28

def k0_chk29 (v133 : IVec S16 32) : Prop :=
  (∀ a x, ((![v133] : Fin 1 → IVec S16 32) a x).toNat < S65536.size a)
instance k0_chk29.dec : ∀ (v133 : IVec S16 32), Decidable (k0_chk29 v133) := fun v133 => decidable_of_iff' _ (Iff.of_eq (k0_chk29.eq_1 v133))
theorem k0_idx29_inb : ∀ (v133 : IVec S16 32) (k0_hw29 : k0_chk29 v133), ∀ a x, ((![v133] : Fin 1 → IVec S16 32) a x).toNat < S65536.size a := fun v133 k0_hw29 => k0_hw29

def k0_chk30 (v135 : IVec S16 32) : Prop :=
  (∀ a x, ((![v135] : Fin 1 → IVec S16 32) a x).toNat < S65536.size a)
instance k0_chk30.dec : ∀ (v135 : IVec S16 32), Decidable (k0_chk30 v135) := fun v135 => decidable_of_iff' _ (Iff.of_eq (k0_chk30.eq_1 v135))
theorem k0_idx30_inb : ∀ (v135 : IVec S16 32) (k0_hw30 : k0_chk30 v135), ∀ a x, ((![v135] : Fin 1 → IVec S16 32) a x).toNat < S65536.size a := fun v135 k0_hw30 => k0_hw30

def k0_chk31 (v137 : IVec S16 32) : Prop :=
  (∀ a x, ((![v137] : Fin 1 → IVec S16 32) a x).toNat < S65536.size a)
instance k0_chk31.dec : ∀ (v137 : IVec S16 32), Decidable (k0_chk31 v137) := fun v137 => decidable_of_iff' _ (Iff.of_eq (k0_chk31.eq_1 v137))
theorem k0_idx31_inb : ∀ (v137 : IVec S16 32) (k0_hw31 : k0_chk31 v137), ∀ a x, ((![v137] : Fin 1 → IVec S16 32) a x).toNat < S65536.size a := fun v137 k0_hw31 => k0_hw31

def k0_chk32 (v139 : IVec S16 32) : Prop :=
  (∀ a x, ((![v139] : Fin 1 → IVec S16 32) a x).toNat < S65536.size a)
instance k0_chk32.dec : ∀ (v139 : IVec S16 32), Decidable (k0_chk32 v139) := fun v139 => decidable_of_iff' _ (Iff.of_eq (k0_chk32.eq_1 v139))
theorem k0_idx32_inb : ∀ (v139 : IVec S16 32) (k0_hw32 : k0_chk32 v139), ∀ a x, ((![v139] : Fin 1 → IVec S16 32) a x).toNat < S65536.size a := fun v139 k0_hw32 => k0_hw32
def k0_off37 (i : grid0.Coords) (k0_t2 : Fin k0_t2_loop.trips) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v5 : BitVec 1 := Scalar.cmpi .sgt v1 c0_i32
  let v6 : BitVec 32 := Scalar.extui v5
  let c0_i32_1 : BitVec 32 := 0#32
  let v7 : BitVec 1 := Scalar.cmpi .slt v1 c0_i32_1
  let v8 : BitVec 32 := Scalar.extui v7
  let v9 : BitVec 32 := Scalar.subi v6 v8
  let c2_i32 : BitVec 32 := 2#32
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v1 c2_i32
  let c0_i32_4 : BitVec 32 := 0#32
  let v17 : BitVec 1 := Scalar.cmpi .ne v16 c0_i32_4
  let v18 : BitVec 1 := Scalar.andi v15 v17
  let v4 : BitVec 32 := Scalar.divsi v1 c2_i32
  let c1_i32 : BitVec 32 := 1#32
  let v19 : BitVec 32 := Scalar.subi v4 c1_i32
  let v20 : BitVec 32 := Scalar.select v18 v19 v4
  let c2_i32_5 : BitVec 32 := 2#32
  let c0_i32_6 : BitVec 32 := 0#32
  let v21 : BitVec 1 := Scalar.cmpi .eq c2_i32_5 c0_i32_6
  let c1_i32_7 : BitVec 32 := 1#32
  let v22 : BitVec 32 := Scalar.select v21 c1_i32_7 c2_i32_5
  let v23 : BitVec 32 := Scalar.remsi v1 v22
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let c0_i32_8 : BitVec 32 := 0#32
  let v24 : BitVec 1 := Scalar.cmpi .ne v23 c0_i32_8
  let v28 : BitVec 1 := Scalar.andi v27 v24
  let v29 : BitVec 32 := Scalar.addi v23 v22
  let v30 : BitVec 32 := Scalar.select v28 v29 v23
  let c256_i32 : BitVec 32 := 256#32
  let v31 : BitVec 32 := Scalar.muli v30 c256_i32
  let c0_i32_19 : BitVec 32 := 0#32
  let c1_i32_20 : BitVec 32 := 1#32
  let arg9 : BitVec 32 := Scf.iv c0_i32_19 c1_i32_20 k0_t2
  let c2_i32_25 : BitVec 32 := 2#32
  let v46 : BitVec 32 := Scalar.muli arg9 c2_i32_25
  let c2_i32_37 : BitVec 32 := 2#32
  let v61 : BitVec 32 := Scalar.addi v46 c2_i32_37
  let c7_i32 : BitVec 32 := 7#32
  let v62 : BitVec 32 := Scalar.minsi v61 c7_i32
  let c32_i32_38 : BitVec 32 := 32#32
  let v63 : BitVec 32 := Scalar.muli v62 c32_i32_38
  let v64 : BitVec 32 := Scalar.addi v31 v63
  let c0_i32_39 : BitVec 32 := 0#32
  ![v20.toNat, v64.toNat, 0]
@[reducible] def k0_t4_loop : Scf.Loop 32 :=
  let c0_i32_45 : BitVec 32 := 0#32
  let c32_i32_46 : BitVec 32 := 32#32
  let v74 : BitVec 32 := Scalar.addi c0_i32_45 c32_i32_46
  let c1_i32_47 : BitVec 32 := 1#32
  ⟨c0_i32_45, v74, c1_i32_47⟩
def k0_off38 (k0_t4 : Fin k0_t4_loop.trips) : Fin 2 → Nat :=
  let c0_i32_45 : BitVec 32 := 0#32
  let c1_i32_47 : BitVec 32 := 1#32
  let arg11 : BitVec 32 := Scf.iv c0_i32_45 c1_i32_47 k0_t4
  let v76 : Index := Scalar.indexCast arg11
  let c0 : Index := 0#32
  ![v76.toNat, 0]
def k0_off39 (k0_t4 : Fin k0_t4_loop.trips) : Fin 2 → Nat :=
  let c0_i32_45 : BitVec 32 := 0#32
  let c1_i32_47 : BitVec 32 := 1#32
  let arg11 : BitVec 32 := Scf.iv c0_i32_45 c1_i32_47 k0_t4
  let v78 : Index := Scalar.indexCast arg11
  let c16 : Index := 16#32
  ![v78.toNat, 16]
def k0_off40 (k0_t4 : Fin k0_t4_loop.trips) : Fin 2 → Nat :=
  let c0_i32_45 : BitVec 32 := 0#32
  let c1_i32_47 : BitVec 32 := 1#32
  let arg11 : BitVec 32 := Scf.iv c0_i32_45 c1_i32_47 k0_t4
  let v80 : Index := Scalar.indexCast arg11
  let c32 : Index := 32#32
  ![v80.toNat, 32]
def k0_off41 (k0_t4 : Fin k0_t4_loop.trips) : Fin 2 → Nat :=
  let c0_i32_45 : BitVec 32 := 0#32
  let c1_i32_47 : BitVec 32 := 1#32
  let arg11 : BitVec 32 := Scf.iv c0_i32_45 c1_i32_47 k0_t4
  let v82 : Index := Scalar.indexCast arg11
  let c48 : Index := 48#32
  ![v82.toNat, 48]
def k0_off42 (k0_t4 : Fin k0_t4_loop.trips) : Fin 2 → Nat :=
  let c0_i32_45 : BitVec 32 := 0#32
  let c1_i32_47 : BitVec 32 := 1#32
  let arg11 : BitVec 32 := Scf.iv c0_i32_45 c1_i32_47 k0_t4
  let v84 : Index := Scalar.indexCast arg11
  let c64 : Index := 64#32
  ![v84.toNat, 64]
def k0_off43 (k0_t4 : Fin k0_t4_loop.trips) : Fin 2 → Nat :=
  let c0_i32_45 : BitVec 32 := 0#32
  let c1_i32_47 : BitVec 32 := 1#32
  let arg11 : BitVec 32 := Scf.iv c0_i32_45 c1_i32_47 k0_t4
  let v86 : Index := Scalar.indexCast arg11
  let c80 : Index := 80#32
  ![v86.toNat, 80]
def k0_off44 (k0_t4 : Fin k0_t4_loop.trips) : Fin 2 → Nat :=
  let c0_i32_45 : BitVec 32 := 0#32
  let c1_i32_47 : BitVec 32 := 1#32
  let arg11 : BitVec 32 := Scf.iv c0_i32_45 c1_i32_47 k0_t4
  let v88 : Index := Scalar.indexCast arg11
  let c96 : Index := 96#32
  ![v88.toNat, 96]
def k0_off45 (k0_t4 : Fin k0_t4_loop.trips) : Fin 2 → Nat :=
  let c0_i32_45 : BitVec 32 := 0#32
  let c1_i32_47 : BitVec 32 := 1#32
  let arg11 : BitVec 32 := Scf.iv c0_i32_45 c1_i32_47 k0_t4
  let v90 : Index := Scalar.indexCast arg11
  let c112 : Index := 112#32
  ![v90.toNat, 112]
def k0_off46 (k0_t4 : Fin k0_t4_loop.trips) : Fin 2 → Nat :=
  let c0_i32_45 : BitVec 32 := 0#32
  let c1_i32_47 : BitVec 32 := 1#32
  let arg11 : BitVec 32 := Scf.iv c0_i32_45 c1_i32_47 k0_t4
  let v92 : Index := Scalar.indexCast arg11
  let c128 : Index := 128#32
  ![v92.toNat, 128]
def k0_off47 (k0_t4 : Fin k0_t4_loop.trips) : Fin 2 → Nat :=
  let c0_i32_45 : BitVec 32 := 0#32
  let c1_i32_47 : BitVec 32 := 1#32
  let arg11 : BitVec 32 := Scf.iv c0_i32_45 c1_i32_47 k0_t4
  let v94 : Index := Scalar.indexCast arg11
  let c144 : Index := 144#32
  ![v94.toNat, 144]
def k0_off48 (k0_t4 : Fin k0_t4_loop.trips) : Fin 2 → Nat :=
  let c0_i32_45 : BitVec 32 := 0#32
  let c1_i32_47 : BitVec 32 := 1#32
  let arg11 : BitVec 32 := Scf.iv c0_i32_45 c1_i32_47 k0_t4
  let v96 : Index := Scalar.indexCast arg11
  let c160 : Index := 160#32
  ![v96.toNat, 160]
def k0_off49 (k0_t4 : Fin k0_t4_loop.trips) : Fin 2 → Nat :=
  let c0_i32_45 : BitVec 32 := 0#32
  let c1_i32_47 : BitVec 32 := 1#32
  let arg11 : BitVec 32 := Scf.iv c0_i32_45 c1_i32_47 k0_t4
  let v98 : Index := Scalar.indexCast arg11
  let c176 : Index := 176#32
  ![v98.toNat, 176]
def k0_off50 (k0_t4 : Fin k0_t4_loop.trips) : Fin 2 → Nat :=
  let c0_i32_45 : BitVec 32 := 0#32
  let c1_i32_47 : BitVec 32 := 1#32
  let arg11 : BitVec 32 := Scf.iv c0_i32_45 c1_i32_47 k0_t4
  let v100 : Index := Scalar.indexCast arg11
  let c192 : Index := 192#32
  ![v100.toNat, 192]
def k0_off51 (k0_t4 : Fin k0_t4_loop.trips) : Fin 2 → Nat :=
  let c0_i32_45 : BitVec 32 := 0#32
  let c1_i32_47 : BitVec 32 := 1#32
  let arg11 : BitVec 32 := Scf.iv c0_i32_45 c1_i32_47 k0_t4
  let v102 : Index := Scalar.indexCast arg11
  let c208 : Index := 208#32
  ![v102.toNat, 208]
def k0_off52 (k0_t4 : Fin k0_t4_loop.trips) : Fin 2 → Nat :=
  let c0_i32_45 : BitVec 32 := 0#32
  let c1_i32_47 : BitVec 32 := 1#32
  let arg11 : BitVec 32 := Scf.iv c0_i32_45 c1_i32_47 k0_t4
  let v104 : Index := Scalar.indexCast arg11
  let c224 : Index := 224#32
  ![v104.toNat, 224]
def k0_off53 (k0_t4 : Fin k0_t4_loop.trips) : Fin 2 → Nat :=
  let c0_i32_45 : BitVec 32 := 0#32
  let c1_i32_47 : BitVec 32 := 1#32
  let arg11 : BitVec 32 := Scf.iv c0_i32_45 c1_i32_47 k0_t4
  let v106 : Index := Scalar.indexCast arg11
  let c240 : Index := 240#32
  ![v106.toNat, 240]
def k0_off54 (k0_t4 : Fin k0_t4_loop.trips) : Fin 2 → Nat :=
  let c0_i32_45 : BitVec 32 := 0#32
  let c1_i32_47 : BitVec 32 := 1#32
  let arg11 : BitVec 32 := Scf.iv c0_i32_45 c1_i32_47 k0_t4
  let v108 : Index := Scalar.indexCast arg11
  let c256 : Index := 256#32
  ![v108.toNat, 256]
def k0_off55 (k0_t4 : Fin k0_t4_loop.trips) : Fin 2 → Nat :=
  let c0_i32_45 : BitVec 32 := 0#32
  let c1_i32_47 : BitVec 32 := 1#32
  let arg11 : BitVec 32 := Scf.iv c0_i32_45 c1_i32_47 k0_t4
  let v110 : Index := Scalar.indexCast arg11
  let c272 : Index := 272#32
  ![v110.toNat, 272]
def k0_off56 (k0_t4 : Fin k0_t4_loop.trips) : Fin 2 → Nat :=
  let c0_i32_45 : BitVec 32 := 0#32
  let c1_i32_47 : BitVec 32 := 1#32
  let arg11 : BitVec 32 := Scf.iv c0_i32_45 c1_i32_47 k0_t4
  let v112 : Index := Scalar.indexCast arg11
  let c288 : Index := 288#32
  ![v112.toNat, 288]
def k0_off57 (k0_t4 : Fin k0_t4_loop.trips) : Fin 2 → Nat :=
  let c0_i32_45 : BitVec 32 := 0#32
  let c1_i32_47 : BitVec 32 := 1#32
  let arg11 : BitVec 32 := Scf.iv c0_i32_45 c1_i32_47 k0_t4
  let v114 : Index := Scalar.indexCast arg11
  let c304 : Index := 304#32
  ![v114.toNat, 304]
def k0_off58 (k0_t4 : Fin k0_t4_loop.trips) : Fin 2 → Nat :=
  let c0_i32_45 : BitVec 32 := 0#32
  let c1_i32_47 : BitVec 32 := 1#32
  let arg11 : BitVec 32 := Scf.iv c0_i32_45 c1_i32_47 k0_t4
  let v116 : Index := Scalar.indexCast arg11
  let c320 : Index := 320#32
  ![v116.toNat, 320]
def k0_off59 (k0_t4 : Fin k0_t4_loop.trips) : Fin 2 → Nat :=
  let c0_i32_45 : BitVec 32 := 0#32
  let c1_i32_47 : BitVec 32 := 1#32
  let arg11 : BitVec 32 := Scf.iv c0_i32_45 c1_i32_47 k0_t4
  let v118 : Index := Scalar.indexCast arg11
  let c336 : Index := 336#32
  ![v118.toNat, 336]
def k0_off60 (k0_t4 : Fin k0_t4_loop.trips) : Fin 2 → Nat :=
  let c0_i32_45 : BitVec 32 := 0#32
  let c1_i32_47 : BitVec 32 := 1#32
  let arg11 : BitVec 32 := Scf.iv c0_i32_45 c1_i32_47 k0_t4
  let v120 : Index := Scalar.indexCast arg11
  let c352 : Index := 352#32
  ![v120.toNat, 352]
def k0_off61 (k0_t4 : Fin k0_t4_loop.trips) : Fin 2 → Nat :=
  let c0_i32_45 : BitVec 32 := 0#32
  let c1_i32_47 : BitVec 32 := 1#32
  let arg11 : BitVec 32 := Scf.iv c0_i32_45 c1_i32_47 k0_t4
  let v122 : Index := Scalar.indexCast arg11
  let c368 : Index := 368#32
  ![v122.toNat, 368]
def k0_off62 (k0_t4 : Fin k0_t4_loop.trips) : Fin 2 → Nat :=
  let c0_i32_45 : BitVec 32 := 0#32
  let c1_i32_47 : BitVec 32 := 1#32
  let arg11 : BitVec 32 := Scf.iv c0_i32_45 c1_i32_47 k0_t4
  let v124 : Index := Scalar.indexCast arg11
  let c384 : Index := 384#32
  ![v124.toNat, 384]
def k0_off63 (k0_t4 : Fin k0_t4_loop.trips) : Fin 2 → Nat :=
  let c0_i32_45 : BitVec 32 := 0#32
  let c1_i32_47 : BitVec 32 := 1#32
  let arg11 : BitVec 32 := Scf.iv c0_i32_45 c1_i32_47 k0_t4
  let v126 : Index := Scalar.indexCast arg11
  let c400 : Index := 400#32
  ![v126.toNat, 400]
def k0_off64 (k0_t4 : Fin k0_t4_loop.trips) : Fin 2 → Nat :=
  let c0_i32_45 : BitVec 32 := 0#32
  let c1_i32_47 : BitVec 32 := 1#32
  let arg11 : BitVec 32 := Scf.iv c0_i32_45 c1_i32_47 k0_t4
  let v128 : Index := Scalar.indexCast arg11
  let c416 : Index := 416#32
  ![v128.toNat, 416]
def k0_off65 (k0_t4 : Fin k0_t4_loop.trips) : Fin 2 → Nat :=
  let c0_i32_45 : BitVec 32 := 0#32
  let c1_i32_47 : BitVec 32 := 1#32
  let arg11 : BitVec 32 := Scf.iv c0_i32_45 c1_i32_47 k0_t4
  let v130 : Index := Scalar.indexCast arg11
  let c432 : Index := 432#32
  ![v130.toNat, 432]
def k0_off66 (k0_t4 : Fin k0_t4_loop.trips) : Fin 2 → Nat :=
  let c0_i32_45 : BitVec 32 := 0#32
  let c1_i32_47 : BitVec 32 := 1#32
  let arg11 : BitVec 32 := Scf.iv c0_i32_45 c1_i32_47 k0_t4
  let v132 : Index := Scalar.indexCast arg11
  let c448 : Index := 448#32
  ![v132.toNat, 448]
def k0_off67 (k0_t4 : Fin k0_t4_loop.trips) : Fin 2 → Nat :=
  let c0_i32_45 : BitVec 32 := 0#32
  let c1_i32_47 : BitVec 32 := 1#32
  let arg11 : BitVec 32 := Scf.iv c0_i32_45 c1_i32_47 k0_t4
  let v134 : Index := Scalar.indexCast arg11
  let c464 : Index := 464#32
  ![v134.toNat, 464]
def k0_off68 (k0_t4 : Fin k0_t4_loop.trips) : Fin 2 → Nat :=
  let c0_i32_45 : BitVec 32 := 0#32
  let c1_i32_47 : BitVec 32 := 1#32
  let arg11 : BitVec 32 := Scf.iv c0_i32_45 c1_i32_47 k0_t4
  let v136 : Index := Scalar.indexCast arg11
  let c480 : Index := 480#32
  ![v136.toNat, 480]
def k0_off69 (k0_t4 : Fin k0_t4_loop.trips) : Fin 2 → Nat :=
  let c0_i32_45 : BitVec 32 := 0#32
  let c1_i32_47 : BitVec 32 := 1#32
  let arg11 : BitVec 32 := Scf.iv c0_i32_45 c1_i32_47 k0_t4
  let v138 : Index := Scalar.indexCast arg11
  let c496 : Index := 496#32
  ![v138.toNat, 496]

def k0_chk33 (v77 : IVec S16 32) : Prop :=
  (∀ a x, ((![v77] : Fin 1 → IVec S16 32) a x).toNat < S65536.size a)
instance k0_chk33.dec : ∀ (v77 : IVec S16 32), Decidable (k0_chk33 v77) := fun v77 => decidable_of_iff' _ (Iff.of_eq (k0_chk33.eq_1 v77))
theorem k0_idx33_inb : ∀ (v77 : IVec S16 32) (k0_hw33 : k0_chk33 v77), ∀ a x, ((![v77] : Fin 1 → IVec S16 32) a x).toNat < S65536.size a := fun v77 k0_hw33 => k0_hw33

def k0_chk34 (v79 : IVec S16 32) : Prop :=
  (∀ a x, ((![v79] : Fin 1 → IVec S16 32) a x).toNat < S65536.size a)
instance k0_chk34.dec : ∀ (v79 : IVec S16 32), Decidable (k0_chk34 v79) := fun v79 => decidable_of_iff' _ (Iff.of_eq (k0_chk34.eq_1 v79))
theorem k0_idx34_inb : ∀ (v79 : IVec S16 32) (k0_hw34 : k0_chk34 v79), ∀ a x, ((![v79] : Fin 1 → IVec S16 32) a x).toNat < S65536.size a := fun v79 k0_hw34 => k0_hw34

def k0_chk35 (v81 : IVec S16 32) : Prop :=
  (∀ a x, ((![v81] : Fin 1 → IVec S16 32) a x).toNat < S65536.size a)
instance k0_chk35.dec : ∀ (v81 : IVec S16 32), Decidable (k0_chk35 v81) := fun v81 => decidable_of_iff' _ (Iff.of_eq (k0_chk35.eq_1 v81))
theorem k0_idx35_inb : ∀ (v81 : IVec S16 32) (k0_hw35 : k0_chk35 v81), ∀ a x, ((![v81] : Fin 1 → IVec S16 32) a x).toNat < S65536.size a := fun v81 k0_hw35 => k0_hw35

def k0_chk36 (v83 : IVec S16 32) : Prop :=
  (∀ a x, ((![v83] : Fin 1 → IVec S16 32) a x).toNat < S65536.size a)
instance k0_chk36.dec : ∀ (v83 : IVec S16 32), Decidable (k0_chk36 v83) := fun v83 => decidable_of_iff' _ (Iff.of_eq (k0_chk36.eq_1 v83))
theorem k0_idx36_inb : ∀ (v83 : IVec S16 32) (k0_hw36 : k0_chk36 v83), ∀ a x, ((![v83] : Fin 1 → IVec S16 32) a x).toNat < S65536.size a := fun v83 k0_hw36 => k0_hw36

def k0_chk37 (v85 : IVec S16 32) : Prop :=
  (∀ a x, ((![v85] : Fin 1 → IVec S16 32) a x).toNat < S65536.size a)
instance k0_chk37.dec : ∀ (v85 : IVec S16 32), Decidable (k0_chk37 v85) := fun v85 => decidable_of_iff' _ (Iff.of_eq (k0_chk37.eq_1 v85))
theorem k0_idx37_inb : ∀ (v85 : IVec S16 32) (k0_hw37 : k0_chk37 v85), ∀ a x, ((![v85] : Fin 1 → IVec S16 32) a x).toNat < S65536.size a := fun v85 k0_hw37 => k0_hw37

def k0_chk38 (v87 : IVec S16 32) : Prop :=
  (∀ a x, ((![v87] : Fin 1 → IVec S16 32) a x).toNat < S65536.size a)
instance k0_chk38.dec : ∀ (v87 : IVec S16 32), Decidable (k0_chk38 v87) := fun v87 => decidable_of_iff' _ (Iff.of_eq (k0_chk38.eq_1 v87))
theorem k0_idx38_inb : ∀ (v87 : IVec S16 32) (k0_hw38 : k0_chk38 v87), ∀ a x, ((![v87] : Fin 1 → IVec S16 32) a x).toNat < S65536.size a := fun v87 k0_hw38 => k0_hw38

def k0_chk39 (v89 : IVec S16 32) : Prop :=
  (∀ a x, ((![v89] : Fin 1 → IVec S16 32) a x).toNat < S65536.size a)
instance k0_chk39.dec : ∀ (v89 : IVec S16 32), Decidable (k0_chk39 v89) := fun v89 => decidable_of_iff' _ (Iff.of_eq (k0_chk39.eq_1 v89))
theorem k0_idx39_inb : ∀ (v89 : IVec S16 32) (k0_hw39 : k0_chk39 v89), ∀ a x, ((![v89] : Fin 1 → IVec S16 32) a x).toNat < S65536.size a := fun v89 k0_hw39 => k0_hw39

def k0_chk40 (v91 : IVec S16 32) : Prop :=
  (∀ a x, ((![v91] : Fin 1 → IVec S16 32) a x).toNat < S65536.size a)
instance k0_chk40.dec : ∀ (v91 : IVec S16 32), Decidable (k0_chk40 v91) := fun v91 => decidable_of_iff' _ (Iff.of_eq (k0_chk40.eq_1 v91))
theorem k0_idx40_inb : ∀ (v91 : IVec S16 32) (k0_hw40 : k0_chk40 v91), ∀ a x, ((![v91] : Fin 1 → IVec S16 32) a x).toNat < S65536.size a := fun v91 k0_hw40 => k0_hw40

def k0_chk41 (v93 : IVec S16 32) : Prop :=
  (∀ a x, ((![v93] : Fin 1 → IVec S16 32) a x).toNat < S65536.size a)
instance k0_chk41.dec : ∀ (v93 : IVec S16 32), Decidable (k0_chk41 v93) := fun v93 => decidable_of_iff' _ (Iff.of_eq (k0_chk41.eq_1 v93))
theorem k0_idx41_inb : ∀ (v93 : IVec S16 32) (k0_hw41 : k0_chk41 v93), ∀ a x, ((![v93] : Fin 1 → IVec S16 32) a x).toNat < S65536.size a := fun v93 k0_hw41 => k0_hw41

def k0_chk42 (v95 : IVec S16 32) : Prop :=
  (∀ a x, ((![v95] : Fin 1 → IVec S16 32) a x).toNat < S65536.size a)
instance k0_chk42.dec : ∀ (v95 : IVec S16 32), Decidable (k0_chk42 v95) := fun v95 => decidable_of_iff' _ (Iff.of_eq (k0_chk42.eq_1 v95))
theorem k0_idx42_inb : ∀ (v95 : IVec S16 32) (k0_hw42 : k0_chk42 v95), ∀ a x, ((![v95] : Fin 1 → IVec S16 32) a x).toNat < S65536.size a := fun v95 k0_hw42 => k0_hw42

def k0_chk43 (v97 : IVec S16 32) : Prop :=
  (∀ a x, ((![v97] : Fin 1 → IVec S16 32) a x).toNat < S65536.size a)
instance k0_chk43.dec : ∀ (v97 : IVec S16 32), Decidable (k0_chk43 v97) := fun v97 => decidable_of_iff' _ (Iff.of_eq (k0_chk43.eq_1 v97))
theorem k0_idx43_inb : ∀ (v97 : IVec S16 32) (k0_hw43 : k0_chk43 v97), ∀ a x, ((![v97] : Fin 1 → IVec S16 32) a x).toNat < S65536.size a := fun v97 k0_hw43 => k0_hw43

def k0_chk44 (v99 : IVec S16 32) : Prop :=
  (∀ a x, ((![v99] : Fin 1 → IVec S16 32) a x).toNat < S65536.size a)
instance k0_chk44.dec : ∀ (v99 : IVec S16 32), Decidable (k0_chk44 v99) := fun v99 => decidable_of_iff' _ (Iff.of_eq (k0_chk44.eq_1 v99))
theorem k0_idx44_inb : ∀ (v99 : IVec S16 32) (k0_hw44 : k0_chk44 v99), ∀ a x, ((![v99] : Fin 1 → IVec S16 32) a x).toNat < S65536.size a := fun v99 k0_hw44 => k0_hw44

def k0_chk45 (v101 : IVec S16 32) : Prop :=
  (∀ a x, ((![v101] : Fin 1 → IVec S16 32) a x).toNat < S65536.size a)
instance k0_chk45.dec : ∀ (v101 : IVec S16 32), Decidable (k0_chk45 v101) := fun v101 => decidable_of_iff' _ (Iff.of_eq (k0_chk45.eq_1 v101))
theorem k0_idx45_inb : ∀ (v101 : IVec S16 32) (k0_hw45 : k0_chk45 v101), ∀ a x, ((![v101] : Fin 1 → IVec S16 32) a x).toNat < S65536.size a := fun v101 k0_hw45 => k0_hw45

def k0_chk46 (v103 : IVec S16 32) : Prop :=
  (∀ a x, ((![v103] : Fin 1 → IVec S16 32) a x).toNat < S65536.size a)
instance k0_chk46.dec : ∀ (v103 : IVec S16 32), Decidable (k0_chk46 v103) := fun v103 => decidable_of_iff' _ (Iff.of_eq (k0_chk46.eq_1 v103))
theorem k0_idx46_inb : ∀ (v103 : IVec S16 32) (k0_hw46 : k0_chk46 v103), ∀ a x, ((![v103] : Fin 1 → IVec S16 32) a x).toNat < S65536.size a := fun v103 k0_hw46 => k0_hw46

def k0_chk47 (v105 : IVec S16 32) : Prop :=
  (∀ a x, ((![v105] : Fin 1 → IVec S16 32) a x).toNat < S65536.size a)
instance k0_chk47.dec : ∀ (v105 : IVec S16 32), Decidable (k0_chk47 v105) := fun v105 => decidable_of_iff' _ (Iff.of_eq (k0_chk47.eq_1 v105))
theorem k0_idx47_inb : ∀ (v105 : IVec S16 32) (k0_hw47 : k0_chk47 v105), ∀ a x, ((![v105] : Fin 1 → IVec S16 32) a x).toNat < S65536.size a := fun v105 k0_hw47 => k0_hw47

def k0_chk48 (v107 : IVec S16 32) : Prop :=
  (∀ a x, ((![v107] : Fin 1 → IVec S16 32) a x).toNat < S65536.size a)
instance k0_chk48.dec : ∀ (v107 : IVec S16 32), Decidable (k0_chk48 v107) := fun v107 => decidable_of_iff' _ (Iff.of_eq (k0_chk48.eq_1 v107))
theorem k0_idx48_inb : ∀ (v107 : IVec S16 32) (k0_hw48 : k0_chk48 v107), ∀ a x, ((![v107] : Fin 1 → IVec S16 32) a x).toNat < S65536.size a := fun v107 k0_hw48 => k0_hw48

def k0_chk49 (v109 : IVec S16 32) : Prop :=
  (∀ a x, ((![v109] : Fin 1 → IVec S16 32) a x).toNat < S65536.size a)
instance k0_chk49.dec : ∀ (v109 : IVec S16 32), Decidable (k0_chk49 v109) := fun v109 => decidable_of_iff' _ (Iff.of_eq (k0_chk49.eq_1 v109))
theorem k0_idx49_inb : ∀ (v109 : IVec S16 32) (k0_hw49 : k0_chk49 v109), ∀ a x, ((![v109] : Fin 1 → IVec S16 32) a x).toNat < S65536.size a := fun v109 k0_hw49 => k0_hw49

def k0_chk50 (v111 : IVec S16 32) : Prop :=
  (∀ a x, ((![v111] : Fin 1 → IVec S16 32) a x).toNat < S65536.size a)
instance k0_chk50.dec : ∀ (v111 : IVec S16 32), Decidable (k0_chk50 v111) := fun v111 => decidable_of_iff' _ (Iff.of_eq (k0_chk50.eq_1 v111))
theorem k0_idx50_inb : ∀ (v111 : IVec S16 32) (k0_hw50 : k0_chk50 v111), ∀ a x, ((![v111] : Fin 1 → IVec S16 32) a x).toNat < S65536.size a := fun v111 k0_hw50 => k0_hw50

def k0_chk51 (v113 : IVec S16 32) : Prop :=
  (∀ a x, ((![v113] : Fin 1 → IVec S16 32) a x).toNat < S65536.size a)
instance k0_chk51.dec : ∀ (v113 : IVec S16 32), Decidable (k0_chk51 v113) := fun v113 => decidable_of_iff' _ (Iff.of_eq (k0_chk51.eq_1 v113))
theorem k0_idx51_inb : ∀ (v113 : IVec S16 32) (k0_hw51 : k0_chk51 v113), ∀ a x, ((![v113] : Fin 1 → IVec S16 32) a x).toNat < S65536.size a := fun v113 k0_hw51 => k0_hw51

def k0_chk52 (v115 : IVec S16 32) : Prop :=
  (∀ a x, ((![v115] : Fin 1 → IVec S16 32) a x).toNat < S65536.size a)
instance k0_chk52.dec : ∀ (v115 : IVec S16 32), Decidable (k0_chk52 v115) := fun v115 => decidable_of_iff' _ (Iff.of_eq (k0_chk52.eq_1 v115))
theorem k0_idx52_inb : ∀ (v115 : IVec S16 32) (k0_hw52 : k0_chk52 v115), ∀ a x, ((![v115] : Fin 1 → IVec S16 32) a x).toNat < S65536.size a := fun v115 k0_hw52 => k0_hw52

def k0_chk53 (v117 : IVec S16 32) : Prop :=
  (∀ a x, ((![v117] : Fin 1 → IVec S16 32) a x).toNat < S65536.size a)
instance k0_chk53.dec : ∀ (v117 : IVec S16 32), Decidable (k0_chk53 v117) := fun v117 => decidable_of_iff' _ (Iff.of_eq (k0_chk53.eq_1 v117))
theorem k0_idx53_inb : ∀ (v117 : IVec S16 32) (k0_hw53 : k0_chk53 v117), ∀ a x, ((![v117] : Fin 1 → IVec S16 32) a x).toNat < S65536.size a := fun v117 k0_hw53 => k0_hw53

def k0_chk54 (v119 : IVec S16 32) : Prop :=
  (∀ a x, ((![v119] : Fin 1 → IVec S16 32) a x).toNat < S65536.size a)
instance k0_chk54.dec : ∀ (v119 : IVec S16 32), Decidable (k0_chk54 v119) := fun v119 => decidable_of_iff' _ (Iff.of_eq (k0_chk54.eq_1 v119))
theorem k0_idx54_inb : ∀ (v119 : IVec S16 32) (k0_hw54 : k0_chk54 v119), ∀ a x, ((![v119] : Fin 1 → IVec S16 32) a x).toNat < S65536.size a := fun v119 k0_hw54 => k0_hw54

def k0_chk55 (v121 : IVec S16 32) : Prop :=
  (∀ a x, ((![v121] : Fin 1 → IVec S16 32) a x).toNat < S65536.size a)
instance k0_chk55.dec : ∀ (v121 : IVec S16 32), Decidable (k0_chk55 v121) := fun v121 => decidable_of_iff' _ (Iff.of_eq (k0_chk55.eq_1 v121))
theorem k0_idx55_inb : ∀ (v121 : IVec S16 32) (k0_hw55 : k0_chk55 v121), ∀ a x, ((![v121] : Fin 1 → IVec S16 32) a x).toNat < S65536.size a := fun v121 k0_hw55 => k0_hw55

def k0_chk56 (v123 : IVec S16 32) : Prop :=
  (∀ a x, ((![v123] : Fin 1 → IVec S16 32) a x).toNat < S65536.size a)
instance k0_chk56.dec : ∀ (v123 : IVec S16 32), Decidable (k0_chk56 v123) := fun v123 => decidable_of_iff' _ (Iff.of_eq (k0_chk56.eq_1 v123))
theorem k0_idx56_inb : ∀ (v123 : IVec S16 32) (k0_hw56 : k0_chk56 v123), ∀ a x, ((![v123] : Fin 1 → IVec S16 32) a x).toNat < S65536.size a := fun v123 k0_hw56 => k0_hw56

def k0_chk57 (v125 : IVec S16 32) : Prop :=
  (∀ a x, ((![v125] : Fin 1 → IVec S16 32) a x).toNat < S65536.size a)
instance k0_chk57.dec : ∀ (v125 : IVec S16 32), Decidable (k0_chk57 v125) := fun v125 => decidable_of_iff' _ (Iff.of_eq (k0_chk57.eq_1 v125))
theorem k0_idx57_inb : ∀ (v125 : IVec S16 32) (k0_hw57 : k0_chk57 v125), ∀ a x, ((![v125] : Fin 1 → IVec S16 32) a x).toNat < S65536.size a := fun v125 k0_hw57 => k0_hw57

def k0_chk58 (v127 : IVec S16 32) : Prop :=
  (∀ a x, ((![v127] : Fin 1 → IVec S16 32) a x).toNat < S65536.size a)
instance k0_chk58.dec : ∀ (v127 : IVec S16 32), Decidable (k0_chk58 v127) := fun v127 => decidable_of_iff' _ (Iff.of_eq (k0_chk58.eq_1 v127))
theorem k0_idx58_inb : ∀ (v127 : IVec S16 32) (k0_hw58 : k0_chk58 v127), ∀ a x, ((![v127] : Fin 1 → IVec S16 32) a x).toNat < S65536.size a := fun v127 k0_hw58 => k0_hw58

def k0_chk59 (v129 : IVec S16 32) : Prop :=
  (∀ a x, ((![v129] : Fin 1 → IVec S16 32) a x).toNat < S65536.size a)
instance k0_chk59.dec : ∀ (v129 : IVec S16 32), Decidable (k0_chk59 v129) := fun v129 => decidable_of_iff' _ (Iff.of_eq (k0_chk59.eq_1 v129))
theorem k0_idx59_inb : ∀ (v129 : IVec S16 32) (k0_hw59 : k0_chk59 v129), ∀ a x, ((![v129] : Fin 1 → IVec S16 32) a x).toNat < S65536.size a := fun v129 k0_hw59 => k0_hw59

def k0_chk60 (v131 : IVec S16 32) : Prop :=
  (∀ a x, ((![v131] : Fin 1 → IVec S16 32) a x).toNat < S65536.size a)
instance k0_chk60.dec : ∀ (v131 : IVec S16 32), Decidable (k0_chk60 v131) := fun v131 => decidable_of_iff' _ (Iff.of_eq (k0_chk60.eq_1 v131))
theorem k0_idx60_inb : ∀ (v131 : IVec S16 32) (k0_hw60 : k0_chk60 v131), ∀ a x, ((![v131] : Fin 1 → IVec S16 32) a x).toNat < S65536.size a := fun v131 k0_hw60 => k0_hw60

def k0_chk61 (v133 : IVec S16 32) : Prop :=
  (∀ a x, ((![v133] : Fin 1 → IVec S16 32) a x).toNat < S65536.size a)
instance k0_chk61.dec : ∀ (v133 : IVec S16 32), Decidable (k0_chk61 v133) := fun v133 => decidable_of_iff' _ (Iff.of_eq (k0_chk61.eq_1 v133))
theorem k0_idx61_inb : ∀ (v133 : IVec S16 32) (k0_hw61 : k0_chk61 v133), ∀ a x, ((![v133] : Fin 1 → IVec S16 32) a x).toNat < S65536.size a := fun v133 k0_hw61 => k0_hw61

def k0_chk62 (v135 : IVec S16 32) : Prop :=
  (∀ a x, ((![v135] : Fin 1 → IVec S16 32) a x).toNat < S65536.size a)
instance k0_chk62.dec : ∀ (v135 : IVec S16 32), Decidable (k0_chk62 v135) := fun v135 => decidable_of_iff' _ (Iff.of_eq (k0_chk62.eq_1 v135))
theorem k0_idx62_inb : ∀ (v135 : IVec S16 32) (k0_hw62 : k0_chk62 v135), ∀ a x, ((![v135] : Fin 1 → IVec S16 32) a x).toNat < S65536.size a := fun v135 k0_hw62 => k0_hw62

def k0_chk63 (v137 : IVec S16 32) : Prop :=
  (∀ a x, ((![v137] : Fin 1 → IVec S16 32) a x).toNat < S65536.size a)
instance k0_chk63.dec : ∀ (v137 : IVec S16 32), Decidable (k0_chk63 v137) := fun v137 => decidable_of_iff' _ (Iff.of_eq (k0_chk63.eq_1 v137))
theorem k0_idx63_inb : ∀ (v137 : IVec S16 32) (k0_hw63 : k0_chk63 v137), ∀ a x, ((![v137] : Fin 1 → IVec S16 32) a x).toNat < S65536.size a := fun v137 k0_hw63 => k0_hw63

def k0_chk64 (v139 : IVec S16 32) : Prop :=
  (∀ a x, ((![v139] : Fin 1 → IVec S16 32) a x).toNat < S65536.size a)
instance k0_chk64.dec : ∀ (v139 : IVec S16 32), Decidable (k0_chk64 v139) := fun v139 => decidable_of_iff' _ (Iff.of_eq (k0_chk64.eq_1 v139))
theorem k0_idx64_inb : ∀ (v139 : IVec S16 32) (k0_hw64 : k0_chk64 v139), ∀ a x, ((![v139] : Fin 1 → IVec S16 32) a x).toNat < S65536.size a := fun v139 k0_hw64 => k0_hw64
def k0_off70 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_25_r0 : BitVec 32 := 0#32
  ![v1.toNat, 0]
abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S32x32768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x32768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S64x32768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  squeezes_S1x32x512_S32x512 : S1x32x512.Squeezes S32x512
  h_S16 : 0 < S16.numel
  h_S1x16 : 0 < S1x16.numel
  shapeCasts_S1x16_S16 : S1x16.ShapeCasts S16
  h_S65536 : 0 < S65536.numel
  squeezes_S1x65536_S65536 : S1x65536.Squeezes S65536
  transposes_S65536x64_S64x65536_1_0 : S65536x64.Transposes [1, 0] S64x65536
  inb_S32x32768_S32x32768_0_0 : ∀ a, (![0, 0] : Fin 2 → Nat) a + S32x32768.size a ≤ S32x32768.size a
  h_S32x32768 : 0 < S32x32768.numel
  shapeCasts_S32x32768_S32x32768 : S32x32768.ShapeCasts S32x32768
  reduces_S32x32768_S32768 : S32x32768.Reduces [0] S32768
  inb_S64x32768_S64x32768_0_0 : ∀ a, (![0, 0] : Fin 2 → Nat) a + S64x32768.size a ≤ S64x32768.size a
  h_S64x32768 : 0 < S64x32768.numel
  shapeCasts_S64x32768_S64x32768 : S64x32768.ShapeCasts S64x32768
  shapeCasts_S32768_S1x32768 : S32768.ShapeCasts S1x32768
  broadcasts_S1x32768_S64x32768 : S1x32768.Broadcasts S64x32768
  transposes_S64x65536_S65536x64_1_0 : S64x65536.Transposes [1, 0] S65536x64
  hcc0_scratch3 : 0 + S_.numel ≤ 9
  hcc0_scratch4 : 1 + S_.numel ≤ 9
  hcc0_scoped0 : 2 + S_.numel ≤ 9
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x32x512.size a ≤ S16x512x512.size a
  k0_t1_ok : k0_t1_loop.OK
  k0_off2_inb : ∀ k0_t1 : Fin k0_t1_loop.trips, ∀ (r : Fin 64), ∀ a, (k0_off2 k0_t1 (BitVec.ofNat 32 r.val)) a + S16.size a ≤ S65536.size a
  k0_t2_ok : k0_t2_loop.OK
  k0_off3_inb : ∀ (i : grid0.Coords) (k0_t2 : Fin k0_t2_loop.trips), ∀ a, (k0_off3 i k0_t2) a + S1x32x512.size a ≤ S16x512x512.size a
  k0_off4_inb : ∀ i : grid0.Coords, ∀ a, (k0_off4 i) a + S1x32x512.size a ≤ S16x512x512.size a
  k0_t3_ok : k0_t3_loop.OK
  k0_off5_inb : ∀ k0_t3 : Fin k0_t3_loop.trips, ∀ a, (k0_off5 k0_t3) a + S1x16.size a ≤ S32x512.size a
  k0_off6_inb : ∀ k0_t3 : Fin k0_t3_loop.trips, ∀ a, (k0_off6 k0_t3) a + S1x16.size a ≤ S32x512.size a
  k0_off7_inb : ∀ k0_t3 : Fin k0_t3_loop.trips, ∀ a, (k0_off7 k0_t3) a + S1x16.size a ≤ S32x512.size a
  k0_off8_inb : ∀ k0_t3 : Fin k0_t3_loop.trips, ∀ a, (k0_off8 k0_t3) a + S1x16.size a ≤ S32x512.size a
  k0_off9_inb : ∀ k0_t3 : Fin k0_t3_loop.trips, ∀ a, (k0_off9 k0_t3) a + S1x16.size a ≤ S32x512.size a
  k0_off10_inb : ∀ k0_t3 : Fin k0_t3_loop.trips, ∀ a, (k0_off10 k0_t3) a + S1x16.size a ≤ S32x512.size a
  k0_off11_inb : ∀ k0_t3 : Fin k0_t3_loop.trips, ∀ a, (k0_off11 k0_t3) a + S1x16.size a ≤ S32x512.size a
  k0_off12_inb : ∀ k0_t3 : Fin k0_t3_loop.trips, ∀ a, (k0_off12 k0_t3) a + S1x16.size a ≤ S32x512.size a
  k0_off13_inb : ∀ k0_t3 : Fin k0_t3_loop.trips, ∀ a, (k0_off13 k0_t3) a + S1x16.size a ≤ S32x512.size a
  k0_off14_inb : ∀ k0_t3 : Fin k0_t3_loop.trips, ∀ a, (k0_off14 k0_t3) a + S1x16.size a ≤ S32x512.size a
  k0_off15_inb : ∀ k0_t3 : Fin k0_t3_loop.trips, ∀ a, (k0_off15 k0_t3) a + S1x16.size a ≤ S32x512.size a
  k0_off16_inb : ∀ k0_t3 : Fin k0_t3_loop.trips, ∀ a, (k0_off16 k0_t3) a + S1x16.size a ≤ S32x512.size a
  k0_off17_inb : ∀ k0_t3 : Fin k0_t3_loop.trips, ∀ a, (k0_off17 k0_t3) a + S1x16.size a ≤ S32x512.size a
  k0_off18_inb : ∀ k0_t3 : Fin k0_t3_loop.trips, ∀ a, (k0_off18 k0_t3) a + S1x16.size a ≤ S32x512.size a
  k0_off19_inb : ∀ k0_t3 : Fin k0_t3_loop.trips, ∀ a, (k0_off19 k0_t3) a + S1x16.size a ≤ S32x512.size a
  k0_off20_inb : ∀ k0_t3 : Fin k0_t3_loop.trips, ∀ a, (k0_off20 k0_t3) a + S1x16.size a ≤ S32x512.size a
  k0_off21_inb : ∀ k0_t3 : Fin k0_t3_loop.trips, ∀ a, (k0_off21 k0_t3) a + S1x16.size a ≤ S32x512.size a
  k0_off22_inb : ∀ k0_t3 : Fin k0_t3_loop.trips, ∀ a, (k0_off22 k0_t3) a + S1x16.size a ≤ S32x512.size a
  k0_off23_inb : ∀ k0_t3 : Fin k0_t3_loop.trips, ∀ a, (k0_off23 k0_t3) a + S1x16.size a ≤ S32x512.size a
  k0_off24_inb : ∀ k0_t3 : Fin k0_t3_loop.trips, ∀ a, (k0_off24 k0_t3) a + S1x16.size a ≤ S32x512.size a
  k0_off25_inb : ∀ k0_t3 : Fin k0_t3_loop.trips, ∀ a, (k0_off25 k0_t3) a + S1x16.size a ≤ S32x512.size a
  k0_off26_inb : ∀ k0_t3 : Fin k0_t3_loop.trips, ∀ a, (k0_off26 k0_t3) a + S1x16.size a ≤ S32x512.size a
  k0_off27_inb : ∀ k0_t3 : Fin k0_t3_loop.trips, ∀ a, (k0_off27 k0_t3) a + S1x16.size a ≤ S32x512.size a
  k0_off28_inb : ∀ k0_t3 : Fin k0_t3_loop.trips, ∀ a, (k0_off28 k0_t3) a + S1x16.size a ≤ S32x512.size a
  k0_off29_inb : ∀ k0_t3 : Fin k0_t3_loop.trips, ∀ a, (k0_off29 k0_t3) a + S1x16.size a ≤ S32x512.size a
  k0_off30_inb : ∀ k0_t3 : Fin k0_t3_loop.trips, ∀ a, (k0_off30 k0_t3) a + S1x16.size a ≤ S32x512.size a
  k0_off31_inb : ∀ k0_t3 : Fin k0_t3_loop.trips, ∀ a, (k0_off31 k0_t3) a + S1x16.size a ≤ S32x512.size a
  k0_off32_inb : ∀ k0_t3 : Fin k0_t3_loop.trips, ∀ a, (k0_off32 k0_t3) a + S1x16.size a ≤ S32x512.size a
  k0_off33_inb : ∀ k0_t3 : Fin k0_t3_loop.trips, ∀ a, (k0_off33 k0_t3) a + S1x16.size a ≤ S32x512.size a
  k0_off34_inb : ∀ k0_t3 : Fin k0_t3_loop.trips, ∀ a, (k0_off34 k0_t3) a + S1x16.size a ≤ S32x512.size a
  k0_off35_inb : ∀ k0_t3 : Fin k0_t3_loop.trips, ∀ a, (k0_off35 k0_t3) a + S1x16.size a ≤ S32x512.size a
  k0_off36_inb : ∀ k0_t3 : Fin k0_t3_loop.trips, ∀ a, (k0_off36 k0_t3) a + S1x16.size a ≤ S32x512.size a
  k0_off37_inb : ∀ (i : grid0.Coords) (k0_t2 : Fin k0_t2_loop.trips), ∀ a, (k0_off37 i k0_t2) a + S1x32x512.size a ≤ S16x512x512.size a
  k0_t4_ok : k0_t4_loop.OK
  k0_off38_inb : ∀ k0_t4 : Fin k0_t4_loop.trips, ∀ a, (k0_off38 k0_t4) a + S1x16.size a ≤ S32x512.size a
  k0_off39_inb : ∀ k0_t4 : Fin k0_t4_loop.trips, ∀ a, (k0_off39 k0_t4) a + S1x16.size a ≤ S32x512.size a
  k0_off40_inb : ∀ k0_t4 : Fin k0_t4_loop.trips, ∀ a, (k0_off40 k0_t4) a + S1x16.size a ≤ S32x512.size a
  k0_off41_inb : ∀ k0_t4 : Fin k0_t4_loop.trips, ∀ a, (k0_off41 k0_t4) a + S1x16.size a ≤ S32x512.size a
  k0_off42_inb : ∀ k0_t4 : Fin k0_t4_loop.trips, ∀ a, (k0_off42 k0_t4) a + S1x16.size a ≤ S32x512.size a
  k0_off43_inb : ∀ k0_t4 : Fin k0_t4_loop.trips, ∀ a, (k0_off43 k0_t4) a + S1x16.size a ≤ S32x512.size a
  k0_off44_inb : ∀ k0_t4 : Fin k0_t4_loop.trips, ∀ a, (k0_off44 k0_t4) a + S1x16.size a ≤ S32x512.size a
  k0_off45_inb : ∀ k0_t4 : Fin k0_t4_loop.trips, ∀ a, (k0_off45 k0_t4) a + S1x16.size a ≤ S32x512.size a
  k0_off46_inb : ∀ k0_t4 : Fin k0_t4_loop.trips, ∀ a, (k0_off46 k0_t4) a + S1x16.size a ≤ S32x512.size a
  k0_off47_inb : ∀ k0_t4 : Fin k0_t4_loop.trips, ∀ a, (k0_off47 k0_t4) a + S1x16.size a ≤ S32x512.size a
  k0_off48_inb : ∀ k0_t4 : Fin k0_t4_loop.trips, ∀ a, (k0_off48 k0_t4) a + S1x16.size a ≤ S32x512.size a
  k0_off49_inb : ∀ k0_t4 : Fin k0_t4_loop.trips, ∀ a, (k0_off49 k0_t4) a + S1x16.size a ≤ S32x512.size a
  k0_off50_inb : ∀ k0_t4 : Fin k0_t4_loop.trips, ∀ a, (k0_off50 k0_t4) a + S1x16.size a ≤ S32x512.size a
  k0_off51_inb : ∀ k0_t4 : Fin k0_t4_loop.trips, ∀ a, (k0_off51 k0_t4) a + S1x16.size a ≤ S32x512.size a
  k0_off52_inb : ∀ k0_t4 : Fin k0_t4_loop.trips, ∀ a, (k0_off52 k0_t4) a + S1x16.size a ≤ S32x512.size a
  k0_off53_inb : ∀ k0_t4 : Fin k0_t4_loop.trips, ∀ a, (k0_off53 k0_t4) a + S1x16.size a ≤ S32x512.size a
  k0_off54_inb : ∀ k0_t4 : Fin k0_t4_loop.trips, ∀ a, (k0_off54 k0_t4) a + S1x16.size a ≤ S32x512.size a
  k0_off55_inb : ∀ k0_t4 : Fin k0_t4_loop.trips, ∀ a, (k0_off55 k0_t4) a + S1x16.size a ≤ S32x512.size a
  k0_off56_inb : ∀ k0_t4 : Fin k0_t4_loop.trips, ∀ a, (k0_off56 k0_t4) a + S1x16.size a ≤ S32x512.size a
  k0_off57_inb : ∀ k0_t4 : Fin k0_t4_loop.trips, ∀ a, (k0_off57 k0_t4) a + S1x16.size a ≤ S32x512.size a
  k0_off58_inb : ∀ k0_t4 : Fin k0_t4_loop.trips, ∀ a, (k0_off58 k0_t4) a + S1x16.size a ≤ S32x512.size a
  k0_off59_inb : ∀ k0_t4 : Fin k0_t4_loop.trips, ∀ a, (k0_off59 k0_t4) a + S1x16.size a ≤ S32x512.size a
  k0_off60_inb : ∀ k0_t4 : Fin k0_t4_loop.trips, ∀ a, (k0_off60 k0_t4) a + S1x16.size a ≤ S32x512.size a
  k0_off61_inb : ∀ k0_t4 : Fin k0_t4_loop.trips, ∀ a, (k0_off61 k0_t4) a + S1x16.size a ≤ S32x512.size a
  k0_off62_inb : ∀ k0_t4 : Fin k0_t4_loop.trips, ∀ a, (k0_off62 k0_t4) a + S1x16.size a ≤ S32x512.size a
  k0_off63_inb : ∀ k0_t4 : Fin k0_t4_loop.trips, ∀ a, (k0_off63 k0_t4) a + S1x16.size a ≤ S32x512.size a
  k0_off64_inb : ∀ k0_t4 : Fin k0_t4_loop.trips, ∀ a, (k0_off64 k0_t4) a + S1x16.size a ≤ S32x512.size a
  k0_off65_inb : ∀ k0_t4 : Fin k0_t4_loop.trips, ∀ a, (k0_off65 k0_t4) a + S1x16.size a ≤ S32x512.size a
  k0_off66_inb : ∀ k0_t4 : Fin k0_t4_loop.trips, ∀ a, (k0_off66 k0_t4) a + S1x16.size a ≤ S32x512.size a
  k0_off67_inb : ∀ k0_t4 : Fin k0_t4_loop.trips, ∀ a, (k0_off67 k0_t4) a + S1x16.size a ≤ S32x512.size a
  k0_off68_inb : ∀ k0_t4 : Fin k0_t4_loop.trips, ∀ a, (k0_off68 k0_t4) a + S1x16.size a ≤ S32x512.size a
  k0_off69_inb : ∀ k0_t4 : Fin k0_t4_loop.trips, ∀ a, (k0_off69 k0_t4) a + S1x16.size a ≤ S32x512.size a
  k0_off70_inb : ∀ i : grid0.Coords, ∀ a, (k0_off70 i) a + S1x65536.size a ≤ S32x65536.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x32768.size a ≤ S32x65536.size a
  hwx1_0 : ∀ i : grid1.Coords, EltTy.bits .f32 = 32 ∨ (Rect.block (s := S32x65536) S32x32768.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x32768.size a ≤ S64x65536.size a
  hwx1_1 : ∀ i : grid1.Coords, EltTy.bits .f32 = 32 ∨ (Rect.block (s := S64x65536) S64x32768.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S64x32768.size a ≤ S64x65536.size a
  hwx1_2 : ∀ i : grid1.Coords, EltTy.bits .f32 = 32 ∨ (Rect.block (s := S64x65536) S64x32768.size (cc1_transform_2 i) (hinb1_2 i)).WholeWords (EltTy.packing .f32)

variable [Facts₀]

abbrev cc0_scratch3 : DmaSems sig S_ := SemArray.consecutive 0 S_ hcc0_scratch3
abbrev cc0_scratch4 : DmaSems sig S_ := SemArray.consecutive 1 S_ hcc0_scratch4
abbrev cc0_scoped0 : DmaSems sig S_ := SemArray.consecutive 2 S_ hcc0_scoped0

abbrev win1_0 : Pipeline.Window sig grid1 :=
  Pipeline.Window.ofSpec (Memref.whole main_v0) S32x32768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S64x32768.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S64x32768.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S65536x64 : Shape := ⟨2, ![65536, 64]⟩
abbrev S16x512x512 : Shape := ⟨3, ![16, 512, 512]⟩
abbrev S4194304 : Shape := ⟨1, ![4194304]⟩
abbrev S_ : Shape := ⟨0, ![]⟩
abbrev S65536 : Shape := ⟨1, ![65536]⟩
abbrev S4194304x1 : Shape := ⟨2, ![4194304, 1]⟩
abbrev S65536x1 : Shape := ⟨2, ![65536, 1]⟩

abbrev nBuf : Space → Nat
  | .hbm => 19
  | .vmem => 0
  | .smem => 0
  | _ => 0

abbrev bufTy : (tb : Table) → Fin (tcTables nBuf tb) → BufTy
  | .hbm, ⟨0, _⟩ => ⟨S65536x64, .f32⟩
  | .hbm, ⟨1, _⟩ => ⟨S16x512x512, .i32⟩
  | .hbm, ⟨2, _⟩ => ⟨S4194304, .i32⟩
  | .hbm, ⟨3, _⟩ => ⟨S_, .f32⟩
  | .hbm, ⟨4, _⟩ => ⟨S65536, .f32⟩
  | .hbm, ⟨5, _⟩ => ⟨S_, .i32⟩
  | .hbm, ⟨6, _⟩ => ⟨S4194304, .i32⟩
  | .hbm, ⟨7, _⟩ => ⟨S4194304, .i1⟩
  | .hbm, ⟨8, _⟩ => ⟨S_, .i32⟩
  | .hbm, ⟨9, _⟩ => ⟨S4194304, .i32⟩
  | .hbm, ⟨10, _⟩ => ⟨S4194304, .i32⟩
  | .hbm, ⟨11, _⟩ => ⟨S4194304, .i32⟩
  | .hbm, ⟨12, _⟩ => ⟨S4194304x1, .i32⟩
  | .hbm, ⟨13, _⟩ => ⟨S_, .f32⟩
  | .hbm, ⟨14, _⟩ => ⟨S4194304, .f32⟩
  | .hbm, ⟨15, _⟩ => ⟨S65536, .f32⟩
  | .hbm, ⟨16, _⟩ => ⟨S65536x1, .f32⟩
  | .hbm, ⟨17, _⟩ => ⟨S65536x64, .f32⟩
  | .hbm, ⟨18, _⟩ => ⟨S65536x64, .f32⟩
  | _, _ => ⟨S65536x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  shapeCasts_S16x512x512_S4194304 : S16x512x512.ShapeCasts S4194304
  bcast_S_S65536 : S_.BroadcastsInDim S65536 (![] : Fin 0 → Fin S65536.rank)
  bcast_S_S4194304 : S_.BroadcastsInDim S4194304 (![] : Fin 0 → Fin S4194304.rank)
  bcast_S4194304_S4194304x1_0 : S4194304.BroadcastsInDim S4194304x1 (![0] : Fin 1 → Fin S4194304x1.rank)
  bcast_S65536_S65536x1_0 : S65536.BroadcastsInDim S65536x1 (![0] : Fin 1 → Fin S65536x1.rank)
  bcast_S65536x1_S65536x64_0_1 : S65536x1.BroadcastsInDim S65536x64 (![0, 1] : Fin 2 → Fin S65536x64.rank)
  scatter_S65536_S4194304x1_S4194304_n_0_0_1_wf : ScatterDims.WF S65536 S4194304x1 S4194304 [] [0] [0] 1

variable [Facts₀]

def scatter_S65536_S4194304x1_S4194304_n_0_0_1 : ScatterDims S65536 S4194304x1 S4194304 where
  updateWindowDims := []
  insertedWindowDims := [0]
  scatterDimsToOperandDims := [0]
  indexVectorDim := 1
  wf := scatter_S65536_S4194304x1_S4194304_n_0_0_1_wf

class Facts : Prop extends Facts₀ where

variable [Facts]
-- ==== Proof.HistSpec.lean ====
/- The histogram one vector subcore builds, as a pure function of the region map, for any float instance.
   A vector subcore owns rows [row0, row0 + 256) of one image. Its 65536 bins start at zero; every row contributes
   32 vectors of 16 region ids, and each vector is added into the bins by the indexed add (one unit per lane, the
   lanes taken in ascending order, several lanes naming one bin all landing). The function below is that fold,
   row after row, written so that one row's 32 indexed adds unfold to the nested term a run of the body leaves. -/
import Idealize.ShloMosaic.PureOps
import Idealize.ShloMosaic.Lib.ValueIdx

noncomputable section

namespace Cert.Hist

open Idealize.ShloMosaic Idealize.ShloMosaic.ValueIdx

abbrev SBins : Shape := ⟨1, ![65536]⟩
abbrev SLanes : Shape := ⟨1, ![16]⟩
abbrev SMap : Shape := ⟨3, ![16, 512, 512]⟩
abbrev SCounts : Shape := ⟨2, ![32, 65536]⟩

variable {F : FTy → Type} [FloatOps F]

/-- All bins at zero. -/
def hist₀ : FVec F SBins .f32 := fun _ => Scalar.ofBits .f32 0x00000000#32

/-- The unit every lane adds. -/
def ones : FVec F SLanes .f32 := broadcast SLanes (Scalar.ofBits .f32 0x3F800000#32)

/-- Every id of the vector names a bin. -/
def InBins (v : IVec SLanes 32) : Prop := ∀ a x, ((![v] : Fin 1 → IVec SLanes 32) a x).toNat < SBins.size a

instance (v : IVec SLanes 32) : Decidable (InBins v) := by unfold InBins; infer_instance

/-- One vector of 16 ids added into the bins (nothing, should an id name no bin). -/
def scat (g : FVec F SBins .f32) (v : IVec SLanes 32) : FVec F SBins .f32 :=
  if h : InBins v then storeIdx (e := .f32) g ![v] ones (fun _ => 1#1) true h else g

theorem scat_of_inBins (g : FVec F SBins .f32) (v : IVec SLanes 32) (h : InBins v) :
    scat g v = storeIdx (e := .f32) g ![v] ones (fun _ => 1#1) true h := dif_pos h

/-- Lanes [16 j, 16 j + 16) of row `row` of image `img`. -/
def laneVec (rm : IVec SMap 32) (img : Fin 16) (row : Fin 512) (j : Fin 32) : IVec SLanes 32 :=
  fun x => rm (ix3 img row ⟨16 * j.val + (x 0).val, by have h16 : (x 0).val < 16 := (x 0).isLt; have := j.isLt; omega⟩)

/-- The 32 vectors of a row, in the order the body adds them. -/
def lanes32 : List (Fin 32) := [0, 1, 2, 3, 4, 5, 6, 7, 8, 9, 10, 11, 12, 13, 14, 15, 16, 17, 18, 19, 20, 21, 22, 23, 24, 25, 26, 27, 28, 29, 30, 31]

/-- One row added into the bins. -/
def rowStep (rm : IVec SMap 32) (img : Fin 16) (g : FVec F SBins .f32) (row : Fin 512) : FVec F SBins .f32 :=
  lanes32.foldl (fun g j => scat g (laneVec rm img row j)) g

/-- The bins after the first `n` rows of the block that starts at row `row0`. -/
def histAfter (rm : IVec SMap 32) (img : Fin 16) (row0 : Nat) : Nat → FVec F SBins .f32
  | 0 => hist₀
  | n + 1 => if h : row0 + n < 512 then rowStep rm img (histAfter rm img row0 n) ⟨row0 + n, h⟩ else histAfter rm img row0 n

/-- Vector subcore number `w` (SparseCore `w / 16`, subcore `w % 16`) takes image `w / 2`, rows from `(w % 2) * 256`. -/
def tileHist (rm : IVec SMap 32) (w : Fin 32) : FVec F SBins .f32 :=
  histAfter rm ⟨w.val / 2, by have := w.isLt; omega⟩ ((w.val % 2) * 256) 256

/-- The 32 partial histograms as one [32, 65536] array, row `w` the bins of vector subcore `w`. -/
def countsOf (rm : IVec SMap 32) : FVec F SCounts .f32 := fun i => tileHist rm (i 0) (ix1 (i 1))

/-- How many pixels of vector subcore `w`'s block carry the id `m`. -/
def cnt (rm : IVec SMap 32) (w : Fin 32) (m : Fin 65536) : ℕ :=
  (Finset.univ.filter fun p : Fin 256 × Fin 512 =>
    (rm (ix3 ⟨w.val / 2, by have := w.isLt; omega⟩
      ⟨(w.val % 2) * 256 + p.1.val, by have := p.1.isLt; have := Nat.mod_lt w.val (show 0 < 2 by decide); omega⟩ p.2)).toNat = m.val).card

/-- How many pixels of the whole map carry the id `m`. -/
def total (rm : IVec SMap 32) (m : Fin 65536) : ℕ := (Finset.univ.filter fun i : SMap.Idx => (rm i).toNat = m.val).card

end Cert.Hist

end
-- ==== Proof.SetupI.lean ====
/- The idealized kernel as the SparseCore launch theorem sees it: the program's names, the proof's resource
   algebra, and what the one SparseCore call hands each vector subcore and takes back.
   Vector subcore w = 16·c + s of the device reads the region map (a read share of the whole array, returned
   unchanged) and owns row w of the [32, 65536] counts array, which it returns holding its block's histogram. -/
import proofs.«218041_g60507499266918_cont_9to1_m_1358_18_alg».proof.Defs
import proofs.«218041_g60507499266918_cont_9to1_m_1358_18_alg».proof.Proof.Gen.KernelIdeal
import proofs.«218041_g60507499266918_cont_9to1_m_1358_18_alg».proof.Proof.Gen.KernelIdeal.Skeleton
import proofs.«218041_g60507499266918_cont_9to1_m_1358_18_alg».proof.Proof.HistSpec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the TensorCore pipeline's staging cells, the transfers' counters -/

abbrev UH : Type := URounds (GSem nD τ sig) ℕ
abbrev UP : Type := URounds (GSem nD τ sig) Unit
abbrev UU : Type := UH × (UP × Counters)

abbrev MM (F : FTy → Type) : Type := MT nD τ sig (HIx 1) (Elt F) ℕ UU ℕ

abbrev EH : Emb UH (MM F) := embL
def EP : Emb UP (MM F) := (Emb.inl : Emb UP (UP × Counters)).trans embR

instance EP_landsIn : (EP : Emb UP (MM F)).LandsIn (upEmb : UEmb _ (MM F)) := by unfold EP; infer_instance

/-! ## The launch memory and the arrays -/

variable (m : (ℓ : Loc nD τ sig) → Buf (Elt F) ℓ) (ρ : Dev nD → PrngReg)

abbrev tblLoc (d : Dev nD) : Loc nD τ sig := (SparseCore.T d).loc main_arg0
abbrev mapLoc (d : Dev nD) : Loc nD τ sig := (SparseCore.T d).loc main_arg1
abbrev cntLoc (d : Dev nD) : Loc nD τ sig := (SparseCore.T d).loc main_v0

/-- The region map at launch, as a vector of words. -/
abbrev rmOf (d : Dev nD) : IVec S16x512x512 32 := m (mapLoc d)

variable [FloatOps F]

/-- The counts array once every vector subcore has written its row. -/
abbrev cntOf (d : Dev nD) : Buf (Elt F) (cntLoc d) := Cert.Hist.countsOf (F := F) (rmOf m d)

-- the kernel's memrefs, as the body table passes them
abbrev aV : Memref sig .scVector .hbm S16x512x512 .i32 := Memref.whole main_arg1_scv
abbrev oV : Memref sig .scVector .hbm S32x65536 .f32 := Memref.whole main_v0_scv
abbrev sH : Memref sig .scVector .vmem S65536 .f32 := Memref.whole cc0_scratch0
abbrev sB0 : Memref sig .scVector .vmem S32x512 .i32 := Memref.whole cc0_scratch1
abbrev sB1 : Memref sig .scVector .vmem S32x512 .i32 := Memref.whole cc0_scratch2

/-- Row `w` of the counts array, as a set of its indices. -/
abbrev cntRow (w : Fin 32) : Finset S32x65536.Idx := Finset.univ.filter fun j => (j 0).val = w.val

/-- Vector subcore number of (SparseCore `c`, subcore `i`). -/
abbrev widOf (c : Fin 2) (i : Fin 16) : Fin 32 := ⟨16 * c.val + i.val, by have := c.isLt; have := i.isLt; omega⟩

/-- The read share of the region map vector subcore `w` is lent. -/
abbrev mapTok (w : Fin 32) : PosShare TreeShare := shareTok fullShare 32 w

abbrev mapTokPts (d : Dev nD) (w : Fin 32) : sProp (MM F) := mapLoc d ↦{mapTok w} m (mapLoc d)
abbrev cntRowPts (d : Dev nD) (w : Fin 32) (f : Buf (Elt F) (cntLoc d)) : sProp (MM F) := cntLoc d ↦[cntRow w]{fullShare} f

/-- What a task is handed, and what it hands back. -/
abbrev goOf (d : Dev nD) (w : Fin 32) : sProp (MM F) := iprop(mapTokPts m d w ∗ cntRowPts d w (m (cntLoc d)))
abbrev tdOf (d : Dev nD) (w : Fin 32) : sProp (MM F) := iprop(mapTokPts m d w ∗ cntRowPts d w (cntOf m d))

/-- The one call: a SparseCore takes its sixteen tasks' shares and rows, and brings them back. -/
def P : (K (F := F)).Pay (nD := nD) (Val := Elt F) (Name := ℕ) (U := UU) where
  st := fun q d c => match q with
    | 0 => bigSep Finset.univ fun i : Fin 16 => goOf m d (widOf (Fin.cast nCore_zero c) i)
  dn := fun q d c => match q with
    | 0 => bigSep Finset.univ fun i : Fin 16 => tdOf m d (widOf (Fin.cast nCore_zero c) i)
  go := fun q d c i => match q with
    | 0 => goOf m d (widOf (Fin.cast nCore_zero c) (Fin.cast nSub_zero i))
  td := fun q d c i => match q with
    | 0 => tdOf m d (widOf (Fin.cast nCore_zero c) (Fin.cast nSub_zero i))
  x := fun _ _ => iprop(emp)

instance P_storable : (P (F := F) m).IsStorable where
  st q d c := match q with | 0 => by unfold P; infer_instance
  dn q d c := match q with | 0 => by unfold P; infer_instance
  go q d c i := match q with | 0 => by unfold P; infer_instance
  td q d c i := match q with | 0 => by unfold P; infer_instance

end Cert.Proof.KI

end
-- ==== Proof.RegionI.lean ====
/- The TensorCore's part of the program after the SparseCore call: the table transposed, the scaling kernel
   region over the two halves of the columns, and the result transposed back. This module: the program's tail, the
   region's proof data, and the kernel body at a point of the grid. -/
import proofs.«218041_g60507499266918_cont_9to1_m_1358_18_alg».proof.Proof.SetupI
import proofs.«218041_g60507499266918_cont_9to1_m_1358_18_alg».proof.Proof.Gen.KernelIdeal.Launch
import proofs.«218041_g60507499266918_cont_9to1_m_1358_18_alg».proof.Proof.Gen.KernelIdeal.Points
import Idealize.ShloMosaic.Lib.Pipeline.FrameBody
import Idealize.ShloMosaic.Lib.Pipeline.Regions
import Idealize.ShloMosaic.Lib.Pipeline.Value

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-! ## The program after the SparseCore call -/

/-- The three statements of the program after the SparseCore call. -/
def mainTail (d : Dev nD) : Prog (TpuEff nD τ sig (Elt F) (SparseCore.Sig (ΛP (F := F)) 1) .tc) PUnit := do
  hlo rfl (StableHlo.unary main_arg0 main_v1 ((transpose S64x65536 [1, 0] · transposes_S65536x64_S64x65536_1_0) : (⟨S65536x64, .f32⟩ : BufTy).Contents (Elt F) → (⟨S64x65536, .f32⟩ : BufTy).Contents (Elt F))) (fun _ => .ret ⟨⟩)
  Prog.lift (.customCall (SparseCore.inner (Pipeline.entry 0)) ())
  hlo rfl (StableHlo.unary main_v2 main_v3 ((transpose S65536x64 [1, 0] · transposes_S64x65536_S65536x64_1_0) : (⟨S64x65536, .f32⟩ : BufTy).Contents (Elt F) → (⟨S65536x64, .f32⟩ : BufTy).Contents (Elt F))) (fun _ => .ret ⟨⟩)
  pure ⟨⟩

theorem main_eq (d : Dev nD) : main (F := F) d = (sc (F := F)).run d 0 >>= fun _ => mainTail d := rfl

/-! ## The staging cells' ghost state -/

/-- No prefetched table: the one admissible choice. -/
abbrev adm : (p : Fin 1) → (pcfgs (F := F) p).Adm := fun p => (cfgs p).toPCfg_adm

/-- The launch element of the region's staging cells and transfers. -/
def uP₀ : UP := initOf (Pipeline.cells cfgs cellOf_inj) (Pipeline.launchToks cfgs cellOf_inj)

/-- What a device's TensorCore holds of it: its staging cells' launch state and its transfers' tokens. -/
def GP (d : Dev nD) : sProp (MM F) := iprop(Pipeline.cellsGhost cfgs EP 0 d ∗ Pipeline.toksInit cfgs EP 0 d)

theorem fundGP : (BI.own (EP (F := F) uP₀) : sProp (MM F)) ⊢ |==> bigSep Finset.univ (GP (F := F)) := by
  have h1 : ∀ Φ : Fin 1 → sProp (MM F), bigSep Finset.univ Φ = Φ 0 := fun Φ => by
    rw [show (Finset.univ : Finset (Fin 1)) = {0} from by decide, bigSep_singleton]
  unfold uP₀ GP
  refine (Pipeline.fund_ghost cfgs EP cellOf_inj).trans (bupd_mono ?_)
  simp only [h1]
  exact BI.Entails.refl _

/-! ## The region's arrays and their blocks -/

/-- The table as the region finds it: transposed to [64, 65536]. -/
abbrev tblT (tbl : FVec F S65536x64 .f32) : FVec F S64x65536 .f32 := transpose S64x65536 [1, 0] tbl transposes_S65536x64_S64x65536_1_0

variable (tbl : FVec F S65536x64 .f32) (Cn : FVec F S32x65536 .f32) (f2 : FVec F S64x65536 .f32)

/-- The three arrays the region moves, as it finds them: the counts, the transposed table, and the result's array
    at whatever it held. -/
def arr0 (c : Dev nD) : (w : Fin cfg1.W) → Buf (Elt F) ((cfg1.win w).arr.view.loc (c : Thread nD τ))
  | ⟨0, _⟩ => Cn
  | ⟨1, _⟩ => tblT tbl
  | ⟨2, _⟩ => f2

/-- Window `w`'s block at point `t`, read off its array. -/
def iblk (c : Dev nD) (w : Fin cfg1.W) (t : Fin cfg1.N) : ((cfg1.win w).xblock (cfg1.grid.coords t)).Idx → Elt F (cfg1.win w).elt :=
  ((cfg1.win w).blk t).view.read (Elt F) (arr0 tbl Cn f2 c w)

/-! ## The kernel body at a point -/

abbrev r32 : Rect S32x32768 := Rect.unit (s := S32x32768) ![0, 0] S32x32768.size inb_S32x32768_S32x32768_0_0
abbrev r64 : Rect S64x32768 := Rect.unit (s := S64x32768) ![0, 0] S64x32768.size inb_S64x32768_S64x32768_0_0

/-- The result's staging buffer after the body, from the two input blocks: its one store, of the scaled block. -/
def out2 (x0 : Vec F S32x32768 .f32) (x1 : Vec F S64x32768 .f32) : Vec F S64x32768 .f32 :=
  View.canon [⟨r64, k1_pay1 (View.ld x0 r32) (View.ld x1 r64)⟩]

theorem cover2 (p0 : Vec F S64x32768 .f32) (y : S64x32768.Idx) :
    ∃ pc ∈ ([⟨r64, p0⟩] : List (View.Piece (Elt F) S64x32768 .f32)), y ∈ pc.1.set :=
  View.cover_of_tiled [⟨r64, p0⟩] S64x32768.size (by rfl) y

set_option maxHeartbeats 1000000 in
/-- The body on whole staging memrefs: the two inputs stay as they were, the result's buffer ends at `out2` of them. -/
theorem sound_kernel (c : Dev nD) (E : Set ℕ) (i : grid1.Coords) (arg1 : Memref sig .tc .vmem S32x32768 .f32) (harg1 : arg1.IsWhole) (arg2 : Memref sig .tc .vmem S64x32768 .f32) (harg2 : arg2.IsWhole) (arg3 : Memref sig .tc .vmem S64x32768 .f32) (harg3 : arg3.IsWhole)
    (x0 : Vec F S32x32768 .f32) (x1 : Vec F S64x32768 .f32) (K : PUnit → sProp (MM F)) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2 x0 x1)) -∗ K ⟨⟩))
      ⊢ wp frame (wpE (defs₀ (F := F)) Variants.none c none) E (cc1__scale_body i arg1 harg1 arg2 harg2 arg3 harg3) K := by
  simp only [cc1__scale_body_eq_skeleton]; unfold cc1__scale_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-! ## The region's proof data -/

/-- The proof data on core `c`: the arrays as the region finds them; after the body at point `t` each input's buffer
    at its block and the result's at `out2` of the input blocks; the invariant the scoped buffers no window stages;
    nothing owed; full shares. -/
def dats (_ : Fin 1) (c : Dev nD) : Dat τ (Elt F) (HIx 1) ℕ UU ℕ cfg1 c where
  A w := arr0 tbl Cn f2 c w
  after w t := match w with
    | ⟨0, _⟩ => iblk tbl Cn f2 c 0 t
    | ⟨1, _⟩ => iblk tbl Cn f2 c 1 t
    | ⟨2, _⟩ => out2 (iblk tbl Cn f2 c 0 t) (iblk tbl Cn f2 c 1 t)
  Φ _ := Pipeline.scopedRest (Ix := HIx 1) (Name := ℕ) (U := UU) (Lvl := ℕ) (Val := Elt F) spec1 c
  q _ := fullShare
  owed _ := 0

theorem A_eq (c : Dev nD) (w : Fin cfg1.W) : (dats tbl Cn f2 0 c).A w = arr0 tbl Cn f2 c w := by
  dsimp only [dats]

theorem after_0 (c : Dev nD) (t : Fin cfg1.N) : (dats tbl Cn f2 0 c).after 0 t = iblk tbl Cn f2 c 0 t := by dsimp only [dats]
theorem after_1 (c : Dev nD) (t : Fin cfg1.N) : (dats tbl Cn f2 0 c).after 1 t = iblk tbl Cn f2 c 1 t := by dsimp only [dats]
theorem after_2 (c : Dev nD) (t : Fin cfg1.N) : (dats tbl Cn f2 0 c).after 2 t = out2 (iblk tbl Cn f2 c 0 t) (iblk tbl Cn f2 c 1 t) := by dsimp only [dats]

/-- Each input's current staging buffer holds its block at every point. -/
theorem before_0 (c : Dev nD) (t : Fin cfg1.N) (d) : (dats tbl Cn f2 0 c).before 0 t d = iblk tbl Cn f2 c 0 t :=
  ((dats tbl Cn f2 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dats tbl Cn f2 0 c).before 1 t d = iblk tbl Cn f2 c 1 t :=
  ((dats tbl Cn f2 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-- What the body is called with at point `t`, the windows one by one, -/
def bodyPre (c : Dev nD) (t : Fin cfg1.N) : sProp (MM F) :=
  iprop((dats tbl Cn f2 0 c).Φ t.castSucc ∗ (dats tbl Cn f2 0 c).owesAt (none : HIx 1) t.castSucc
    ∗ (∃ d, owns (c : Thread nD τ) (st1_0 t) fullShare ((dats tbl Cn f2 0 c).before 0 t d))
    ∗ (∃ d, owns (c : Thread nD τ) (st1_1 t) fullShare ((dats tbl Cn f2 0 c).before 1 t d))
    ∗ (∃ d, owns (c : Thread nD τ) (st1_2 t) fullShare ((dats tbl Cn f2 0 c).before 2 t d)))

/-- and what it returns. -/
def bodyPost (c : Dev nD) (t : Fin cfg1.N) : sProp (MM F) :=
  iprop((dats tbl Cn f2 0 c).Φ t.succ ∗ (dats tbl Cn f2 0 c).owesAt (none : HIx 1) t.succ
    ∗ owns (c : Thread nD τ) (st1_0 t) fullShare ((dats tbl Cn f2 0 c).after 0 t)
    ∗ owns (c : Thread nD τ) (st1_1 t) fullShare ((dats tbl Cn f2 0 c).after 1 t)
    ∗ owns (c : Thread nD τ) (st1_2 t) fullShare ((dats tbl Cn f2 0 c).after 2 t))

/-- The body at any point: the inputs' memrefs hold their blocks, so `sound_kernel` applies; the invariant and the
    core's dues pass through unread. -/
theorem sound_body (c : Dev nD) (t : Fin cfg1.N) :
    bodyPre tbl Cn f2 c t ⊢ wp frame (wpE (defs₀ (F := F)) Variants.none c none) Set.univ (bodyAt1 t) (fun _ => bodyPost tbl Cn f2 c t) := by
  unfold bodyPre bodyPost bodyAt1
  simp only [before_0, before_1]
  rw [show (dats tbl Cn f2 0 c).Φ t.succ = (dats tbl Cn f2 0 c).Φ t.castSucc from rfl,
    show (dats tbl Cn f2 0 c).owesAt (none : HIx 1) t.succ = (dats tbl Cn f2 0 c).owesAt (none : HIx 1) t.castSucc from rfl,
    after_0, after_1, after_2]
  iintro ⟨HΦ, Ho, ⟨%d0, H0⟩, ⟨%d1, H1⟩, ⟨%d2, H2⟩⟩
  iapply (sound_kernel c Set.univ (grid1.coords t) _ _ _ _ _ _ (iblk tbl Cn f2 c 0 t) (iblk tbl Cn f2 c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's triple at every point of the grid. -/
theorem body_obligation (c : Dev nD) : BodyObligation (dats tbl Cn f2 0 c) (defs₀ (F := F)) Variants.none (none : HIx 1) Set.univ := fun t => by
  rw [bigSep_W1, bigSep_W1]
  exact sound_body tbl Cn f2 c t

/-! ## The result array as one function of the table and the counts -/

/-- The half of the columns an index of a [64, 65536] array lies in, -/
def halfOf (i : S64x65536.Idx) : Fin 2 := ⟨(i 1).val / 32768, by have := idx2_lt1 i; omega⟩
/-- and the index inside that half's [64, 32768] block. -/
def colIn (i : S64x65536.Idx) : S64x32768.Idx :=
  ix2 (⟨(i 0).val, idx2_lt0 i⟩ : Fin 64) (⟨(i 1).val % 32768, Nat.mod_lt _ (by decide)⟩ : Fin 32768)

/-- Half `h` of the columns of the counts: columns [32768 h, 32768 (h + 1)). -/
def cntHalf (Cn : FVec F S32x65536 .f32) (h : Fin 2) : Vec F S32x32768 .f32 := fun j =>
  Cn (ix2 (⟨(j 0).val, idx2_lt0 j⟩ : Fin 32) (⟨32768 * h.val + (j 1).val, by have := idx2_lt1 j; have := h.isLt; omega⟩ : Fin 65536))
/-- Half `h` of the columns of the transposed table. -/
def tblHalf (V1 : FVec F S64x65536 .f32) (h : Fin 2) : Vec F S64x32768 .f32 := fun j =>
  V1 (ix2 (⟨(j 0).val, idx2_lt0 j⟩ : Fin 64) (⟨32768 * h.val + (j 1).val, by have := idx2_lt1 j; have := h.isLt; omega⟩ : Fin 65536))

/-- What the region leaves in its result array: over each half of the columns, the kernel's scaled block of that
    half of the transposed table and of the counts. -/
def G2 (tbl : FVec F S65536x64 .f32) (Cn : FVec F S32x65536 .f32) : FVec F S64x65536 .f32 := fun i =>
  k1_pay1 (cntHalf Cn (halfOf i)) (tblHalf (tblT tbl) (halfOf i)) (colIn i)

/-- What the program's result holds at the end: that array transposed back to [65536, 64]. -/
def outOf (tbl : FVec F S65536x64 .f32) (Cn : FVec F S32x65536 .f32) : FVec F S65536x64 .f32 :=
  transpose S65536x64 [1, 0] (G2 tbl Cn) transposes_S64x65536_S65536x64_1_0

end Cert.Proof.KI

end
-- ==== Proof.RegionI2.lean ====
/- The TensorCore's part of the program after the SparseCore call, continued: the region's two write-backs make
   its result array the one function `G2` of the table and the counts; how the region is entered and left; and
   the run of the program's tail. -/
import proofs.«218041_g60507499266918_cont_9to1_m_1358_18_alg».proof.Proof.RegionI

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (tbl : FVec F S65536x64 .f32) (Cn : FVec F S32x65536 .f32) (f2 : FVec F S64x65536 .f32)

theorem hz : (![0, 0] : Fin 2 → Nat) = fun _ => 0 := funext fun a => by fin_cases a <;> rfl

/-- The grid's point as a half of the columns. -/
def hIdx (t : Fin cfg1.N) : Fin 2 := ⟨t.val, t.isLt.trans_eq N_1⟩

/-- The printed index maps over the grid: every window's block at point `t` is rows from 0, columns from 32768 t. -/
theorem idx_facts : ∀ t : Fin cfg1.N, win1_0.index t (0 : Fin 2) = 0 ∧ win1_0.index t (1 : Fin 2) = t.val
    ∧ win1_1.index t (0 : Fin 2) = 0 ∧ win1_1.index t (1 : Fin 2) = t.val
    ∧ win1_2.index t (0 : Fin 2) = 0 ∧ win1_2.index t (1 : Fin 2) = t.val :=
  (by decide +kernel : ∀ t : Fin grid1.N, _)

theorem iblk_0 (c : Dev nD) (t : Fin cfg1.N) : iblk tbl Cn f2 c 0 t = cntHalf Cn (hIdx t) := by
  obtain ⟨e0, e1, -, -, -, -⟩ := idx_facts t
  funext j
  show Cn (((cfg1.win 0).blk t).view.emb j) = Cn _
  congr 1
  funext a; apply Fin.ext
  match a with
  | ⟨0, _⟩ => show win1_0.index t (0 : Fin 2) * 32 + 1 * (j 0).val = (j 0).val; omega
  | ⟨1, _⟩ => show win1_0.index t (1 : Fin 2) * 32768 + 1 * (j 1).val = 32768 * t.val + (j 1).val; omega

theorem iblk_1 (c : Dev nD) (t : Fin cfg1.N) : iblk tbl Cn f2 c 1 t = tblHalf (tblT tbl) (hIdx t) := by
  obtain ⟨-, -, e0, e1, -, -⟩ := idx_facts t
  funext j
  show tblT tbl (((cfg1.win 1).blk t).view.emb j) = tblT tbl _
  congr 1
  funext a; apply Fin.ext
  match a with
  | ⟨0, _⟩ => show win1_1.index t (0 : Fin 2) * 64 + 1 * (j 0).val = (j 0).val; omega
  | ⟨1, _⟩ => show win1_1.index t (1 : Fin 2) * 32768 + 1 * (j 1).val = 32768 * t.val + (j 1).val; omega

/-- What point `t` writes back is block `t` of `G2`. -/
theorem flushed_eq (c : Dev nD) (t : Fin cfg1.N) :
    (dats tbl Cn f2 0 c).flushed 2 t = ((cfg1.win 2).blk t).view.read (Elt F) (G2 tbl Cn) := by
  show (cfg1.win 2).cut (grid1.coords t) ((dats tbl Cn f2 0 c).after 2 t) = _
  rw [after_2]
  unfold out2
  rw [View.canon_unit_zero hz]
  simp only [View.ld_unit_zero (S := S32x32768) hz, View.ld_unit_zero (S := S64x32768) hz]
  rw [iblk_0, iblk_1]
  obtain ⟨-, -, -, -, e0, e1⟩ := idx_facts t
  funext j
  show k1_pay1 (cntHalf Cn (hIdx t)) (tblHalf (tblT tbl) (hIdx t)) j = G2 tbl Cn (((cfg1.win 2).blk t).view.emb j)
  unfold G2
  have hj0 := idx2_lt0 j
  have hj1 := idx2_lt1 j
  have h1 : halfOf (((cfg1.win 2).blk t).view.emb j) = hIdx t :=
    Fin.ext (show (win1_2.index t (1 : Fin 2) * 32768 + 1 * (j 1).val) / 32768 = t.val by omega)
  have h2 : colIn (((cfg1.win 2).blk t).view.emb j) = j := by
    funext a; apply Fin.ext
    match a with
    | ⟨0, _⟩ => show win1_2.index t (0 : Fin 2) * 64 + 1 * (j 0).val = (j 0).val; omega
    | ⟨1, _⟩ => show (win1_2.index t (1 : Fin 2) * 32768 + 1 * (j 1).val) % 32768 = (j 1).val; omega
  rw [h1, h2]

theorem mem_blk (t : Fin cfg1.N) (i : S64x65536.Idx) :
    i ∈ ((cfg1.win 2).blk t).view.set ↔ ∀ a : Fin 2, win1_2.index t a * S64x32768.size a ≤ (i a).val ∧ (i a).val < win1_2.index t a * S64x32768.size a + S64x32768.size a := by
  show i ∈ ((View.whole main_v2).slice (win1_2.rect t)).set ↔ _
  rw [View.set_slice_whole, Rect.mem_set_unit]
  exact Iff.rfl

/-- The two blocks cover the array. -/
theorem covered (i : S64x65536.Idx) : ∃ t : Fin cfg1.N, (cfg1.win 2).flush t = true ∧ i ∈ ((cfg1.win 2).blk t).view.set := by
  have hi0 := idx2_lt0 i
  have hi1 := idx2_lt1 i
  let t : Fin cfg1.N := ⟨(i 1).val / 32768, (show (i 1).val / 32768 < 2 by omega).trans_eq N_1.symm⟩
  obtain ⟨-, -, -, -, e0, e1⟩ := idx_facts t
  have e1' : win1_2.index t (1 : Fin 2) = (i 1).val / 32768 := e1
  refine ⟨t, flush1_2 t, ?_⟩
  rw [mem_blk]
  intro a
  match a with
  | ⟨0, _⟩ => show win1_2.index t (0 : Fin 2) * 64 ≤ (i 0).val ∧ (i 0).val < win1_2.index t (0 : Fin 2) * 64 + 64; omega
  | ⟨1, _⟩ => show win1_2.index t (1 : Fin 2) * 32768 ≤ (i 1).val ∧ (i 1).val < win1_2.index t (1 : Fin 2) * 32768 + 32768; omega

/-- The result array after the region. -/
theorem final2 (c : Dev nD) : (dats tbl Cn f2 0 c).arrAt 2 cfg1.N = G2 tbl Cn :=
  (dats tbl Cn f2 0 c).arrAt_eq_of_cover 2 (G2 tbl Cn) (fun t _ => flushed_eq tbl Cn f2 c t) covered

/-! ## The region: how it is entered and left -/

variable [∀ e, Nonempty (Elt F e)]

/-- What rides beside the arrays through the region: the core's dues, none. -/
abbrev R0 (c : Dev nD) : sProp (MM F) := iprop(∃ W, owes (c : Thread nD τ) (0 : CellTallies nD τ sig (HIx 1)) W)

set_option backward.isDefEq.respectTransparency.types false in
/-- The region: entered holding its three arrays and owing nothing, left with the arrays as the pipeline computes
    them; the kernel has no semaphore of its own and keeps nothing between points but the scoped buffers it does
    not touch. -/
def reg : Pipeline.RegionSeg (pcfgs (F := F)) adm (dats tbl Cn f2) (none : HIx 1) defs₀ 𝒱₀ (K (F := F)).L (K (F := F)).lev 0 where
  win := launch1.win.to₀
  block_pos := launch1.block_pos
  stage_whole := launch1.stage_whole
  K := PEmpty
  osem := fun k => k.elim
  ho := Pipeline.OwnSemFacts.none _
  hbody c := (body_obligation tbl Cn f2 c).loose
  hwaits := Pipeline.hwaits_of_owed_zero _ _ _ _ _ _ 0 fun _ _ => rfl
  pre c := iprop((dats tbl Cn f2 0 c).arrays ((dats tbl Cn f2 0 c).arrAt · 0) ∗ R0 c)
  post c := iprop((dats tbl Cn f2 0 c).arrays ((dats tbl Cn f2 0 c).arrAt · cfg1.N) ∗ R0 c)
  X c := iprop(emp)
  Y c := iprop(emp)
  Z c := iprop(emp)
  hentry c := by
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl <;> iempintro
  hin c := by
    rw [show (dats tbl Cn f2 0 c).Φ 0 = Pipeline.scopedRest (Ix := HIx 1) (Name := ℕ) (U := UU) (Lvl := ℕ) (Val := Elt F) spec1 c from rfl]
    iintro ⟨-, -, Hr⟩; iexact Hr
  hout c := by
    rw [show (dats tbl Cn f2 0 c).Φ (Fin.last cfg1.N) = Pipeline.scopedRest (Ix := HIx 1) (Name := ℕ) (U := UU) (Lvl := ℕ) (Val := Elt F) spec1 c from rfl]
    iintro Hr
    isplitr; · iempintro
    isplitr; · unfold Pipeline.ownSems0; rw [Finset.univ_eq_empty, BI.bigSep_empty]; iempintro
    iexact Hr
  hexit c := by
    iintro ⟨Ha, HO, -, -⟩
    imodintro
    isplitl [Ha]; · iexact Ha
    unfold Pipeline.Dat.owesAt Pipeline.owesWithin
    icases HO with ⟨%W, -, HO⟩; iexists W; iexact HO

/-! ## A host operation of one operand, over the two buffers it touches -/

variable (m : (ℓ : Loc nD τ sig) → Buf (Elt F) ℓ)

include m in
open Idealize.ShloMosaic.StableHlo (held wp_hlo_within) in
/-- A one-operand host operation at the head of a program, from the boundary and its two buffers whole: the
    continuation runs with the operand as it was and the result at the operation's value. -/
theorem wp_unary_at {Λ : Labels} (defs : Defs nD τ sig (Elt F) Λ) (d : Dev nD) (x y : Ref sig .tc) (hxy : x ≠ y)
    (f : x.ty.Contents (Elt F) → y.ty.Contents (Elt F)) (hx) (hy)
    (fx : Buf (Elt F) ((SparseCore.T d).loc x)) (fy : Buf (Elt F) ((SparseCore.T d).loc y))
    {α : Type} (k : Prog (TpuEff nD τ sig (Elt F) Λ (SparseCore.T d).2) α) (Q : α → sProp (MM F)) :
    iprop(boundary (SparseCore.T d) ∗ ((SparseCore.T d).loc x ↦{fullShare} fx) ∗ ((SparseCore.T d).loc y ↦{fullShare} fy)
        ∗ (iprop(boundary (SparseCore.T d) ∗ ((SparseCore.T d).loc x ↦{fullShare} fx) ∗ ((SparseCore.T d).loc y ↦{fullShare} f fx)) -∗ wp frame (wpE defs 𝒱 (SparseCore.T d) none) Set.univ k Q))
      ⊢ wp frame (wpE defs 𝒱 (SparseCore.T d) none) Set.univ (hlo rfl (StableHlo.unary x y f hx hy) fun _ => k) Q := by
  let x' : DevRef τ sig := Proc.devRef .tc x
  let y' : DevRef τ sig := Proc.devRef .tc y
  have hne : x' ≠ y' := StableHlo.devRef_ne_of_ne hxy
  let V0 : Valuation τ sig (Elt F) := Function.update (Function.update (fun b => m (d, b)) x' fx) y' fy
  have hVx : V0 x' = fx := (Function.update_of_ne hne _ _).trans (Function.update_self _ _ _)
  have hVy : V0 y' = fy := Function.update_self _ _ _
  have hheld : ∀ W : Valuation τ sig (Elt F), (held (SparseCore.T d) ({x', y'} : Finset (DevRef τ sig)) W : sProp (MM F))
      = iprop(((SparseCore.T d).loc x ↦{fullShare} W x') ∗ ((SparseCore.T d).loc y ↦{fullShare} W y')) := fun W => by
    unfold held
    rw [SparseCore.bigSep_insert' (Finset.mem_singleton.not.mpr hne), bigSep_singleton]
  have hpost : (held (SparseCore.T d) ({x', y'} : Finset (DevRef τ sig)) ((StableHlo.unary x y f hx hy).result V0) : sProp (MM F))
      = iprop(((SparseCore.T d).loc x ↦{fullShare} fx) ∗ ((SparseCore.T d).loc y ↦{fullShare} f fx)) := by
    rw [hheld, StableHlo.unary_result_ne x y f hx hy V0 hxy, StableHlo.unary_result x y f hx hy V0]
    rw [show V0 (Proc.devRef .tc x) = fx from hVx]
  iintro ⟨Hb, Hx, Hy, Hk⟩
  iapply (wp_hlo_within 𝒱 (SparseCore.T d) none Set.univ (op := StableHlo.unary x y f hx hy) (S := {x', y'}) (by rw [StableHlo.unary_bufs]) (V := V0)) $$ [Hb Hx Hy]
  · isplitl [Hb]; · iexact Hb
    rw [hheld, hVx, hVy]
    isplitl [Hx]; · iexact Hx
    iexact Hy
  iintro ⟨Hb, Hh⟩
  iapply Hk
  isplitl [Hb]; · iexact Hb
  iapply (Entails.of_eq hpost)
  iexact Hh

/-! ## The run of the program's tail -/

omit [FloatOps F] [∀ e, Nonempty (Elt F e)] in
/-- With one call, every recorded pair sits at or below the level the TensorCore's state after it asks. -/
theorem wBelow_all (d : Dev nD) (W : Waits sig (HIx 1)) : (K (F := F)).WBelow (SparseCore.T d) W (8 * 1) := fun p _ => by
  rcases hp : p.2 with _ | q
  · rw [SparseCore.Cfg.lev_none]; omega
  · have := (K (F := F)).lev_some_le (nD := nD) (SparseCore.T d, p.1) q
    have hq : q.val = 0 := by omega
    omega

set_option backward.isDefEq.respectTransparency.types false in
/-- The program after the SparseCore call, on device `d`'s TensorCore: from the table as launched, the counts at
    `Cn` and the three later arrays at anything, it ends with the table kept and the result at `outOf` of the table
    and the counts. -/
theorem tail_wp (κ : GSem nD τ sig → ℕ) (d : Dev nD) (Cn : Buf (Elt F) (cntLoc d)) :
    iprop((K (F := F)).ctx EH (P m) κ ∗ (K (F := F)).tcSt EH d 1 ∗ boundary (SparseCore.T d) ∗ GP d
        ∗ (tblLoc d ↦{fullShare} m (tblLoc d)) ∗ (cntLoc d ↦{fullShare} Cn)
        ∗ (∃ f, (SparseCore.T d).loc main_v1 ↦{fullShare} f) ∗ (∃ f, (SparseCore.T d).loc main_v2 ↦{fullShare} f) ∗ (∃ f, (SparseCore.T d).loc main_v3 ↦{fullShare} f))
      ⊢ wp frame (wpE ((K (F := F)).defs (D (F := F))) 𝒱 (SparseCore.T d) none) Set.univ (mainTail d)
          fun _ => iprop((K (F := F)).tcSt EH d 1 ∗ (tblLoc d ↦{fullShare} m (tblLoc d)) ∗ ((SparseCore.T d).loc main_v3 ↦{fullShare} outOf (m (tblLoc d)) Cn)) := by
  unfold SparseCore.Cfg.tcSt GP
  rw [show (K (F := F)).Otc d 1 = 0 from (K (F := F)).Otc_end d (Nat.le_refl 1)]
  unfold mainTail
  simp only [wp_bind, wp_pure]
  have hpre : ∀ f2 : FVec F S64x65536 .f32, (reg (m (tblLoc d)) Cn f2).pre d
      = iprop(((cntLoc d ↦{fullShare} Cn) ∗ ((SparseCore.T d).loc main_v1 ↦{fullShare} tblT (m (tblLoc d))) ∗ ((SparseCore.T d).loc main_v2 ↦{fullShare} f2)) ∗ R0 d) := fun f2 => by
    rw [show (reg (m (tblLoc d)) Cn f2).pre d = iprop((dats (m (tblLoc d)) Cn f2 0 d).arrays ((dats (m (tblLoc d)) Cn f2 0 d).arrAt · 0) ∗ R0 d) from rfl,
      Pipeline.arrays_eq cfgs (dats (m (tblLoc d)) Cn f2) 0 d launch1.arr_whole ((dats (m (tblLoc d)) Cn f2 0 d).share_full fun _ => rfl), bigSep_W1]
    rfl
  have hpost : ∀ f2 : FVec F S64x65536 .f32, (reg (m (tblLoc d)) Cn f2).post d
      = iprop(((cntLoc d ↦{fullShare} (dats (m (tblLoc d)) Cn f2 0 d).arrAt 0 cfg1.N) ∗ ((SparseCore.T d).loc main_v1 ↦{fullShare} (dats (m (tblLoc d)) Cn f2 0 d).arrAt 1 cfg1.N)
          ∗ ((SparseCore.T d).loc main_v2 ↦{fullShare} G2 (m (tblLoc d)) Cn)) ∗ R0 d) := fun f2 => by
    rw [show (reg (m (tblLoc d)) Cn f2).post d = iprop((dats (m (tblLoc d)) Cn f2 0 d).arrays ((dats (m (tblLoc d)) Cn f2 0 d).arrAt · cfg1.N) ∗ R0 d) from rfl,
      Pipeline.arrays_eq cfgs (dats (m (tblLoc d)) Cn f2) 0 d launch1.arr_whole ((dats (m (tblLoc d)) Cn f2 0 d).share_full fun _ => rfl), bigSep_W1, final2]
  iintro ⟨#Hctx, ⟨⟨%W, -, HO⟩, Hst⟩, Hb, ⟨Hcg, Htk⟩, Htbl, Hcnt, ⟨%f1, H1⟩, ⟨%f2, H2⟩, ⟨%f3, H3⟩⟩
  -- the table transposed into the second array
  iapply (wp_unary_at m _ d main_arg0 main_v1 (by decide) _ _ _ (m (tblLoc d)) f1 _ _) $$ [Hb Htbl H1 HO Hst Hcg Htk Hcnt H2 H3]
  isplitl [Hb]; · iexact Hb
  isplitl [Htbl]; · iexact Htbl
  isplitl [H1]; · iexact H1
  iintro ⟨Hb, Htbl, H1⟩
  rw [wp_ret]; imodintro
  -- the region, under the SparseCore launch's body table
  iapply ((K (F := F)).wp_liftProg (D (F := F)) 𝒱 (SparseCore.T d) Set.univ none (Prog.lift (.customCall (Pipeline.entry 0) ())) _)
  iapply (Pipeline.RegionSeg.wp (pcfgs (F := F)) adm (dats (m (tblLoc d)) Cn f2) (none : HIx 1) cellOf_inj EP defs₀ 𝒱₀ (K (F := F)).L (K (F := F)).lev
    (reg (m (tblLoc d)) Cn f2) d none (fun _ h => nomatch h) (fun x => .ret x) _) $$ [Hb Htbl H1 HO Hst Hcg Htk Hcnt H2 H3]
  isplitr [Hb Hcnt H1 H2 HO Hcg Htk]
  · iintro ⟨Hb, Hpost⟩
    rw [wp_ret]; imodintro
    ihave Hp := (Entails.of_eq (hpost f2)) $$ Hpost
    icases Hp with ⟨⟨-, -, H2⟩, ⟨%W', HO⟩⟩
    -- the result transposed back
    iapply (wp_unary_at m _ d main_v2 main_v3 (by decide) _ _ _ (G2 (m (tblLoc d)) Cn) f3 _ _) $$ [Hb H2 H3 HO Hst Htbl]
    isplitl [Hb]; · iexact Hb
    isplitl [H2]; · iexact H2
    isplitl [H3]; · iexact H3
    iintro ⟨Hb, H2, H3⟩
    rw [wp_ret]; imodintro; imodintro
    isplitl [HO Hst]
    · isplitl [HO]
      · iexists W'; isplitr; · ipureintro; exact wBelow_all d W'
        iexact HO
      iexact Hst
    isplitl [Htbl]; · iexact Htbl
    iexact H3
  isplitl [Hb]; · iexact Hb
  isplitl [Hcnt H1 H2 HO]
  · iapply (Entails.of_eq (hpre f2).symm)
    isplitl [Hcnt H1 H2]
    · isplitl [Hcnt]; · iexact Hcnt
      isplitl [H1]; · iexact H1
      iexact H2
    · iexists W; iexact HO
  isplitr; · iapply SparseCore.Cfg.ctx_levAts; iexact Hctx
  isplitl [Hcg]; · iexact Hcg
  iexact Htk

end Cert.Proof.KI

end
-- ==== Proof.TileDefsI.lean ====
/- Names shared by the vector subcore's task and the pure lemmas about it: which block of the region map a
   vector subcore counts, what a staged chunk holds, and the vector a load of sixteen lanes returns. -/
import proofs.«218041_g60507499266918_cont_9to1_m_1358_18_alg».proof.Proof.SetupI

noncomputable section

namespace Cert.Proof.KI

open Cert.KernelIdeal Cert.KernelIdeal.Gen
open Idealize.ShloMosaic
open Idealize.ShloMosaic.SparseCore (S V T)

variable {F : FTy → Type}
variable (m : (ℓ : Loc nD τ sig) → Buf (Elt F) ℓ)
variable (d : Dev nD) (L : grid0.Coords)

abbrev cV (L : grid0.Coords) : Fin τ.nSC := (L 0).castLE hcore0
abbrev jV (L : grid0.Coords) : Fin τ.nSub := (L 1).castLE hsub0
abbrev wL (L : grid0.Coords) : Fin 32 := ⟨16 * (L 0).val + (L 1).val, by have h0 : (L 0).val < 2 := (L 0).isLt; have h1 : (L 1).val < 16 := (L 1).isLt; omega⟩

/-- Every id of the launch map names a bin. -/
def PreOK : Prop := ∀ (d : Dev nD) (i : S16x512x512.Idx), ((rmOf m d) i).toNat < 65536

/-- The image and the first row of the block this vector subcore counts. -/
abbrev imgL (L : grid0.Coords) : Fin 16 := ⟨(wL L).val / 2, by have := (wL L).isLt; omega⟩
abbrev row0L (L : grid0.Coords) : Nat := ((wL L).val % 2) * 256

/-- Where chunk `c` (32 rows) of the block starts in the region map. -/
abbrev chunkOff (L : grid0.Coords) (c : Nat) : Fin 3 → Nat := ![(imgL L).val, row0L L + 32 * c, 0]

/-- A 32-row slice of the region map, as the body addresses it. -/
abbrev srcSl (off : Fin 3 → Nat) (inb : ∀ a, off a + S1x32x512.size a ≤ S16x512x512.size a) : Memref sig .scVector .hbm S32x512 .i32 :=
  ((aV : Memref sig .scVector .hbm S16x512x512 .i32).slice (Rect.unit (s := S16x512x512) off S1x32x512.size inb) (fun _ => rfl)).squeeze S32x512 squeezes_S1x32x512_S32x512

variable [FloatOps F]

/-- The staged rows are chunk `c` of the block. -/
def ChunkIs (c : Nat) (D : S32x512.Idx → Elt F .i32) : Prop :=
  ∀ (r : Fin 32) (col : Fin 512) (h : row0L L + 32 * c + r.val < 512), D (ValueIdx.ix2 r col) = rmOf m d (ValueIdx.ix3 (imgL L) ⟨row0L L + 32 * c + r.val, h⟩ col)

/-- The float zero every bin starts at. -/
abbrev z32 : Elt F .f32 := Scalar.ofBits .f32 0x00000000#32

/-- Bins below `1024 * k` hold zero. -/
def ZeroTo (k : Nat) (f : S65536.Idx → Elt F .f32) : Prop := ∀ y : S65536.Idx, (y 0).val < 1024 * k → f y = z32

/-- The sixteen lanes a load at `off` returns from a staging buffer that was overwritten whole with `D`. -/
abbrev ldV (sB : Memref sig .scVector .vmem S32x512 .i32) (D : S32x512.Idx → Elt F .i32) (off : Fin 2 → Nat)
    (inb : ∀ a, off a + S1x16.size a ≤ S32x512.size a) : IVec S16 32 :=
  shapeCast S16 (View.readAt (Elt F) sB.view (Rect.unit (s := S32x512) off S1x16.size inb).toLoadRect
    (sB.view.writes (Elt F) sB.view.junk [⟨Rect.whole S32x512, D⟩])) shapeCasts_S1x16_S16

/-- One indexed add of a vector of ids into the bins, as the machine's rule leaves them. -/
abbrev stepW (g : S65536.Idx → Elt F .f32) (v : IVec S16 32) (h : ∀ a x, ((![v] : Fin 1 → IVec S16 32) a x).toNat < S65536.size a) : S65536.Idx → Elt F .f32 :=
  ((sH : Memref sig .scVector .vmem S65536 .f32).access (.whole S65536)).write (Elt F) g
    (storeIdx (((sH : Memref sig .scVector .vmem S65536 .f32).access (.whole S65536)).read (Elt F) g) ![v] k0_pay6 (fun _ => 1#1) true h) Finset.univ

end Cert.Proof.KI

end
-- ==== Proof.TileLemmasI.lean ====
/- What a run of stores through one buffer of a vector subcore leaves, as pure facts about the list of written pieces. -/
import proofs.«218041_g60507499266918_cont_9to1_m_1358_18_alg».proof.Proof.TileDefsI

noncomputable section

namespace Cert.Proof.KI

open Cert.KernelIdeal Cert.KernelIdeal.Gen Idealize.ShloMosaic

variable {F : FTy → Type} [FloatOps F]

/-- The 64 stores of sixteen zeros of trip k, the last store first: store r covers bins [1024 k + 16 r, 1024 k + 16 r + 16). -/
def zeroPieces (k : Fin k0_t1_loop.trips) : List (View.Piece (Elt F) S65536 .f32) :=
  (List.ofFn fun r : Fin 64 => (⟨Rect.unit (s := S65536) (k0_off2 k (BitVec.ofNat 32 r.val)) S16.size (k0_off2_inb k r), k0_pay5⟩ : View.Piece (Elt F) S65536 .f32)).reverse

example (k : Fin k0_t1_loop.trips) : (zeroPieces (F := F) k).length = 64 := rfl

/-- Every piece of the trip is one of the 64 stores; -/
theorem mem_zeroPieces (k : Fin k0_t1_loop.trips) (p : View.Piece (Elt F) S65536 .f32) (hp : p ∈ zeroPieces (F := F) k) :
    ∃ r : Fin 64, p = ⟨Rect.unit (s := S65536) (k0_off2 k (BitVec.ofNat 32 r.val)) S16.size (k0_off2_inb k r), k0_pay5⟩ := by
  obtain ⟨r, hr⟩ := List.mem_ofFn.1 (List.mem_reverse.1 hp)
  exact ⟨r, hr.symm⟩

/-- and each of the 64 stores is a piece of the trip. -/
theorem zeroPieces_mem (k : Fin k0_t1_loop.trips) (r : Fin 64) :
    (⟨Rect.unit (s := S65536) (k0_off2 k (BitVec.ofNat 32 r.val)) S16.size (k0_off2_inb k r), k0_pay5⟩ : View.Piece (Elt F) S65536 .f32) ∈ zeroPieces (F := F) k :=
  List.mem_reverse.2 (List.mem_ofFn.2 ⟨r, rfl⟩)

/-- The bins are the whole buffer: reading them is the identity. -/
theorem read_sH (g : S65536.Idx → Elt F .f32) : (sH : Memref sig .scVector .vmem S65536 .f32).view.read (Elt F) g = g := rfl

/-- After writes that all carry zeros, a bin some write covers holds zero; -/
theorem writes_zero_of_mem (f : S65536.Idx → Elt F .f32) (L : List (View.Piece (Elt F) S65536 .f32))
    (hL : ∀ p ∈ L, ∀ x : p.1.shape.Idx, p.2 x = z32) (y : S65536.Idx) (hc : ∃ p ∈ L, y ∈ p.1.set) :
    ((sH : Memref sig .scVector .vmem S65536 .f32).view.writes (Elt F) f L) y = z32 := by
  have h := View.read_writes_apply_of_pieces (sH : Memref sig .scVector .vmem S65536 .f32).view f (fun _ => z32) L hL y hc
  rw [read_sH] at h
  exact h

/-- a bin no write covers keeps what it held. -/
theorem writes_keep_of_not_mem (f : S65536.Idx → Elt F .f32) (L : List (View.Piece (Elt F) S65536 .f32))
    (y : S65536.Idx) (hn : ∀ p ∈ L, y ∉ p.1.set) :
    ((sH : Memref sig .scVector .vmem S65536 .f32).view.writes (Elt F) f L) y = f y := by
  have h := View.read_writes_apply_of_forall_not_mem (sH : Memref sig .scVector .vmem S65536 .f32).view f y L hn
  rw [read_sH, read_sH] at h
  exact h

/-- One trip of the zero fill: with the first 1024 k bins at zero before it, the first 1024 (k + 1) are after it.
    A bin below 1024 (k + 1) that no store of the trip covers lies below 1024 k (else store ((y - 1024 k) / 16) covers it)
    and keeps its zero; a covered one holds the zero the store wrote. -/
theorem zero_trip (k : Fin k0_t1_loop.trips) (f : S65536.Idx → Elt F .f32) (hz : ZeroTo k.val f) :
    ZeroTo (k.val + 1) ((sH : Memref sig .scVector .vmem S65536 .f32).view.writes (Elt F) f (zeroPieces k)) := by
  intro y hy
  by_cases hc : ∃ p ∈ zeroPieces (F := F) k, y ∈ p.1.set
  · refine writes_zero_of_mem f _ ?_ y hc
    intro p hp x
    obtain ⟨r, rfl⟩ := mem_zeroPieces k p hp
    rfl
  · have hn : ∀ p ∈ zeroPieces (F := F) k, y ∉ p.1.set := fun p hp hy' => hc ⟨p, hp, hy'⟩
    rw [writes_keep_of_not_mem f _ y hn]
    refine hz y ?_
    by_contra hge
    have hlt : (y 0).val < 65536 := (y 0).isLt
    have hr : ((y 0).val - 1024 * k.val) / 16 < 64 := by omega
    refine hn _ (zeroPieces_mem k ⟨_, hr⟩) ?_
    rw [Rect.mem_set_unit, k0_off2_eq]
    refine Fin.forall_fin_one.mpr ?_
    show 1024 * k.val + 16 * (((y 0).val - 1024 * k.val) / 16) ≤ (y 0).val ∧ (y 0).val < 1024 * k.val + 16 * (((y 0).val - 1024 * k.val) / 16) + 16
    omega

/-- All 65536 = 1024 * 64 bins at zero is the empty histogram. -/
theorem zeroTo_64 (f : S65536.Idx → Elt F .f32) (h : ZeroTo 64 f) : f = Cert.Hist.hist₀ := by
  funext y
  have hlt : (y 0).val < 65536 := (y 0).isLt
  exact h y (by omega)

/-! ## One indexed add, one load of sixteen ids, one staged chunk -/

variable (m : (ℓ : Loc nD τ sig) → Buf (Elt F) ℓ) (d : Dev nD) (L : grid0.Coords)

/-- The indexed add through the whole view of the bins is the histogram's one-vector step: the view reads the bins as they are
    and an unmasked write through it replaces them, and sixteen ones are the unit every lane adds. -/
theorem stepW_eq (g : S65536.Idx → Elt F .f32) (v : IVec S16 32) (h : ∀ a x, ((![v] : Fin 1 → IVec S16 32) a x).toNat < S65536.size a) :
    stepW (F := F) g v h = Cert.Hist.scat g v := by
  have h' : Cert.Hist.InBins v := h
  rw [Cert.Hist.scat_of_inBins g v h']
  show ((Memref.whole cc0_scratch0).access (Rect.whole _)).write (Elt F) g _ Finset.univ = _
  rw [Memref.write_access_whole_univ]
  have hr : ((sH : Memref sig .scVector .vmem S65536 .f32).access (Rect.whole S65536)).read (Elt F) g = g :=
    Memref.read_access_whole (Elt F) cc0_scratch0 g
  rw [hr]
  rfl

/-- One more row of the block, while rows remain. -/
theorem histAfter_succ (rm : IVec S16x512x512 32) (img : Fin 16) (row0 n : Nat) (h : row0 + n < 512) :
    Cert.Hist.histAfter (F := F) rm img row0 (n + 1) = Cert.Hist.rowStep rm img (Cert.Hist.histAfter rm img row0 n) ⟨row0 + n, h⟩ := by
  have e : Cert.Hist.histAfter (F := F) rm img row0 (n + 1) =
      if h : row0 + n < 512 then Cert.Hist.rowStep rm img (Cert.Hist.histAfter rm img row0 n) ⟨row0 + n, h⟩ else Cert.Hist.histAfter rm img row0 n := rfl
  rw [e, dif_pos h]

/-- A row is its 32 vectors added one after the other. -/
theorem rowStep_unfold (rm : IVec S16x512x512 32) (img : Fin 16) (g : S65536.Idx → Elt F .f32) (row : Fin 512) :
    Cert.Hist.rowStep rm img g row = Cert.Hist.lanes32.foldl (fun g j => Cert.Hist.scat g (Cert.Hist.laneVec rm img row j)) g := rfl

/-- A buffer overwritten whole with D reads D. -/
theorem read_writes_whole (sB : Memref sig .scVector .vmem S32x512 .i32) (f : sB.view.ty.Contents (Elt F)) (D : S32x512.Idx → Elt F .i32)
    (y : S32x512.Idx) : sB.view.read (Elt F) (sB.view.writes (Elt F) f [⟨Rect.whole S32x512, D⟩]) y = D y := by
  refine View.read_writes_apply_of_pieces sB.view f D [⟨Rect.whole S32x512, D⟩] ?_ y ?_
  · intro p hp x
    rw [List.mem_singleton] at hp
    subst hp
    show D x = D ((Rect.whole S32x512).emb x)
    rw [Rect.emb_whole_apply]
  · refine ⟨_, List.mem_singleton_self _, ?_⟩
    rw [Rect.set_whole]
    exact Finset.mem_univ _

/-- Lane x of the sixteen loaded at off is the element of D at row off 0, column off 1 + x. -/
theorem ldV_apply (sB : Memref sig .scVector .vmem S32x512 .i32) (D : S32x512.Idx → Elt F .i32) (off : Fin 2 → Nat)
    (inb : ∀ a, off a + S1x16.size a ≤ S32x512.size a) (x : S16.Idx) :
    ldV (F := F) sB D off inb x = D (ValueIdx.ix2 ⟨off 0, by have h0 : off 0 + 1 ≤ 32 := inb 0; omega⟩
      ⟨off 1 + (x 0).val, by have h1 : off 1 + 16 ≤ 512 := inb 1; have hx : (x 0).val < 16 := (x 0).isLt; omega⟩) := by
  have hx : (x 0).val < 16 := (x 0).isLt
  have hk : Shape.reshapeEquiv shapeCasts_S1x16_S16 x = (ValueIdx.ix2 ⟨0, by decide⟩ ⟨(x 0).val, hx⟩ : S1x16.Idx) := by
    refine Shape.reshapeEquiv_eq_of_rowMajor _ ?_
    rw [Shape.rowMajor_val_two, Shape.rowMajor_val_one]
    show 0 * 16 + (x 0).val = (x 0).val
    omega
  show View.readAt (Elt F) sB.view (Rect.unit (s := S32x512) off S1x16.size inb).toLoadRect
    (sB.view.writes (Elt F) sB.view.junk [⟨Rect.whole S32x512, D⟩]) (Shape.reshapeEquiv shapeCasts_S1x16_S16 x) = _
  rw [hk, View.readAt_apply, read_writes_whole]
  congr 1
  funext a
  match a with
  | ⟨0, _⟩ => exact Fin.ext (by show off 0 + 1 * 0 = off 0; omega)
  | ⟨1, _⟩ => exact Fin.ext (by show off 1 + 1 * (x 0).val = off 1 + (x 0).val; omega)

/-- Every lane loaded from a chunk whose ids all name bins names a bin. -/
theorem inBins_ldV (sB : Memref sig .scVector .vmem S32x512 .i32) (D : S32x512.Idx → Elt F .i32) (hD : ∀ y, (D y).toNat < 65536)
    (off : Fin 2 → Nat) (inb : ∀ a, off a + S1x16.size a ≤ S32x512.size a) :
    ∀ a x, ((![ldV (F := F) sB D off inb] : Fin 1 → IVec S16 32) a x).toNat < S65536.size a := by
  intro a x
  match a with
  | ⟨0, _⟩ =>
    show (ldV (F := F) sB D off inb x).toNat < 65536
    rw [ldV_apply]
    exact hD _

/-- Every id of a staged chunk names a bin, when every id of the map does. -/
theorem chunk_range (c : Nat) (hc : c ≤ 7) (D : S32x512.Idx → Elt F .i32) (hpre : PreOK m) (hD : ChunkIs m d L c D) :
    ∀ y, (D y).toNat < 65536 := by
  intro y
  have h0 : (y 0).val < 32 := (y 0).isLt
  have hr : row0L L ≤ 256 := by show ((wL L).val % 2) * 256 ≤ 256; omega
  have h : row0L L + 32 * c + (y 0).val < 512 := by omega
  have e : D y = rmOf m d (ValueIdx.ix3 (imgL L) ⟨row0L L + 32 * c + (y 0).val, h⟩ (y 1)) :=
    (congrArg D (ValueIdx.eq_ix2 y)).trans (hD (y 0) (y 1) h)
  rw [e]
  exact hpre d _

/-- The sixteen lanes loaded at row r, column 16 j of a staged chunk are vector j of row 32 c + r of the block. -/
theorem ldV_eq_laneVec (sB : Memref sig .scVector .vmem S32x512 .i32) (c : Nat) (hc : c ≤ 7) (D : S32x512.Idx → Elt F .i32)
    (hD : ChunkIs m d L c D) (r : Fin 32) (j : Fin 32)
    (inb : ∀ a, (![r.val, 16 * j.val] : Fin 2 → Nat) a + S1x16.size a ≤ S32x512.size a) :
    ldV (F := F) sB D ![r.val, 16 * j.val] inb = Cert.Hist.laneVec (rmOf m d) (imgL L)
      ⟨row0L L + 32 * c + r.val, by
        have := r.isLt
        have : row0L L ≤ 256 := by show ((wL L).val % 2) * 256 ≤ 256; omega
        omega⟩ j := by
  funext x
  have hx : (x 0).val < 16 := (x 0).isLt
  have hj := j.isLt
  have hr := r.isLt
  have hr0 : row0L L ≤ 256 := by show ((wL L).val % 2) * 256 ≤ 256; omega
  have h : row0L L + 32 * c + r.val < 512 := by omega
  rw [ldV_apply]
  refine Eq.trans ?_ (hD r ⟨16 * j.val + (x 0).val, by omega⟩ h)
  rfl

/-- The same for the first staging buffer, -/
theorem ldV_eq_laneVec0 (c : Nat) (hc : c ≤ 7) (D : S32x512.Idx → Elt F .i32) (hD : ChunkIs m d L c D) (r : Fin 32) (j : Fin 32)
    (inb : ∀ a, (![r.val, 16 * j.val] : Fin 2 → Nat) a + S1x16.size a ≤ S32x512.size a) :
    ldV (F := F) sB0 D ![r.val, 16 * j.val] inb = Cert.Hist.laneVec (rmOf m d) (imgL L)
      ⟨row0L L + 32 * c + r.val, by
        have := r.isLt
        have : row0L L ≤ 256 := by show ((wL L).val % 2) * 256 ≤ 256; omega
        omega⟩ j :=
  ldV_eq_laneVec m d L sB0 c hc D hD r j inb

/-- and for the second. -/
theorem ldV_eq_laneVec1 (c : Nat) (hc : c ≤ 7) (D : S32x512.Idx → Elt F .i32) (hD : ChunkIs m d L c D) (r : Fin 32) (j : Fin 32)
    (inb : ∀ a, (![r.val, 16 * j.val] : Fin 2 → Nat) a + S1x16.size a ≤ S32x512.size a) :
    ldV (F := F) sB1 D ![r.val, 16 * j.val] inb = Cert.Hist.laneVec (rmOf m d) (imgL L)
      ⟨row0L L + 32 * c + r.val, by
        have := r.isLt
        have : row0L L ≤ 256 := by show ((wL L).val % 2) * 256 ≤ 256; omega
        omega⟩ j :=
  ldV_eq_laneVec m d L sB1 c hc D hD r j inb

end Cert.Proof.KI

end
-- ==== Proof.TileLemmasI2.lean ====
/- What the copies of the vector subcore's task deliver, as pure facts: which rows of the region map a staged chunk holds,
   and which row of the counts array the final copy fills. -/
import proofs.«218041_g60507499266918_cont_9to1_m_1358_18_alg».proof.Proof.TileLemmasI

noncomputable section

namespace Cert.Proof.KI

open Cert.KernelIdeal Cert.KernelIdeal.Gen Idealize.ShloMosaic

variable {F : FTy → Type} [FloatOps F] (m : (ℓ : Loc nD τ sig) → Buf (Elt F) ℓ) (d : Dev nD) (L : grid0.Coords)

/-- The first chunk's offsets, as the kernel computes them, are chunk 0 of the block; -/
theorem off1_eq : ∀ L : grid0.Coords, k0_off1 L = chunkOff L 0 := by decide +kernel

/-- the odd chunks' -/
theorem off3_eq : ∀ (L : grid0.Coords) (p : Fin k0_t2_loop.trips), k0_off3 L p = chunkOff L (2 * p.val + 1) := by decide +kernel

/-- and the even chunks', the last trip asking once more for chunk 7. -/
theorem off37_eq : ∀ (L : grid0.Coords) (p : Fin k0_t2_loop.trips), k0_off37 L p = chunkOff L (min (2 * (p.val + 1)) 7) := by decide +kernel

/-- Row w of the counts array is the histogram of vector subcore w. -/
theorem counts_row (rm : IVec S16x512x512 32) (L : grid0.Coords) :
    ∀ i ∈ cntRow (wL L), (Cert.Hist.countsOf (F := F) rm) i = Cert.Hist.tileHist rm (wL L) (ValueIdx.ix1 (i 1)) := by
  intro i hi
  have h0 : (i 0).val = (wL L).val := (Finset.mem_filter.mp hi).2
  have e : i 0 = wL L := Fin.ext h0
  show Cert.Hist.tileHist rm (i 0) (ValueIdx.ix1 (i 1)) = _
  rw [e]

/-- Element (r, col) of a 32-row slice of the map at offsets off is the map's element (off 0, off 1 + r, off 2 + col). -/
theorem srcSl_emb (off : Fin 3 → Nat) (inb : ∀ a, off a + S1x32x512.size a ≤ S16x512x512.size a) (r : Fin 32) (col : Fin 512) :
    (srcSl off inb).view.emb (ValueIdx.ix2 r col) =
      (ValueIdx.ix3 ⟨off 0, by have h0 : off 0 + 1 ≤ 16 := inb 0; omega⟩
        ⟨off 1 + r.val, by have h1 : off 1 + 32 ≤ 512 := inb 1; have := r.isLt; omega⟩
        ⟨off 2 + col.val, by have h2 : off 2 + 512 ≤ 512 := inb 2; have := col.isLt; omega⟩ : S16x512x512.Idx) := by
  have hk : Shape.reshapeEquiv squeezes_S1x32x512_S32x512.numel_eq (ValueIdx.ix2 r col : S32x512.Idx) =
      (ValueIdx.ix3 ⟨0, by decide⟩ r col : S1x32x512.Idx) := by
    refine Shape.reshapeEquiv_eq_of_rowMajor _ ?_
    rw [Shape.rowMajor_val_three, Shape.rowMajor_val_two]
    show (0 * 32 + r.val) * 512 + col.val = r.val * 512 + col.val
    omega
  show (Rect.unit (s := S16x512x512) off S1x32x512.size inb).emb (Shape.reshapeEquiv squeezes_S1x32x512_S32x512.numel_eq (ValueIdx.ix2 r col : S32x512.Idx)) = _
  rw [hk]
  funext a
  match a with
  | ⟨0, _⟩ => exact Fin.ext (by show off 0 + 1 * 0 = off 0; omega)
  | ⟨1, _⟩ => exact Fin.ext (by show off 1 + 1 * r.val = off 1 + r.val; omega)
  | ⟨2, _⟩ => exact Fin.ext (by show off 2 + 1 * col.val = off 2 + col.val; omega)

/-- What a copy out of the 32-row slice at chunk c's offsets delivers is chunk c of the block. -/
theorem chunk_of_read (off : Fin 3 → Nat) (inb : ∀ a, off a + S1x32x512.size a ≤ S16x512x512.size a) (c : Nat) (hc : c ≤ 7)
    (hoff : off = chunkOff L c) :
    ChunkIs m d L c (ReadAs.same.apply (View.read (Elt F) (srcSl off inb).view (m (mapLoc d)))) := by
  intro r col h
  subst hoff
  show View.read (Elt F) (srcSl (chunkOff L c) inb).view (m (mapLoc d)) (ValueIdx.ix2 r col) = _
  rw [View.read_apply, srcSl_emb, cast_eq]
  show m (mapLoc d) _ = m (mapLoc d) _
  congr 1
  funext a
  match a with
  | ⟨0, _⟩ => rfl
  | ⟨1, _⟩ => rfl
  | ⟨2, _⟩ => exact Fin.ext (by show 0 + col.val = col.val; omega)

/-- The row of the counts array vector subcore (L 0, L 1) fills, as the body addresses it. -/
abbrev oRowK (L : grid0.Coords) : Memref sig .scVector .hbm S65536 .f32 :=
  ((oV : Memref sig .scVector .hbm S32x65536 .f32).slice (Rect.unit (s := S32x65536) (k0_off70 L) S1x65536.size (k0_off70_inb L)) (fun _ => rfl)).squeeze S65536 squeezes_S1x65536_S65536

/-- Its elements are the indices of the counts array whose first coordinate is the vector subcore's number. -/
theorem set_oRowK (L : grid0.Coords) : (oRowK L).view.set = cntRow (wL L) := by
  show (((Memref.whole main_v0_scv : Memref sig .scVector .hbm S32x65536 .f32).view.slice
    (Rect.unit (s := S32x65536) (k0_off70 L) S1x65536.size (k0_off70_inb L))).reshape S65536 squeezes_S1x65536_S65536.numel_eq).set = _
  rw [View.set_reshape]
  show ((View.whole main_v0_scv).slice (Rect.unit (s := S32x65536) (k0_off70 L) S1x65536.size (k0_off70_inb L))).set = _
  rw [View.set_slice_whole]
  ext j
  rw [Rect.mem_set_unit, k0_off70_eq]
  simp only [Finset.mem_filter, Finset.mem_univ, true_and]
  have h1 : (j 1).val < 65536 := (j 1).isLt
  constructor
  · intro H
    have H0 := H 0
    show (j 0).val = 16 * (L 0).val + (L 1).val
    have H0' : 16 * (L 0).val + (L 1).val ≤ (j 0).val ∧ (j 0).val < 16 * (L 0).val + (L 1).val + 1 := H0
    omega
  · intro H
    have H' : (j 0).val = 16 * (L 0).val + (L 1).val := H
    intro a
    match a with
    | ⟨0, _⟩ =>
      show 16 * (L 0).val + (L 1).val ≤ (j 0).val ∧ (j 0).val < 16 * (L 0).val + (L 1).val + 1
      omega
    | ⟨1, _⟩ =>
      show 0 ≤ (j 1).val ∧ (j 1).val < 0 + 65536
      omega

/-- Element x of that row is element (w, x) of the counts array, w the vector subcore's number. -/
theorem oRowK_emb (L : grid0.Coords) (x : Fin 65536) :
    (oRowK L).view.emb (ValueIdx.ix1 x) = (ValueIdx.ix2 (wL L) x : S32x65536.Idx) := by
  have hk : Shape.reshapeEquiv squeezes_S1x65536_S65536.numel_eq (ValueIdx.ix1 x : S65536.Idx) =
      (ValueIdx.ix2 ⟨0, by decide⟩ x : S1x65536.Idx) := by
    refine Shape.reshapeEquiv_eq_of_rowMajor _ ?_
    rw [Shape.rowMajor_val_two, Shape.rowMajor_val_one]
    show 0 * 65536 + x.val = x.val
    omega
  show (Rect.unit (s := S32x65536) (k0_off70 L) S1x65536.size (k0_off70_inb L)).emb
    (Shape.reshapeEquiv squeezes_S1x65536_S65536.numel_eq (ValueIdx.ix1 x : S65536.Idx)) = _
  rw [hk]
  funext a
  match a with
  | ⟨0, _⟩ =>
    refine Fin.ext ?_
    show (k0_off70 L) 0 + 1 * 0 = 16 * (L 0).val + (L 1).val
    rw [k0_off70_eq]
    rfl
  | ⟨1, _⟩ =>
    refine Fin.ext ?_
    show (k0_off70 L) 1 + 1 * x.val = x.val
    rw [k0_off70_eq]
    show 0 + 1 * x.val = x.val
    omega

/-- A view overwritten whole with D reads D. -/
theorem read_writes_whole' {κ : Kind} {sp : Space} {s : Shape} {e : EltTy} (v : View sig κ sp s e) (f : v.ty.Contents (Elt F))
    (D : s.Idx → Elt F e) (y : s.Idx) : v.read (Elt F) (v.writes (Elt F) f [⟨Rect.whole s, D⟩]) y = D y := by
  refine View.read_writes_apply_of_pieces v f D [⟨Rect.whole s, D⟩] ?_ y ?_
  · intro p hp x
    rw [List.mem_singleton] at hp
    subst hp
    show D x = D ((Rect.whole s).emb x)
    rw [Rect.emb_whole_apply]
  · refine ⟨_, List.mem_singleton_self _, ?_⟩
    rw [Rect.set_whole]
    exact Finset.mem_univ _

/-- After the row is overwritten whole with D, element (w, x) of the counts array holds D x. -/
theorem oRow_writes_apply (L : grid0.Coords) (f : (oRowK L).view.ty.Contents (Elt F)) (D : S65536.Idx → Elt F .f32) :
    ∀ i ∈ cntRow (wL L), ((oRowK L).view.writes (Elt F) f [⟨Rect.whole S65536, D⟩]) i = D (ValueIdx.ix1 (i 1)) := by
  intro i hi
  have h0 : (i 0).val = (wL L).val := (Finset.mem_filter.mp hi).2
  have ei : (oRowK L).view.emb (ValueIdx.ix1 (i 1)) = i := by
    refine (oRowK_emb L (i 1)).trans ?_
    funext a
    match a with
    | ⟨0, _⟩ => exact Fin.ext h0.symm
    | ⟨1, _⟩ => rfl
  have h := read_writes_whole' (F := F) (oRowK L).view f D (ValueIdx.ix1 (i 1))
  rw [View.read_apply, cast_eq, ei] at h
  exact h

/-- Once the row is overwritten with the bins after all 256 rows of the block, the counts array holds on it what the
    histogram of the region map prescribes. -/
theorem row_final (f : Buf (Elt F) (cntLoc d)) :
    ∀ i ∈ cntRow (wL L), ((oRowK L).view.writes (Elt F) f [⟨Rect.whole S65536, ReadAs.same.apply (View.read (Elt F)
      (sH : Memref sig .scVector .vmem S65536 .f32).view
      (Cert.Hist.histAfter (F := F) (rmOf m d) (imgL L) (row0L L) 256 : S65536.Idx → Elt F .f32))⟩]) i = cntOf m d i := by
  intro i hi
  have h := oRow_writes_apply (F := F) L f
    (ReadAs.same.apply (View.read (Elt F) (sH : Memref sig .scVector .vmem S65536 .f32).view
      (Cert.Hist.histAfter (F := F) (rmOf m d) (imgL L) (row0L L) 256 : S65536.Idx → Elt F .f32))) i hi
  rw [h]
  exact (counts_row (F := F) (rmOf m d) L i hi).symm

end Cert.Proof.KI

end
-- ==== Proof.TileI.lean ====
/- One vector subcore's task of the idealized kernel: from a read share of the region map and its row of the
   counts array to that row holding the histogram of the subcore's block. -/
import proofs.«218041_g60507499266918_cont_9to1_m_1358_18_alg».proof.Proof.TileLemmasI2

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable (m : (ℓ : Loc nD τ sig) → Buf (Elt F) ℓ)
variable [FloatOps F]

section Tile

variable (d : Dev nD) (L : grid0.Coords)

/-! ## One row of a staged chunk -/

/-- One row of a staged chunk, added vector by vector, is one more row of the block in the bins. -/
theorem row_trip0 (c : Nat) (hc : c ≤ 7) (D : S32x512.Idx → Elt F .i32) (hD : ChunkIs m d L c D) (r : Fin k0_t3_loop.trips) :
    (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.histAfter (F := F) (rmOf m d) (imgL L) (row0L L) (32 * c + r.val)) (ldV (F := F) sB0 D (k0_off5 r) (k0_off5_inb r))) (ldV (F := F) sB0 D (k0_off6 r) (k0_off6_inb r))) (ldV (F := F) sB0 D (k0_off7 r) (k0_off7_inb r))) (ldV (F := F) sB0 D (k0_off8 r) (k0_off8_inb r))) (ldV (F := F) sB0 D (k0_off9 r) (k0_off9_inb r))) (ldV (F := F) sB0 D (k0_off10 r) (k0_off10_inb r))) (ldV (F := F) sB0 D (k0_off11 r) (k0_off11_inb r))) (ldV (F := F) sB0 D (k0_off12 r) (k0_off12_inb r))) (ldV (F := F) sB0 D (k0_off13 r) (k0_off13_inb r))) (ldV (F := F) sB0 D (k0_off14 r) (k0_off14_inb r))) (ldV (F := F) sB0 D (k0_off15 r) (k0_off15_inb r))) (ldV (F := F) sB0 D (k0_off16 r) (k0_off16_inb r))) (ldV (F := F) sB0 D (k0_off17 r) (k0_off17_inb r))) (ldV (F := F) sB0 D (k0_off18 r) (k0_off18_inb r))) (ldV (F := F) sB0 D (k0_off19 r) (k0_off19_inb r))) (ldV (F := F) sB0 D (k0_off20 r) (k0_off20_inb r))) (ldV (F := F) sB0 D (k0_off21 r) (k0_off21_inb r))) (ldV (F := F) sB0 D (k0_off22 r) (k0_off22_inb r))) (ldV (F := F) sB0 D (k0_off23 r) (k0_off23_inb r))) (ldV (F := F) sB0 D (k0_off24 r) (k0_off24_inb r))) (ldV (F := F) sB0 D (k0_off25 r) (k0_off25_inb r))) (ldV (F := F) sB0 D (k0_off26 r) (k0_off26_inb r))) (ldV (F := F) sB0 D (k0_off27 r) (k0_off27_inb r))) (ldV (F := F) sB0 D (k0_off28 r) (k0_off28_inb r))) (ldV (F := F) sB0 D (k0_off29 r) (k0_off29_inb r))) (ldV (F := F) sB0 D (k0_off30 r) (k0_off30_inb r))) (ldV (F := F) sB0 D (k0_off31 r) (k0_off31_inb r))) (ldV (F := F) sB0 D (k0_off32 r) (k0_off32_inb r))) (ldV (F := F) sB0 D (k0_off33 r) (k0_off33_inb r))) (ldV (F := F) sB0 D (k0_off34 r) (k0_off34_inb r))) (ldV (F := F) sB0 D (k0_off35 r) (k0_off35_inb r))) (ldV (F := F) sB0 D (k0_off36 r) (k0_off36_inb r)))
      = Cert.Hist.histAfter (F := F) (rmOf m d) (imgL L) (row0L L) (32 * c + (r.val + 1)) := by
  have hr : r.val < 32 := lt_of_lt_of_eq r.isLt (by decide)
  have hr0 : row0L L ≤ 256 := by show ((wL L).val % 2) * 256 ≤ 256; omega
  have hrow : row0L L + (32 * c + r.val) < 512 := by omega
  have e : ∀ (j : Fin 32) (cj : Nat) (_ : cj = 16 * j.val) (off : Fin 2 → Nat) (inb : ∀ a, off a + S1x16.size a ≤ S32x512.size a) (_ : off = ![r.val, cj]),
      ldV (F := F) sB0 D off inb = Cert.Hist.laneVec (rmOf m d) (imgL L) ⟨row0L L + (32 * c + r.val), hrow⟩ j := by
    intro j cj hcj off inb hoff; subst hoff; subst hcj
    exact (ldV_eq_laneVec0 (F := F) m d L c hc D hD ⟨r.val, hr⟩ j inb).trans
      (congrArg (fun row => Cert.Hist.laneVec (rmOf m d) (imgL L) row j) (Fin.ext (by show row0L L + 32 * c + r.val = row0L L + (32 * c + r.val); omega)))
  rw [show 32 * c + (r.val + 1) = (32 * c + r.val) + 1 by omega, histAfter_succ (F := F) _ _ _ _ hrow]
  simp only [Cert.Hist.rowStep, Cert.Hist.lanes32, List.foldl]
  rw [e 0 0 rfl _ _ (k0_off5_eq r),
    e 1 16 rfl _ _ (k0_off6_eq r),
    e 2 32 rfl _ _ (k0_off7_eq r),
    e 3 48 rfl _ _ (k0_off8_eq r),
    e 4 64 rfl _ _ (k0_off9_eq r),
    e 5 80 rfl _ _ (k0_off10_eq r),
    e 6 96 rfl _ _ (k0_off11_eq r),
    e 7 112 rfl _ _ (k0_off12_eq r),
    e 8 128 rfl _ _ (k0_off13_eq r),
    e 9 144 rfl _ _ (k0_off14_eq r),
    e 10 160 rfl _ _ (k0_off15_eq r),
    e 11 176 rfl _ _ (k0_off16_eq r),
    e 12 192 rfl _ _ (k0_off17_eq r),
    e 13 208 rfl _ _ (k0_off18_eq r),
    e 14 224 rfl _ _ (k0_off19_eq r),
    e 15 240 rfl _ _ (k0_off20_eq r),
    e 16 256 rfl _ _ (k0_off21_eq r),
    e 17 272 rfl _ _ (k0_off22_eq r),
    e 18 288 rfl _ _ (k0_off23_eq r),
    e 19 304 rfl _ _ (k0_off24_eq r),
    e 20 320 rfl _ _ (k0_off25_eq r),
    e 21 336 rfl _ _ (k0_off26_eq r),
    e 22 352 rfl _ _ (k0_off27_eq r),
    e 23 368 rfl _ _ (k0_off28_eq r),
    e 24 384 rfl _ _ (k0_off29_eq r),
    e 25 400 rfl _ _ (k0_off30_eq r),
    e 26 416 rfl _ _ (k0_off31_eq r),
    e 27 432 rfl _ _ (k0_off32_eq r),
    e 28 448 rfl _ _ (k0_off33_eq r),
    e 29 464 rfl _ _ (k0_off34_eq r),
    e 30 480 rfl _ _ (k0_off35_eq r),
    e 31 496 rfl _ _ (k0_off36_eq r)]

/-- One row of a staged chunk, added vector by vector, is one more row of the block in the bins. -/
theorem row_trip1 (c : Nat) (hc : c ≤ 7) (D : S32x512.Idx → Elt F .i32) (hD : ChunkIs m d L c D) (r : Fin k0_t4_loop.trips) :
    (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.histAfter (F := F) (rmOf m d) (imgL L) (row0L L) (32 * c + r.val)) (ldV (F := F) sB1 D (k0_off38 r) (k0_off38_inb r))) (ldV (F := F) sB1 D (k0_off39 r) (k0_off39_inb r))) (ldV (F := F) sB1 D (k0_off40 r) (k0_off40_inb r))) (ldV (F := F) sB1 D (k0_off41 r) (k0_off41_inb r))) (ldV (F := F) sB1 D (k0_off42 r) (k0_off42_inb r))) (ldV (F := F) sB1 D (k0_off43 r) (k0_off43_inb r))) (ldV (F := F) sB1 D (k0_off44 r) (k0_off44_inb r))) (ldV (F := F) sB1 D (k0_off45 r) (k0_off45_inb r))) (ldV (F := F) sB1 D (k0_off46 r) (k0_off46_inb r))) (ldV (F := F) sB1 D (k0_off47 r) (k0_off47_inb r))) (ldV (F := F) sB1 D (k0_off48 r) (k0_off48_inb r))) (ldV (F := F) sB1 D (k0_off49 r) (k0_off49_inb r))) (ldV (F := F) sB1 D (k0_off50 r) (k0_off50_inb r))) (ldV (F := F) sB1 D (k0_off51 r) (k0_off51_inb r))) (ldV (F := F) sB1 D (k0_off52 r) (k0_off52_inb r))) (ldV (F := F) sB1 D (k0_off53 r) (k0_off53_inb r))) (ldV (F := F) sB1 D (k0_off54 r) (k0_off54_inb r))) (ldV (F := F) sB1 D (k0_off55 r) (k0_off55_inb r))) (ldV (F := F) sB1 D (k0_off56 r) (k0_off56_inb r))) (ldV (F := F) sB1 D (k0_off57 r) (k0_off57_inb r))) (ldV (F := F) sB1 D (k0_off58 r) (k0_off58_inb r))) (ldV (F := F) sB1 D (k0_off59 r) (k0_off59_inb r))) (ldV (F := F) sB1 D (k0_off60 r) (k0_off60_inb r))) (ldV (F := F) sB1 D (k0_off61 r) (k0_off61_inb r))) (ldV (F := F) sB1 D (k0_off62 r) (k0_off62_inb r))) (ldV (F := F) sB1 D (k0_off63 r) (k0_off63_inb r))) (ldV (F := F) sB1 D (k0_off64 r) (k0_off64_inb r))) (ldV (F := F) sB1 D (k0_off65 r) (k0_off65_inb r))) (ldV (F := F) sB1 D (k0_off66 r) (k0_off66_inb r))) (ldV (F := F) sB1 D (k0_off67 r) (k0_off67_inb r))) (ldV (F := F) sB1 D (k0_off68 r) (k0_off68_inb r))) (ldV (F := F) sB1 D (k0_off69 r) (k0_off69_inb r)))
      = Cert.Hist.histAfter (F := F) (rmOf m d) (imgL L) (row0L L) (32 * c + (r.val + 1)) := by
  have hr : r.val < 32 := lt_of_lt_of_eq r.isLt (by decide)
  have hr0 : row0L L ≤ 256 := by show ((wL L).val % 2) * 256 ≤ 256; omega
  have hrow : row0L L + (32 * c + r.val) < 512 := by omega
  have e : ∀ (j : Fin 32) (cj : Nat) (_ : cj = 16 * j.val) (off : Fin 2 → Nat) (inb : ∀ a, off a + S1x16.size a ≤ S32x512.size a) (_ : off = ![r.val, cj]),
      ldV (F := F) sB1 D off inb = Cert.Hist.laneVec (rmOf m d) (imgL L) ⟨row0L L + (32 * c + r.val), hrow⟩ j := by
    intro j cj hcj off inb hoff; subst hoff; subst hcj
    exact (ldV_eq_laneVec1 (F := F) m d L c hc D hD ⟨r.val, hr⟩ j inb).trans
      (congrArg (fun row => Cert.Hist.laneVec (rmOf m d) (imgL L) row j) (Fin.ext (by show row0L L + 32 * c + r.val = row0L L + (32 * c + r.val); omega)))
  rw [show 32 * c + (r.val + 1) = (32 * c + r.val) + 1 by omega, histAfter_succ (F := F) _ _ _ _ hrow]
  simp only [Cert.Hist.rowStep, Cert.Hist.lanes32, List.foldl]
  rw [e 0 0 rfl _ _ (k0_off38_eq r),
    e 1 16 rfl _ _ (k0_off39_eq r),
    e 2 32 rfl _ _ (k0_off40_eq r),
    e 3 48 rfl _ _ (k0_off41_eq r),
    e 4 64 rfl _ _ (k0_off42_eq r),
    e 5 80 rfl _ _ (k0_off43_eq r),
    e 6 96 rfl _ _ (k0_off44_eq r),
    e 7 112 rfl _ _ (k0_off45_eq r),
    e 8 128 rfl _ _ (k0_off46_eq r),
    e 9 144 rfl _ _ (k0_off47_eq r),
    e 10 160 rfl _ _ (k0_off48_eq r),
    e 11 176 rfl _ _ (k0_off49_eq r),
    e 12 192 rfl _ _ (k0_off50_eq r),
    e 13 208 rfl _ _ (k0_off51_eq r),
    e 14 224 rfl _ _ (k0_off52_eq r),
    e 15 240 rfl _ _ (k0_off53_eq r),
    e 16 256 rfl _ _ (k0_off54_eq r),
    e 17 272 rfl _ _ (k0_off55_eq r),
    e 18 288 rfl _ _ (k0_off56_eq r),
    e 19 304 rfl _ _ (k0_off57_eq r),
    e 20 320 rfl _ _ (k0_off58_eq r),
    e 21 336 rfl _ _ (k0_off59_eq r),
    e 22 352 rfl _ _ (k0_off60_eq r),
    e 23 368 rfl _ _ (k0_off61_eq r),
    e 24 384 rfl _ _ (k0_off62_eq r),
    e 25 400 rfl _ _ (k0_off63_eq r),
    e 26 416 rfl _ _ (k0_off64_eq r),
    e 27 432 rfl _ _ (k0_off65_eq r),
    e 28 448 rfl _ _ (k0_off66_eq r),
    e 29 464 rfl _ _ (k0_off67_eq r),
    e 30 480 rfl _ _ (k0_off68_eq r),
    e 31 496 rfl _ _ (k0_off69_eq r)]

/-! ## The subcore's own semaphores and scratch buffers -/

abbrev c0cell (d : Dev nD) (c : Fin τ.nSC) (i : Fin τ.nSub) : GSem nD τ sig := (V d c i, .dma cc0_scratch3.sem)
abbrev c1cell (d : Dev nD) (c : Fin τ.nSC) (i : Fin τ.nSub) : GSem nD τ sig := (V d c i, .dma cc0_scratch4.sem)
abbrev c2cell (d : Dev nD) (c : Fin τ.nSC) (i : Fin τ.nSub) : GSem nD τ sig := (V d c i, .dma cc0_scoped0.sem)

omit [FloatOps F] in
theorem ownSems0_V :
    (ownSems0 (V d (cV L) (jV L)) : sProp (MM F))
      = iprop(semVal (c0cell d (cV L) (jV L)) 0 ∗ semVal (c1cell d (cV L) (jV L)) 0 ∗ semVal (c2cell d (cV L) (jV L)) 0
          ∗ bigSep ((((ownCells (V d (cV L) (jV L))).erase (c0cell d (cV L) (jV L))).erase (c1cell d (cV L) (jV L))).erase (c2cell d (cV L) (jV L)))
              fun g => semVal g 0) := by
  unfold SparseCore.Cfg.ownSems0
  rw [SparseCore.bigSep_erase' ((mem_ownCells (g := c0cell d (cV L) (jV L))).mpr ⟨rfl, by
      show (SemLoc.dma cc0_scratch3.sem : SemLoc sig).isScoped .scVector = true; decide⟩),
    SparseCore.bigSep_erase' (Finset.mem_erase.mpr ⟨by simp [c0cell, c1cell]; decide, (mem_ownCells (g := c1cell d (cV L) (jV L))).mpr ⟨rfl, by
      show (SemLoc.dma cc0_scratch4.sem : SemLoc sig).isScoped .scVector = true; decide⟩⟩),
    SparseCore.bigSep_erase' (Finset.mem_erase.mpr ⟨by simp [c1cell, c2cell]; decide, Finset.mem_erase.mpr ⟨by simp [c0cell, c2cell]; decide,
      (mem_ownCells (g := c2cell d (cV L) (jV L))).mpr ⟨rfl, by show (SemLoc.dma cc0_scoped0.sem : SemLoc sig).isScoped .scVector = true; decide⟩⟩⟩)]

omit [FloatOps F] in
/-- The three scratch buffers are among the subcore's own: they are them, at some contents, and the rest. -/
theorem ownBufs_V :
    (ownBufs (V d (cV L) (jV L)) : sProp (MM F))
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-! ## The held buffers, spelt as the body addresses them -/

omit [FloatOps F] in
theorem pts_aV (q : PosShare TreeShare) (f : Buf (Elt F) (mapLoc d)) :
    ((aV : Memref sig .scVector .hbm S16x512x512 .i32).view.loc (V d (cV L) (jV L)) ↦{q} f : sProp (MM F)) = mapLoc d ↦{q} f := by
  simp only [Memref.view_whole, View.set_whole]
omit [FloatOps F] in
theorem pts_sH (f : Buf (Elt F) ((V d (cV L) (jV L)).loc cc0_scratch0)) :
    ((sH : Memref sig .scVector .vmem S65536 .f32).view.loc (V d (cV L) (jV L)) ↦[(sH : Memref sig .scVector .vmem S65536 .f32).view.set]{fullShare} f : sProp (MM F))
      = (V d (cV L) (jV L)).loc cc0_scratch0 ↦{fullShare} f := by
  simp only [Memref.view_whole, View.set_whole]
omit [FloatOps F] in
theorem pts_sB0 (f : Buf (Elt F) ((V d (cV L) (jV L)).loc cc0_scratch1)) :
    ((sB0 : Memref sig .scVector .vmem S32x512 .i32).view.loc (V d (cV L) (jV L)) ↦[(sB0 : Memref sig .scVector .vmem S32x512 .i32).view.set]{fullShare} f : sProp (MM F))
      = (V d (cV L) (jV L)).loc cc0_scratch1 ↦{fullShare} f := by
  simp only [Memref.view_whole, View.set_whole]
omit [FloatOps F] in
theorem pts_sB1 (f : Buf (Elt F) ((V d (cV L) (jV L)).loc cc0_scratch2)) :
    ((sB1 : Memref sig .scVector .vmem S32x512 .i32).view.loc (V d (cV L) (jV L)) ↦[(sB1 : Memref sig .scVector .vmem S32x512 .i32).view.set]{fullShare} f : sProp (MM F))
      = (V d (cV L) (jV L)).loc cc0_scratch2 ↦{fullShare} f := by
  simp only [Memref.view_whole, View.set_whole]
omit [FloatOps F] in
theorem pts_sH_access (f : Buf (Elt F) ((V d (cV L) (jV L)).loc cc0_scratch0)) :
    ((sH : Memref sig .scVector .vmem S65536 .f32).view.loc (V d (cV L) (jV L)) ↦[(sH : Memref sig .scVector .vmem S65536 .f32).view.set]{fullShare} f : sProp (MM F))
      = (((sH : Memref sig .scVector .vmem S65536 .f32).access (.whole S65536)).loc (V d (cV L) (jV L)) ↦[((sH : Memref sig .scVector .vmem S65536 .f32).access (.whole S65536)).set]{fullShare} f) := by
  rw [pts_sH, show ((sH : Memref sig .scVector .vmem S65536 .f32).access (.whole S65536)).set = Finset.univ from Memref.set_access_whole (cc0_scratch0 : Ref sig .scVector)]

omit [FloatOps F] in
theorem pts_oRow (f : Buf (Elt F) (cntLoc d)) :
    ((oRowK L).view.loc (V d (cV L) (jV L)) ↦[(oRowK L).view.set]{fullShare} f : sProp (MM F)) = cntLoc d ↦[cntRow (wL L)]{fullShare} f := by
  rw [set_oRowK L]

/-- One indexed add of sixteen ids: the bins go from `g` to `Hist.scat g v`. -/
theorem wp_scat {α : Type} {v : IVec S16 32} {h : ∀ a x, ((![v] : Fin 1 → IVec S16 32) a x).toNat < S65536.size a}
    {hs : ((sH : Memref sig .scVector .vmem S65536 .f32).access (.whole S65536)).Stores Finset.univ}
    {k : PUnit → Prog (TpuEff nD τ sig (Elt F) Λ₀ (V d (cV L) (jV L)).2) α}
    {g : Buf (Elt F) (((sH : Memref sig .scVector .vmem S65536 .f32).access (.whole S65536)).loc (V d (cV L) (jV L)))}
    {Q : α → sProp (MM F)} :
    ((((sH : Memref sig .scVector .vmem S65536 .f32).access (.whole S65536)).loc (V d (cV L) (jV L)) ↦[((sH : Memref sig .scVector .vmem S65536 .f32).access (.whole S65536)).set]{fullShare} g) : sProp (MM F))
      ⊢ iprop(((((sH : Memref sig .scVector .vmem S65536 .f32).access (.whole S65536)).loc (V d (cV L) (jV L)) ↦[((sH : Memref sig .scVector .vmem S65536 .f32).access (.whole S65536)).set]{fullShare}
            (Cert.Hist.scat (F := F) g v : S65536.Idx → Elt F .f32))
          -∗ wp frame (wpE (defs₀ (F := F)) 𝒱₀ (V d (cV L) (jV L)) none) Set.univ (k ⟨⟩) Q)
        -∗ wp frame (wpE (defs₀ (F := F)) 𝒱₀ (V d (cV L) (jV L)) none) Set.univ (SparseCore.vectorStoreIdx sH ![v] k0_pay6 (fun _ => 1#1) true h hs >>= k) Q) := by
  have key := SparseCore.wp_vectorStoreIdx (F := F) (defs := defs₀ (F := F)) 𝒱₀ (V d (cV L) (jV L)) none Set.univ
    (base := (sH : Memref sig .scVector .vmem S65536 .f32)) (idxs := ![v]) (v := k0_pay6) (mask := fun _ => 1#1) (add := true) (h := h) (hs := hs) (k := k) (f := g) (Q := Q)
  rw [show ((sH : Memref sig .scVector .vmem S65536 .f32).access (.whole S65536)).write (Elt F) g
      (storeIdx (((sH : Memref sig .scVector .vmem S65536 .f32).access (.whole S65536)).read (Elt F) g) ![v] k0_pay6 (fun _ => 1#1) true h) Finset.univ
        = (Cert.Hist.scat (F := F) g v : S65536.Idx → Elt F .f32) from stepW_eq (F := F) g v h] at key
  exact key

/-! ## The loops' invariants -/

/-- Before trip `k` of the zero-fill: the bins, zero below `1024 * k`. -/
def inv1 (k : Nat) (_ : BitVec 32) : sProp (MM F) :=
  iprop(∃ f : Buf (Elt F) ((V d (cV L) (jV L)).loc cc0_scratch0),
    ((sH : Memref sig .scVector .vmem S65536 .f32).view.loc (V d (cV L) (jV L)) ↦[(sH : Memref sig .scVector .vmem S65536 .f32).view.set]{fullShare} f) ∗ ⌜ZeroTo k f⌝)

/-- Before trip `p` of the pair loop: chunk `min (2p) 7` in flight into the first staging buffer (its rows of the
    map lent to the copy, the rest of that read share kept), the second read share whole, the second staging buffer
    free, and the bins after `64 p` rows. -/
def inv2 (O : CellTallies nD τ sig (HIx 1)) (W : Waits sig (HIx 1)) (p : Nat) (_ : BitVec 32) : sProp (MM F) :=
  iprop(Transfers.MayWaits (V d (cV L) (jV L)) (none : HIx 1) O
    ∗ (∃ (off0 : Fin 3 → Nat) (inb0 : ∀ a, off0 a + S1x32x512.size a ≤ S16x512x512.size a)
         (g0 : Buf (Elt F) ((V d (cV L) (jV L)).loc cc0_scratch1)) (D0 : S32x512.Idx → Elt F .i32),
        ⌜off0 = chunkOff L (min (2 * p) 7) ∧ ChunkIs m d L (min (2 * p) 7) D0⌝
        ∗ Transfers.Flight countersEmb (V d (cV L) (jV L)) (SemLoc.dma cc0_scratch3.sem) default 524288
            iprop(((sB0 : Memref sig .scVector .vmem S32x512 .i32).view.loc (V d (cV L) (jV L)) ↦[(sB0 : Memref sig .scVector .vmem S32x512 .i32).view.set]{fullShare}
                  (sB0 : Memref sig .scVector .vmem S32x512 .i32).view.writes (Elt F) g0 [⟨Rect.whole S32x512, D0⟩])
              ∗ ((aV : Memref sig .scVector .hbm S16x512x512 .i32).view.loc (V d (cV L) (jV L)) ↦[(srcSl off0 inb0).view.set]{(mapTok (wL L)).left} m (mapLoc d)))
        ∗ ((aV : Memref sig .scVector .hbm S16x512x512 .i32).view.loc (V d (cV L) (jV L)) ↦[Finset.univ \ (srcSl off0 inb0).view.set]{(mapTok (wL L)).left} m (mapLoc d)))
    ∗ ((aV : Memref sig .scVector .hbm S16x512x512 .i32).view.loc (V d (cV L) (jV L)) ↦{(mapTok (wL L)).right} m (mapLoc d))
    ∗ (∃ g1 : Buf (Elt F) ((V d (cV L) (jV L)).loc cc0_scratch2),
        (sB1 : Memref sig .scVector .vmem S32x512 .i32).view.loc (V d (cV L) (jV L)) ↦[(sB1 : Memref sig .scVector .vmem S32x512 .i32).view.set]{fullShare} g1)
    ∗ semVal (c1cell d (cV L) (jV L)) 0
    ∗ ((sH : Memref sig .scVector .vmem S65536 .f32).view.loc (V d (cV L) (jV L)) ↦[(sH : Memref sig .scVector .vmem S65536 .f32).view.set]{fullShare}
          (Cert.Hist.histAfter (F := F) (rmOf m d) (imgL L) (row0L L) (64 * p) : S65536.Idx → Elt F .f32))
    ∗ ∃ W', ⌜∀ q ∈ W', q ∈ W ∨ q.2 = none⌝ ∗ owes (V d (cV L) (jV L)) O W')

/-- Before row `r` of a staged chunk is added: the staged rows (unchanged) and the bins after `n0 + r` rows. -/
def inv3 (sB : Memref sig .scVector .vmem S32x512 .i32) (gB : Buf (Elt F) (sB.view.loc (V d (cV L) (jV L)))) (n0 : Nat) (r : Nat) (_ : BitVec 32) : sProp (MM F) :=
  iprop((sB.view.loc (V d (cV L) (jV L)) ↦[sB.view.set]{fullShare} gB)
    ∗ ((sH : Memref sig .scVector .vmem S65536 .f32).view.loc (V d (cV L) (jV L)) ↦[(sH : Memref sig .scVector .vmem S65536 .f32).view.set]{fullShare}
          (Cert.Hist.histAfter (F := F) (rmOf m d) (imgL L) (row0L L) (n0 + r) : S65536.Idx → Elt F .f32)))

omit [FloatOps F] in
theorem trips1 : k0_t1_loop.trips = 64 := by decide
omit [FloatOps F] in
theorem trips2 : k0_t2_loop.trips = 4 := by decide
omit [FloatOps F] in
theorem trips3 : k0_t3_loop.trips = 32 := by decide
omit [FloatOps F] in
theorem trips4 : k0_t4_loop.trips = 32 := by decide

/-- Same bins, same resource. -/
theorem bins_congr {g g' : Buf (Elt F) ((V d (cV L) (jV L)).loc cc0_scratch0)} (h : g = g') :
    ((sH : Memref sig .scVector .vmem S65536 .f32).view.loc (V d (cV L) (jV L)) ↦[(sH : Memref sig .scVector .vmem S65536 .f32).view.set]{fullShare} g : sProp (MM F))
      ⊢ (sH : Memref sig .scVector .vmem S65536 .f32).view.loc (V d (cV L) (jV L)) ↦[(sH : Memref sig .scVector .vmem S65536 .f32).view.set]{fullShare} g' := by
  subst h; exact .rfl

/-! ## The task -/

set_option maxHeartbeats 4000000 in
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ goOf m d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__hist_body L aV (Memref.isWhole_whole _) oV (Memref.isWhole_whole _) sH (Memref.isWhole_whole _)
            sB0 (Memref.isWhole_whole _) sB1 (Memref.isWhole_whole _) cc0_scratch3 cc0_scratch4 cc0_scoped0)
          fun _ => iprop(tdOf m d (wL L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__hist_body_eq_skeleton]; unfold cc0__hist_body_skel
  simp only [k0_part17_eq_skeleton]; unfold k0_part17_skel
  rw [(K (F := F)).scopedBufs_V hF d (cV L) (jV L), SparseCore.Cfg.scopedSems0_V (Val := Elt F) d (cV L) (jV L), ownSems0_V, ownBufs_V]
  iintro ⟨#Hlv, -, ⟨Hmap, Hrow⟩, ⟨⟨%fh, Hh⟩, ⟨%fb0, Hb0⟩, ⟨%fb1, Hb1⟩, Hbufs⟩, ⟨Hsem0, Hsem1, Hsem2, Hsems⟩, HO⟩
  ihave Hmw := ((K (F := F)).mayWaits_none (thr := V d (cV L) (jV L)) hO) $$ Hlv
  ihave Hm2 := (pointsTo_share (PosShare.mem_left_op_right (mapTok (wL L)))).1 $$ Hmap
  icases Hm2 with ⟨HmA, HmB⟩
  ihave HmA' := (Entails.of_eq (pts_aV (F := F) d L _ _).symm) $$ HmA
  ihave HmB' := (Entails.of_eq (pts_aV (F := F) d L _ _).symm) $$ HmB
  ihave Hh' := (Entails.of_eq (pts_sH (F := F) d L _).symm) $$ Hh
  ihave Hb0' := (Entails.of_eq (pts_sB0 (F := F) d L _).symm) $$ Hb0
  ihave Hb1' := (Entails.of_eq (pts_sB1 (F := F) d L _).symm) $$ Hb1
  -- the first chunk's copy is started
  sl_exec
  -- the bins are zeroed
  sl_for (inv1 (F := F) d L) $$ [Hh']
  case region =>
    intro k _
    unfold inv1
    iintro ⟨%f, Hh, %hz⟩
    sl_exec
    sl_step
    iexists _
    isplitl [Hh]; · iexact Hh
    ipureintro; exact zero_trip (F := F) k f hz
  · unfold inv1
    iexists fh
    isplitl [Hh']; · iexact Hh'
    ipureintro; intro y hy; omega
  iintro %acc1 HI
  unfold inv1
  icases HI with ⟨%f1, Hh, %hz64⟩
  have hf1 : f1 = (Cert.Hist.hist₀ (F := F) : S65536.Idx → Elt F .f32) := zeroTo_64 (F := F) f1 hz64
  subst hf1
  -- the pair loop
  sl_for (inv2 (F := F) m d L O W) $$ [Hmw Hsem0 HmA' HmB' Hb1' Hsem1 Hh HO]
  case region =>
    intro p _
    unfold inv2
    iintro ⟨Hmw, ⟨%off0, %inb0, %g0, %D0, %hD0, Hfl0, HmA⟩, HmB, ⟨%g1, Hb1⟩, Hsem1, Hh, %W', %hW', HO⟩
    have hp4 : p.val < 4 := lt_of_lt_of_eq p.isLt (by decide)
    -- the next chunk's copy is started into the second buffer; the first buffer's copy is awaited
    sl_exec
    have hDr0 : ∀ y, (D0 y).toNat < 65536 := chunk_range (F := F) m d L (min (2 * p.val) 7) (by omega) D0 hpre hD0.2
    sl_for (inv3 (F := F) m d L sB0 (sB0.view.writes (Elt F) sB0.view.junk [⟨Rect.whole S32x512, D0⟩]) (32 * (2 * p.val))) $$ [Hfl0_dst Hh]
    case region =>
      intro r _
      unfold inv3
      iintro ⟨Hb0, Hh⟩
      sl_exec (disch := exact inBins_ldV (F := F) sB0 D0 hDr0 _ _)
      ihave Hh' := (Entails.of_eq (pts_sH_access (F := F) d L _)) $$ Hh
      repeat (iapply (wp_scat (F := F) d L) $$ Hh'; iintro Hh')
      sl_exec
      repeat (iapply (wp_scat (F := F) d L) $$ Hh'; iintro Hh')
      sl_exec
      sl_step
      isplitl [Hb0]; · iexact Hb0
      ihave Hh2 := (Entails.of_eq (pts_sH_access (F := F) d L _).symm) $$ Hh'
      iapply (bins_congr (F := F) d L (row_trip0 (F := F) m d L (2 * p.val) (by omega) D0 (by rw [show min (2 * p.val) 7 = 2 * p.val by omega] at hD0; exact hD0.2) r))
      iexact Hh2
    · unfold inv3
      isplitl [Hfl0_dst]; · iexact Hfl0_dst
      rw [show 32 * (2 * p.val) + 0 = 64 * p.val by omega]
      iexact Hh
    iintro %acc3 HI
    unfold inv3
    icases HI with ⟨Hb0, Hh⟩
    -- the chunk after next is started into the first buffer; the second buffer's copy is awaited
    sl_exec
    have hD1 : ChunkIs m d L (2 * p.val + 1) (tile_body.sl.dma0_1 m d L p) :=
      chunk_of_read (F := F) m d L (k0_off3 L p) (k0_off3_inb L p) (2 * p.val + 1) (by omega) (off3_eq L p)
    have hDr1 : ∀ y, (tile_body.sl.dma0_1 m d L p y).toNat < 65536 := chunk_range (F := F) m d L (2 * p.val + 1) (by omega) _ hpre hD1
    sl_for (inv3 (F := F) m d L sB1 (sB1.view.writes (Elt F) sB1.view.junk [⟨Rect.whole S32x512, tile_body.sl.dma0_1 m d L p⟩]) (32 * (2 * p.val + 1))) $$ [Hb1 Hh]
    case region =>
      intro r _
      unfold inv3
      iintro ⟨Hb1, Hh⟩
      sl_exec (disch := exact inBins_ldV (F := F) sB1 (tile_body.sl.dma0_1 m d L p) hDr1 _ _)
      ihave Hh' := (Entails.of_eq (pts_sH_access (F := F) d L _)) $$ Hh
      repeat (iapply (wp_scat (F := F) d L) $$ Hh'; iintro Hh')
      sl_exec
      repeat (iapply (wp_scat (F := F) d L) $$ Hh'; iintro Hh')
      sl_exec
      sl_step
      isplitl [Hb1]; · iexact Hb1
      ihave Hh2 := (Entails.of_eq (pts_sH_access (F := F) d L _).symm) $$ Hh'
      iapply (bins_congr (F := F) d L (row_trip1 (F := F) m d L (2 * p.val + 1) (by omega) (tile_body.sl.dma0_1 m d L p) hD1 r))
      iexact Hh2
    · unfold inv3
      isplitl [Hb1]; · iexact Hb1
      iapply (bins_congr (F := F) d L (congrArg (Cert.Hist.histAfter (F := F) (rmOf m d) (imgL L) (row0L L))
        (show 32 * (2 * p.val) + Scf.trips k0_t3_loop.lb k0_t3_loop.ub k0_t3_loop.st = 32 * (2 * p.val + 1) + 0 by
          have : Scf.trips k0_t3_loop.lb k0_t3_loop.ub k0_t3_loop.st = 32 := by decide
          omega)))
      iexact Hh
    iintro %acc4 HI
    unfold inv3
    icases HI with ⟨Hb1, Hh⟩
    sl_exec
    sl_step
    -- the invariant again, one pair on
    isplitl [Hmw]; · iexact Hmw
    isplitl [Hfl0 HmA]
    · iexists (k0_off37 L p), (k0_off37_inb L p), (sB0.view.writes (Elt F) sB0.view.junk [⟨Rect.whole S32x512, D0⟩]), (tile_body.sl.dma0_2 m d L p)
      isplitr
      · ipureintro
        exact ⟨off37_eq L p, chunk_of_read (F := F) m d L (k0_off37 L p) (k0_off37_inb L p) (min (2 * (p.val + 1)) 7) (by omega) (off37_eq L p)⟩
      isplitl [Hfl0]; · iexact Hfl0
      iexact HmA
    isplitl [HmB]; · iexact HmB
    isplitl [Hb1]; · iexists _; iexact Hb1
    isplitl [Hsem1]; · iexact Hsem1
    isplitl [Hh]
    · iapply (bins_congr (F := F) d L (congrArg (Cert.Hist.histAfter (F := F) (rmOf m d) (imgL L) (row0L L))
        (show 32 * (2 * p.val + 1) + Scf.trips k0_t4_loop.lb k0_t4_loop.ub k0_t4_loop.st = 64 * (p.val + 1) by
          have : Scf.trips k0_t4_loop.lb k0_t4_loop.ub k0_t4_loop.st = 32 := by decide
          omega)))
      iexact Hh
    iexists _; isplitr
    swap
    · iexact HO
    · ipureintro; intro q hq
      rcases Finset.mem_insert.mp hq with hq | hq
      · exact .inr (by subst hq; rfl)
      rcases Finset.mem_insert.mp hq with hq | hq
      · exact .inr (by subst hq; rfl)
      · exact hW' q hq
  · -- before the first pair
    unfold inv2
    isplitl [Hmw]; · iexact Hmw
    isplitl [Hsem0 HmA']
    · iexists (k0_off1 L), (k0_off1_inb L), fb0, (tile_body.sl.dma0 m d L)
      isplitr
      · ipureintro
        exact ⟨off1_eq L, chunk_of_read (F := F) m d L (k0_off1 L) (k0_off1_inb L) 0 (by omega) (off1_eq L)⟩
      isplitl [Hsem0]; · iexact Hsem0
      iexact HmA'
    isplitl [HmB']; · iexact HmB'
    isplitl [Hb1']; · iexists _; iexact Hb1'
    isplitl [Hsem1]; · iexact Hsem1
    isplitl [Hh]; · iexact Hh
    iexists W; isplitr
    · ipureintro; exact fun q hq => .inl hq
    · iexact HO
  iintro %acc2 HI
  unfold inv2
  icases HI with ⟨Hmw, ⟨%off0, %inb0, %g0, %D0, %hD0, Hfl0, HmA⟩, HmB, ⟨%g1, Hb1⟩, Hsem1, Hh, %W', %hW', HO⟩
  -- the last (repeated) copy is awaited, the bins are written out
  ihave Hrow' := (Entails.of_eq (pts_oRow (F := F) d L _).symm) $$ Hrow
  sl_exec
  sl_step
  -- the read share whole again, the row at the block's histogram
  isplitl [HmA HmB Hrow']
  · isplitl [HmA HmB]
    · ihave HA := (Entails.of_eq (pts_aV (F := F) d L _ _)) $$ HmA
      ihave HB := (Entails.of_eq (pts_aV (F := F) d L _ _)) $$ HmB
      iapply (pointsTo_share (PosShare.mem_left_op_right (mapTok (wL L)))).2
      isplitl [HA]; · iexact HA
      iexact HB
    · ihave Hr := (Entails.of_eq (pts_oRow (F := F) d L _)) $$ Hrow'
      iapply (Entails.of_eq (pointsTo_congr (row_final (F := F) m d L (m (cntLoc d)))))
      iexact Hr
  isplitl [Hh Hfl0_dst Hb1 Hbufs]
  · isplitl [Hh]; · iexists _; iapply (Entails.of_eq (pts_sH (F := F) d L _)); iexact Hh
    isplitl [Hfl0_dst]; · iexists _; iapply (Entails.of_eq (pts_sB0 (F := F) d L _)); iexact Hfl0_dst
    isplitl [Hb1]; · iexists _; iapply (Entails.of_eq (pts_sB1 (F := F) d L _)); iexact Hb1
    iexact Hbufs
  isplitl [Hfl0 Hsem1 Hsem2 Hsems]
  · isplitl [Hfl0]; · iexact Hfl0
    isplitl [Hsem1]; · iexact Hsem1
    isplitl [Hsem2]; · iexact Hsem2
    iexact Hsems
  iexists _; isplitr
  swap
  · iexact HO
  · ipureintro; intro q hq
    rcases Finset.mem_insert.mp hq with hq | hq
    · exact .inr (by subst hq; rfl)
    rcases Finset.mem_insert.mp hq with hq | hq
    · exact .inr (by subst hq; rfl)
    · exact hW' q hq

end Tile

end Cert.Proof.KI

end
-- ==== Proof.LaunchI.lean ====
/- The launch of the idealized program: the one SparseCore call's obligations from the vector subcore's task, the
   launch element of the ghost state, the program on a device's TensorCore, and the run of the whole mesh. -/
import proofs.«218041_g60507499266918_cont_9to1_m_1358_18_alg».proof.Proof.RegionI2
import proofs.«218041_g60507499266918_cont_9to1_m_1358_18_alg».proof.Proof.TileI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type}
variable (m : (ℓ : Loc nD τ sig) → Buf (Elt F) ℓ) (ρ : Dev nD → PrngReg)
variable [FloatOps F]

/-! ## The vector subcore's obligation -/

/-- The grid point of SparseCore `c`, vector subcore `s`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__hist_body (coordsV c s)
          aV (Memref.isWhole_whole _) oV (Memref.isWhole_whole _) sH (Memref.isWhole_whole _)
          sB0 (Memref.isWhole_whole _) sB1 (Memref.isWhole_whole _) cc0_scratch3 cc0_scratch4 cc0_scoped0) ⟨⟩ c s := rfl

omit [FloatOps F] in
theorem obl_post {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre O W hO).trans (wp_mono frame _ _ fun _ => obl_post)

/-! ## The call's operands split over the tasks -/

omit [FloatOps F] in
theorem bigSep_tasks (Φ : Fin 16 → sProp (MM F)) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show (bigSep Finset.univ fun i : Fin 16 => goOf m d (widOf (Fin.cast nCore_zero c) i)) ⊢ |={Set.univ}=> iprop(
      (bigSep Finset.univ fun i : Fin ((K (F := F)).nSub 0) => goOf m d (widOf (Fin.cast nCore_zero c) (Fin.cast nSub_zero i)))
      ∗ ((bigSep Finset.univ fun i : Fin ((K (F := F)).nSub 0) => tdOf m d (widOf (Fin.cast nCore_zero c) (Fin.cast nSub_zero i)))
          -∗ bigSep Finset.univ fun i : Fin 16 => tdOf m d (widOf (Fin.cast nCore_zero c) i)))
  rw [bigSep_tasks (F := F) (fun i => goOf m d (widOf (Fin.cast nCore_zero c) i)),
    bigSep_tasks (F := F) (fun i => tdOf m d (widOf (Fin.cast nCore_zero c) i))]
  iintro H; imodintro
  isplitl [H]; · iexact H
  iintro H; iexact H

/-! ## The launch element of the ghost state -/

/-- The handshakes' rounds, the region's staging cells, no counter yet. -/
def u₀ : UU := (initOf (K (F := F)).hsCells (K (F := F)).hsToks, (uP₀, 1))

omit [FloatOps F] in
theorem bigSep_emp' {I : Type} (s : Finset I) : (bigSep s fun _ => iprop(emp)) = (iprop(emp) : sProp (MM F)) := bigSep_emp_const s

theorem hu₀ : (ownU (u₀ (F := F)) : sProp (MM F))
    ⊢ |={Set.univ}=> iprop(BI.own (EH (initOf (K (F := F)).hsCells (K (F := F)).hsToks)) ∗ (bigSep Finset.univ fun d : Dev nD => GP (F := F) d)
        ∗ bigSep Finset.univ fun thr : Thread nD τ => bigSep Finset.univ fun q : Fin 1 => (P m).x q thr) := by
  have hf : (BI.own (((Emb.inl : Emb UP (UP × Counters)).trans embR) uP₀) : sProp (MM F)) ⊢ |==> bigSep Finset.univ (GP (F := F)) := by
    have h := fundGP (F := F); unfold EP at h; exact h
  unfold u₀
  iintro Hu
  ihave H := (ownU_pair _ _) $$ Hu
  icases H with ⟨HH, HR⟩
  ihave HR' := (own_pair_emb embR uP₀ (1 : Counters)) $$ HR
  icases HR' with ⟨HP, -⟩
  imod hf $$ HP with HG
  imodintro
  isplitl [HH]; · iexact HH
  isplitl [HG]; · iexact HG
  unfold P; dsimp only
  rw [show (bigSep Finset.univ fun _ : Thread nD τ => bigSep Finset.univ fun _ : Fin 1 => (iprop(emp) : sProp (MM F))) = iprop(emp) from by
    rw [bigSep_congr fun _ _ => bigSep_emp' _, bigSep_emp']]
  iempintro

/-! ## The counts array as its rows, the region map's share as read tokens -/

omit [FloatOps F] in
theorem rows_disjoint : ∀ w ∈ (Finset.univ : Finset (Fin 32)), ∀ w' ∈ (Finset.univ : Finset (Fin 32)), w ≠ w' → Disjoint (cntRow w) (cntRow w') :=
  fun w _ w' _ h => Finset.disjoint_filter.mpr fun j _ h1 h2 => h (Fin.ext (h1.symm.trans h2))
omit [FloatOps F] in
theorem rows_cover : (Finset.univ : Finset (Fin 32)).biUnion cntRow = Finset.univ := by
  ext j
  simp only [Finset.mem_biUnion, Finset.mem_univ, true_and, Finset.mem_filter, iff_true]
  exact ⟨⟨(j 0).val, ValueIdx.idx2_lt0 j⟩, rfl⟩

omit [FloatOps F] in
/-- The counts array whole is its thirty-two rows. -/
theorem cnt_rows (d : Dev nD) (f : Buf (Elt F) (cntLoc d)) :
    (cntLoc d ↦{fullShare} f : sProp (MM F)) = bigSep Finset.univ fun w : Fin 32 => cntLoc d ↦[cntRow w]{fullShare} f := by
  rw [← pointsTo_biUnion Finset.univ (ℓ := cntLoc d) cntRow rows_disjoint, rows_cover]; try rfl

omit [FloatOps F] in
/-- Conjoined over SparseCores and their subcores is conjoined over the thirty-two vector subcores. -/
theorem bigSep_wid (Φ : Fin 32 → sProp (MM F)) :
    (bigSep Finset.univ fun c : Fin 2 => bigSep Finset.univ fun i : Fin 16 => Φ (widOf c i)) = bigSep Finset.univ Φ := by
  rw [← bigSep_univ_prod (fun ci : Fin 2 × Fin 16 => Φ (widOf ci.1 ci.2)), BI.bigSep_univ_equiv (finProdFinEquiv : Fin 2 × Fin 16 ≃ Fin 32) Φ]
  exact bigSep_congr fun ci _ => congrArg Φ (Fin.ext (by
    show 16 * ci.1.val + ci.2.val = ci.2.val + 16 * ci.1.val
    omega))

/-- What the call takes for the two SparseCores: every subcore's read token of the map and row of the counts array, -/
theorem st0_eq (d : Dev nD) : (bigSep Finset.univ fun c : Fin ((K (F := F)).nCore 0) => (P m).st 0 d c)
    = iprop((bigSep Finset.univ fun w : Fin 32 => mapTokPts m d w) ∗ bigSep Finset.univ fun w : Fin 32 => cntRowPts d w (m (cntLoc d))) := by
  show (bigSep (Finset.univ : Finset (Fin 2)) fun c => bigSep Finset.univ fun i : Fin 16 => goOf m d (widOf c i)) = _
  rw [bigSep_wid (F := F) (fun w => goOf m d w)]
  exact bigSep_sep' _ _ _
/-- and what it hands back: the tokens, and the rows holding the histograms. -/
theorem dn0_eq (d : Dev nD) : (bigSep Finset.univ fun c : Fin ((K (F := F)).nCore 0) => (P m).dn 0 d c)
    = iprop((bigSep Finset.univ fun w : Fin 32 => mapTokPts m d w) ∗ bigSep Finset.univ fun w : Fin 32 => cntRowPts d w (cntOf m d)) := by
  show (bigSep (Finset.univ : Finset (Fin 2)) fun c => bigSep Finset.univ fun i : Fin 16 => tdOf m d (widOf c i)) = _
  rw [bigSep_wid (F := F) (fun w => tdOf m d w)]
  exact bigSep_sep' _ _ _

/-! ## The program on a device's TensorCore -/

omit [FloatOps F] in
theorem unscopedBufs_eq (d : Dev nD) (W : (b : Ref sig .tc) → Buf (Elt F) ((d.tc : Thread nD τ).loc b)) :
    (unscopedBufs d W : sProp (MM F)) = iprop((tblLoc d ↦{fullShare} W main_arg0) ∗ (mapLoc d ↦{fullShare} W main_arg1) ∗ (cntLoc d ↦{fullShare} W main_v0)
      ∗ ((SparseCore.T d).loc main_v1 ↦{fullShare} W main_v1) ∗ ((SparseCore.T d).loc main_v2 ↦{fullShare} W main_v2) ∗ ((SparseCore.T d).loc main_v3 ↦{fullShare} W main_v3)) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

/-- What the program leaves the claim on device `d`: the table and the region map as launched, the result at `outOf` of
    the table and the histograms. -/
abbrev FIN (d : Dev nD) : sProp (MM F) :=
  iprop((tblLoc d ↦{fullShare} m (tblLoc d)) ∗ (mapLoc d ↦{fullShare} m (mapLoc d)) ∗ ((SparseCore.T d).loc main_v3 ↦{fullShare} outOf (m (tblLoc d)) (cntOf m d)))

variable [∀ e, Nonempty (Elt F e)]

set_option backward.isDefEq.respectTransparency.types false in
/-- The program on device `d`'s TensorCore: the SparseCore call — the map lent as thirty-two read tokens, the counts
    array as its rows, both back with every row at its histogram — and then the tail. -/
theorem hmain (κ : GSem nD τ sig → ℕ) (d : Dev nD) :
    iprop((K (F := F)).ctx EH (P m) κ ∗ (K (F := F)).tcSt EH d 0 ∗ (K (F := F)).tcRes m ρ d ∗ GP d)
      ⊢ wp frame (wpE ((K (F := F)).defs (D (F := F))) 𝒱 (SparseCore.T d) none) Set.univ (main d)
          fun _ => iprop((K (F := F)).tcSt EH d 1 ∗ FIN m d) := by
  have htail : iprop(iprop((K (F := F)).ctx EH (P m) κ ∗ (K (F := F)).tcSt EH d 1 ∗ boundary (SparseCore.T d) ∗ GP d
        ∗ (tblLoc d ↦{fullShare} m (tblLoc d)) ∗ (cntLoc d ↦{fullShare} cntOf m d)
        ∗ (∃ f, (SparseCore.T d).loc main_v1 ↦{fullShare} f) ∗ (∃ f, (SparseCore.T d).loc main_v2 ↦{fullShare} f) ∗ (∃ f, (SparseCore.T d).loc main_v3 ↦{fullShare} f))
        ∗ (mapLoc d ↦{fullShare} m (mapLoc d)))
      ⊢ wp frame (wpE ((K (F := F)).defs (D (F := F))) 𝒱 (SparseCore.T d) none) Set.univ (mainTail d)
          fun _ => iprop((K (F := F)).tcSt EH d 1 ∗ FIN m d) :=
    (BI.sep_mono (tail_wp m κ d (cntOf m d)) (BI.Entails.refl _)).trans ((wp_frame_r frame _ Set.univ).trans (wp_mono frame _ Set.univ fun _ => by
      iintro ⟨⟨Hst, Htbl, H3⟩, Hmap⟩
      isplitl [Hst]; · iexact Hst
      isplitl [Htbl]; · iexact Htbl
      isplitl [Hmap]; · iexact Hmap
      iexact H3))
  unfold SparseCore.Cfg.tcRes
  rw [unscopedBufs_eq, main_eq]
  simp only [wp_bind]
  iintro ⟨#Hctx, Hst, ⟨Hb, ⟨Htbl, Hmap, H0, H1, H2, H3⟩, -, -⟩, HG⟩
  -- the map's share as thirty-two read tokens and a remainder; the counts array as its rows
  ihave Hm := (Transfers.pointsTo_toks_split fullShare 32) $$ Hmap
  icases Hm with ⟨Hrem, Htoks⟩
  ihave Hrows := (Entails.of_eq (cnt_rows d _)) $$ H0
  iapply ((K (F := F)).wp_run (D (F := F)) 𝒱 (EH := EH) (P := P m) κ d 0) $$ [Hst Htoks Hrows Hb Htbl Hrem H1 H2 H3 HG]
  isplitr; · iexact Hctx
  isplitl [Hst]; · iexact Hst
  isplitl [Htoks Hrows]
  · iapply (Entails.of_eq (st0_eq m d).symm)
    isplitl [Htoks]; · iexact Htoks
    iexact Hrows
  iintro ⟨Hst, Hdn⟩
  ihave Hdn' := (Entails.of_eq (dn0_eq m d)) $$ Hdn
  icases Hdn' with ⟨Htoks, Hrows⟩
  ihave Hmap := (Transfers.pointsTo_toks_join fullShare 32) $$ [Hrem Htoks]
  · isplitl [Hrem]; · iexact Hrem
    iexact Htoks
  ihave H0 := (Entails.of_eq (cnt_rows d (cntOf m d)).symm) $$ Hrows
  -- the tail, the map kept aside
  iapply htail
  isplitr [Hmap]
  · isplitr; · iexact Hctx
    isplitl [Hst]; · iexact Hst
    isplitl [Hb]; · iexact Hb
    isplitl [HG]; · iexact HG
    isplitl [Htbl]; · iexact Htbl
    isplitl [H0]; · iexact H0
    isplitl [H1]; · iexists _; iexact H1
    isplitl [H2]; · iexists _; iexact H2
    iexists _; iexact H3
  iexact Hmap

/-- What the final memory of device `d` holds. -/
def fq (d : Dev nD) (s' : Phys nD τ sig (Elt F)) : Prop :=
  s'.mem.mem (tblLoc d) = m (tblLoc d) ∧ s'.mem.mem (mapLoc d) = m (mapLoc d)
    ∧ s'.mem.mem ((SparseCore.T d).loc main_v3) = outOf (m (tblLoc d)) (cntOf m d)

omit [∀ e, Nonempty (Elt F e)] in
theorem hfin (d : Dev nD) (s' : Phys nD τ sig (Elt F)) : iprop(FIN m d ∗ SI s') ⊢ (⌜fq m d s'⌝ : sProp (MM F)) := by
  iintro ⟨⟨Ht, Hm, H3⟩, HSI⟩
  ihave H := (persistent_entails_right (SI_pointsTo_agree (st := s') (ℓ := tblLoc d) (I := Finset.univ) (q := fullShare) (f := m (tblLoc d)))) $$ [HSI Ht]
  · isplitl [HSI] <;> iassumption
  icases H with ⟨%h1, HSI, -⟩
  ihave H := (persistent_entails_right (SI_pointsTo_agree (st := s') (ℓ := mapLoc d) (I := Finset.univ) (q := fullShare) (f := m (mapLoc d)))) $$ [HSI Hm]
  · isplitl [HSI] <;> iassumption
  icases H with ⟨%h2, HSI, -⟩
  ihave H := (SI_pointsTo_agree (st := s') (ℓ := (SparseCore.T d).loc main_v3) (I := Finset.univ) (q := fullShare) (f := outOf (m (tblLoc d)) (cntOf m d))) $$ [HSI H3]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

/-- On every device: the table and the region map as launched, the result at `outOf` of the table and the histograms. -/
def QC : PUnit × MemSt nD τ sig (Elt F) → Prop := fun r =>
  ∀ c : Dev nD, r.2.mem (tblLoc c) = m (tblLoc c) ∧ r.2.mem (mapLoc c) = m (mapLoc c)
    ∧ r.2.mem ((SparseCore.T c).loc main_v3) = outOf (m (tblLoc c)) (cntOf m c)

theorem run_main (hpre : PreOK m) :
    θ_run (Cert.KernelIdeal.defs (F := F)) (Cert.KernelIdeal.threads (F := F)) ⟨m, fun _ => 0, ρ⟩
      (fun r => ∀ c : Dev nD, r.2.mem (tblLoc c) = m (tblLoc c) ∧ r.2.mem (mapLoc c) = m (mapLoc c)
        ∧ r.2.mem ((SparseCore.T c).loc main_v3) = outOf (m (tblLoc c)) (cntOf m c)) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (GP (F := F)) (FIN m) (u₀ (F := F)) (sep_elim_left.trans (hu₀ m)) (hmain m ρ) (fq m) (hfin m) (QC m) (fun _ h => h)

end Cert.Proof.KI

end
-- ==== Proof.SetupB.lean ====
/- The kernel as printed as the SparseCore launch theorem sees it: the program's names, the proof's resource
   algebra, and what the one SparseCore call hands each vector subcore and takes back.
   Vector subcore w = 16·c + s of the device reads the region map (a read share of the whole array, returned
   unchanged) and owns row w of the [32, 65536] counts array, which it returns holding its block's histogram. -/
import proofs.«218041_g60507499266918_cont_9to1_m_1358_18_alg».proof.Defs
import proofs.«218041_g60507499266918_cont_9to1_m_1358_18_alg».proof.Proof.Gen.Kernel
import proofs.«218041_g60507499266918_cont_9to1_m_1358_18_alg».proof.Proof.Gen.Kernel.Skeleton
import proofs.«218041_g60507499266918_cont_9to1_m_1358_18_alg».proof.Proof.HistSpec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the TensorCore pipeline's staging cells, the transfers' counters -/

abbrev UH : Type := URounds (GSem nD τ sig) ℕ
abbrev UP : Type := URounds (GSem nD τ sig) Unit
abbrev UU : Type := UH × (UP × Counters)

abbrev MM (F : FTy → Type) : Type := MT nD τ sig (HIx 1) (Elt F) ℕ UU ℕ

abbrev EH : Emb UH (MM F) := embL
def EP : Emb UP (MM F) := (Emb.inl : Emb UP (UP × Counters)).trans embR

instance EP_landsIn : (EP : Emb UP (MM F)).LandsIn (upEmb : UEmb _ (MM F)) := by unfold EP; infer_instance

/-! ## The launch memory and the arrays -/

variable (m : (ℓ : Loc nD τ sig) → Buf (Elt F) ℓ) (ρ : Dev nD → PrngReg)

abbrev tblLoc (d : Dev nD) : Loc nD τ sig := (SparseCore.T d).loc main_arg0
abbrev mapLoc (d : Dev nD) : Loc nD τ sig := (SparseCore.T d).loc main_arg1
abbrev cntLoc (d : Dev nD) : Loc nD τ sig := (SparseCore.T d).loc main_v0

/-- The region map at launch, as a vector of words. -/
abbrev rmOf (d : Dev nD) : IVec S16x512x512 32 := m (mapLoc d)

variable [FloatOps F]

/-- The counts array once every vector subcore has written its row. -/
abbrev cntOf (d : Dev nD) : Buf (Elt F) (cntLoc d) := Cert.Hist.countsOf (F := F) (rmOf m d)

-- the kernel's memrefs, as the body table passes them
abbrev aV : Memref sig .scVector .hbm S16x512x512 .i32 := Memref.whole main_arg1_scv
abbrev oV : Memref sig .scVector .hbm S32x65536 .f32 := Memref.whole main_v0_scv
abbrev sH : Memref sig .scVector .vmem S65536 .f32 := Memref.whole cc0_scratch0
abbrev sB0 : Memref sig .scVector .vmem S32x512 .i32 := Memref.whole cc0_scratch1
abbrev sB1 : Memref sig .scVector .vmem S32x512 .i32 := Memref.whole cc0_scratch2

/-- Row `w` of the counts array, as a set of its indices. -/
abbrev cntRow (w : Fin 32) : Finset S32x65536.Idx := Finset.univ.filter fun j => (j 0).val = w.val

/-- Vector subcore number of (SparseCore `c`, subcore `i`). -/
abbrev widOf (c : Fin 2) (i : Fin 16) : Fin 32 := ⟨16 * c.val + i.val, by have := c.isLt; have := i.isLt; omega⟩

/-- The read share of the region map vector subcore `w` is lent. -/
abbrev mapTok (w : Fin 32) : PosShare TreeShare := shareTok fullShare 32 w

abbrev mapTokPts (d : Dev nD) (w : Fin 32) : sProp (MM F) := mapLoc d ↦{mapTok w} m (mapLoc d)
abbrev cntRowPts (d : Dev nD) (w : Fin 32) (f : Buf (Elt F) (cntLoc d)) : sProp (MM F) := cntLoc d ↦[cntRow w]{fullShare} f

/-- What a task is handed, and what it hands back. -/
abbrev goOf (d : Dev nD) (w : Fin 32) : sProp (MM F) := iprop(mapTokPts m d w ∗ cntRowPts d w (m (cntLoc d)))
abbrev tdOf (d : Dev nD) (w : Fin 32) : sProp (MM F) := iprop(mapTokPts m d w ∗ cntRowPts d w (cntOf m d))

/-- The one call: a SparseCore takes its sixteen tasks' shares and rows, and brings them back. -/
def P : (K (F := F)).Pay (nD := nD) (Val := Elt F) (Name := ℕ) (U := UU) where
  st := fun q d c => match q with
    | 0 => bigSep Finset.univ fun i : Fin 16 => goOf m d (widOf (Fin.cast nCore_zero c) i)
  dn := fun q d c => match q with
    | 0 => bigSep Finset.univ fun i : Fin 16 => tdOf m d (widOf (Fin.cast nCore_zero c) i)
  go := fun q d c i => match q with
    | 0 => goOf m d (widOf (Fin.cast nCore_zero c) (Fin.cast nSub_zero i))
  td := fun q d c i => match q with
    | 0 => tdOf m d (widOf (Fin.cast nCore_zero c) (Fin.cast nSub_zero i))
  x := fun _ _ => iprop(emp)

instance P_storable : (P (F := F) m).IsStorable where
  st q d c := match q with | 0 => by unfold P; infer_instance
  dn q d c := match q with | 0 => by unfold P; infer_instance
  go q d c i := match q with | 0 => by unfold P; infer_instance
  td q d c i := match q with | 0 => by unfold P; infer_instance

end Cert.Proof.KB

end
-- ==== Proof.RegionB.lean ====
/- The TensorCore's part of the program after the SparseCore call: the table transposed, the scaling kernel
   region over the two halves of the columns, and the result transposed back. This module: the program's tail, the
   region's proof data, and the kernel body at a point of the grid. -/
import proofs.«218041_g60507499266918_cont_9to1_m_1358_18_alg».proof.Proof.SetupB
import proofs.«218041_g60507499266918_cont_9to1_m_1358_18_alg».proof.Proof.Gen.Kernel.Launch
import proofs.«218041_g60507499266918_cont_9to1_m_1358_18_alg».proof.Proof.Gen.Kernel.Points
import Idealize.ShloMosaic.Lib.Pipeline.FrameBody
import Idealize.ShloMosaic.Lib.Pipeline.Regions
import Idealize.ShloMosaic.Lib.Pipeline.Value

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-! ## The program after the SparseCore call -/

/-- The three statements of the program after the SparseCore call. -/
def mainTail (d : Dev nD) : Prog (TpuEff nD τ sig (Elt F) (SparseCore.Sig (ΛP (F := F)) 1) .tc) PUnit := do
  hlo rfl (StableHlo.unary main_arg0 main_v1 ((transpose S64x65536 [1, 0] · transposes_S65536x64_S64x65536_1_0) : (⟨S65536x64, .f32⟩ : BufTy).Contents (Elt F) → (⟨S64x65536, .f32⟩ : BufTy).Contents (Elt F))) (fun _ => .ret ⟨⟩)
  Prog.lift (.customCall (SparseCore.inner (Pipeline.entry 0)) ())
  hlo rfl (StableHlo.unary main_v2 main_v3 ((transpose S65536x64 [1, 0] · transposes_S64x65536_S65536x64_1_0) : (⟨S64x65536, .f32⟩ : BufTy).Contents (Elt F) → (⟨S65536x64, .f32⟩ : BufTy).Contents (Elt F))) (fun _ => .ret ⟨⟩)
  pure ⟨⟩

theorem main_eq (d : Dev nD) : main (F := F) d = (sc (F := F)).run d 0 >>= fun _ => mainTail d := rfl

/-! ## The staging cells' ghost state -/

/-- No prefetched table: the one admissible choice. -/
abbrev adm : (p : Fin 1) → (pcfgs (F := F) p).Adm := fun p => (cfgs p).toPCfg_adm

/-- The launch element of the region's staging cells and transfers. -/
def uP₀ : UP := initOf (Pipeline.cells cfgs cellOf_inj) (Pipeline.launchToks cfgs cellOf_inj)

/-- What a device's TensorCore holds of it: its staging cells' launch state and its transfers' tokens. -/
def GP (d : Dev nD) : sProp (MM F) := iprop(Pipeline.cellsGhost cfgs EP 0 d ∗ Pipeline.toksInit cfgs EP 0 d)

theorem fundGP : (BI.own (EP (F := F) uP₀) : sProp (MM F)) ⊢ |==> bigSep Finset.univ (GP (F := F)) := by
  have h1 : ∀ Φ : Fin 1 → sProp (MM F), bigSep Finset.univ Φ = Φ 0 := fun Φ => by
    rw [show (Finset.univ : Finset (Fin 1)) = {0} from by decide, bigSep_singleton]
  unfold uP₀ GP
  refine (Pipeline.fund_ghost cfgs EP cellOf_inj).trans (bupd_mono ?_)
  simp only [h1]
  exact BI.Entails.refl _

/-! ## The region's arrays and their blocks -/

/-- The table as the region finds it: transposed to [64, 65536]. -/
abbrev tblT (tbl : FVec F S65536x64 .f32) : FVec F S64x65536 .f32 := transpose S64x65536 [1, 0] tbl transposes_S65536x64_S64x65536_1_0

variable (tbl : FVec F S65536x64 .f32) (Cn : FVec F S32x65536 .f32) (f2 : FVec F S64x65536 .f32)

/-- The three arrays the region moves, as it finds them: the counts, the transposed table, and the result's array
    at whatever it held. -/
def arr0 (c : Dev nD) : (w : Fin cfg1.W) → Buf (Elt F) ((cfg1.win w).arr.view.loc (c : Thread nD τ))
  | ⟨0, _⟩ => Cn
  | ⟨1, _⟩ => tblT tbl
  | ⟨2, _⟩ => f2

/-- Window `w`'s block at point `t`, read off its array. -/
def iblk (c : Dev nD) (w : Fin cfg1.W) (t : Fin cfg1.N) : ((cfg1.win w).xblock (cfg1.grid.coords t)).Idx → Elt F (cfg1.win w).elt :=
  ((cfg1.win w).blk t).view.read (Elt F) (arr0 tbl Cn f2 c w)

/-! ## The kernel body at a point -/

abbrev r32 : Rect S32x32768 := Rect.unit (s := S32x32768) ![0, 0] S32x32768.size inb_S32x32768_S32x32768_0_0
abbrev r64 : Rect S64x32768 := Rect.unit (s := S64x32768) ![0, 0] S64x32768.size inb_S64x32768_S64x32768_0_0

/-- The result's staging buffer after the body, from the two input blocks: its one store, of the scaled block. -/
def out2 (x0 : Vec F S32x32768 .f32) (x1 : Vec F S64x32768 .f32) : Vec F S64x32768 .f32 :=
  View.canon [⟨r64, k1_pay1 (View.ld x0 r32) (View.ld x1 r64)⟩]

theorem cover2 (p0 : Vec F S64x32768 .f32) (y : S64x32768.Idx) :
    ∃ pc ∈ ([⟨r64, p0⟩] : List (View.Piece (Elt F) S64x32768 .f32)), y ∈ pc.1.set :=
  View.cover_of_tiled [⟨r64, p0⟩] S64x32768.size (by rfl) y

set_option maxHeartbeats 1000000 in
/-- The body on whole staging memrefs: the two inputs stay as they were, the result's buffer ends at `out2` of them. -/
theorem sound_kernel (c : Dev nD) (E : Set ℕ) (i : grid1.Coords) (arg1 : Memref sig .tc .vmem S32x32768 .f32) (harg1 : arg1.IsWhole) (arg2 : Memref sig .tc .vmem S64x32768 .f32) (harg2 : arg2.IsWhole) (arg3 : Memref sig .tc .vmem S64x32768 .f32) (harg3 : arg3.IsWhole)
    (x0 : Vec F S32x32768 .f32) (x1 : Vec F S64x32768 .f32) (K : PUnit → sProp (MM F)) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2 x0 x1)) -∗ K ⟨⟩))
      ⊢ wp frame (wpE (defs₀ (F := F)) Variants.none c none) E (cc1__scale_body i arg1 harg1 arg2 harg2 arg3 harg3) K := by
  simp only [cc1__scale_body_eq_skeleton]; unfold cc1__scale_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-! ## The region's proof data -/

/-- The proof data on core `c`: the arrays as the region finds them; after the body at point `t` each input's buffer
    at its block and the result's at `out2` of the input blocks; the invariant the scoped buffers no window stages;
    nothing owed; full shares. -/
def dats (_ : Fin 1) (c : Dev nD) : Dat τ (Elt F) (HIx 1) ℕ UU ℕ cfg1 c where
  A w := arr0 tbl Cn f2 c w
  after w t := match w with
    | ⟨0, _⟩ => iblk tbl Cn f2 c 0 t
    | ⟨1, _⟩ => iblk tbl Cn f2 c 1 t
    | ⟨2, _⟩ => out2 (iblk tbl Cn f2 c 0 t) (iblk tbl Cn f2 c 1 t)
  Φ _ := Pipeline.scopedRest (Ix := HIx 1) (Name := ℕ) (U := UU) (Lvl := ℕ) (Val := Elt F) spec1 c
  q _ := fullShare
  owed _ := 0

theorem A_eq (c : Dev nD) (w : Fin cfg1.W) : (dats tbl Cn f2 0 c).A w = arr0 tbl Cn f2 c w := by
  dsimp only [dats]

theorem after_0 (c : Dev nD) (t : Fin cfg1.N) : (dats tbl Cn f2 0 c).after 0 t = iblk tbl Cn f2 c 0 t := by dsimp only [dats]
theorem after_1 (c : Dev nD) (t : Fin cfg1.N) : (dats tbl Cn f2 0 c).after 1 t = iblk tbl Cn f2 c 1 t := by dsimp only [dats]
theorem after_2 (c : Dev nD) (t : Fin cfg1.N) : (dats tbl Cn f2 0 c).after 2 t = out2 (iblk tbl Cn f2 c 0 t) (iblk tbl Cn f2 c 1 t) := by dsimp only [dats]

/-- Each input's current staging buffer holds its block at every point. -/
theorem before_0 (c : Dev nD) (t : Fin cfg1.N) (d) : (dats tbl Cn f2 0 c).before 0 t d = iblk tbl Cn f2 c 0 t :=
  ((dats tbl Cn f2 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dats tbl Cn f2 0 c).before 1 t d = iblk tbl Cn f2 c 1 t :=
  ((dats tbl Cn f2 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-- What the body is called with at point `t`, the windows one by one, -/
def bodyPre (c : Dev nD) (t : Fin cfg1.N) : sProp (MM F) :=
  iprop((dats tbl Cn f2 0 c).Φ t.castSucc ∗ (dats tbl Cn f2 0 c).owesAt (none : HIx 1) t.castSucc
    ∗ (∃ d, owns (c : Thread nD τ) (st1_0 t) fullShare ((dats tbl Cn f2 0 c).before 0 t d))
    ∗ (∃ d, owns (c : Thread nD τ) (st1_1 t) fullShare ((dats tbl Cn f2 0 c).before 1 t d))
    ∗ (∃ d, owns (c : Thread nD τ) (st1_2 t) fullShare ((dats tbl Cn f2 0 c).before 2 t d)))

/-- and what it returns. -/
def bodyPost (c : Dev nD) (t : Fin cfg1.N) : sProp (MM F) :=
  iprop((dats tbl Cn f2 0 c).Φ t.succ ∗ (dats tbl Cn f2 0 c).owesAt (none : HIx 1) t.succ
    ∗ owns (c : Thread nD τ) (st1_0 t) fullShare ((dats tbl Cn f2 0 c).after 0 t)
    ∗ owns (c : Thread nD τ) (st1_1 t) fullShare ((dats tbl Cn f2 0 c).after 1 t)
    ∗ owns (c : Thread nD τ) (st1_2 t) fullShare ((dats tbl Cn f2 0 c).after 2 t))

/-- The body at any point: the inputs' memrefs hold their blocks, so `sound_kernel` applies; the invariant and the
    core's dues pass through unread. -/
theorem sound_body (c : Dev nD) (t : Fin cfg1.N) :
    bodyPre tbl Cn f2 c t ⊢ wp frame (wpE (defs₀ (F := F)) Variants.none c none) Set.univ (bodyAt1 t) (fun _ => bodyPost tbl Cn f2 c t) := by
  unfold bodyPre bodyPost bodyAt1
  simp only [before_0, before_1]
  rw [show (dats tbl Cn f2 0 c).Φ t.succ = (dats tbl Cn f2 0 c).Φ t.castSucc from rfl,
    show (dats tbl Cn f2 0 c).owesAt (none : HIx 1) t.succ = (dats tbl Cn f2 0 c).owesAt (none : HIx 1) t.castSucc from rfl,
    after_0, after_1, after_2]
  iintro ⟨HΦ, Ho, ⟨%d0, H0⟩, ⟨%d1, H1⟩, ⟨%d2, H2⟩⟩
  iapply (sound_kernel c Set.univ (grid1.coords t) _ _ _ _ _ _ (iblk tbl Cn f2 c 0 t) (iblk tbl Cn f2 c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's triple at every point of the grid. -/
theorem body_obligation (c : Dev nD) : BodyObligation (dats tbl Cn f2 0 c) (defs₀ (F := F)) Variants.none (none : HIx 1) Set.univ := fun t => by
  rw [bigSep_W1, bigSep_W1]
  exact sound_body tbl Cn f2 c t

/-! ## The result array as one function of the table and the counts -/

/-- The half of the columns an index of a [64, 65536] array lies in, -/
def halfOf (i : S64x65536.Idx) : Fin 2 := ⟨(i 1).val / 32768, by have := idx2_lt1 i; omega⟩
/-- and the index inside that half's [64, 32768] block. -/
def colIn (i : S64x65536.Idx) : S64x32768.Idx :=
  ix2 (⟨(i 0).val, idx2_lt0 i⟩ : Fin 64) (⟨(i 1).val % 32768, Nat.mod_lt _ (by decide)⟩ : Fin 32768)

/-- Half `h` of the columns of the counts: columns [32768 h, 32768 (h + 1)). -/
def cntHalf (Cn : FVec F S32x65536 .f32) (h : Fin 2) : Vec F S32x32768 .f32 := fun j =>
  Cn (ix2 (⟨(j 0).val, idx2_lt0 j⟩ : Fin 32) (⟨32768 * h.val + (j 1).val, by have := idx2_lt1 j; have := h.isLt; omega⟩ : Fin 65536))
/-- Half `h` of the columns of the transposed table. -/
def tblHalf (V1 : FVec F S64x65536 .f32) (h : Fin 2) : Vec F S64x32768 .f32 := fun j =>
  V1 (ix2 (⟨(j 0).val, idx2_lt0 j⟩ : Fin 64) (⟨32768 * h.val + (j 1).val, by have := idx2_lt1 j; have := h.isLt; omega⟩ : Fin 65536))

/-- What the region leaves in its result array: over each half of the columns, the kernel's scaled block of that
    half of the transposed table and of the counts. -/
def G2 (tbl : FVec F S65536x64 .f32) (Cn : FVec F S32x65536 .f32) : FVec F S64x65536 .f32 := fun i =>
  k1_pay1 (cntHalf Cn (halfOf i)) (tblHalf (tblT tbl) (halfOf i)) (colIn i)

/-- What the program's result holds at the end: that array transposed back to [65536, 64]. -/
def outOf (tbl : FVec F S65536x64 .f32) (Cn : FVec F S32x65536 .f32) : FVec F S65536x64 .f32 :=
  transpose S65536x64 [1, 0] (G2 tbl Cn) transposes_S64x65536_S65536x64_1_0

end Cert.Proof.KB

end
-- ==== Proof.RegionB2.lean ====
/- The TensorCore's part of the program after the SparseCore call, continued: the region's two write-backs make
   its result array the one function `G2` of the table and the counts; how the region is entered and left; and
   the run of the program's tail. -/
import proofs.«218041_g60507499266918_cont_9to1_m_1358_18_alg».proof.Proof.RegionB

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (tbl : FVec F S65536x64 .f32) (Cn : FVec F S32x65536 .f32) (f2 : FVec F S64x65536 .f32)

theorem hz : (![0, 0] : Fin 2 → Nat) = fun _ => 0 := funext fun a => by fin_cases a <;> rfl

/-- The grid's point as a half of the columns. -/
def hIdx (t : Fin cfg1.N) : Fin 2 := ⟨t.val, t.isLt.trans_eq N_1⟩

/-- The printed index maps over the grid: every window's block at point `t` is rows from 0, columns from 32768 t. -/
theorem idx_facts : ∀ t : Fin cfg1.N, win1_0.index t (0 : Fin 2) = 0 ∧ win1_0.index t (1 : Fin 2) = t.val
    ∧ win1_1.index t (0 : Fin 2) = 0 ∧ win1_1.index t (1 : Fin 2) = t.val
    ∧ win1_2.index t (0 : Fin 2) = 0 ∧ win1_2.index t (1 : Fin 2) = t.val :=
  (by decide +kernel : ∀ t : Fin grid1.N, _)

theorem iblk_0 (c : Dev nD) (t : Fin cfg1.N) : iblk tbl Cn f2 c 0 t = cntHalf Cn (hIdx t) := by
  obtain ⟨e0, e1, -, -, -, -⟩ := idx_facts t
  funext j
  show Cn (((cfg1.win 0).blk t).view.emb j) = Cn _
  congr 1
  funext a; apply Fin.ext
  match a with
  | ⟨0, _⟩ => show win1_0.index t (0 : Fin 2) * 32 + 1 * (j 0).val = (j 0).val; omega
  | ⟨1, _⟩ => show win1_0.index t (1 : Fin 2) * 32768 + 1 * (j 1).val = 32768 * t.val + (j 1).val; omega

theorem iblk_1 (c : Dev nD) (t : Fin cfg1.N) : iblk tbl Cn f2 c 1 t = tblHalf (tblT tbl) (hIdx t) := by
  obtain ⟨-, -, e0, e1, -, -⟩ := idx_facts t
  funext j
  show tblT tbl (((cfg1.win 1).blk t).view.emb j) = tblT tbl _
  congr 1
  funext a; apply Fin.ext
  match a with
  | ⟨0, _⟩ => show win1_1.index t (0 : Fin 2) * 64 + 1 * (j 0).val = (j 0).val; omega
  | ⟨1, _⟩ => show win1_1.index t (1 : Fin 2) * 32768 + 1 * (j 1).val = 32768 * t.val + (j 1).val; omega

/-- What point `t` writes back is block `t` of `G2`. -/
theorem flushed_eq (c : Dev nD) (t : Fin cfg1.N) :
    (dats tbl Cn f2 0 c).flushed 2 t = ((cfg1.win 2).blk t).view.read (Elt F) (G2 tbl Cn) := by
  show (cfg1.win 2).cut (grid1.coords t) ((dats tbl Cn f2 0 c).after 2 t) = _
  rw [after_2]
  unfold out2
  rw [View.canon_unit_zero hz]
  simp only [View.ld_unit_zero (S := S32x32768) hz, View.ld_unit_zero (S := S64x32768) hz]
  rw [iblk_0, iblk_1]
  obtain ⟨-, -, -, -, e0, e1⟩ := idx_facts t
  funext j
  show k1_pay1 (cntHalf Cn (hIdx t)) (tblHalf (tblT tbl) (hIdx t)) j = G2 tbl Cn (((cfg1.win 2).blk t).view.emb j)
  unfold G2
  have hj0 := idx2_lt0 j
  have hj1 := idx2_lt1 j
  have h1 : halfOf (((cfg1.win 2).blk t).view.emb j) = hIdx t :=
    Fin.ext (show (win1_2.index t (1 : Fin 2) * 32768 + 1 * (j 1).val) / 32768 = t.val by omega)
  have h2 : colIn (((cfg1.win 2).blk t).view.emb j) = j := by
    funext a; apply Fin.ext
    match a with
    | ⟨0, _⟩ => show win1_2.index t (0 : Fin 2) * 64 + 1 * (j 0).val = (j 0).val; omega
    | ⟨1, _⟩ => show (win1_2.index t (1 : Fin 2) * 32768 + 1 * (j 1).val) % 32768 = (j 1).val; omega
  rw [h1, h2]

theorem mem_blk (t : Fin cfg1.N) (i : S64x65536.Idx) :
    i ∈ ((cfg1.win 2).blk t).view.set ↔ ∀ a : Fin 2, win1_2.index t a * S64x32768.size a ≤ (i a).val ∧ (i a).val < win1_2.index t a * S64x32768.size a + S64x32768.size a := by
  show i ∈ ((View.whole main_v2).slice (win1_2.rect t)).set ↔ _
  rw [View.set_slice_whole, Rect.mem_set_unit]
  exact Iff.rfl

/-- The two blocks cover the array. -/
theorem covered (i : S64x65536.Idx) : ∃ t : Fin cfg1.N, (cfg1.win 2).flush t = true ∧ i ∈ ((cfg1.win 2).blk t).view.set := by
  have hi0 := idx2_lt0 i
  have hi1 := idx2_lt1 i
  let t : Fin cfg1.N := ⟨(i 1).val / 32768, (show (i 1).val / 32768 < 2 by omega).trans_eq N_1.symm⟩
  obtain ⟨-, -, -, -, e0, e1⟩ := idx_facts t
  have e1' : win1_2.index t (1 : Fin 2) = (i 1).val / 32768 := e1
  refine ⟨t, flush1_2 t, ?_⟩
  rw [mem_blk]
  intro a
  match a with
  | ⟨0, _⟩ => show win1_2.index t (0 : Fin 2) * 64 ≤ (i 0).val ∧ (i 0).val < win1_2.index t (0 : Fin 2) * 64 + 64; omega
  | ⟨1, _⟩ => show win1_2.index t (1 : Fin 2) * 32768 ≤ (i 1).val ∧ (i 1).val < win1_2.index t (1 : Fin 2) * 32768 + 32768; omega

/-- The result array after the region. -/
theorem final2 (c : Dev nD) : (dats tbl Cn f2 0 c).arrAt 2 cfg1.N = G2 tbl Cn :=
  (dats tbl Cn f2 0 c).arrAt_eq_of_cover 2 (G2 tbl Cn) (fun t _ => flushed_eq tbl Cn f2 c t) covered

/-! ## The region: how it is entered and left -/

variable [∀ e, Nonempty (Elt F e)]

/-- What rides beside the arrays through the region: the core's dues, none. -/
abbrev R0 (c : Dev nD) : sProp (MM F) := iprop(∃ W, owes (c : Thread nD τ) (0 : CellTallies nD τ sig (HIx 1)) W)

set_option backward.isDefEq.respectTransparency.types false in
/-- The region: entered holding its three arrays and owing nothing, left with the arrays as the pipeline computes
    them; the kernel has no semaphore of its own and keeps nothing between points but the scoped buffers it does
    not touch. -/
def reg : Pipeline.RegionSeg (pcfgs (F := F)) adm (dats tbl Cn f2) (none : HIx 1) defs₀ 𝒱₀ (K (F := F)).L (K (F := F)).lev 0 where
  win := launch1.win.to₀
  block_pos := launch1.block_pos
  stage_whole := launch1.stage_whole
  K := PEmpty
  osem := fun k => k.elim
  ho := Pipeline.OwnSemFacts.none _
  hbody c := (body_obligation tbl Cn f2 c).loose
  hwaits := Pipeline.hwaits_of_owed_zero _ _ _ _ _ _ 0 fun _ _ => rfl
  pre c := iprop((dats tbl Cn f2 0 c).arrays ((dats tbl Cn f2 0 c).arrAt · 0) ∗ R0 c)
  post c := iprop((dats tbl Cn f2 0 c).arrays ((dats tbl Cn f2 0 c).arrAt · cfg1.N) ∗ R0 c)
  X c := iprop(emp)
  Y c := iprop(emp)
  Z c := iprop(emp)
  hentry c := by
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl <;> iempintro
  hin c := by
    rw [show (dats tbl Cn f2 0 c).Φ 0 = Pipeline.scopedRest (Ix := HIx 1) (Name := ℕ) (U := UU) (Lvl := ℕ) (Val := Elt F) spec1 c from rfl]
    iintro ⟨-, -, Hr⟩; iexact Hr
  hout c := by
    rw [show (dats tbl Cn f2 0 c).Φ (Fin.last cfg1.N) = Pipeline.scopedRest (Ix := HIx 1) (Name := ℕ) (U := UU) (Lvl := ℕ) (Val := Elt F) spec1 c from rfl]
    iintro Hr
    isplitr; · iempintro
    isplitr; · unfold Pipeline.ownSems0; rw [Finset.univ_eq_empty, BI.bigSep_empty]; iempintro
    iexact Hr
  hexit c := by
    iintro ⟨Ha, HO, -, -⟩
    imodintro
    isplitl [Ha]; · iexact Ha
    unfold Pipeline.Dat.owesAt Pipeline.owesWithin
    icases HO with ⟨%W, -, HO⟩; iexists W; iexact HO

/-! ## A host operation of one operand, over the two buffers it touches -/

variable (m : (ℓ : Loc nD τ sig) → Buf (Elt F) ℓ)

include m in
open Idealize.ShloMosaic.StableHlo (held wp_hlo_within) in
/-- A one-operand host operation at the head of a program, from the boundary and its two buffers whole: the
    continuation runs with the operand as it was and the result at the operation's value. -/
theorem wp_unary_at {Λ : Labels} (defs : Defs nD τ sig (Elt F) Λ) (d : Dev nD) (x y : Ref sig .tc) (hxy : x ≠ y)
    (f : x.ty.Contents (Elt F) → y.ty.Contents (Elt F)) (hx) (hy)
    (fx : Buf (Elt F) ((SparseCore.T d).loc x)) (fy : Buf (Elt F) ((SparseCore.T d).loc y))
    {α : Type} (k : Prog (TpuEff nD τ sig (Elt F) Λ (SparseCore.T d).2) α) (Q : α → sProp (MM F)) :
    iprop(boundary (SparseCore.T d) ∗ ((SparseCore.T d).loc x ↦{fullShare} fx) ∗ ((SparseCore.T d).loc y ↦{fullShare} fy)
        ∗ (iprop(boundary (SparseCore.T d) ∗ ((SparseCore.T d).loc x ↦{fullShare} fx) ∗ ((SparseCore.T d).loc y ↦{fullShare} f fx)) -∗ wp frame (wpE defs 𝒱 (SparseCore.T d) none) Set.univ k Q))
      ⊢ wp frame (wpE defs 𝒱 (SparseCore.T d) none) Set.univ (hlo rfl (StableHlo.unary x y f hx hy) fun _ => k) Q := by
  let x' : DevRef τ sig := Proc.devRef .tc x
  let y' : DevRef τ sig := Proc.devRef .tc y
  have hne : x' ≠ y' := StableHlo.devRef_ne_of_ne hxy
  let V0 : Valuation τ sig (Elt F) := Function.update (Function.update (fun b => m (d, b)) x' fx) y' fy
  have hVx : V0 x' = fx := (Function.update_of_ne hne _ _).trans (Function.update_self _ _ _)
  have hVy : V0 y' = fy := Function.update_self _ _ _
  have hheld : ∀ W : Valuation τ sig (Elt F), (held (SparseCore.T d) ({x', y'} : Finset (DevRef τ sig)) W : sProp (MM F))
      = iprop(((SparseCore.T d).loc x ↦{fullShare} W x') ∗ ((SparseCore.T d).loc y ↦{fullShare} W y')) := fun W => by
    unfold held
    rw [SparseCore.bigSep_insert' (Finset.mem_singleton.not.mpr hne), bigSep_singleton]
  have hpost : (held (SparseCore.T d) ({x', y'} : Finset (DevRef τ sig)) ((StableHlo.unary x y f hx hy).result V0) : sProp (MM F))
      = iprop(((SparseCore.T d).loc x ↦{fullShare} fx) ∗ ((SparseCore.T d).loc y ↦{fullShare} f fx)) := by
    rw [hheld, StableHlo.unary_result_ne x y f hx hy V0 hxy, StableHlo.unary_result x y f hx hy V0]
    rw [show V0 (Proc.devRef .tc x) = fx from hVx]
  iintro ⟨Hb, Hx, Hy, Hk⟩
  iapply (wp_hlo_within 𝒱 (SparseCore.T d) none Set.univ (op := StableHlo.unary x y f hx hy) (S := {x', y'}) (by rw [StableHlo.unary_bufs]) (V := V0)) $$ [Hb Hx Hy]
  · isplitl [Hb]; · iexact Hb
    rw [hheld, hVx, hVy]
    isplitl [Hx]; · iexact Hx
    iexact Hy
  iintro ⟨Hb, Hh⟩
  iapply Hk
  isplitl [Hb]; · iexact Hb
  iapply (Entails.of_eq hpost)
  iexact Hh

/-! ## The run of the program's tail -/

omit [FloatOps F] [∀ e, Nonempty (Elt F e)] in
/-- With one call, every recorded pair sits at or below the level the TensorCore's state after it asks. -/
theorem wBelow_all (d : Dev nD) (W : Waits sig (HIx 1)) : (K (F := F)).WBelow (SparseCore.T d) W (8 * 1) := fun p _ => by
  rcases hp : p.2 with _ | q
  · rw [SparseCore.Cfg.lev_none]; omega
  · have := (K (F := F)).lev_some_le (nD := nD) (SparseCore.T d, p.1) q
    have hq : q.val = 0 := by omega
    omega

set_option backward.isDefEq.respectTransparency.types false in
/-- The program after the SparseCore call, on device `d`'s TensorCore: from the table as launched, the counts at
    `Cn` and the three later arrays at anything, it ends with the table kept and the result at `outOf` of the table
    and the counts. -/
theorem tail_wp (κ : GSem nD τ sig → ℕ) (d : Dev nD) (Cn : Buf (Elt F) (cntLoc d)) :
    iprop((K (F := F)).ctx EH (P m) κ ∗ (K (F := F)).tcSt EH d 1 ∗ boundary (SparseCore.T d) ∗ GP d
        ∗ (tblLoc d ↦{fullShare} m (tblLoc d)) ∗ (cntLoc d ↦{fullShare} Cn)
        ∗ (∃ f, (SparseCore.T d).loc main_v1 ↦{fullShare} f) ∗ (∃ f, (SparseCore.T d).loc main_v2 ↦{fullShare} f) ∗ (∃ f, (SparseCore.T d).loc main_v3 ↦{fullShare} f))
      ⊢ wp frame (wpE ((K (F := F)).defs (D (F := F))) 𝒱 (SparseCore.T d) none) Set.univ (mainTail d)
          fun _ => iprop((K (F := F)).tcSt EH d 1 ∗ (tblLoc d ↦{fullShare} m (tblLoc d)) ∗ ((SparseCore.T d).loc main_v3 ↦{fullShare} outOf (m (tblLoc d)) Cn)) := by
  unfold SparseCore.Cfg.tcSt GP
  rw [show (K (F := F)).Otc d 1 = 0 from (K (F := F)).Otc_end d (Nat.le_refl 1)]
  unfold mainTail
  simp only [wp_bind, wp_pure]
  have hpre : ∀ f2 : FVec F S64x65536 .f32, (reg (m (tblLoc d)) Cn f2).pre d
      = iprop(((cntLoc d ↦{fullShare} Cn) ∗ ((SparseCore.T d).loc main_v1 ↦{fullShare} tblT (m (tblLoc d))) ∗ ((SparseCore.T d).loc main_v2 ↦{fullShare} f2)) ∗ R0 d) := fun f2 => by
    rw [show (reg (m (tblLoc d)) Cn f2).pre d = iprop((dats (m (tblLoc d)) Cn f2 0 d).arrays ((dats (m (tblLoc d)) Cn f2 0 d).arrAt · 0) ∗ R0 d) from rfl,
      Pipeline.arrays_eq cfgs (dats (m (tblLoc d)) Cn f2) 0 d launch1.arr_whole ((dats (m (tblLoc d)) Cn f2 0 d).share_full fun _ => rfl), bigSep_W1]
    rfl
  have hpost : ∀ f2 : FVec F S64x65536 .f32, (reg (m (tblLoc d)) Cn f2).post d
      = iprop(((cntLoc d ↦{fullShare} (dats (m (tblLoc d)) Cn f2 0 d).arrAt 0 cfg1.N) ∗ ((SparseCore.T d).loc main_v1 ↦{fullShare} (dats (m (tblLoc d)) Cn f2 0 d).arrAt 1 cfg1.N)
          ∗ ((SparseCore.T d).loc main_v2 ↦{fullShare} G2 (m (tblLoc d)) Cn)) ∗ R0 d) := fun f2 => by
    rw [show (reg (m (tblLoc d)) Cn f2).post d = iprop((dats (m (tblLoc d)) Cn f2 0 d).arrays ((dats (m (tblLoc d)) Cn f2 0 d).arrAt · cfg1.N) ∗ R0 d) from rfl,
      Pipeline.arrays_eq cfgs (dats (m (tblLoc d)) Cn f2) 0 d launch1.arr_whole ((dats (m (tblLoc d)) Cn f2 0 d).share_full fun _ => rfl), bigSep_W1, final2]
  iintro ⟨#Hctx, ⟨⟨%W, -, HO⟩, Hst⟩, Hb, ⟨Hcg, Htk⟩, Htbl, Hcnt, ⟨%f1, H1⟩, ⟨%f2, H2⟩, ⟨%f3, H3⟩⟩
  -- the table transposed into the second array
  iapply (wp_unary_at m _ d main_arg0 main_v1 (by decide) _ _ _ (m (tblLoc d)) f1 _ _) $$ [Hb Htbl H1 HO Hst Hcg Htk Hcnt H2 H3]
  isplitl [Hb]; · iexact Hb
  isplitl [Htbl]; · iexact Htbl
  isplitl [H1]; · iexact H1
  iintro ⟨Hb, Htbl, H1⟩
  rw [wp_ret]; imodintro
  -- the region, under the SparseCore launch's body table
  iapply ((K (F := F)).wp_liftProg (D (F := F)) 𝒱 (SparseCore.T d) Set.univ none (Prog.lift (.customCall (Pipeline.entry 0) ())) _)
  iapply (Pipeline.RegionSeg.wp (pcfgs (F := F)) adm (dats (m (tblLoc d)) Cn f2) (none : HIx 1) cellOf_inj EP defs₀ 𝒱₀ (K (F := F)).L (K (F := F)).lev
    (reg (m (tblLoc d)) Cn f2) d none (fun _ h => nomatch h) (fun x => .ret x) _) $$ [Hb Htbl H1 HO Hst Hcg Htk Hcnt H2 H3]
  isplitr [Hb Hcnt H1 H2 HO Hcg Htk]
  · iintro ⟨Hb, Hpost⟩
    rw [wp_ret]; imodintro
    ihave Hp := (Entails.of_eq (hpost f2)) $$ Hpost
    icases Hp with ⟨⟨-, -, H2⟩, ⟨%W', HO⟩⟩
    -- the result transposed back
    iapply (wp_unary_at m _ d main_v2 main_v3 (by decide) _ _ _ (G2 (m (tblLoc d)) Cn) f3 _ _) $$ [Hb H2 H3 HO Hst Htbl]
    isplitl [Hb]; · iexact Hb
    isplitl [H2]; · iexact H2
    isplitl [H3]; · iexact H3
    iintro ⟨Hb, H2, H3⟩
    rw [wp_ret]; imodintro; imodintro
    isplitl [HO Hst]
    · isplitl [HO]
      · iexists W'; isplitr; · ipureintro; exact wBelow_all d W'
        iexact HO
      iexact Hst
    isplitl [Htbl]; · iexact Htbl
    iexact H3
  isplitl [Hb]; · iexact Hb
  isplitl [Hcnt H1 H2 HO]
  · iapply (Entails.of_eq (hpre f2).symm)
    isplitl [Hcnt H1 H2]
    · isplitl [Hcnt]; · iexact Hcnt
      isplitl [H1]; · iexact H1
      iexact H2
    · iexists W; iexact HO
  isplitr; · iapply SparseCore.Cfg.ctx_levAts; iexact Hctx
  isplitl [Hcg]; · iexact Hcg
  iexact Htk

end Cert.Proof.KB

end
-- ==== Proof.TileDefsB.lean ====
/- Names shared by the vector subcore's task and the pure lemmas about it: which block of the region map a
   vector subcore counts, what a staged chunk holds, and the vector a load of sixteen lanes returns. -/
import proofs.«218041_g60507499266918_cont_9to1_m_1358_18_alg».proof.Proof.SetupB

noncomputable section

namespace Cert.Proof.KB

open Cert.Kernel Cert.Kernel.Gen
open Idealize.ShloMosaic
open Idealize.ShloMosaic.SparseCore (S V T)

variable {F : FTy → Type}
variable (m : (ℓ : Loc nD τ sig) → Buf (Elt F) ℓ)
variable (d : Dev nD) (L : grid0.Coords)

abbrev cV (L : grid0.Coords) : Fin τ.nSC := (L 0).castLE hcore0
abbrev jV (L : grid0.Coords) : Fin τ.nSub := (L 1).castLE hsub0
abbrev wL (L : grid0.Coords) : Fin 32 := ⟨16 * (L 0).val + (L 1).val, by have h0 : (L 0).val < 2 := (L 0).isLt; have h1 : (L 1).val < 16 := (L 1).isLt; omega⟩

/-- Every id of the launch map names a bin. -/
def PreOK : Prop := ∀ (d : Dev nD) (i : S16x512x512.Idx), ((rmOf m d) i).toNat < 65536

/-- The image and the first row of the block this vector subcore counts. -/
abbrev imgL (L : grid0.Coords) : Fin 16 := ⟨(wL L).val / 2, by have := (wL L).isLt; omega⟩
abbrev row0L (L : grid0.Coords) : Nat := ((wL L).val % 2) * 256

/-- Where chunk `c` (32 rows) of the block starts in the region map. -/
abbrev chunkOff (L : grid0.Coords) (c : Nat) : Fin 3 → Nat := ![(imgL L).val, row0L L + 32 * c, 0]

/-- A 32-row slice of the region map, as the body addresses it. -/
abbrev srcSl (off : Fin 3 → Nat) (inb : ∀ a, off a + S1x32x512.size a ≤ S16x512x512.size a) : Memref sig .scVector .hbm S32x512 .i32 :=
  ((aV : Memref sig .scVector .hbm S16x512x512 .i32).slice (Rect.unit (s := S16x512x512) off S1x32x512.size inb) (fun _ => rfl)).squeeze S32x512 squeezes_S1x32x512_S32x512

variable [FloatOps F]

/-- The staged rows are chunk `c` of the block. -/
def ChunkIs (c : Nat) (D : S32x512.Idx → Elt F .i32) : Prop :=
  ∀ (r : Fin 32) (col : Fin 512) (h : row0L L + 32 * c + r.val < 512), D (ValueIdx.ix2 r col) = rmOf m d (ValueIdx.ix3 (imgL L) ⟨row0L L + 32 * c + r.val, h⟩ col)

/-- The float zero every bin starts at. -/
abbrev z32 : Elt F .f32 := Scalar.ofBits .f32 0x00000000#32

/-- Bins below `1024 * k` hold zero. -/
def ZeroTo (k : Nat) (f : S65536.Idx → Elt F .f32) : Prop := ∀ y : S65536.Idx, (y 0).val < 1024 * k → f y = z32

/-- The sixteen lanes a load at `off` returns from a staging buffer that was overwritten whole with `D`. -/
abbrev ldV (sB : Memref sig .scVector .vmem S32x512 .i32) (D : S32x512.Idx → Elt F .i32) (off : Fin 2 → Nat)
    (inb : ∀ a, off a + S1x16.size a ≤ S32x512.size a) : IVec S16 32 :=
  shapeCast S16 (View.readAt (Elt F) sB.view (Rect.unit (s := S32x512) off S1x16.size inb).toLoadRect
    (sB.view.writes (Elt F) sB.view.junk [⟨Rect.whole S32x512, D⟩])) shapeCasts_S1x16_S16

/-- One indexed add of a vector of ids into the bins, as the machine's rule leaves them. -/
abbrev stepW (g : S65536.Idx → Elt F .f32) (v : IVec S16 32) (h : ∀ a x, ((![v] : Fin 1 → IVec S16 32) a x).toNat < S65536.size a) : S65536.Idx → Elt F .f32 :=
  ((sH : Memref sig .scVector .vmem S65536 .f32).access (.whole S65536)).write (Elt F) g
    (storeIdx (((sH : Memref sig .scVector .vmem S65536 .f32).access (.whole S65536)).read (Elt F) g) ![v] k0_pay6 (fun _ => 1#1) true h) Finset.univ

end Cert.Proof.KB

end
-- ==== Proof.TileLemmasB.lean ====
/- What a run of stores through one buffer of a vector subcore leaves, as pure facts about the list of written pieces. -/
import proofs.«218041_g60507499266918_cont_9to1_m_1358_18_alg».proof.Proof.TileDefsB

noncomputable section

namespace Cert.Proof.KB

open Cert.Kernel Cert.Kernel.Gen Idealize.ShloMosaic

variable {F : FTy → Type} [FloatOps F]

/-- The 64 stores of sixteen zeros of trip k, the last store first: store r covers bins [1024 k + 16 r, 1024 k + 16 r + 16). -/
def zeroPieces (k : Fin k0_t1_loop.trips) : List (View.Piece (Elt F) S65536 .f32) :=
  (List.ofFn fun r : Fin 64 => (⟨Rect.unit (s := S65536) (k0_off2 k (BitVec.ofNat 32 r.val)) S16.size (k0_off2_inb k r), k0_pay5⟩ : View.Piece (Elt F) S65536 .f32)).reverse

example (k : Fin k0_t1_loop.trips) : (zeroPieces (F := F) k).length = 64 := rfl

/-- Every piece of the trip is one of the 64 stores; -/
theorem mem_zeroPieces (k : Fin k0_t1_loop.trips) (p : View.Piece (Elt F) S65536 .f32) (hp : p ∈ zeroPieces (F := F) k) :
    ∃ r : Fin 64, p = ⟨Rect.unit (s := S65536) (k0_off2 k (BitVec.ofNat 32 r.val)) S16.size (k0_off2_inb k r), k0_pay5⟩ := by
  obtain ⟨r, hr⟩ := List.mem_ofFn.1 (List.mem_reverse.1 hp)
  exact ⟨r, hr.symm⟩

/-- and each of the 64 stores is a piece of the trip. -/
theorem zeroPieces_mem (k : Fin k0_t1_loop.trips) (r : Fin 64) :
    (⟨Rect.unit (s := S65536) (k0_off2 k (BitVec.ofNat 32 r.val)) S16.size (k0_off2_inb k r), k0_pay5⟩ : View.Piece (Elt F) S65536 .f32) ∈ zeroPieces (F := F) k :=
  List.mem_reverse.2 (List.mem_ofFn.2 ⟨r, rfl⟩)

/-- The bins are the whole buffer: reading them is the identity. -/
theorem read_sH (g : S65536.Idx → Elt F .f32) : (sH : Memref sig .scVector .vmem S65536 .f32).view.read (Elt F) g = g := rfl

/-- After writes that all carry zeros, a bin some write covers holds zero; -/
theorem writes_zero_of_mem (f : S65536.Idx → Elt F .f32) (L : List (View.Piece (Elt F) S65536 .f32))
    (hL : ∀ p ∈ L, ∀ x : p.1.shape.Idx, p.2 x = z32) (y : S65536.Idx) (hc : ∃ p ∈ L, y ∈ p.1.set) :
    ((sH : Memref sig .scVector .vmem S65536 .f32).view.writes (Elt F) f L) y = z32 := by
  have h := View.read_writes_apply_of_pieces (sH : Memref sig .scVector .vmem S65536 .f32).view f (fun _ => z32) L hL y hc
  rw [read_sH] at h
  exact h

/-- a bin no write covers keeps what it held. -/
theorem writes_keep_of_not_mem (f : S65536.Idx → Elt F .f32) (L : List (View.Piece (Elt F) S65536 .f32))
    (y : S65536.Idx) (hn : ∀ p ∈ L, y ∉ p.1.set) :
    ((sH : Memref sig .scVector .vmem S65536 .f32).view.writes (Elt F) f L) y = f y := by
  have h := View.read_writes_apply_of_forall_not_mem (sH : Memref sig .scVector .vmem S65536 .f32).view f y L hn
  rw [read_sH, read_sH] at h
  exact h

/-- One trip of the zero fill: with the first 1024 k bins at zero before it, the first 1024 (k + 1) are after it.
    A bin below 1024 (k + 1) that no store of the trip covers lies below 1024 k (else store ((y - 1024 k) / 16) covers it)
    and keeps its zero; a covered one holds the zero the store wrote. -/
theorem zero_trip (k : Fin k0_t1_loop.trips) (f : S65536.Idx → Elt F .f32) (hz : ZeroTo k.val f) :
    ZeroTo (k.val + 1) ((sH : Memref sig .scVector .vmem S65536 .f32).view.writes (Elt F) f (zeroPieces k)) := by
  intro y hy
  by_cases hc : ∃ p ∈ zeroPieces (F := F) k, y ∈ p.1.set
  · refine writes_zero_of_mem f _ ?_ y hc
    intro p hp x
    obtain ⟨r, rfl⟩ := mem_zeroPieces k p hp
    rfl
  · have hn : ∀ p ∈ zeroPieces (F := F) k, y ∉ p.1.set := fun p hp hy' => hc ⟨p, hp, hy'⟩
    rw [writes_keep_of_not_mem f _ y hn]
    refine hz y ?_
    by_contra hge
    have hlt : (y 0).val < 65536 := (y 0).isLt
    have hr : ((y 0).val - 1024 * k.val) / 16 < 64 := by omega
    refine hn _ (zeroPieces_mem k ⟨_, hr⟩) ?_
    rw [Rect.mem_set_unit, k0_off2_eq]
    refine Fin.forall_fin_one.mpr ?_
    show 1024 * k.val + 16 * (((y 0).val - 1024 * k.val) / 16) ≤ (y 0).val ∧ (y 0).val < 1024 * k.val + 16 * (((y 0).val - 1024 * k.val) / 16) + 16
    omega

/-- All 65536 = 1024 * 64 bins at zero is the empty histogram. -/
theorem zeroTo_64 (f : S65536.Idx → Elt F .f32) (h : ZeroTo 64 f) : f = Cert.Hist.hist₀ := by
  funext y
  have hlt : (y 0).val < 65536 := (y 0).isLt
  exact h y (by omega)

/-! ## One indexed add, one load of sixteen ids, one staged chunk -/

variable (m : (ℓ : Loc nD τ sig) → Buf (Elt F) ℓ) (d : Dev nD) (L : grid0.Coords)

/-- The indexed add through the whole view of the bins is the histogram's one-vector step: the view reads the bins as they are
    and an unmasked write through it replaces them, and sixteen ones are the unit every lane adds. -/
theorem stepW_eq (g : S65536.Idx → Elt F .f32) (v : IVec S16 32) (h : ∀ a x, ((![v] : Fin 1 → IVec S16 32) a x).toNat < S65536.size a) :
    stepW (F := F) g v h = Cert.Hist.scat g v := by
  have h' : Cert.Hist.InBins v := h
  rw [Cert.Hist.scat_of_inBins g v h']
  show ((Memref.whole cc0_scratch0).access (Rect.whole _)).write (Elt F) g _ Finset.univ = _
  rw [Memref.write_access_whole_univ]
  have hr : ((sH : Memref sig .scVector .vmem S65536 .f32).access (Rect.whole S65536)).read (Elt F) g = g :=
    Memref.read_access_whole (Elt F) cc0_scratch0 g
  rw [hr]
  rfl

/-- One more row of the block, while rows remain. -/
theorem histAfter_succ (rm : IVec S16x512x512 32) (img : Fin 16) (row0 n : Nat) (h : row0 + n < 512) :
    Cert.Hist.histAfter (F := F) rm img row0 (n + 1) = Cert.Hist.rowStep rm img (Cert.Hist.histAfter rm img row0 n) ⟨row0 + n, h⟩ := by
  have e : Cert.Hist.histAfter (F := F) rm img row0 (n + 1) =
      if h : row0 + n < 512 then Cert.Hist.rowStep rm img (Cert.Hist.histAfter rm img row0 n) ⟨row0 + n, h⟩ else Cert.Hist.histAfter rm img row0 n := rfl
  rw [e, dif_pos h]

/-- A row is its 32 vectors added one after the other. -/
theorem rowStep_unfold (rm : IVec S16x512x512 32) (img : Fin 16) (g : S65536.Idx → Elt F .f32) (row : Fin 512) :
    Cert.Hist.rowStep rm img g row = Cert.Hist.lanes32.foldl (fun g j => Cert.Hist.scat g (Cert.Hist.laneVec rm img row j)) g := rfl

/-- A buffer overwritten whole with D reads D. -/
theorem read_writes_whole (sB : Memref sig .scVector .vmem S32x512 .i32) (f : sB.view.ty.Contents (Elt F)) (D : S32x512.Idx → Elt F .i32)
    (y : S32x512.Idx) : sB.view.read (Elt F) (sB.view.writes (Elt F) f [⟨Rect.whole S32x512, D⟩]) y = D y := by
  refine View.read_writes_apply_of_pieces sB.view f D [⟨Rect.whole S32x512, D⟩] ?_ y ?_
  · intro p hp x
    rw [List.mem_singleton] at hp
    subst hp
    show D x = D ((Rect.whole S32x512).emb x)
    rw [Rect.emb_whole_apply]
  · refine ⟨_, List.mem_singleton_self _, ?_⟩
    rw [Rect.set_whole]
    exact Finset.mem_univ _

/-- Lane x of the sixteen loaded at off is the element of D at row off 0, column off 1 + x. -/
theorem ldV_apply (sB : Memref sig .scVector .vmem S32x512 .i32) (D : S32x512.Idx → Elt F .i32) (off : Fin 2 → Nat)
    (inb : ∀ a, off a + S1x16.size a ≤ S32x512.size a) (x : S16.Idx) :
    ldV (F := F) sB D off inb x = D (ValueIdx.ix2 ⟨off 0, by have h0 : off 0 + 1 ≤ 32 := inb 0; omega⟩
      ⟨off 1 + (x 0).val, by have h1 : off 1 + 16 ≤ 512 := inb 1; have hx : (x 0).val < 16 := (x 0).isLt; omega⟩) := by
  have hx : (x 0).val < 16 := (x 0).isLt
  have hk : Shape.reshapeEquiv shapeCasts_S1x16_S16 x = (ValueIdx.ix2 ⟨0, by decide⟩ ⟨(x 0).val, hx⟩ : S1x16.Idx) := by
    refine Shape.reshapeEquiv_eq_of_rowMajor _ ?_
    rw [Shape.rowMajor_val_two, Shape.rowMajor_val_one]
    show 0 * 16 + (x 0).val = (x 0).val
    omega
  show View.readAt (Elt F) sB.view (Rect.unit (s := S32x512) off S1x16.size inb).toLoadRect
    (sB.view.writes (Elt F) sB.view.junk [⟨Rect.whole S32x512, D⟩]) (Shape.reshapeEquiv shapeCasts_S1x16_S16 x) = _
  rw [hk, View.readAt_apply, read_writes_whole]
  congr 1
  funext a
  match a with
  | ⟨0, _⟩ => exact Fin.ext (by show off 0 + 1 * 0 = off 0; omega)
  | ⟨1, _⟩ => exact Fin.ext (by show off 1 + 1 * (x 0).val = off 1 + (x 0).val; omega)

/-- Every lane loaded from a chunk whose ids all name bins names a bin. -/
theorem inBins_ldV (sB : Memref sig .scVector .vmem S32x512 .i32) (D : S32x512.Idx → Elt F .i32) (hD : ∀ y, (D y).toNat < 65536)
    (off : Fin 2 → Nat) (inb : ∀ a, off a + S1x16.size a ≤ S32x512.size a) :
    ∀ a x, ((![ldV (F := F) sB D off inb] : Fin 1 → IVec S16 32) a x).toNat < S65536.size a := by
  intro a x
  match a with
  | ⟨0, _⟩ =>
    show (ldV (F := F) sB D off inb x).toNat < 65536
    rw [ldV_apply]
    exact hD _

/-- Every id of a staged chunk names a bin, when every id of the map does. -/
theorem chunk_range (c : Nat) (hc : c ≤ 7) (D : S32x512.Idx → Elt F .i32) (hpre : PreOK m) (hD : ChunkIs m d L c D) :
    ∀ y, (D y).toNat < 65536 := by
  intro y
  have h0 : (y 0).val < 32 := (y 0).isLt
  have hr : row0L L ≤ 256 := by show ((wL L).val % 2) * 256 ≤ 256; omega
  have h : row0L L + 32 * c + (y 0).val < 512 := by omega
  have e : D y = rmOf m d (ValueIdx.ix3 (imgL L) ⟨row0L L + 32 * c + (y 0).val, h⟩ (y 1)) :=
    (congrArg D (ValueIdx.eq_ix2 y)).trans (hD (y 0) (y 1) h)
  rw [e]
  exact hpre d _

/-- The sixteen lanes loaded at row r, column 16 j of a staged chunk are vector j of row 32 c + r of the block. -/
theorem ldV_eq_laneVec (sB : Memref sig .scVector .vmem S32x512 .i32) (c : Nat) (hc : c ≤ 7) (D : S32x512.Idx → Elt F .i32)
    (hD : ChunkIs m d L c D) (r : Fin 32) (j : Fin 32)
    (inb : ∀ a, (![r.val, 16 * j.val] : Fin 2 → Nat) a + S1x16.size a ≤ S32x512.size a) :
    ldV (F := F) sB D ![r.val, 16 * j.val] inb = Cert.Hist.laneVec (rmOf m d) (imgL L)
      ⟨row0L L + 32 * c + r.val, by
        have := r.isLt
        have : row0L L ≤ 256 := by show ((wL L).val % 2) * 256 ≤ 256; omega
        omega⟩ j := by
  funext x
  have hx : (x 0).val < 16 := (x 0).isLt
  have hj := j.isLt
  have hr := r.isLt
  have hr0 : row0L L ≤ 256 := by show ((wL L).val % 2) * 256 ≤ 256; omega
  have h : row0L L + 32 * c + r.val < 512 := by omega
  rw [ldV_apply]
  refine Eq.trans ?_ (hD r ⟨16 * j.val + (x 0).val, by omega⟩ h)
  rfl

/-- The same for the first staging buffer, -/
theorem ldV_eq_laneVec0 (c : Nat) (hc : c ≤ 7) (D : S32x512.Idx → Elt F .i32) (hD : ChunkIs m d L c D) (r : Fin 32) (j : Fin 32)
    (inb : ∀ a, (![r.val, 16 * j.val] : Fin 2 → Nat) a + S1x16.size a ≤ S32x512.size a) :
    ldV (F := F) sB0 D ![r.val, 16 * j.val] inb = Cert.Hist.laneVec (rmOf m d) (imgL L)
      ⟨row0L L + 32 * c + r.val, by
        have := r.isLt
        have : row0L L ≤ 256 := by show ((wL L).val % 2) * 256 ≤ 256; omega
        omega⟩ j :=
  ldV_eq_laneVec m d L sB0 c hc D hD r j inb

/-- and for the second. -/
theorem ldV_eq_laneVec1 (c : Nat) (hc : c ≤ 7) (D : S32x512.Idx → Elt F .i32) (hD : ChunkIs m d L c D) (r : Fin 32) (j : Fin 32)
    (inb : ∀ a, (![r.val, 16 * j.val] : Fin 2 → Nat) a + S1x16.size a ≤ S32x512.size a) :
    ldV (F := F) sB1 D ![r.val, 16 * j.val] inb = Cert.Hist.laneVec (rmOf m d) (imgL L)
      ⟨row0L L + 32 * c + r.val, by
        have := r.isLt
        have : row0L L ≤ 256 := by show ((wL L).val % 2) * 256 ≤ 256; omega
        omega⟩ j :=
  ldV_eq_laneVec m d L sB1 c hc D hD r j inb

end Cert.Proof.KB

end
-- ==== Proof.TileLemmasB2.lean ====
/- What the copies of the vector subcore's task deliver, as pure facts: which rows of the region map a staged chunk holds,
   and which row of the counts array the final copy fills. -/
import proofs.«218041_g60507499266918_cont_9to1_m_1358_18_alg».proof.Proof.TileLemmasB

noncomputable section

namespace Cert.Proof.KB

open Cert.Kernel Cert.Kernel.Gen Idealize.ShloMosaic

variable {F : FTy → Type} [FloatOps F] (m : (ℓ : Loc nD τ sig) → Buf (Elt F) ℓ) (d : Dev nD) (L : grid0.Coords)

/-- The first chunk's offsets, as the kernel computes them, are chunk 0 of the block; -/
theorem off1_eq : ∀ L : grid0.Coords, k0_off1 L = chunkOff L 0 := by decide +kernel

/-- the odd chunks' -/
theorem off3_eq : ∀ (L : grid0.Coords) (p : Fin k0_t2_loop.trips), k0_off3 L p = chunkOff L (2 * p.val + 1) := by decide +kernel

/-- and the even chunks', the last trip asking once more for chunk 7. -/
theorem off37_eq : ∀ (L : grid0.Coords) (p : Fin k0_t2_loop.trips), k0_off37 L p = chunkOff L (min (2 * (p.val + 1)) 7) := by decide +kernel

/-- Row w of the counts array is the histogram of vector subcore w. -/
theorem counts_row (rm : IVec S16x512x512 32) (L : grid0.Coords) :
    ∀ i ∈ cntRow (wL L), (Cert.Hist.countsOf (F := F) rm) i = Cert.Hist.tileHist rm (wL L) (ValueIdx.ix1 (i 1)) := by
  intro i hi
  have h0 : (i 0).val = (wL L).val := (Finset.mem_filter.mp hi).2
  have e : i 0 = wL L := Fin.ext h0
  show Cert.Hist.tileHist rm (i 0) (ValueIdx.ix1 (i 1)) = _
  rw [e]

/-- Element (r, col) of a 32-row slice of the map at offsets off is the map's element (off 0, off 1 + r, off 2 + col). -/
theorem srcSl_emb (off : Fin 3 → Nat) (inb : ∀ a, off a + S1x32x512.size a ≤ S16x512x512.size a) (r : Fin 32) (col : Fin 512) :
    (srcSl off inb).view.emb (ValueIdx.ix2 r col) =
      (ValueIdx.ix3 ⟨off 0, by have h0 : off 0 + 1 ≤ 16 := inb 0; omega⟩
        ⟨off 1 + r.val, by have h1 : off 1 + 32 ≤ 512 := inb 1; have := r.isLt; omega⟩
        ⟨off 2 + col.val, by have h2 : off 2 + 512 ≤ 512 := inb 2; have := col.isLt; omega⟩ : S16x512x512.Idx) := by
  have hk : Shape.reshapeEquiv squeezes_S1x32x512_S32x512.numel_eq (ValueIdx.ix2 r col : S32x512.Idx) =
      (ValueIdx.ix3 ⟨0, by decide⟩ r col : S1x32x512.Idx) := by
    refine Shape.reshapeEquiv_eq_of_rowMajor _ ?_
    rw [Shape.rowMajor_val_three, Shape.rowMajor_val_two]
    show (0 * 32 + r.val) * 512 + col.val = r.val * 512 + col.val
    omega
  show (Rect.unit (s := S16x512x512) off S1x32x512.size inb).emb (Shape.reshapeEquiv squeezes_S1x32x512_S32x512.numel_eq (ValueIdx.ix2 r col : S32x512.Idx)) = _
  rw [hk]
  funext a
  match a with
  | ⟨0, _⟩ => exact Fin.ext (by show off 0 + 1 * 0 = off 0; omega)
  | ⟨1, _⟩ => exact Fin.ext (by show off 1 + 1 * r.val = off 1 + r.val; omega)
  | ⟨2, _⟩ => exact Fin.ext (by show off 2 + 1 * col.val = off 2 + col.val; omega)

/-- What a copy out of the 32-row slice at chunk c's offsets delivers is chunk c of the block. -/
theorem chunk_of_read (off : Fin 3 → Nat) (inb : ∀ a, off a + S1x32x512.size a ≤ S16x512x512.size a) (c : Nat) (hc : c ≤ 7)
    (hoff : off = chunkOff L c) :
    ChunkIs m d L c (ReadAs.same.apply (View.read (Elt F) (srcSl off inb).view (m (mapLoc d)))) := by
  intro r col h
  subst hoff
  show View.read (Elt F) (srcSl (chunkOff L c) inb).view (m (mapLoc d)) (ValueIdx.ix2 r col) = _
  rw [View.read_apply, srcSl_emb, cast_eq]
  show m (mapLoc d) _ = m (mapLoc d) _
  congr 1
  funext a
  match a with
  | ⟨0, _⟩ => rfl
  | ⟨1, _⟩ => rfl
  | ⟨2, _⟩ => exact Fin.ext (by show 0 + col.val = col.val; omega)

/-- The row of the counts array vector subcore (L 0, L 1) fills, as the body addresses it. -/
abbrev oRowK (L : grid0.Coords) : Memref sig .scVector .hbm S65536 .f32 :=
  ((oV : Memref sig .scVector .hbm S32x65536 .f32).slice (Rect.unit (s := S32x65536) (k0_off70 L) S1x65536.size (k0_off70_inb L)) (fun _ => rfl)).squeeze S65536 squeezes_S1x65536_S65536

/-- Its elements are the indices of the counts array whose first coordinate is the vector subcore's number. -/
theorem set_oRowK (L : grid0.Coords) : (oRowK L).view.set = cntRow (wL L) := by
  show (((Memref.whole main_v0_scv : Memref sig .scVector .hbm S32x65536 .f32).view.slice
    (Rect.unit (s := S32x65536) (k0_off70 L) S1x65536.size (k0_off70_inb L))).reshape S65536 squeezes_S1x65536_S65536.numel_eq).set = _
  rw [View.set_reshape]
  show ((View.whole main_v0_scv).slice (Rect.unit (s := S32x65536) (k0_off70 L) S1x65536.size (k0_off70_inb L))).set = _
  rw [View.set_slice_whole]
  ext j
  rw [Rect.mem_set_unit, k0_off70_eq]
  simp only [Finset.mem_filter, Finset.mem_univ, true_and]
  have h1 : (j 1).val < 65536 := (j 1).isLt
  constructor
  · intro H
    have H0 := H 0
    show (j 0).val = 16 * (L 0).val + (L 1).val
    have H0' : 16 * (L 0).val + (L 1).val ≤ (j 0).val ∧ (j 0).val < 16 * (L 0).val + (L 1).val + 1 := H0
    omega
  · intro H
    have H' : (j 0).val = 16 * (L 0).val + (L 1).val := H
    intro a
    match a with
    | ⟨0, _⟩ =>
      show 16 * (L 0).val + (L 1).val ≤ (j 0).val ∧ (j 0).val < 16 * (L 0).val + (L 1).val + 1
      omega
    | ⟨1, _⟩ =>
      show 0 ≤ (j 1).val ∧ (j 1).val < 0 + 65536
      omega

/-- Element x of that row is element (w, x) of the counts array, w the vector subcore's number. -/
theorem oRowK_emb (L : grid0.Coords) (x : Fin 65536) :
    (oRowK L).view.emb (ValueIdx.ix1 x) = (ValueIdx.ix2 (wL L) x : S32x65536.Idx) := by
  have hk : Shape.reshapeEquiv squeezes_S1x65536_S65536.numel_eq (ValueIdx.ix1 x : S65536.Idx) =
      (ValueIdx.ix2 ⟨0, by decide⟩ x : S1x65536.Idx) := by
    refine Shape.reshapeEquiv_eq_of_rowMajor _ ?_
    rw [Shape.rowMajor_val_two, Shape.rowMajor_val_one]
    show 0 * 65536 + x.val = x.val
    omega
  show (Rect.unit (s := S32x65536) (k0_off70 L) S1x65536.size (k0_off70_inb L)).emb
    (Shape.reshapeEquiv squeezes_S1x65536_S65536.numel_eq (ValueIdx.ix1 x : S65536.Idx)) = _
  rw [hk]
  funext a
  match a with
  | ⟨0, _⟩ =>
    refine Fin.ext ?_
    show (k0_off70 L) 0 + 1 * 0 = 16 * (L 0).val + (L 1).val
    rw [k0_off70_eq]
    rfl
  | ⟨1, _⟩ =>
    refine Fin.ext ?_
    show (k0_off70 L) 1 + 1 * x.val = x.val
    rw [k0_off70_eq]
    show 0 + 1 * x.val = x.val
    omega

/-- A view overwritten whole with D reads D. -/
theorem read_writes_whole' {κ : Kind} {sp : Space} {s : Shape} {e : EltTy} (v : View sig κ sp s e) (f : v.ty.Contents (Elt F))
    (D : s.Idx → Elt F e) (y : s.Idx) : v.read (Elt F) (v.writes (Elt F) f [⟨Rect.whole s, D⟩]) y = D y := by
  refine View.read_writes_apply_of_pieces v f D [⟨Rect.whole s, D⟩] ?_ y ?_
  · intro p hp x
    rw [List.mem_singleton] at hp
    subst hp
    show D x = D ((Rect.whole s).emb x)
    rw [Rect.emb_whole_apply]
  · refine ⟨_, List.mem_singleton_self _, ?_⟩
    rw [Rect.set_whole]
    exact Finset.mem_univ _

/-- After the row is overwritten whole with D, element (w, x) of the counts array holds D x. -/
theorem oRow_writes_apply (L : grid0.Coords) (f : (oRowK L).view.ty.Contents (Elt F)) (D : S65536.Idx → Elt F .f32) :
    ∀ i ∈ cntRow (wL L), ((oRowK L).view.writes (Elt F) f [⟨Rect.whole S65536, D⟩]) i = D (ValueIdx.ix1 (i 1)) := by
  intro i hi
  have h0 : (i 0).val = (wL L).val := (Finset.mem_filter.mp hi).2
  have ei : (oRowK L).view.emb (ValueIdx.ix1 (i 1)) = i := by
    refine (oRowK_emb L (i 1)).trans ?_
    funext a
    match a with
    | ⟨0, _⟩ => exact Fin.ext h0.symm
    | ⟨1, _⟩ => rfl
  have h := read_writes_whole' (F := F) (oRowK L).view f D (ValueIdx.ix1 (i 1))
  rw [View.read_apply, cast_eq, ei] at h
  exact h

/-- Once the row is overwritten with the bins after all 256 rows of the block, the counts array holds on it what the
    histogram of the region map prescribes. -/
theorem row_final (f : Buf (Elt F) (cntLoc d)) :
    ∀ i ∈ cntRow (wL L), ((oRowK L).view.writes (Elt F) f [⟨Rect.whole S65536, ReadAs.same.apply (View.read (Elt F)
      (sH : Memref sig .scVector .vmem S65536 .f32).view
      (Cert.Hist.histAfter (F := F) (rmOf m d) (imgL L) (row0L L) 256 : S65536.Idx → Elt F .f32))⟩]) i = cntOf m d i := by
  intro i hi
  have h := oRow_writes_apply (F := F) L f
    (ReadAs.same.apply (View.read (Elt F) (sH : Memref sig .scVector .vmem S65536 .f32).view
      (Cert.Hist.histAfter (F := F) (rmOf m d) (imgL L) (row0L L) 256 : S65536.Idx → Elt F .f32))) i hi
  rw [h]
  exact (counts_row (F := F) (rmOf m d) L i hi).symm

end Cert.Proof.KB

end
-- ==== Proof.TileB.lean ====
/- One vector subcore's task of the kernel as printed: from a read share of the region map and its row of the
   counts array to that row holding the histogram of the subcore's block. -/
import proofs.«218041_g60507499266918_cont_9to1_m_1358_18_alg».proof.Proof.TileLemmasB2

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable (m : (ℓ : Loc nD τ sig) → Buf (Elt F) ℓ)
variable [FloatOps F]

section Tile

variable (d : Dev nD) (L : grid0.Coords)

/-! ## One row of a staged chunk -/

/-- One row of a staged chunk, added vector by vector, is one more row of the block in the bins. -/
theorem row_trip0 (c : Nat) (hc : c ≤ 7) (D : S32x512.Idx → Elt F .i32) (hD : ChunkIs m d L c D) (r : Fin k0_t3_loop.trips) :
    (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.histAfter (F := F) (rmOf m d) (imgL L) (row0L L) (32 * c + r.val)) (ldV (F := F) sB0 D (k0_off5 r) (k0_off5_inb r))) (ldV (F := F) sB0 D (k0_off6 r) (k0_off6_inb r))) (ldV (F := F) sB0 D (k0_off7 r) (k0_off7_inb r))) (ldV (F := F) sB0 D (k0_off8 r) (k0_off8_inb r))) (ldV (F := F) sB0 D (k0_off9 r) (k0_off9_inb r))) (ldV (F := F) sB0 D (k0_off10 r) (k0_off10_inb r))) (ldV (F := F) sB0 D (k0_off11 r) (k0_off11_inb r))) (ldV (F := F) sB0 D (k0_off12 r) (k0_off12_inb r))) (ldV (F := F) sB0 D (k0_off13 r) (k0_off13_inb r))) (ldV (F := F) sB0 D (k0_off14 r) (k0_off14_inb r))) (ldV (F := F) sB0 D (k0_off15 r) (k0_off15_inb r))) (ldV (F := F) sB0 D (k0_off16 r) (k0_off16_inb r))) (ldV (F := F) sB0 D (k0_off17 r) (k0_off17_inb r))) (ldV (F := F) sB0 D (k0_off18 r) (k0_off18_inb r))) (ldV (F := F) sB0 D (k0_off19 r) (k0_off19_inb r))) (ldV (F := F) sB0 D (k0_off20 r) (k0_off20_inb r))) (ldV (F := F) sB0 D (k0_off21 r) (k0_off21_inb r))) (ldV (F := F) sB0 D (k0_off22 r) (k0_off22_inb r))) (ldV (F := F) sB0 D (k0_off23 r) (k0_off23_inb r))) (ldV (F := F) sB0 D (k0_off24 r) (k0_off24_inb r))) (ldV (F := F) sB0 D (k0_off25 r) (k0_off25_inb r))) (ldV (F := F) sB0 D (k0_off26 r) (k0_off26_inb r))) (ldV (F := F) sB0 D (k0_off27 r) (k0_off27_inb r))) (ldV (F := F) sB0 D (k0_off28 r) (k0_off28_inb r))) (ldV (F := F) sB0 D (k0_off29 r) (k0_off29_inb r))) (ldV (F := F) sB0 D (k0_off30 r) (k0_off30_inb r))) (ldV (F := F) sB0 D (k0_off31 r) (k0_off31_inb r))) (ldV (F := F) sB0 D (k0_off32 r) (k0_off32_inb r))) (ldV (F := F) sB0 D (k0_off33 r) (k0_off33_inb r))) (ldV (F := F) sB0 D (k0_off34 r) (k0_off34_inb r))) (ldV (F := F) sB0 D (k0_off35 r) (k0_off35_inb r))) (ldV (F := F) sB0 D (k0_off36 r) (k0_off36_inb r)))
      = Cert.Hist.histAfter (F := F) (rmOf m d) (imgL L) (row0L L) (32 * c + (r.val + 1)) := by
  have hr : r.val < 32 := lt_of_lt_of_eq r.isLt (by decide)
  have hr0 : row0L L ≤ 256 := by show ((wL L).val % 2) * 256 ≤ 256; omega
  have hrow : row0L L + (32 * c + r.val) < 512 := by omega
  have e : ∀ (j : Fin 32) (cj : Nat) (_ : cj = 16 * j.val) (off : Fin 2 → Nat) (inb : ∀ a, off a + S1x16.size a ≤ S32x512.size a) (_ : off = ![r.val, cj]),
      ldV (F := F) sB0 D off inb = Cert.Hist.laneVec (rmOf m d) (imgL L) ⟨row0L L + (32 * c + r.val), hrow⟩ j := by
    intro j cj hcj off inb hoff; subst hoff; subst hcj
    exact (ldV_eq_laneVec0 (F := F) m d L c hc D hD ⟨r.val, hr⟩ j inb).trans
      (congrArg (fun row => Cert.Hist.laneVec (rmOf m d) (imgL L) row j) (Fin.ext (by show row0L L + 32 * c + r.val = row0L L + (32 * c + r.val); omega)))
  rw [show 32 * c + (r.val + 1) = (32 * c + r.val) + 1 by omega, histAfter_succ (F := F) _ _ _ _ hrow]
  simp only [Cert.Hist.rowStep, Cert.Hist.lanes32, List.foldl]
  rw [e 0 0 rfl _ _ (k0_off5_eq r),
    e 1 16 rfl _ _ (k0_off6_eq r),
    e 2 32 rfl _ _ (k0_off7_eq r),
    e 3 48 rfl _ _ (k0_off8_eq r),
    e 4 64 rfl _ _ (k0_off9_eq r),
    e 5 80 rfl _ _ (k0_off10_eq r),
    e 6 96 rfl _ _ (k0_off11_eq r),
    e 7 112 rfl _ _ (k0_off12_eq r),
    e 8 128 rfl _ _ (k0_off13_eq r),
    e 9 144 rfl _ _ (k0_off14_eq r),
    e 10 160 rfl _ _ (k0_off15_eq r),
    e 11 176 rfl _ _ (k0_off16_eq r),
    e 12 192 rfl _ _ (k0_off17_eq r),
    e 13 208 rfl _ _ (k0_off18_eq r),
    e 14 224 rfl _ _ (k0_off19_eq r),
    e 15 240 rfl _ _ (k0_off20_eq r),
    e 16 256 rfl _ _ (k0_off21_eq r),
    e 17 272 rfl _ _ (k0_off22_eq r),
    e 18 288 rfl _ _ (k0_off23_eq r),
    e 19 304 rfl _ _ (k0_off24_eq r),
    e 20 320 rfl _ _ (k0_off25_eq r),
    e 21 336 rfl _ _ (k0_off26_eq r),
    e 22 352 rfl _ _ (k0_off27_eq r),
    e 23 368 rfl _ _ (k0_off28_eq r),
    e 24 384 rfl _ _ (k0_off29_eq r),
    e 25 400 rfl _ _ (k0_off30_eq r),
    e 26 416 rfl _ _ (k0_off31_eq r),
    e 27 432 rfl _ _ (k0_off32_eq r),
    e 28 448 rfl _ _ (k0_off33_eq r),
    e 29 464 rfl _ _ (k0_off34_eq r),
    e 30 480 rfl _ _ (k0_off35_eq r),
    e 31 496 rfl _ _ (k0_off36_eq r)]

/-- One row of a staged chunk, added vector by vector, is one more row of the block in the bins. -/
theorem row_trip1 (c : Nat) (hc : c ≤ 7) (D : S32x512.Idx → Elt F .i32) (hD : ChunkIs m d L c D) (r : Fin k0_t4_loop.trips) :
    (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.scat (Cert.Hist.histAfter (F := F) (rmOf m d) (imgL L) (row0L L) (32 * c + r.val)) (ldV (F := F) sB1 D (k0_off38 r) (k0_off38_inb r))) (ldV (F := F) sB1 D (k0_off39 r) (k0_off39_inb r))) (ldV (F := F) sB1 D (k0_off40 r) (k0_off40_inb r))) (ldV (F := F) sB1 D (k0_off41 r) (k0_off41_inb r))) (ldV (F := F) sB1 D (k0_off42 r) (k0_off42_inb r))) (ldV (F := F) sB1 D (k0_off43 r) (k0_off43_inb r))) (ldV (F := F) sB1 D (k0_off44 r) (k0_off44_inb r))) (ldV (F := F) sB1 D (k0_off45 r) (k0_off45_inb r))) (ldV (F := F) sB1 D (k0_off46 r) (k0_off46_inb r))) (ldV (F := F) sB1 D (k0_off47 r) (k0_off47_inb r))) (ldV (F := F) sB1 D (k0_off48 r) (k0_off48_inb r))) (ldV (F := F) sB1 D (k0_off49 r) (k0_off49_inb r))) (ldV (F := F) sB1 D (k0_off50 r) (k0_off50_inb r))) (ldV (F := F) sB1 D (k0_off51 r) (k0_off51_inb r))) (ldV (F := F) sB1 D (k0_off52 r) (k0_off52_inb r))) (ldV (F := F) sB1 D (k0_off53 r) (k0_off53_inb r))) (ldV (F := F) sB1 D (k0_off54 r) (k0_off54_inb r))) (ldV (F := F) sB1 D (k0_off55 r) (k0_off55_inb r))) (ldV (F := F) sB1 D (k0_off56 r) (k0_off56_inb r))) (ldV (F := F) sB1 D (k0_off57 r) (k0_off57_inb r))) (ldV (F := F) sB1 D (k0_off58 r) (k0_off58_inb r))) (ldV (F := F) sB1 D (k0_off59 r) (k0_off59_inb r))) (ldV (F := F) sB1 D (k0_off60 r) (k0_off60_inb r))) (ldV (F := F) sB1 D (k0_off61 r) (k0_off61_inb r))) (ldV (F := F) sB1 D (k0_off62 r) (k0_off62_inb r))) (ldV (F := F) sB1 D (k0_off63 r) (k0_off63_inb r))) (ldV (F := F) sB1 D (k0_off64 r) (k0_off64_inb r))) (ldV (F := F) sB1 D (k0_off65 r) (k0_off65_inb r))) (ldV (F := F) sB1 D (k0_off66 r) (k0_off66_inb r))) (ldV (F := F) sB1 D (k0_off67 r) (k0_off67_inb r))) (ldV (F := F) sB1 D (k0_off68 r) (k0_off68_inb r))) (ldV (F := F) sB1 D (k0_off69 r) (k0_off69_inb r)))
      = Cert.Hist.histAfter (F := F) (rmOf m d) (imgL L) (row0L L) (32 * c + (r.val + 1)) := by
  have hr : r.val < 32 := lt_of_lt_of_eq r.isLt (by decide)
  have hr0 : row0L L ≤ 256 := by show ((wL L).val % 2) * 256 ≤ 256; omega
  have hrow : row0L L + (32 * c + r.val) < 512 := by omega
  have e : ∀ (j : Fin 32) (cj : Nat) (_ : cj = 16 * j.val) (off : Fin 2 → Nat) (inb : ∀ a, off a + S1x16.size a ≤ S32x512.size a) (_ : off = ![r.val, cj]),
      ldV (F := F) sB1 D off inb = Cert.Hist.laneVec (rmOf m d) (imgL L) ⟨row0L L + (32 * c + r.val), hrow⟩ j := by
    intro j cj hcj off inb hoff; subst hoff; subst hcj
    exact (ldV_eq_laneVec1 (F := F) m d L c hc D hD ⟨r.val, hr⟩ j inb).trans
      (congrArg (fun row => Cert.Hist.laneVec (rmOf m d) (imgL L) row j) (Fin.ext (by show row0L L + 32 * c + r.val = row0L L + (32 * c + r.val); omega)))
  rw [show 32 * c + (r.val + 1) = (32 * c + r.val) + 1 by omega, histAfter_succ (F := F) _ _ _ _ hrow]
  simp only [Cert.Hist.rowStep, Cert.Hist.lanes32, List.foldl]
  rw [e 0 0 rfl _ _ (k0_off38_eq r),
    e 1 16 rfl _ _ (k0_off39_eq r),
    e 2 32 rfl _ _ (k0_off40_eq r),
    e 3 48 rfl _ _ (k0_off41_eq r),
    e 4 64 rfl _ _ (k0_off42_eq r),
    e 5 80 rfl _ _ (k0_off43_eq r),
    e 6 96 rfl _ _ (k0_off44_eq r),
    e 7 112 rfl _ _ (k0_off45_eq r),
    e 8 128 rfl _ _ (k0_off46_eq r),
    e 9 144 rfl _ _ (k0_off47_eq r),
    e 10 160 rfl _ _ (k0_off48_eq r),
    e 11 176 rfl _ _ (k0_off49_eq r),
    e 12 192 rfl _ _ (k0_off50_eq r),
    e 13 208 rfl _ _ (k0_off51_eq r),
    e 14 224 rfl _ _ (k0_off52_eq r),
    e 15 240 rfl _ _ (k0_off53_eq r),
    e 16 256 rfl _ _ (k0_off54_eq r),
    e 17 272 rfl _ _ (k0_off55_eq r),
    e 18 288 rfl _ _ (k0_off56_eq r),
    e 19 304 rfl _ _ (k0_off57_eq r),
    e 20 320 rfl _ _ (k0_off58_eq r),
    e 21 336 rfl _ _ (k0_off59_eq r),
    e 22 352 rfl _ _ (k0_off60_eq r),
    e 23 368 rfl _ _ (k0_off61_eq r),
    e 24 384 rfl _ _ (k0_off62_eq r),
    e 25 400 rfl _ _ (k0_off63_eq r),
    e 26 416 rfl _ _ (k0_off64_eq r),
    e 27 432 rfl _ _ (k0_off65_eq r),
    e 28 448 rfl _ _ (k0_off66_eq r),
    e 29 464 rfl _ _ (k0_off67_eq r),
    e 30 480 rfl _ _ (k0_off68_eq r),
    e 31 496 rfl _ _ (k0_off69_eq r)]

/-! ## The subcore's own semaphores and scratch buffers -/

abbrev c0cell (d : Dev nD) (c : Fin τ.nSC) (i : Fin τ.nSub) : GSem nD τ sig := (V d c i, .dma cc0_scratch3.sem)
abbrev c1cell (d : Dev nD) (c : Fin τ.nSC) (i : Fin τ.nSub) : GSem nD τ sig := (V d c i, .dma cc0_scratch4.sem)
abbrev c2cell (d : Dev nD) (c : Fin τ.nSC) (i : Fin τ.nSub) : GSem nD τ sig := (V d c i, .dma cc0_scoped0.sem)

omit [FloatOps F] in
theorem ownSems0_V :
    (ownSems0 (V d (cV L) (jV L)) : sProp (MM F))
      = iprop(semVal (c0cell d (cV L) (jV L)) 0 ∗ semVal (c1cell d (cV L) (jV L)) 0 ∗ semVal (c2cell d (cV L) (jV L)) 0
          ∗ bigSep ((((ownCells (V d (cV L) (jV L))).erase (c0cell d (cV L) (jV L))).erase (c1cell d (cV L) (jV L))).erase (c2cell d (cV L) (jV L)))
              fun g => semVal g 0) := by
  unfold SparseCore.Cfg.ownSems0
  rw [SparseCore.bigSep_erase' ((mem_ownCells (g := c0cell d (cV L) (jV L))).mpr ⟨rfl, by
      show (SemLoc.dma cc0_scratch3.sem : SemLoc sig).isScoped .scVector = true; decide⟩),
    SparseCore.bigSep_erase' (Finset.mem_erase.mpr ⟨by simp [c0cell, c1cell]; decide, (mem_ownCells (g := c1cell d (cV L) (jV L))).mpr ⟨rfl, by
      show (SemLoc.dma cc0_scratch4.sem : SemLoc sig).isScoped .scVector = true; decide⟩⟩),
    SparseCore.bigSep_erase' (Finset.mem_erase.mpr ⟨by simp [c1cell, c2cell]; decide, Finset.mem_erase.mpr ⟨by simp [c0cell, c2cell]; decide,
      (mem_ownCells (g := c2cell d (cV L) (jV L))).mpr ⟨rfl, by show (SemLoc.dma cc0_scoped0.sem : SemLoc sig).isScoped .scVector = true; decide⟩⟩⟩)]

omit [FloatOps F] in
/-- The three scratch buffers are among the subcore's own: they are them, at some contents, and the rest. -/
theorem ownBufs_V :
    (ownBufs (V d (cV L) (jV L)) : sProp (MM F))
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-! ## The held buffers, spelt as the body addresses them -/

omit [FloatOps F] in
theorem pts_aV (q : PosShare TreeShare) (f : Buf (Elt F) (mapLoc d)) :
    ((aV : Memref sig .scVector .hbm S16x512x512 .i32).view.loc (V d (cV L) (jV L)) ↦{q} f : sProp (MM F)) = mapLoc d ↦{q} f := by
  simp only [Memref.view_whole, View.set_whole]
omit [FloatOps F] in
theorem pts_sH (f : Buf (Elt F) ((V d (cV L) (jV L)).loc cc0_scratch0)) :
    ((sH : Memref sig .scVector .vmem S65536 .f32).view.loc (V d (cV L) (jV L)) ↦[(sH : Memref sig .scVector .vmem S65536 .f32).view.set]{fullShare} f : sProp (MM F))
      = (V d (cV L) (jV L)).loc cc0_scratch0 ↦{fullShare} f := by
  simp only [Memref.view_whole, View.set_whole]
omit [FloatOps F] in
theorem pts_sB0 (f : Buf (Elt F) ((V d (cV L) (jV L)).loc cc0_scratch1)) :
    ((sB0 : Memref sig .scVector .vmem S32x512 .i32).view.loc (V d (cV L) (jV L)) ↦[(sB0 : Memref sig .scVector .vmem S32x512 .i32).view.set]{fullShare} f : sProp (MM F))
      = (V d (cV L) (jV L)).loc cc0_scratch1 ↦{fullShare} f := by
  simp only [Memref.view_whole, View.set_whole]
omit [FloatOps F] in
theorem pts_sB1 (f : Buf (Elt F) ((V d (cV L) (jV L)).loc cc0_scratch2)) :
    ((sB1 : Memref sig .scVector .vmem S32x512 .i32).view.loc (V d (cV L) (jV L)) ↦[(sB1 : Memref sig .scVector .vmem S32x512 .i32).view.set]{fullShare} f : sProp (MM F))
      = (V d (cV L) (jV L)).loc cc0_scratch2 ↦{fullShare} f := by
  simp only [Memref.view_whole, View.set_whole]
omit [FloatOps F] in
theorem pts_sH_access (f : Buf (Elt F) ((V d (cV L) (jV L)).loc cc0_scratch0)) :
    ((sH : Memref sig .scVector .vmem S65536 .f32).view.loc (V d (cV L) (jV L)) ↦[(sH : Memref sig .scVector .vmem S65536 .f32).view.set]{fullShare} f : sProp (MM F))
      = (((sH : Memref sig .scVector .vmem S65536 .f32).access (.whole S65536)).loc (V d (cV L) (jV L)) ↦[((sH : Memref sig .scVector .vmem S65536 .f32).access (.whole S65536)).set]{fullShare} f) := by
  rw [pts_sH, show ((sH : Memref sig .scVector .vmem S65536 .f32).access (.whole S65536)).set = Finset.univ from Memref.set_access_whole (cc0_scratch0 : Ref sig .scVector)]

omit [FloatOps F] in
theorem pts_oRow (f : Buf (Elt F) (cntLoc d)) :
    ((oRowK L).view.loc (V d (cV L) (jV L)) ↦[(oRowK L).view.set]{fullShare} f : sProp (MM F)) = cntLoc d ↦[cntRow (wL L)]{fullShare} f := by
  rw [set_oRowK L]

/-- One indexed add of sixteen ids: the bins go from `g` to `Hist.scat g v`. -/
theorem wp_scat {α : Type} {v : IVec S16 32} {h : ∀ a x, ((![v] : Fin 1 → IVec S16 32) a x).toNat < S65536.size a}
    {hs : ((sH : Memref sig .scVector .vmem S65536 .f32).access (.whole S65536)).Stores Finset.univ}
    {k : PUnit → Prog (TpuEff nD τ sig (Elt F) Λ₀ (V d (cV L) (jV L)).2) α}
    {g : Buf (Elt F) (((sH : Memref sig .scVector .vmem S65536 .f32).access (.whole S65536)).loc (V d (cV L) (jV L)))}
    {Q : α → sProp (MM F)} :
    ((((sH : Memref sig .scVector .vmem S65536 .f32).access (.whole S65536)).loc (V d (cV L) (jV L)) ↦[((sH : Memref sig .scVector .vmem S65536 .f32).access (.whole S65536)).set]{fullShare} g) : sProp (MM F))
      ⊢ iprop(((((sH : Memref sig .scVector .vmem S65536 .f32).access (.whole S65536)).loc (V d (cV L) (jV L)) ↦[((sH : Memref sig .scVector .vmem S65536 .f32).access (.whole S65536)).set]{fullShare}
            (Cert.Hist.scat (F := F) g v : S65536.Idx → Elt F .f32))
          -∗ wp frame (wpE (defs₀ (F := F)) 𝒱₀ (V d (cV L) (jV L)) none) Set.univ (k ⟨⟩) Q)
        -∗ wp frame (wpE (defs₀ (F := F)) 𝒱₀ (V d (cV L) (jV L)) none) Set.univ (SparseCore.vectorStoreIdx sH ![v] k0_pay6 (fun _ => 1#1) true h hs >>= k) Q) := by
  have key := SparseCore.wp_vectorStoreIdx (F := F) (defs := defs₀ (F := F)) 𝒱₀ (V d (cV L) (jV L)) none Set.univ
    (base := (sH : Memref sig .scVector .vmem S65536 .f32)) (idxs := ![v]) (v := k0_pay6) (mask := fun _ => 1#1) (add := true) (h := h) (hs := hs) (k := k) (f := g) (Q := Q)
  rw [show ((sH : Memref sig .scVector .vmem S65536 .f32).access (.whole S65536)).write (Elt F) g
      (storeIdx (((sH : Memref sig .scVector .vmem S65536 .f32).access (.whole S65536)).read (Elt F) g) ![v] k0_pay6 (fun _ => 1#1) true h) Finset.univ
        = (Cert.Hist.scat (F := F) g v : S65536.Idx → Elt F .f32) from stepW_eq (F := F) g v h] at key
  exact key

/-! ## The loops' invariants -/

/-- Before trip `k` of the zero-fill: the bins, zero below `1024 * k`. -/
def inv1 (k : Nat) (_ : BitVec 32) : sProp (MM F) :=
  iprop(∃ f : Buf (Elt F) ((V d (cV L) (jV L)).loc cc0_scratch0),
    ((sH : Memref sig .scVector .vmem S65536 .f32).view.loc (V d (cV L) (jV L)) ↦[(sH : Memref sig .scVector .vmem S65536 .f32).view.set]{fullShare} f) ∗ ⌜ZeroTo k f⌝)

/-- Before trip `p` of the pair loop: chunk `min (2p) 7` in flight into the first staging buffer (its rows of the
    map lent to the copy, the rest of that read share kept), the second read share whole, the second staging buffer
    free, and the bins after `64 p` rows. -/
def inv2 (O : CellTallies nD τ sig (HIx 1)) (W : Waits sig (HIx 1)) (p : Nat) (_ : BitVec 32) : sProp (MM F) :=
  iprop(Transfers.MayWaits (V d (cV L) (jV L)) (none : HIx 1) O
    ∗ (∃ (off0 : Fin 3 → Nat) (inb0 : ∀ a, off0 a + S1x32x512.size a ≤ S16x512x512.size a)
         (g0 : Buf (Elt F) ((V d (cV L) (jV L)).loc cc0_scratch1)) (D0 : S32x512.Idx → Elt F .i32),
        ⌜off0 = chunkOff L (min (2 * p) 7) ∧ ChunkIs m d L (min (2 * p) 7) D0⌝
        ∗ Transfers.Flight countersEmb (V d (cV L) (jV L)) (SemLoc.dma cc0_scratch3.sem) default 524288
            iprop(((sB0 : Memref sig .scVector .vmem S32x512 .i32).view.loc (V d (cV L) (jV L)) ↦[(sB0 : Memref sig .scVector .vmem S32x512 .i32).view.set]{fullShare}
                  (sB0 : Memref sig .scVector .vmem S32x512 .i32).view.writes (Elt F) g0 [⟨Rect.whole S32x512, D0⟩])
              ∗ ((aV : Memref sig .scVector .hbm S16x512x512 .i32).view.loc (V d (cV L) (jV L)) ↦[(srcSl off0 inb0).view.set]{(mapTok (wL L)).left} m (mapLoc d)))
        ∗ ((aV : Memref sig .scVector .hbm S16x512x512 .i32).view.loc (V d (cV L) (jV L)) ↦[Finset.univ \ (srcSl off0 inb0).view.set]{(mapTok (wL L)).left} m (mapLoc d)))
    ∗ ((aV : Memref sig .scVector .hbm S16x512x512 .i32).view.loc (V d (cV L) (jV L)) ↦{(mapTok (wL L)).right} m (mapLoc d))
    ∗ (∃ g1 : Buf (Elt F) ((V d (cV L) (jV L)).loc cc0_scratch2),
        (sB1 : Memref sig .scVector .vmem S32x512 .i32).view.loc (V d (cV L) (jV L)) ↦[(sB1 : Memref sig .scVector .vmem S32x512 .i32).view.set]{fullShare} g1)
    ∗ semVal (c1cell d (cV L) (jV L)) 0
    ∗ ((sH : Memref sig .scVector .vmem S65536 .f32).view.loc (V d (cV L) (jV L)) ↦[(sH : Memref sig .scVector .vmem S65536 .f32).view.set]{fullShare}
          (Cert.Hist.histAfter (F := F) (rmOf m d) (imgL L) (row0L L) (64 * p) : S65536.Idx → Elt F .f32))
    ∗ ∃ W', ⌜∀ q ∈ W', q ∈ W ∨ q.2 = none⌝ ∗ owes (V d (cV L) (jV L)) O W')

/-- Before row `r` of a staged chunk is added: the staged rows (unchanged) and the bins after `n0 + r` rows. -/
def inv3 (sB : Memref sig .scVector .vmem S32x512 .i32) (gB : Buf (Elt F) (sB.view.loc (V d (cV L) (jV L)))) (n0 : Nat) (r : Nat) (_ : BitVec 32) : sProp (MM F) :=
  iprop((sB.view.loc (V d (cV L) (jV L)) ↦[sB.view.set]{fullShare} gB)
    ∗ ((sH : Memref sig .scVector .vmem S65536 .f32).view.loc (V d (cV L) (jV L)) ↦[(sH : Memref sig .scVector .vmem S65536 .f32).view.set]{fullShare}
          (Cert.Hist.histAfter (F := F) (rmOf m d) (imgL L) (row0L L) (n0 + r) : S65536.Idx → Elt F .f32)))

omit [FloatOps F] in
theorem trips1 : k0_t1_loop.trips = 64 := by decide
omit [FloatOps F] in
theorem trips2 : k0_t2_loop.trips = 4 := by decide
omit [FloatOps F] in
theorem trips3 : k0_t3_loop.trips = 32 := by decide
omit [FloatOps F] in
theorem trips4 : k0_t4_loop.trips = 32 := by decide

/-- Same bins, same resource. -/
theorem bins_congr {g g' : Buf (Elt F) ((V d (cV L) (jV L)).loc cc0_scratch0)} (h : g = g') :
    ((sH : Memref sig .scVector .vmem S65536 .f32).view.loc (V d (cV L) (jV L)) ↦[(sH : Memref sig .scVector .vmem S65536 .f32).view.set]{fullShare} g : sProp (MM F))
      ⊢ (sH : Memref sig .scVector .vmem S65536 .f32).view.loc (V d (cV L) (jV L)) ↦[(sH : Memref sig .scVector .vmem S65536 .f32).view.set]{fullShare} g' := by
  subst h; exact .rfl

/-! ## The task -/

set_option maxHeartbeats 4000000 in
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ goOf m d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__hist_body L aV (Memref.isWhole_whole _) oV (Memref.isWhole_whole _) sH (Memref.isWhole_whole _)
            sB0 (Memref.isWhole_whole _) sB1 (Memref.isWhole_whole _) cc0_scratch3 cc0_scratch4 cc0_scoped0)
          fun _ => iprop(tdOf m d (wL L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__hist_body_eq_skeleton]; unfold cc0__hist_body_skel
  simp only [k0_part17_eq_skeleton]; unfold k0_part17_skel
  rw [(K (F := F)).scopedBufs_V hF d (cV L) (jV L), SparseCore.Cfg.scopedSems0_V (Val := Elt F) d (cV L) (jV L), ownSems0_V, ownBufs_V]
  iintro ⟨#Hlv, -, ⟨Hmap, Hrow⟩, ⟨⟨%fh, Hh⟩, ⟨%fb0, Hb0⟩, ⟨%fb1, Hb1⟩, Hbufs⟩, ⟨Hsem0, Hsem1, Hsem2, Hsems⟩, HO⟩
  ihave Hmw := ((K (F := F)).mayWaits_none (thr := V d (cV L) (jV L)) hO) $$ Hlv
  ihave Hm2 := (pointsTo_share (PosShare.mem_left_op_right (mapTok (wL L)))).1 $$ Hmap
  icases Hm2 with ⟨HmA, HmB⟩
  ihave HmA' := (Entails.of_eq (pts_aV (F := F) d L _ _).symm) $$ HmA
  ihave HmB' := (Entails.of_eq (pts_aV (F := F) d L _ _).symm) $$ HmB
  ihave Hh' := (Entails.of_eq (pts_sH (F := F) d L _).symm) $$ Hh
  ihave Hb0' := (Entails.of_eq (pts_sB0 (F := F) d L _).symm) $$ Hb0
  ihave Hb1' := (Entails.of_eq (pts_sB1 (F := F) d L _).symm) $$ Hb1
  -- the first chunk's copy is started
  sl_exec
  -- the bins are zeroed
  sl_for (inv1 (F := F) d L) $$ [Hh']
  case region =>
    intro k _
    unfold inv1
    iintro ⟨%f, Hh, %hz⟩
    sl_exec
    sl_step
    iexists _
    isplitl [Hh]; · iexact Hh
    ipureintro; exact zero_trip (F := F) k f hz
  · unfold inv1
    iexists fh
    isplitl [Hh']; · iexact Hh'
    ipureintro; intro y hy; omega
  iintro %acc1 HI
  unfold inv1
  icases HI with ⟨%f1, Hh, %hz64⟩
  have hf1 : f1 = (Cert.Hist.hist₀ (F := F) : S65536.Idx → Elt F .f32) := zeroTo_64 (F := F) f1 hz64
  subst hf1
  -- the pair loop
  sl_for (inv2 (F := F) m d L O W) $$ [Hmw Hsem0 HmA' HmB' Hb1' Hsem1 Hh HO]
  case region =>
    intro p _
    unfold inv2
    iintro ⟨Hmw, ⟨%off0, %inb0, %g0, %D0, %hD0, Hfl0, HmA⟩, HmB, ⟨%g1, Hb1⟩, Hsem1, Hh, %W', %hW', HO⟩
    have hp4 : p.val < 4 := lt_of_lt_of_eq p.isLt (by decide)
    -- the next chunk's copy is started into the second buffer; the first buffer's copy is awaited
    sl_exec
    have hDr0 : ∀ y, (D0 y).toNat < 65536 := chunk_range (F := F) m d L (min (2 * p.val) 7) (by omega) D0 hpre hD0.2
    sl_for (inv3 (F := F) m d L sB0 (sB0.view.writes (Elt F) sB0.view.junk [⟨Rect.whole S32x512, D0⟩]) (32 * (2 * p.val))) $$ [Hfl0_dst Hh]
    case region =>
      intro r _
      unfold inv3
      iintro ⟨Hb0, Hh⟩
      sl_exec (disch := exact inBins_ldV (F := F) sB0 D0 hDr0 _ _)
      ihave Hh' := (Entails.of_eq (pts_sH_access (F := F) d L _)) $$ Hh
      repeat (iapply (wp_scat (F := F) d L) $$ Hh'; iintro Hh')
      sl_exec
      repeat (iapply (wp_scat (F := F) d L) $$ Hh'; iintro Hh')
      sl_exec
      sl_step
      isplitl [Hb0]; · iexact Hb0
      ihave Hh2 := (Entails.of_eq (pts_sH_access (F := F) d L _).symm) $$ Hh'
      iapply (bins_congr (F := F) d L (row_trip0 (F := F) m d L (2 * p.val) (by omega) D0 (by rw [show min (2 * p.val) 7 = 2 * p.val by omega] at hD0; exact hD0.2) r))
      iexact Hh2
    · unfold inv3
      isplitl [Hfl0_dst]; · iexact Hfl0_dst
      rw [show 32 * (2 * p.val) + 0 = 64 * p.val by omega]
      iexact Hh
    iintro %acc3 HI
    unfold inv3
    icases HI with ⟨Hb0, Hh⟩
    -- the chunk after next is started into the first buffer; the second buffer's copy is awaited
    sl_exec
    have hD1 : ChunkIs m d L (2 * p.val + 1) (tile_body.sl.dma0_1 m d L p) :=
      chunk_of_read (F := F) m d L (k0_off3 L p) (k0_off3_inb L p) (2 * p.val + 1) (by omega) (off3_eq L p)
    have hDr1 : ∀ y, (tile_body.sl.dma0_1 m d L p y).toNat < 65536 := chunk_range (F := F) m d L (2 * p.val + 1) (by omega) _ hpre hD1
    sl_for (inv3 (F := F) m d L sB1 (sB1.view.writes (Elt F) sB1.view.junk [⟨Rect.whole S32x512, tile_body.sl.dma0_1 m d L p⟩]) (32 * (2 * p.val + 1))) $$ [Hb1 Hh]
    case region =>
      intro r _
      unfold inv3
      iintro ⟨Hb1, Hh⟩
      sl_exec (disch := exact inBins_ldV (F := F) sB1 (tile_body.sl.dma0_1 m d L p) hDr1 _ _)
      ihave Hh' := (Entails.of_eq (pts_sH_access (F := F) d L _)) $$ Hh
      repeat (iapply (wp_scat (F := F) d L) $$ Hh'; iintro Hh')
      sl_exec
      repeat (iapply (wp_scat (F := F) d L) $$ Hh'; iintro Hh')
      sl_exec
      sl_step
      isplitl [Hb1]; · iexact Hb1
      ihave Hh2 := (Entails.of_eq (pts_sH_access (F := F) d L _).symm) $$ Hh'
      iapply (bins_congr (F := F) d L (row_trip1 (F := F) m d L (2 * p.val + 1) (by omega) (tile_body.sl.dma0_1 m d L p) hD1 r))
      iexact Hh2
    · unfold inv3
      isplitl [Hb1]; · iexact Hb1
      iapply (bins_congr (F := F) d L (congrArg (Cert.Hist.histAfter (F := F) (rmOf m d) (imgL L) (row0L L))
        (show 32 * (2 * p.val) + Scf.trips k0_t3_loop.lb k0_t3_loop.ub k0_t3_loop.st = 32 * (2 * p.val + 1) + 0 by
          have : Scf.trips k0_t3_loop.lb k0_t3_loop.ub k0_t3_loop.st = 32 := by decide
          omega)))
      iexact Hh
    iintro %acc4 HI
    unfold inv3
    icases HI with ⟨Hb1, Hh⟩
    sl_exec
    sl_step
    -- the invariant again, one pair on
    isplitl [Hmw]; · iexact Hmw
    isplitl [Hfl0 HmA]
    · iexists (k0_off37 L p), (k0_off37_inb L p), (sB0.view.writes (Elt F) sB0.view.junk [⟨Rect.whole S32x512, D0⟩]), (tile_body.sl.dma0_2 m d L p)
      isplitr
      · ipureintro
        exact ⟨off37_eq L p, chunk_of_read (F := F) m d L (k0_off37 L p) (k0_off37_inb L p) (min (2 * (p.val + 1)) 7) (by omega) (off37_eq L p)⟩
      isplitl [Hfl0]; · iexact Hfl0
      iexact HmA
    isplitl [HmB]; · iexact HmB
    isplitl [Hb1]; · iexists _; iexact Hb1
    isplitl [Hsem1]; · iexact Hsem1
    isplitl [Hh]
    · iapply (bins_congr (F := F) d L (congrArg (Cert.Hist.histAfter (F := F) (rmOf m d) (imgL L) (row0L L))
        (show 32 * (2 * p.val + 1) + Scf.trips k0_t4_loop.lb k0_t4_loop.ub k0_t4_loop.st = 64 * (p.val + 1) by
          have : Scf.trips k0_t4_loop.lb k0_t4_loop.ub k0_t4_loop.st = 32 := by decide
          omega)))
      iexact Hh
    iexists _; isplitr
    swap
    · iexact HO
    · ipureintro; intro q hq
      rcases Finset.mem_insert.mp hq with hq | hq
      · exact .inr (by subst hq; rfl)
      rcases Finset.mem_insert.mp hq with hq | hq
      · exact .inr (by subst hq; rfl)
      · exact hW' q hq
  · -- before the first pair
    unfold inv2
    isplitl [Hmw]; · iexact Hmw
    isplitl [Hsem0 HmA']
    · iexists (k0_off1 L), (k0_off1_inb L), fb0, (tile_body.sl.dma0 m d L)
      isplitr
      · ipureintro
        exact ⟨off1_eq L, chunk_of_read (F := F) m d L (k0_off1 L) (k0_off1_inb L) 0 (by omega) (off1_eq L)⟩
      isplitl [Hsem0]; · iexact Hsem0
      iexact HmA'
    isplitl [HmB']; · iexact HmB'
    isplitl [Hb1']; · iexists _; iexact Hb1'
    isplitl [Hsem1]; · iexact Hsem1
    isplitl [Hh]; · iexact Hh
    iexists W; isplitr
    · ipureintro; exact fun q hq => .inl hq
    · iexact HO
  iintro %acc2 HI
  unfold inv2
  icases HI with ⟨Hmw, ⟨%off0, %inb0, %g0, %D0, %hD0, Hfl0, HmA⟩, HmB, ⟨%g1, Hb1⟩, Hsem1, Hh, %W', %hW', HO⟩
  -- the last (repeated) copy is awaited, the bins are written out
  ihave Hrow' := (Entails.of_eq (pts_oRow (F := F) d L _).symm) $$ Hrow
  sl_exec
  sl_step
  -- the read share whole again, the row at the block's histogram
  isplitl [HmA HmB Hrow']
  · isplitl [HmA HmB]
    · ihave HA := (Entails.of_eq (pts_aV (F := F) d L _ _)) $$ HmA
      ihave HB := (Entails.of_eq (pts_aV (F := F) d L _ _)) $$ HmB
      iapply (pointsTo_share (PosShare.mem_left_op_right (mapTok (wL L)))).2
      isplitl [HA]; · iexact HA
      iexact HB
    · ihave Hr := (Entails.of_eq (pts_oRow (F := F) d L _)) $$ Hrow'
      iapply (Entails.of_eq (pointsTo_congr (row_final (F := F) m d L (m (cntLoc d)))))
      iexact Hr
  isplitl [Hh Hfl0_dst Hb1 Hbufs]
  · isplitl [Hh]; · iexists _; iapply (Entails.of_eq (pts_sH (F := F) d L _)); iexact Hh
    isplitl [Hfl0_dst]; · iexists _; iapply (Entails.of_eq (pts_sB0 (F := F) d L _)); iexact Hfl0_dst
    isplitl [Hb1]; · iexists _; iapply (Entails.of_eq (pts_sB1 (F := F) d L _)); iexact Hb1
    iexact Hbufs
  isplitl [Hfl0 Hsem1 Hsem2 Hsems]
  · isplitl [Hfl0]; · iexact Hfl0
    isplitl [Hsem1]; · iexact Hsem1
    isplitl [Hsem2]; · iexact Hsem2
    iexact Hsems
  iexists _; isplitr
  swap
  · iexact HO
  · ipureintro; intro q hq
    rcases Finset.mem_insert.mp hq with hq | hq
    · exact .inr (by subst hq; rfl)
    rcases Finset.mem_insert.mp hq with hq | hq
    · exact .inr (by subst hq; rfl)
    · exact hW' q hq

end Tile

end Cert.Proof.KB

end
-- ==== Proof.LaunchB.lean ====
/- The launch of the program as printed: the one SparseCore call's obligations from the vector subcore's task, the
   launch element of the ghost state, the program on a device's TensorCore, and the run of the whole mesh. -/
import proofs.«218041_g60507499266918_cont_9to1_m_1358_18_alg».proof.Proof.RegionB2
import proofs.«218041_g60507499266918_cont_9to1_m_1358_18_alg».proof.Proof.TileB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type}
variable (m : (ℓ : Loc nD τ sig) → Buf (Elt F) ℓ) (ρ : Dev nD → PrngReg)
variable [FloatOps F]

/-! ## The vector subcore's obligation -/

/-- The grid point of SparseCore `c`, vector subcore `s`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__hist_body (coordsV c s)
          aV (Memref.isWhole_whole _) oV (Memref.isWhole_whole _) sH (Memref.isWhole_whole _)
          sB0 (Memref.isWhole_whole _) sB1 (Memref.isWhole_whole _) cc0_scratch3 cc0_scratch4 cc0_scoped0) ⟨⟩ c s := rfl

omit [FloatOps F] in
theorem obl_post {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre O W hO).trans (wp_mono frame _ _ fun _ => obl_post)

/-! ## The call's operands split over the tasks -/

omit [FloatOps F] in
theorem bigSep_tasks (Φ : Fin 16 → sProp (MM F)) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show (bigSep Finset.univ fun i : Fin 16 => goOf m d (widOf (Fin.cast nCore_zero c) i)) ⊢ |={Set.univ}=> iprop(
      (bigSep Finset.univ fun i : Fin ((K (F := F)).nSub 0) => goOf m d (widOf (Fin.cast nCore_zero c) (Fin.cast nSub_zero i)))
      ∗ ((bigSep Finset.univ fun i : Fin ((K (F := F)).nSub 0) => tdOf m d (widOf (Fin.cast nCore_zero c) (Fin.cast nSub_zero i)))
          -∗ bigSep Finset.univ fun i : Fin 16 => tdOf m d (widOf (Fin.cast nCore_zero c) i)))
  rw [bigSep_tasks (F := F) (fun i => goOf m d (widOf (Fin.cast nCore_zero c) i)),
    bigSep_tasks (F := F) (fun i => tdOf m d (widOf (Fin.cast nCore_zero c) i))]
  iintro H; imodintro
  isplitl [H]; · iexact H
  iintro H; iexact H

/-! ## The launch element of the ghost state -/

/-- The handshakes' rounds, the region's staging cells, no counter yet. -/
def u₀ : UU := (initOf (K (F := F)).hsCells (K (F := F)).hsToks, (uP₀, 1))

omit [FloatOps F] in
theorem bigSep_emp' {I : Type} (s : Finset I) : (bigSep s fun _ => iprop(emp)) = (iprop(emp) : sProp (MM F)) := bigSep_emp_const s

theorem hu₀ : (ownU (u₀ (F := F)) : sProp (MM F))
    ⊢ |={Set.univ}=> iprop(BI.own (EH (initOf (K (F := F)).hsCells (K (F := F)).hsToks)) ∗ (bigSep Finset.univ fun d : Dev nD => GP (F := F) d)
        ∗ bigSep Finset.univ fun thr : Thread nD τ => bigSep Finset.univ fun q : Fin 1 => (P m).x q thr) := by
  have hf : (BI.own (((Emb.inl : Emb UP (UP × Counters)).trans embR) uP₀) : sProp (MM F)) ⊢ |==> bigSep Finset.univ (GP (F := F)) := by
    have h := fundGP (F := F); unfold EP at h; exact h
  unfold u₀
  iintro Hu
  ihave H := (ownU_pair _ _) $$ Hu
  icases H with ⟨HH, HR⟩
  ihave HR' := (own_pair_emb embR uP₀ (1 : Counters)) $$ HR
  icases HR' with ⟨HP, -⟩
  imod hf $$ HP with HG
  imodintro
  isplitl [HH]; · iexact HH
  isplitl [HG]; · iexact HG
  unfold P; dsimp only
  rw [show (bigSep Finset.univ fun _ : Thread nD τ => bigSep Finset.univ fun _ : Fin 1 => (iprop(emp) : sProp (MM F))) = iprop(emp) from by
    rw [bigSep_congr fun _ _ => bigSep_emp' _, bigSep_emp']]
  iempintro

/-! ## The counts array as its rows, the region map's share as read tokens -/

omit [FloatOps F] in
theorem rows_disjoint : ∀ w ∈ (Finset.univ : Finset (Fin 32)), ∀ w' ∈ (Finset.univ : Finset (Fin 32)), w ≠ w' → Disjoint (cntRow w) (cntRow w') :=
  fun w _ w' _ h => Finset.disjoint_filter.mpr fun j _ h1 h2 => h (Fin.ext (h1.symm.trans h2))
omit [FloatOps F] in
theorem rows_cover : (Finset.univ : Finset (Fin 32)).biUnion cntRow = Finset.univ := by
  ext j
  simp only [Finset.mem_biUnion, Finset.mem_univ, true_and, Finset.mem_filter, iff_true]
  exact ⟨⟨(j 0).val, ValueIdx.idx2_lt0 j⟩, rfl⟩

omit [FloatOps F] in
/-- The counts array whole is its thirty-two rows. -/
theorem cnt_rows (d : Dev nD) (f : Buf (Elt F) (cntLoc d)) :
    (cntLoc d ↦{fullShare} f : sProp (MM F)) = bigSep Finset.univ fun w : Fin 32 => cntLoc d ↦[cntRow w]{fullShare} f := by
  rw [← pointsTo_biUnion Finset.univ (ℓ := cntLoc d) cntRow rows_disjoint, rows_cover]; try rfl

omit [FloatOps F] in
/-- Conjoined over SparseCores and their subcores is conjoined over the thirty-two vector subcores. -/
theorem bigSep_wid (Φ : Fin 32 → sProp (MM F)) :
    (bigSep Finset.univ fun c : Fin 2 => bigSep Finset.univ fun i : Fin 16 => Φ (widOf c i)) = bigSep Finset.univ Φ := by
  rw [← bigSep_univ_prod (fun ci : Fin 2 × Fin 16 => Φ (widOf ci.1 ci.2)), BI.bigSep_univ_equiv (finProdFinEquiv : Fin 2 × Fin 16 ≃ Fin 32) Φ]
  exact bigSep_congr fun ci _ => congrArg Φ (Fin.ext (by
    show 16 * ci.1.val + ci.2.val = ci.2.val + 16 * ci.1.val
    omega))

/-- What the call takes for the two SparseCores: every subcore's read token of the map and row of the counts array, -/
theorem st0_eq (d : Dev nD) : (bigSep Finset.univ fun c : Fin ((K (F := F)).nCore 0) => (P m).st 0 d c)
    = iprop((bigSep Finset.univ fun w : Fin 32 => mapTokPts m d w) ∗ bigSep Finset.univ fun w : Fin 32 => cntRowPts d w (m (cntLoc d))) := by
  show (bigSep (Finset.univ : Finset (Fin 2)) fun c => bigSep Finset.univ fun i : Fin 16 => goOf m d (widOf c i)) = _
  rw [bigSep_wid (F := F) (fun w => goOf m d w)]
  exact bigSep_sep' _ _ _
/-- and what it hands back: the tokens, and the rows holding the histograms. -/
theorem dn0_eq (d : Dev nD) : (bigSep Finset.univ fun c : Fin ((K (F := F)).nCore 0) => (P m).dn 0 d c)
    = iprop((bigSep Finset.univ fun w : Fin 32 => mapTokPts m d w) ∗ bigSep Finset.univ fun w : Fin 32 => cntRowPts d w (cntOf m d)) := by
  show (bigSep (Finset.univ : Finset (Fin 2)) fun c => bigSep Finset.univ fun i : Fin 16 => tdOf m d (widOf c i)) = _
  rw [bigSep_wid (F := F) (fun w => tdOf m d w)]
  exact bigSep_sep' _ _ _

/-! ## The program on a device's TensorCore -/

omit [FloatOps F] in
theorem unscopedBufs_eq (d : Dev nD) (W : (b : Ref sig .tc) → Buf (Elt F) ((d.tc : Thread nD τ).loc b)) :
    (unscopedBufs d W : sProp (MM F)) = iprop((tblLoc d ↦{fullShare} W main_arg0) ∗ (mapLoc d ↦{fullShare} W main_arg1) ∗ (cntLoc d ↦{fullShare} W main_v0)
      ∗ ((SparseCore.T d).loc main_v1 ↦{fullShare} W main_v1) ∗ ((SparseCore.T d).loc main_v2 ↦{fullShare} W main_v2) ∗ ((SparseCore.T d).loc main_v3 ↦{fullShare} W main_v3)) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

/-- What the program leaves the claim on device `d`: the table and the region map as launched, the result at `outOf` of
    the table and the histograms. -/
abbrev FIN (d : Dev nD) : sProp (MM F) :=
  iprop((tblLoc d ↦{fullShare} m (tblLoc d)) ∗ (mapLoc d ↦{fullShare} m (mapLoc d)) ∗ ((SparseCore.T d).loc main_v3 ↦{fullShare} outOf (m (tblLoc d)) (cntOf m d)))

variable [∀ e, Nonempty (Elt F e)]

set_option backward.isDefEq.respectTransparency.types false in
/-- The program on device `d`'s TensorCore: the SparseCore call — the map lent as thirty-two read tokens, the counts
    array as its rows, both back with every row at its histogram — and then the tail. -/
theorem hmain (κ : GSem nD τ sig → ℕ) (d : Dev nD) :
    iprop((K (F := F)).ctx EH (P m) κ ∗ (K (F := F)).tcSt EH d 0 ∗ (K (F := F)).tcRes m ρ d ∗ GP d)
      ⊢ wp frame (wpE ((K (F := F)).defs (D (F := F))) 𝒱 (SparseCore.T d) none) Set.univ (main d)
          fun _ => iprop((K (F := F)).tcSt EH d 1 ∗ FIN m d) := by
  have htail : iprop(iprop((K (F := F)).ctx EH (P m) κ ∗ (K (F := F)).tcSt EH d 1 ∗ boundary (SparseCore.T d) ∗ GP d
        ∗ (tblLoc d ↦{fullShare} m (tblLoc d)) ∗ (cntLoc d ↦{fullShare} cntOf m d)
        ∗ (∃ f, (SparseCore.T d).loc main_v1 ↦{fullShare} f) ∗ (∃ f, (SparseCore.T d).loc main_v2 ↦{fullShare} f) ∗ (∃ f, (SparseCore.T d).loc main_v3 ↦{fullShare} f))
        ∗ (mapLoc d ↦{fullShare} m (mapLoc d)))
      ⊢ wp frame (wpE ((K (F := F)).defs (D (F := F))) 𝒱 (SparseCore.T d) none) Set.univ (mainTail d)
          fun _ => iprop((K (F := F)).tcSt EH d 1 ∗ FIN m d) :=
    (BI.sep_mono (tail_wp m κ d (cntOf m d)) (BI.Entails.refl _)).trans ((wp_frame_r frame _ Set.univ).trans (wp_mono frame _ Set.univ fun _ => by
      iintro ⟨⟨Hst, Htbl, H3⟩, Hmap⟩
      isplitl [Hst]; · iexact Hst
      isplitl [Htbl]; · iexact Htbl
      isplitl [Hmap]; · iexact Hmap
      iexact H3))
  unfold SparseCore.Cfg.tcRes
  rw [unscopedBufs_eq, main_eq]
  simp only [wp_bind]
  iintro ⟨#Hctx, Hst, ⟨Hb, ⟨Htbl, Hmap, H0, H1, H2, H3⟩, -, -⟩, HG⟩
  -- the map's share as thirty-two read tokens and a remainder; the counts array as its rows
  ihave Hm := (Transfers.pointsTo_toks_split fullShare 32) $$ Hmap
  icases Hm with ⟨Hrem, Htoks⟩
  ihave Hrows := (Entails.of_eq (cnt_rows d _)) $$ H0
  iapply ((K (F := F)).wp_run (D (F := F)) 𝒱 (EH := EH) (P := P m) κ d 0) $$ [Hst Htoks Hrows Hb Htbl Hrem H1 H2 H3 HG]
  isplitr; · iexact Hctx
  isplitl [Hst]; · iexact Hst
  isplitl [Htoks Hrows]
  · iapply (Entails.of_eq (st0_eq m d).symm)
    isplitl [Htoks]; · iexact Htoks
    iexact Hrows
  iintro ⟨Hst, Hdn⟩
  ihave Hdn' := (Entails.of_eq (dn0_eq m d)) $$ Hdn
  icases Hdn' with ⟨Htoks, Hrows⟩
  ihave Hmap := (Transfers.pointsTo_toks_join fullShare 32) $$ [Hrem Htoks]
  · isplitl [Hrem]; · iexact Hrem
    iexact Htoks
  ihave H0 := (Entails.of_eq (cnt_rows d (cntOf m d)).symm) $$ Hrows
  -- the tail, the map kept aside
  iapply htail
  isplitr [Hmap]
  · isplitr; · iexact Hctx
    isplitl [Hst]; · iexact Hst
    isplitl [Hb]; · iexact Hb
    isplitl [HG]; · iexact HG
    isplitl [Htbl]; · iexact Htbl
    isplitl [H0]; · iexact H0
    isplitl [H1]; · iexists _; iexact H1
    isplitl [H2]; · iexists _; iexact H2
    iexists _; iexact H3
  iexact Hmap

/-- What the final memory of device `d` holds. -/
def fq (d : Dev nD) (s' : Phys nD τ sig (Elt F)) : Prop :=
  s'.mem.mem (tblLoc d) = m (tblLoc d) ∧ s'.mem.mem (mapLoc d) = m (mapLoc d)
    ∧ s'.mem.mem ((SparseCore.T d).loc main_v3) = outOf (m (tblLoc d)) (cntOf m d)

omit [∀ e, Nonempty (Elt F e)] in
theorem hfin (d : Dev nD) (s' : Phys nD τ sig (Elt F)) : iprop(FIN m d ∗ SI s') ⊢ (⌜fq m d s'⌝ : sProp (MM F)) := by
  iintro ⟨⟨Ht, Hm, H3⟩, HSI⟩
  ihave H := (persistent_entails_right (SI_pointsTo_agree (st := s') (ℓ := tblLoc d) (I := Finset.univ) (q := fullShare) (f := m (tblLoc d)))) $$ [HSI Ht]
  · isplitl [HSI] <;> iassumption
  icases H with ⟨%h1, HSI, -⟩
  ihave H := (persistent_entails_right (SI_pointsTo_agree (st := s') (ℓ := mapLoc d) (I := Finset.univ) (q := fullShare) (f := m (mapLoc d)))) $$ [HSI Hm]
  · isplitl [HSI] <;> iassumption
  icases H with ⟨%h2, HSI, -⟩
  ihave H := (SI_pointsTo_agree (st := s') (ℓ := (SparseCore.T d).loc main_v3) (I := Finset.univ) (q := fullShare) (f := outOf (m (tblLoc d)) (cntOf m d))) $$ [HSI H3]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

/-- On every device: the table and the region map as launched, the result at `outOf` of the table and the histograms. -/
def QC : PUnit × MemSt nD τ sig (Elt F) → Prop := fun r =>
  ∀ c : Dev nD, r.2.mem (tblLoc c) = m (tblLoc c) ∧ r.2.mem (mapLoc c) = m (mapLoc c)
    ∧ r.2.mem ((SparseCore.T c).loc main_v3) = outOf (m (tblLoc c)) (cntOf m c)

theorem run_main (hpre : PreOK m) :
    θ_run (Cert.Kernel.defs (F := F)) (Cert.Kernel.threads (F := F)) ⟨m, fun _ => 0, ρ⟩
      (fun r => ∀ c : Dev nD, r.2.mem (tblLoc c) = m (tblLoc c) ∧ r.2.mem (mapLoc c) = m (mapLoc c)
        ∧ r.2.mem ((SparseCore.T c).loc main_v3) = outOf (m (tblLoc c)) (cntOf m c)) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (GP (F := F)) (FIN m) (u₀ (F := F)) (sep_elim_left.trans (hu₀ m)) (hmain m ρ) (fq m) (hfin m) (QC m) (fun _ h => h)

end Cert.Proof.KB

end
-- ==== Proof.RefValue.lean ====
/-
  The reference program, read at one entry of its [65536, 64] result, under the hypothesis that every region id of
  the [16, 512, 512] map lies in [0, 65535] as a signed word.

  The reference flattens the map to 4194304 ids, replaces a negative id by id + 65536 (none is negative here, so
  every id is kept), and scatters a one into 65536 zero bins at those ids, the ones that meet at a bin being added.
  Over the extended reals the accumulating scatter at bin m is the bin's start value plus the sum of the updates
  whose result index is m; an update whose index lies outside the bins contributes nothing, and a sum over a finite
  set has no order. The start value is 0 and every update is 1, so bin m holds the number of flattened positions
  whose id is m; the flattening is a one-to-one correspondence between the 4194304 positions and the indices of the
  map, so that number is the number of pixels carrying the id m. The result entry (m, c) is then the table entry
  (m, c) times that count.
-/
import proofs.«218041_g60507499266918_cont_9to1_m_1358_18_alg».proof.Proof.Gen.ReferenceIdeal.Read
import proofs.«218041_g60507499266918_cont_9to1_m_1358_18_alg».proof.Proof.HistSpec
import Idealize.ShloMosaic.PureOps.Ideal
import Idealize.ShloMosaic.PureOps.Ideal.Laws
import Idealize.ShloMosaic.Lib.ValueIdx

noncomputable section

namespace Cert.RefValue

open Idealize.ShloMosaic Idealize.ShloMosaic.ValueIdx Cert.ReferenceIdeal Cert.ReferenceIdeal.Read

/-- The scatter's dimension numbers: operand [65536], scatter indices [4194304, 1] with the index vector on axis 1,
    updates [4194304]; the operand's one axis is inserted, so an update is a single element. -/
abbrev D : ScatterDims S65536 S4194304x1 S4194304 := scatter_S65536_S4194304x1_S4194304_n_0_0_1

/-- An update has no window coordinate: the operand's only axis is an inserted one. -/
theorem window_eq (j : S4194304.Idx) (a : Fin 1) : D.window j a = 0 := by
  obtain rfl : a = 0 := Subsingleton.elim _ _
  unfold ScatterDims.window
  rw [dif_neg (by decide)]

/-- Update j starts at the signed value of the scatter index (j, 0). -/
theorem start_eq {w : Nat} (j : S4194304.Idx) (idx : IVec S4194304x1 w) (a : Fin 1) :
    D.start j idx a = (idx (ix2 (j 0) 0)).toInt := by
  obtain rfl : a = 0 := Subsingleton.elim _ _
  unfold ScatterDims.start
  rw [dif_pos (show (0 : Fin 1) ∈ D.scatterDimsToOperandDims from List.mem_singleton.mpr rfl)]
  congr 2
  funext b; refine Fin.ext ?_
  match b with
  | ⟨0, _⟩ => rfl
  | ⟨1, _⟩ => rfl

/-- Update j lands on bin i exactly when the signed value of its scatter index is i; an index outside [0, 65536)
    lands nowhere. -/
theorem resultIdx?_eq_some_iff {w : Nat} (j : S4194304.Idx) (idx : IVec S4194304x1 w) (i : S65536.Idx) :
    D.resultIdx? j idx = some i ↔ (idx (ix2 (j 0) 0)).toInt = ((i 0).val : Int) := by
  have hs : ∀ a, D.start j idx a + D.window j a = (idx (ix2 (j 0) 0)).toInt := fun a => by
    rw [start_eq, window_eq]; simp
  have hi : (i 0).val < 65536 := (i 0).isLt
  unfold ScatterDims.resultIdx?
  split
  · rename_i h
    constructor
    · intro e
      have e0 := congrArg (fun k : S65536.Idx => (k 0).val) (Option.some.inj e)
      have h0 := (h 0).1
      rw [hs] at h0
      have e1 : (D.start j idx 0 + D.window j 0).toNat = (i 0).val := e0
      rw [hs] at e1
      omega
    · intro e
      congr 1
      funext a
      obtain rfl : a = 0 := Subsingleton.elim _ _
      apply Fin.ext
      show (D.start j idx 0 + D.window j 0).toNat = (i 0).val
      rw [hs, e]; simp
  · rename_i h
    constructor
    · intro e; cases e
    · intro e
      exfalso; apply h; intro a
      obtain rfl : a = 0 := Subsingleton.elim _ _
      rw [hs, e]
      exact ⟨by omega, by show ((i 0).val : Int) < 65536; omega⟩

/-- The pattern 0x3F800000 denotes the real 1. -/
theorem ofBits_one : Ideal.ofBits .f32 0x3F800000#32 = 1 := by
  simp [Ideal.ofBits, Ideal.ieee, -EReal.coe_mul]; norm_num

/-- A sum of ones over a finite set is its cardinality, in the extended reals. -/
theorem sum_one_ereal {ι : Type} (s : Finset ι) : (∑ _j ∈ s, (1 : EReal)) = ((s.card : ℕ) : EReal) := by
  classical
  induction s using Finset.induction_on with
  | empty => simp
  | insert a s ha ih =>
    rw [Finset.sum_insert ha, Finset.card_insert_of_notMem ha, ih]
    push_cast
    rw [add_comm]

/-- Over the extended reals, the accumulating scatter read at an element, for every shape: the operand's element
    plus the sum of the updates whose result index is that element. -/
theorem scatterAdd_ideal_apply {s si u : Shape} {w : Nat} (d : ScatterDims s si u) (x : FVec Ideal s .f32)
    (idx : IVec si w) (upd : FVec Ideal u .f32) (i : s.Idx) :
    Host.scatterAdd d x idx upd i = x i + ∑ j ∈ Finset.univ.filter (fun j => d.resultIdx? j idx = some i), upd j := rfl

/-- The reference's scatter at bin i, as that sum. -/
theorem v9_raw (rm : IVec S16x512x512 32) (i : S65536.Idx) :
    val_main_v9 (F := Ideal) rm i
      = val_main_v1 (F := Ideal) i + ∑ j ∈ Finset.univ.filter (fun j => D.resultIdx? j (val_main_v7 (F := Ideal) rm) = some i), val_main_v8 (F := Ideal) j := by
  unfold val_main_v9
  exact scatterAdd_ideal_apply D (val_main_v1 (F := Ideal)) (val_main_v7 (F := Ideal) rm) (val_main_v8 (F := Ideal)) i

/-- Bin i holds the number of flattened positions whose normalised id, read signed, is i. -/
theorem v9_apply (rm : IVec S16x512x512 32) (i : S65536.Idx) :
    val_main_v9 (F := Ideal) rm i
      = (((Finset.univ.filter fun j : S4194304.Idx =>
          (val_main_v7 (F := Ideal) rm (ix2 (j 0) 0)).toInt = ((i 0).val : Int)).card : ℕ) : EReal) := by
  refine (v9_raw rm i).trans ?_
  rewrite [val_main_v1_apply, val_main_cst_apply, Ideal.ofBits_def, Ideal.ofBits_zero_f32, zero_add]
  rewrite [Finset.sum_congr rfl (fun j _ => by
    rewrite [val_main_v8_apply, val_main_cst_1_apply, Ideal.ofBits_def, ofBits_one]; exact Eq.refl (1 : EReal))]
  rewrite [sum_one_ereal]
  rewrite [Finset.filter_congr (fun j _ => resultIdx?_eq_some_iff j (val_main_v7 (F := Ideal) rm) i)]
  exact Eq.refl _

/-- A signed 32-bit word that is not negative is its unsigned value. -/
theorem toInt_eq_toNat_of_nonneg (x : BitVec 32) (h : 0 ≤ x.toInt) : x.toInt = (x.toNat : Int) := by
  have hlt := x.isLt
  rw [BitVec.toInt_eq_toNat_cond] at h ⊢
  split at h
  · rename_i hc; rw [if_pos hc]
  · exfalso; omega

/-- The reshape of the [16, 512, 512] map to [4194304] pairs the indices of the two shapes one to one. -/
abbrev e0 : S4194304.Idx ≃ S16x512x512.Idx := Shape.reshapeEquiv Gen.shapeCasts_S16x512x512_S4194304

/-- A reshape read at an index is the operand at the paired index. -/
theorem shapeCast_apply' {α : Type} {s t : Shape} (x : s.Idx → α) (h : s.ShapeCasts t) (j : t.Idx) :
    shapeCast t x h j = x (Shape.reshapeEquiv h j) := rfl

/-- The flattened map at position j is the map at the paired index. -/
theorem v0_at (rm : IVec S16x512x512 32) (j : S4194304.Idx) : val_main_v0 (F := Ideal) rm j = rm (e0 j) := by
  unfold val_main_v0
  exact shapeCast_apply' rm _ j

/-- Under the range hypothesis no id is negative, so the index normalisation keeps every id. -/
theorem v7_at (rm : IVec S16x512x512 32) (hrm : ∀ i, 0 ≤ (rm i).toInt ∧ (rm i).toInt ≤ 65535) (j : S4194304.Idx) :
    val_main_v7 (F := Ideal) rm (ix2 (j 0) 0) = rm (e0 j) := by
  have hj : idx_main_v7 (ix2 (j 0) 0) = j := by
    funext a
    match a with
    | ⟨0, _⟩ => rfl
  rewrite [val_main_v7_apply, hj, val_main_v6_apply, val_main_v3_apply, val_main_v2_apply, val_main_c_apply, v0_at]
  have h0 := (hrm (e0 j)).1
  have hc : ¬ IntOp.cmpi .slt (rm (e0 j)) 0#32 = 1#1 := by
    rw [IntOp.cmpi_slt]
    have z0 : (0#32 : BitVec 32).toInt = 0 := by decide
    rw [z0]; omega
  exact if_neg hc

/-- The updates naming bin m are as many as the pixels carrying the id m. -/
theorem card_eq (rm : IVec S16x512x512 32) (hrm : ∀ i, 0 ≤ (rm i).toInt ∧ (rm i).toInt ≤ 65535) (m : Fin 65536) :
    (Finset.univ.filter fun j : S4194304.Idx =>
        (val_main_v7 (F := Ideal) rm (ix2 (j 0) 0)).toInt = ((m.val : ℕ) : Int)).card = Cert.Hist.total rm m := by
  unfold Cert.Hist.total
  refine Finset.card_equiv e0 (fun j => ?_)
  rewrite [Finset.mem_filter, Finset.mem_filter, v7_at rm hrm j, toInt_eq_toNat_of_nonneg _ (hrm (e0 j)).1]
  exact and_congr (by simp only [Finset.mem_univ]) Int.ofNat_inj

/-- THE REFERENCE READ AT AN ENTRY: entry (m, c) of the table times the number of pixels that carry the id m. -/
theorem ref_eq (tbl : FVec Ideal Cert.ReferenceIdeal.S65536x64 .f32) (rm : IVec Cert.ReferenceIdeal.S16x512x512 32)
    (hrm : ∀ i, 0 ≤ (rm i).toInt ∧ (rm i).toInt ≤ 65535) (i : Cert.ReferenceIdeal.S65536x64.Idx) :
    Cert.ReferenceIdeal.Read.val_main_v12 (F := Ideal) tbl rm i = tbl i * ((Cert.Hist.total rm (i 0) : ℕ) : EReal) := by
  rewrite [val_main_v12_apply, val_main_v11_apply, val_main_v10_apply, v9_apply, Ideal.mulf_def]
  exact congrArg (fun n : ℕ => tbl i * (n : EReal)) (card_eq rm hrm (i 0))

end Cert.RefValue

end
-- ==== Proof.HistMath.lean ====
/- The count algebra of the histogram over the extended reals: one indexed add of sixteen units raises each bin by
   the number of lanes that name it, a row by the number of its columns carrying the id, a block of 256 rows by the
   number of its pixels carrying the id, and the 32 blocks tile the whole map, so the partial counts sum to the total. -/
import proofs.«218041_g60507499266918_cont_9to1_m_1358_18_alg».proof.Proof.HistSpec
import Idealize.ShloMosaic.PureOps.Ideal
import Idealize.ShloMosaic.PureOps.Ideal.Laws

noncomputable section

namespace Cert.Hist

open Idealize.ShloMosaic Idealize.ShloMosaic.ValueIdx

/-- The word 0x3F800000 is the real number one. -/
theorem one_eq : (Scalar.ofBits (F := Ideal) .f32 0x3F800000#32) = (1 : EReal) := by
  show Ideal.ofBits .f32 0x3F800000#32 = 1
  simp [Ideal.ofBits, Ideal.ieee, -EReal.coe_mul]; norm_num

/-- The word 0x00000000 is the real number zero. -/
theorem zero_eq : (Scalar.ofBits (F := Ideal) .f32 0x00000000#32) = (0 : EReal) := by
  show Ideal.ofBits .f32 0x00000000#32 = 0
  simp [Ideal.ofBits, Ideal.ieee]

/-- What one lane of the indexed add does over the extended reals: the bin the lane names gains one, every other bin stays. -/
def laneStep (v : IVec SLanes 32) (h : InBins v) (g : FVec Ideal SBins .f32) (k : Fin 16) : FVec Ideal SBins .f32 :=
  fun j => if (∀ a, (j a).val = (idxAt (s := SBins) ![v] h (ix1 k) a).val) then g (idxAt (s := SBins) ![v] h (ix1 k)) + 1 else g j

/-- The indexed add of sixteen units, all lanes on, is the fold of the one-lane step over the lanes 0, …, 15. -/
theorem storeIdx_eq (g : FVec Ideal SBins .f32) (v : IVec SLanes 32) (h : InBins v) :
    (storeIdx (F := Ideal) (s := SBins) (e := .f32) g ![v] (ones (F := Ideal)) (fun _ => 1#1) true h : FVec Ideal SBins .f32) =
      (List.finRange 16).foldl (laneStep v h) g := by
  unfold storeIdx
  have hl : ∀ k : Fin ((![16] : Fin 1 → ℕ) 0), (Shape.ofLane (d := ![16]) k) = ix1 (n := 16) k := by
    intro k; funext a; match a with | ⟨0, _⟩ => rfl
  show List.foldl _ g (List.finRange 16) = _
  congr 1
  funext g k
  dsimp only
  rw [if_pos rfl, hl k]
  simp only [ones, broadcast, one_eq, Elt.idxAdd_f32, Ideal.idxAddf_def, if_true]
  rfl

/-- Folding the one-lane step over any list of lanes raises bin m by the number of listed lanes whose id is m:
    a lane whose id is m adds one to bin m, any other lane leaves bin m alone, and sums of natural numbers
    in the extended reals associate. -/
theorem foldl_lane (v : IVec SLanes 32) (h : InBins v) (m : Fin 65536) (l : List (Fin 16)) (g : FVec Ideal SBins .f32) :
    (l.foldl (laneStep v h) g) (ix1 m) =
      g (ix1 m) + (((l.map fun k => if (v (ix1 k)).toNat = m.val then 1 else 0).sum : ℕ) : EReal) := by
  induction l generalizing g with
  | nil => simp
  | cons k l ih =>
    rw [List.foldl_cons, ih, List.map_cons, List.sum_cons, Nat.cast_add, ← add_assoc]
    congr 1
    unfold laneStep
    have hc : (∀ a : Fin SBins.rank, ((ix1 m : SBins.Idx) a).val = (idxAt (s := SBins) ![v] h (ix1 k) a).val) ↔
        (v (ix1 k)).toNat = m.val := by
      constructor
      · intro H; exact (H ⟨0, by decide⟩).symm
      · intro H a; match a with | ⟨0, _⟩ => exact H.symm
    by_cases hk : (v (ix1 k)).toNat = m.val
    · have hi : idxAt (s := SBins) ![v] h (ix1 k) = ix1 m := by
        funext a; match a with | ⟨0, _⟩ => exact Fin.ext hk
      rw [if_pos (hc.2 hk), if_pos hk, hi, Nat.cast_one]
    · rw [if_neg (fun H => hk (hc.1 H)), if_neg hk, Nat.cast_zero, add_zero]

/-- One vector of 16 ids raises bin m by the number of its lanes whose id is m. -/
theorem scat_apply (g : FVec Ideal SBins .f32) (v : IVec SLanes 32) (h : InBins v) (m : Fin 65536) :
    scat g v (ix1 m) = g (ix1 m) + ((∑ x : Fin 16, if (v (ix1 x)).toNat = m.val then 1 else 0 : ℕ) : EReal) := by
  rw [scat_of_inBins g v h, storeIdx_eq, foldl_lane, Fin.sum_univ_def]

/-- When every id of the map is below 65536, every vector cut out of it names bins only. -/
theorem inBins_laneVec (rm : IVec SMap 32) (hrm : ∀ i, (rm i).toNat < 65536) (img : Fin 16) (row : Fin 512) (j : Fin 32) :
    InBins (laneVec rm img row j) := by
  intro a x
  match a with
  | ⟨0, _⟩ => exact hrm _

/-- How many columns of one row carry the id m. -/
def colCnt (rm : IVec SMap 32) (img : Fin 16) (row : Fin 512) (m : Fin 65536) : ℕ :=
  ∑ c : Fin 512, if (rm (ix3 img row c)).toNat = m.val then 1 else 0

/-- A sum over 512 columns is the sum over 32 vectors of the sum over their 16 lanes, column 16 j + x being lane x of vector j. -/
theorem sum_cols (f : Fin 512 → ℕ) :
    ∑ c : Fin 512, f c = ∑ j : Fin 32, ∑ x : Fin 16, f ⟨16 * j.val + x.val, by have := j.isLt; have := x.isLt; omega⟩ := by
  rw [← Fintype.sum_prod_type']
  refine (Fintype.sum_equiv (finProdFinEquiv (m := 32) (n := 16)) _ _ (fun p => ?_)).symm
  congr 1
  ext
  simp [finProdFinEquiv]
  omega

/-- Adding the vectors of any list, one after the other, raises bin m by the number of their lanes whose id is m. -/
theorem foldl_scat (rm : IVec SMap 32) (hrm : ∀ i, (rm i).toNat < 65536) (img : Fin 16) (row : Fin 512) (m : Fin 65536)
    (l : List (Fin 32)) (g : FVec Ideal SBins .f32) :
    (l.foldl (fun g j => scat g (laneVec rm img row j)) g) (ix1 m) = g (ix1 m) +
      (((l.map fun j : Fin 32 => ∑ x : Fin 16,
        if (rm (ix3 img row ⟨16 * j.val + x.val, by have := j.isLt; have := x.isLt; omega⟩)).toNat = m.val then 1 else 0).sum : ℕ) : EReal) := by
  induction l generalizing g with
  | nil => simp
  | cons j l ih =>
    rw [List.foldl_cons, ih, List.map_cons, List.sum_cons, Nat.cast_add, ← add_assoc,
      scat_apply _ _ (inBins_laneVec rm hrm img row j)]
    rfl

/-- One row raises bin m by the number of its columns carrying the id m. -/
theorem rowStep_apply (rm : IVec SMap 32) (hrm : ∀ i, (rm i).toNat < 65536) (img : Fin 16) (row : Fin 512) (m : Fin 65536)
    (g : FVec Ideal SBins .f32) :
    rowStep rm img g row (ix1 m) = g (ix1 m) + ((colCnt rm img row m : ℕ) : EReal) := by
  have hl : lanes32 = List.finRange 32 := by decide
  unfold rowStep
  rw [foldl_scat rm hrm, hl, ← Fin.sum_univ_def, colCnt, sum_cols]

/-- How many columns of row r (none, should r be no row of the image) carry the id m. -/
def rowCnt (rm : IVec SMap 32) (img : Fin 16) (m : Fin 65536) (r : ℕ) : ℕ :=
  if h : r < 512 then colCnt rm img ⟨r, h⟩ m else 0

/-- After n rows from row0 on, bin m holds the number of pixels of those rows carrying the id m. -/
theorem histAfter_apply (rm : IVec SMap 32) (hrm : ∀ i, (rm i).toNat < 65536) (img : Fin 16) (row0 : ℕ) (m : Fin 65536) (n : ℕ) :
    histAfter (F := Ideal) rm img row0 n (ix1 m) = ((∑ r ∈ Finset.range n, rowCnt rm img m (row0 + r) : ℕ) : EReal) := by
  induction n with
  | zero =>
    rw [Finset.sum_range_zero, Nat.cast_zero]
    exact zero_eq
  | succ n ih =>
    rw [Finset.sum_range_succ, Nat.cast_add, ← ih]
    have e : histAfter (F := Ideal) rm img row0 (n + 1) =
        if h : row0 + n < 512 then rowStep rm img (histAfter rm img row0 n) ⟨row0 + n, h⟩ else histAfter rm img row0 n := rfl
    rw [e]
    by_cases h : row0 + n < 512
    · rw [dif_pos h, rowStep_apply rm hrm, rowCnt, dif_pos h]
    · rw [dif_neg h, rowCnt, dif_neg h, Nat.cast_zero, add_zero]

/-- The count of a block, row by row. -/
theorem cnt_eq (rm : IVec SMap 32) (w : Fin 32) (m : Fin 65536) :
    cnt rm w m = ∑ r ∈ Finset.range 256, rowCnt rm ⟨w.val / 2, by have := w.isLt; omega⟩ m ((w.val % 2) * 256 + r) := by
  unfold cnt
  rw [Finset.card_filter, Fintype.sum_prod_type, ← Fin.sum_univ_eq_sum_range]
  refine Finset.sum_congr rfl (fun r _ => ?_)
  have hr : (w.val % 2) * 256 + r.val < 512 := by
    have := r.isLt; have := Nat.mod_lt w.val (show 0 < 2 by decide); omega
  rw [rowCnt, dif_pos hr]
  rfl

/-- Bin m of vector subcore w holds the number of pixels of its block that carry the id m. -/
theorem tileHist_eq (rm : IVec SMap 32) (hrm : ∀ i, (rm i).toNat < 65536) (w : Fin 32) (m : Fin 65536) :
    tileHist (F := Ideal) rm w (ix1 m) = ((cnt rm w m : ℕ) : EReal) := by
  rw [cnt_eq]
  exact histAfter_apply rm hrm _ _ m 256

/-- The 32 blocks of 256 rows tile the whole map: block w, row r, column c is pixel (w / 2, (w % 2) * 256 + r, c),
    and pixel (i, r, c) lies in block 2 i + r / 256 at row r % 256. -/
def blockEquiv : Fin 32 × (Fin 256 × Fin 512) ≃ SMap.Idx where
  toFun q := ix3 ⟨q.1.val / 2, by have := q.1.isLt; omega⟩
    ⟨(q.1.val % 2) * 256 + q.2.1.val, by have := q.2.1.isLt; have := Nat.mod_lt q.1.val (show 0 < 2 by decide); omega⟩ q.2.2
  invFun i := (⟨2 * (i 0).val + (i 1).val / 256, by
      have h0 : (i 0).val < 16 := (i 0).isLt; have h1 : (i 1).val < 512 := (i 1).isLt; omega⟩,
    ⟨(i 1).val % 256, Nat.mod_lt _ (by decide)⟩, i 2)
  left_inv q := by
    obtain ⟨w, r, c⟩ := q
    have := w.isLt; have := r.isLt
    refine Prod.ext (Fin.ext ?_) (Prod.ext (Fin.ext ?_) rfl)
    · show 2 * (w.val / 2) + ((w.val % 2) * 256 + r.val) / 256 = w.val
      omega
    · show ((w.val % 2) * 256 + r.val) % 256 = r.val
      omega
  right_inv i := by
    have h0 : (i 0).val < 16 := (i 0).isLt
    have h1 : (i 1).val < 512 := (i 1).isLt
    funext a
    match a with
    | ⟨0, _⟩ =>
      refine Fin.ext ?_
      show (2 * (i 0).val + (i 1).val / 256) / 2 = (i 0).val
      omega
    | ⟨1, _⟩ =>
      refine Fin.ext ?_
      show ((2 * (i 0).val + (i 1).val / 256) % 2) * 256 + (i 1).val % 256 = (i 1).val
      omega
    | ⟨2, _⟩ => rfl

/-- The 32 block counts of an id sum to its count over the whole map. -/
theorem sum_cnt (rm : IVec SMap 32) (m : Fin 65536) : (∑ w : Fin 32, cnt rm w m) = total rm m := by
  unfold cnt total
  simp_rw [Finset.card_filter]
  rw [← Fintype.sum_prod_type']
  exact Fintype.sum_equiv blockEquiv _ _ (fun q => rfl)

/-- Bin m summed over the 32 vector subcores is the number of pixels of the whole map that carry the id m. -/
theorem sum_tileHist (rm : IVec SMap 32) (hrm : ∀ i, (rm i).toNat < 65536) (m : Fin 65536) :
    (∑ w : Fin 32, tileHist (F := Ideal) rm w (ix1 m)) = ((total rm m : ℕ) : EReal) := by
  rw [← sum_cnt, Nat.cast_sum]
  exact Finset.sum_congr rfl (fun w _ => tileHist_eq rm hrm w m)

end Cert.Hist

end
-- ==== Proof.RegionValue.lean ====
/- The program's result at the extended reals, entry by entry: an entry of the table times the total, over the
   thirty-two rows of the counts array, of the counts in that entry's column. -/
import proofs.«218041_g60507499266918_cont_9to1_m_1358_18_alg».proof.Proof.RegionI
import Idealize.ShloMosaic.PureOps.Ideal.Laws
import Idealize.ShloMosaic.Lib.ValueLayout

noncomputable section

namespace Cert.Proof.KI

open Cert.KernelIdeal Cert.KernelIdeal.Gen
open Idealize.ShloMosaic Idealize.ShloMosaic.ValueIdx

/-- The kernel's block at an index: the table block's entry there times the sum of the counts block's column. -/
theorem pay_apply (v0 : FVec Ideal S32x32768 .f32) (v3 : FVec Ideal S64x32768 .f32) (p : Fin 64) (q : Fin 32768) :
    k1_pay1 (F := Ideal) v0 v3 (ix2 p q) = v3 (ix2 p q) * ∑ w : Fin 32, v0 (ix2 w q) := by
  unfold k1_pay1
  dsimp only
  show shapeCast S64x32768 v3 shapeCasts_S64x32768_S64x32768 (ix2 p q)
      * broadcastTo S64x32768 (shapeCast S1x32768 (multiReduction (F := Ideal) .add [0] S32768 (shapeCast S32x32768 v0 shapeCasts_S32x32768_S32x32768) 0x00000000#32 reduces_S32x32768_S32768 (.inl rfl) rfl) shapeCasts_S32768_S1x32768) broadcasts_S1x32768_S64x32768 (ix2 p q) = _
  rw [shapeCast_self, shapeCast_self]
  refine congrArg (v3 (ix2 p q) * ·) ?_
  refine (broadcastTo_1b_ab_apply _ broadcasts_S1x32768_S64x32768 p q).trans ?_
  refine (shapeCast_a_1a_apply _ shapeCasts_S32768_S1x32768 (0 : Fin 1) q).trans ?_
  refine (Ideal.multiReduction_add_single v0 0x00000000#32 reduces_S32x32768_S32768 (.inl rfl) rfl (ix1 q)).trans ?_
  show ∑ w : Fin 32, v0 (reduces_S32x32768_S32768.lift (ix1 q) w) = _
  exact Finset.sum_congr rfl fun w _ => congrArg v0 (funext fun a => Fin.ext (by match a with | ⟨0, _⟩ => rfl | ⟨1, _⟩ => rfl))

/-- The transposed table at `(dd, c)` is the table at `(c, dd)`. -/
theorem tblT_apply (tbl : FVec Ideal S65536x64 .f32) (dd : Fin 64) (c : Fin 65536) : tblT tbl (ix2 dd c) = tbl (ix2 c dd) :=
  transpose_ix2_apply tbl transposes_S65536x64_S64x65536_1_0 dd c

/-- A half of the columns, read at an index of the half. -/
theorem tblHalf_apply (V1 : FVec Ideal S64x65536 .f32) (h : Fin 2) (p : Fin 64) (q : Fin 32768) :
    tblHalf V1 h (ix2 p q) = V1 (ix2 p (⟨32768 * h.val + q.val, by have := h.isLt; have := q.isLt; omega⟩ : Fin 65536)) := rfl
theorem cntHalf_apply (Cn : FVec Ideal S32x65536 .f32) (h : Fin 2) (w : Fin 32) (q : Fin 32768) :
    cntHalf Cn h (ix2 w q) = Cn (ix2 w (⟨32768 * h.val + q.val, by have := h.isLt; have := q.isLt; omega⟩ : Fin 65536)) := rfl

/-- The region's result array at `(dd, mm)`: the table's entry `(mm, dd)` times the total of column `mm` of the counts. -/
theorem G2_apply (tbl : FVec Ideal S65536x64 .f32) (Cn : FVec Ideal S32x65536 .f32) (dd : Fin 64) (mm : Fin 65536) :
    G2 (F := Ideal) tbl Cn (ix2 dd mm) = tbl (ix2 mm dd) * ∑ w : Fin 32, Cn (ix2 w mm) := by
  have hm := mm.isLt
  have hq : mm.val % 32768 < 32768 := Nat.mod_lt _ (by decide)
  have hc : colIn (ix2 dd mm) = ix2 dd (⟨mm.val % 32768, hq⟩ : Fin 32768) := by
    funext a; match a with | ⟨0, _⟩ => rfl | ⟨1, _⟩ => rfl
  have e : ∀ hlt, (⟨32768 * (halfOf (ix2 dd mm)).val + (⟨mm.val % 32768, hq⟩ : Fin 32768).val, hlt⟩ : Fin 65536) = mm := fun _ =>
    Fin.ext (show 32768 * (mm.val / 32768) + mm.val % 32768 = mm.val by omega)
  unfold G2
  rw [hc]
  refine (pay_apply _ _ dd ⟨mm.val % 32768, hq⟩).trans ?_
  rw [tblHalf_apply, e, tblT_apply]
  refine congrArg (tbl (ix2 mm dd) * ·) (Finset.sum_congr rfl fun w _ => ?_)
  rw [cntHalf_apply, e]

/-- The program's result at `(mm, dd)`: the table's entry there times the total of column `mm` of the counts. -/
theorem outOf_apply (tbl : FVec Ideal S65536x64 .f32) (Cn : FVec Ideal S32x65536 .f32) (mm : Fin 65536) (dd : Fin 64) :
    outOf (F := Ideal) tbl Cn (ValueIdx.ix2 mm dd) = tbl (ValueIdx.ix2 mm dd) * ∑ w : Fin 32, Cn (ValueIdx.ix2 w mm) := by
  unfold outOf
  exact (transpose_ix2_apply (G2 tbl Cn) transposes_S64x65536_S65536x64_1_0 mm dd).trans (G2_apply tbl Cn dd mm)

end Cert.Proof.KI

end
-- ==== Proof.ResultEq.lean ====
/-
  The two programs' results agree, entry by entry, over the extended reals, when every region id lies in [0, 65535].

  The program's result at (m, c) is the table entry (m, c) times the total, over the thirty-two partial histograms,
  of bin m; the partial histograms tile the map, so that total is the number of pixels carrying the id m; and the
  reference's result at (m, c) is the same table entry times the same number.
-/
import proofs.«218041_g60507499266918_cont_9to1_m_1358_18_alg».proof.Proof.RefValue
import proofs.«218041_g60507499266918_cont_9to1_m_1358_18_alg».proof.Proof.HistMath
import proofs.«218041_g60507499266918_cont_9to1_m_1358_18_alg».proof.Proof.RegionValue

noncomputable section

namespace Cert.ResultEq

open Idealize.ShloMosaic Idealize.ShloMosaic.ValueIdx

/-- Row w of the counts array is the partial histogram of vector subcore w. -/
theorem countsOf_apply {F : FTy → Type} [FloatOps F] (rm : IVec Cert.Hist.SMap 32) (w : Fin 32) (m : Fin 65536) :
    Cert.Hist.countsOf (F := F) rm (ix2 w m) = Cert.Hist.tileHist (F := F) rm w (ix1 m) := rfl

/-- An id in [0, 65535] as a signed word is below 65536 as an unsigned one. -/
theorem toNat_lt_of_range (rm : IVec Cert.KernelIdeal.S16x512x512 32)
    (hrm : ∀ i, 0 ≤ (rm i).toInt ∧ (rm i).toInt ≤ 65535) (p : Cert.KernelIdeal.S16x512x512.Idx) : (rm p).toNat < 65536 := by
  have h := hrm p
  have e := Cert.RefValue.toInt_eq_toNat_of_nonneg (rm p) h.1
  omega

/-- THE RESULTS AGREE: the program's result, computed from the thirty-two partial histograms, is the reference's. -/
theorem result_eq (tbl : FVec Ideal Cert.KernelIdeal.S65536x64 .f32) (rm : IVec Cert.KernelIdeal.S16x512x512 32)
    (hrm : ∀ i, 0 ≤ (rm i).toInt ∧ (rm i).toInt ≤ 65535) :
    Cert.Proof.KI.outOf (F := Ideal) tbl (Cert.Hist.countsOf (F := Ideal) rm)
      = Cert.ReferenceIdeal.Read.val_main_v12 (F := Ideal) tbl rm := by
  funext i
  obtain ⟨mm, dd, rfl⟩ : ∃ (mm : Fin 65536) (dd : Fin 64), i = ix2 mm dd := ⟨i 0, i 1, eq_ix2 i⟩
  refine Eq.trans ?_ (Cert.RefValue.ref_eq tbl rm hrm (ix2 mm dd)).symm
  refine (Cert.Proof.KI.outOf_apply tbl (Cert.Hist.countsOf (F := Ideal) rm) mm dd).trans ?_
  refine congrArg (tbl (ix2 mm dd) * ·) ?_
  refine Eq.trans (Finset.sum_congr rfl (fun w _ => countsOf_apply (F := Ideal) rm w mm)) ?_
  exact Cert.Hist.sum_tileHist rm (toNat_lt_of_range rm hrm) mm

end Cert.ResultEq

end
-- ==== Proof.PreRange.lean ====
/-
  The precondition of this certificate is the conjunction of two "for all entries" tests: every table
  entry has finite magnitude, and every entry of the index map lies in [0, 65535] as a signed 32-bit word.
  Each test is a reduction by "and" of an array of one-bit comparison results, started at 1, and the
  precondition says the conjunction of the two reductions is 1. Here the second half is read back:
  an "and" that is 1 had both operands 1; a reduction by "and" that is 1 met only 1s; and a one-bit
  signed comparison that is 1 says the comparison holds of the signed values of the words it compares.
-/
import proofs.«218041_g60507499266918_cont_9to1_m_1358_18_alg».proof.Pre_input_domain
import proofs.«218041_g60507499266918_cont_9to1_m_1358_18_alg».proof.Proof.Gen.Pre_input_domain
import Idealize.ShloMosaic.Lib.ReduceAll
import Idealize.ShloMosaic.PureOps

namespace Cert.PreRange

open Idealize.ShloMosaic

/-- The rank-0 shape has exactly one index. -/
instance : Subsingleton Cert.Pre_input_domain.S_.Idx := ⟨fun a b => funext fun d => d.elim0⟩

/-- Every entry of the index map lies in [0, 65535] (signed) when the precondition holds. -/
theorem range_of_pre {F : FTy → Type} [FloatOps F] (tbl : FVec F Cert.Pre_input_domain.S65536x64 .f32)
    (rm : IVec Cert.Pre_input_domain.S16x512x512 32)
    (h : Cert.Pre_input_domain.fn (F := F) tbl rm = fun _ => 1#1) :
    ∀ i, 0 ≤ (rm i).toInt ∧ (rm i).toInt ≤ 65535 := by
  intro i
  have e := congrFun h (fun d => d.elim0)
  unfold Cert.Pre_input_domain.fn at e
  dsimp only at e
  -- the final "and" of the two tests: keep the index-range test
  have e2 := (IntOp.andi_eq_one.1 e).2
  -- a reduction by "and" over every axis that is 1 met a 1 at every index
  have e3 := Host.reduce_andi_all _ _ _ _ _ e2 i
  -- the elementwise "and" of the two comparisons at index i
  obtain ⟨h0, h1⟩ := IntOp.andi_eq_one.1 e3
  -- a broadcast constant reads as the constant at every index; the comparisons are of signed values
  have h0' : IntOp.cmpi .sge (rm i) (0#32) = 1#1 := h0
  have h1' : IntOp.cmpi .sle (rm i) (65535#32) = 1#1 := h1
  have z0 : (0#32 : BitVec 32).toInt = 0 := by decide
  have z1 : (65535#32 : BitVec 32).toInt = 65535 := by decide
  have g0 := IntOp.cmpi_sge.1 h0'
  have g1 := IntOp.cmpi_sle.1 h1'
  rw [z0] at g0
  rw [z1] at g1
  exact ⟨g0, g1⟩

end Cert.PreRange
-- ==== Proof.lean ====
/- Why the two programs agree. Each of the 32 vector subcores counts, for one block of 256 rows of one image,
   how often every region id in [0, 65536) occurs: its 65536-bin scratch starts at zero and receives one unit per
   pixel (an indexed add; several lanes naming one bin all land). The TensorCore then sums the 32 partial
   histograms bin by bin and multiplies column m of the transposed table by bin m's total. The reference adds one
   unit per pixel of the flattened map into a single histogram and multiplies row m of the table by bin m.
   On the extended reals both totals are the same finite sum of ones, only grouped differently, so the products
   agree entry by entry. The frames: every id of the map lies in [0, 65535] by the precondition, so every indexed
   add names a bin; each staging buffer has one copy in flight at a time and is read only after its copy has been
   awaited; the 32 blocks are disjoint rows of the counts array. -/
import proofs.«218041_g60507499266918_cont_9to1_m_1358_18_alg».proof.Defs
import proofs.«218041_g60507499266918_cont_9to1_m_1358_18_alg».proof.Proof.LaunchI
import proofs.«218041_g60507499266918_cont_9to1_m_1358_18_alg».proof.Proof.LaunchB
import proofs.«218041_g60507499266918_cont_9to1_m_1358_18_alg».proof.Proof.ResultEq
import proofs.«218041_g60507499266918_cont_9to1_m_1358_18_alg».proof.Proof.PreRange
import proofs.«218041_g60507499266918_cont_9to1_m_1358_18_alg».proof.Proof.Gen.Kernel
import proofs.«218041_g60507499266918_cont_9to1_m_1358_18_alg».proof.Proof.Gen.KernelIdeal
import proofs.«218041_g60507499266918_cont_9to1_m_1358_18_alg».proof.Proof.Gen.ReferenceIdeal
import proofs.«218041_g60507499266918_cont_9to1_m_1358_18_alg».proof.Proof.Gen.ReferenceIdeal.Run
import proofs.«218041_g60507499266918_cont_9to1_m_1358_18_alg».proof.Proof.Gen.ReferenceIdeal.Read
import proofs.«218041_g60507499266918_cont_9to1_m_1358_18_alg».proof.Proof.Gen.Pre_input_domain
import Idealize.ShloMosaic.Adequacy
import Idealize.ShloMosaic.Init

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_input_domain.Facts := Cert.Pre_input_domain.Gen.facts

/-- Under the precondition every id of the map names a bin (the kernel as printed). -/
theorem preOK_B (m : (ℓ : Loc Cert.Kernel.nD Cert.Kernel.τ Cert.Kernel.sig) → Buf (Elt Bits) ℓ) (h : Cert.Pre_Kernel m) :
    Cert.Proof.KB.PreOK (F := Bits) m := fun d i =>
  Cert.ResultEq.toNat_lt_of_range _ (Cert.PreRange.range_of_pre (F := Bits) _ _ (h d)) i

/-- Under the precondition every id of the map names a bin (the idealized kernel). -/
theorem preOK_I (m : (ℓ : Loc Cert.KernelIdeal.nD Cert.KernelIdeal.τ Cert.KernelIdeal.sig) → Buf (Elt Ideal) ℓ) (h : Cert.Pre_KernelIdeal m) :
    Cert.Proof.KI.PreOK (F := Ideal) m := fun d i =>
  Cert.ResultEq.toNat_lt_of_range _ (Cert.PreRange.range_of_pre (F := Ideal) _ _ (h d)) i

/-- The kernel as printed runs to the end and writes neither argument. -/
theorem frame_k : Cert.frame_Kernel := fun m ρ h =>
  (θ_run Cert.Kernel.defs _ _).mono (fun _ hr c => ⟨(hr c).1, (hr c).2.1⟩) (Cert.Proof.KB.run_main (F := Bits) m ρ (preOK_B m h))

/-- So does the idealized kernel. -/
theorem frame_ki : Cert.frame_KernelIdeal := fun m ρ h =>
  (θ_run Cert.KernelIdeal.defs _ _).mono (fun _ hr c => ⟨(hr c).1, (hr c).2.1⟩) (Cert.Proof.KI.run_main (F := Ideal) m ρ (preOK_I m h))

/-- The reference is a straight line of host operations: it runs to the end and writes neither argument. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text read over the extended reals. -/
theorem preserves : Cert.preserves_Kernel_KernelIdeal := trivial

/-- Over the extended reals the kernel's result — the transposed table scaled column by column by the summed
    partial histograms, transposed back — is the reference's: the table scaled row by row by the whole histogram. -/
theorem algebraic : Cert.algebraic_KernelIdeal_ReferenceIdeal := by
  intro m ρ m' ρ' hpre hagree
  refine ⟨fun c => Cert.Proof.KI.outOf (F := Ideal) (m (Cert.Proof.KI.tblLoc c)) (Cert.Proof.KI.cntOf m c), ?_, ?_⟩
  · exact (θ_run Cert.KernelIdeal.defs _ _).mono (fun _ hr c => ⟨(hr c).2.2, (hr c).1, (hr c).2.1⟩)
      (Cert.Proof.KI.run_main (F := Ideal) m ρ (preOK_I m hpre))
  · refine (θ_run Cert.ReferenceIdeal.defs _ _).mono (fun _ hr c => ⟨(hr c).1.trans ?_, (hr c).2⟩)
      (Cert.ReferenceIdeal.Value.run (F := Ideal) m' ρ')
    refine (Cert.ReferenceIdeal.Read.val_main_v12_eq (F := Ideal) _ _).trans ?_
    rewrite [(hagree c).1, (hagree c).2]
    exact (Cert.ResultEq.result_eq _ _ (Cert.PreRange.range_of_pre (F := Ideal) _ _ (hpre c))).symm

theorem claim : Cert.Claim := ⟨Cert.Kernel.Gen.facts, Cert.KernelIdeal.Gen.facts, Cert.ReferenceIdeal.Gen.facts, Cert.Pre_input_domain.Gen.facts,
  frame_k, frame_ki, frame_ri, preserves, algebraic⟩

end Cert.Proof

end
